-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x256 : Shape := ⟨2, ![16384, 256]⟩
abbrev S98304x256 : Shape := ⟨2, ![98304, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S98304x256 : S_.BroadcastsInDim S98304x256 (![] : Fin 0 → Fin S98304x256.rank)
  reducesTo_S98304x256_S_d0_1 : S98304x256.ReducesTo [0, 1] S_
  reducesTo_S_S_d : S_.ReducesTo [] S_

variable [Facts]

def fn {F : FTy → Type} [FloatOps F] (main_arg0 : FVec F S16384x256 .f32) (main_arg1 : FVec F S98304x256 .f32) (main_arg2 : IVec S_ 32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S98304x256 .f32 := Host.absf main_arg1
  let main_cst_0 : FVec F S_ .f32 := constant S_ .f32 0x7F800000#32
  let main_v5 : FVec F S98304x256 .f32 := broadcastInDim S98304x256 ![] bcast_S_S98304x256 main_cst_0
  let main_v6 : IVec S98304x256 1 := cmpf .olt main_v4 main_v5
  let main_c_1 : IVec S_ 1 := constantI S_ 1 1#1
  let main_v7 : IVec S_ 1 := (fun x v => Host.reduce IntOp.andi x v reducesTo_S98304x256_S_d0_1 h_S_) main_v6 main_c_1
  let main_v8 : IVec S_ 1 := andi main_v3 main_v7
  let main_c_2 : IVec S_ 32 := constantI S_ 32 0#32
  let main_v9 : IVec S_ 1 := cmpi .sge main_arg2 main_c_2
  let main_c_3 : IVec S_ 32 := constantI S_ 32 0#32
  let main_v10 : IVec S_ 1 := cmpi .sle main_arg2 main_c_3
  let main_v11 : IVec S_ 1 := andi main_v9 main_v10
  let main_c_4 : IVec S_ 1 := constantI S_ 1 1#1
  let main_v12 : IVec S_ 1 := (fun x v => Host.reduce IntOp.andi x v reducesTo_S_S_d h_S_) main_v11 main_c_4
  let main_v13 : IVec S_ 1 := andi main_v8 main_v12
  main_v13
-- ==== Kernel.lean ====
abbrev S16384x256 : Shape := ⟨2, ![16384, 256]⟩
abbrev S98304x256 : Shape := ⟨2, ![98304, 256]⟩
abbrev S_ : Shape := ⟨0, ![]⟩
abbrev S128x256 : Shape := ⟨2, ![128, 256]⟩

abbrev nBuf : Table → Nat
  | .hbm => 23
  | .local .scVector .vmem => 3
  | _ => 0

abbrev bufTy : (tb : Table) → Fin (nBuf tb) → BufTy
  | .hbm, ⟨0, _⟩ => ⟨S16384x256, .f32⟩
  | .hbm, ⟨1, _⟩ => ⟨S98304x256, .f32⟩
  | .hbm, ⟨2, _⟩ => ⟨S_, .i32⟩
  | .hbm, ⟨3, _⟩ => ⟨S98304x256, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i1⟩
  | .hbm, ⟨19, _⟩ => ⟨S_, .i1⟩
  | .hbm, ⟨20, _⟩ => ⟨S_, .i1⟩
  | .hbm, ⟨21, _⟩ => ⟨S_, .i32⟩
  | .hbm, ⟨22, _⟩ => ⟨S_, .i32⟩
  | .local .scVector .vmem, ⟨0, _⟩ => ⟨S128x256, .f32⟩
  | .local .scVector .vmem, ⟨1, _⟩ => ⟨S128x256, .f32⟩
  | .local .scVector .vmem, ⟨2, _⟩ => ⟨S128x256, .f32⟩
  | _, _ => ⟨S16384x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_c_1 : Ref sig .tc := ⟨.hbm, 13, rfl⟩
abbrev main_call0_v4 : Ref sig .tc := ⟨.hbm, 14, rfl⟩
abbrev main_call0_c_2 : Ref sig .tc := ⟨.hbm, 15, rfl⟩
abbrev main_call0_v5 : Ref sig .tc := ⟨.hbm, 16, rfl⟩
abbrev main_call0_c_3 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_v2 : Ref sig .tc := ⟨.hbm, 22, rfl⟩
abbrev main_arg0_scv : Ref sig .scVector := ⟨.hbm, 0, rfl⟩
abbrev main_arg1_scv : Ref sig .scVector := ⟨.hbm, 1, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c0_i32 : BitVec 32 := 0#32
  let v3 : BitVec 32 := Scalar.addi v2 c0_i32
  let c16384_i32 : BitVec 32 := 16384#32
  let v4 : BitVec 1 := Scalar.cmpi .slt v3 c16384_i32
  let v5 : BitVec 32 := Scalar.extui v4
  let c0_i32_0 : BitVec 32 := 0#32
  let v6 : BitVec 1 := Scalar.cmpi .ne v5 c0_i32_0
  v6

def k0_off1 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c0_i32 : BitVec 32 := 0#32
  let v3 : BitVec 32 := Scalar.addi v2 c0_i32
  let c0_i32_311 : BitVec 32 := 0#32
  ![v3.toNat, 0]
def k0_cond2 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c0_i32 : BitVec 32 := 0#32
  let v3 : BitVec 32 := Scalar.addi v2 c0_i32
  let c16384_i32_1 : BitVec 32 := 16384#32
  let v7 : BitVec 1 := Scalar.cmpi .sge v3 c16384_i32_1
  let v8 : BitVec 32 := Scalar.extui v7
  let c0_i32_2 : BitVec 32 := 0#32
  let v9 : BitVec 1 := Scalar.cmpi .ne v8 c0_i32_2
  v9

def k0_off2 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c0_i32 : BitVec 32 := 0#32
  let v3 : BitVec 32 := Scalar.addi v2 c0_i32
  let c0_i32_311 : BitVec 32 := 0#32
  ![v3.toNat, 0]
def k0_cond3 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c128_i32 : BitVec 32 := 128#32
  let v10 : BitVec 32 := Scalar.addi v2 c128_i32
  let c16384_i32_3 : BitVec 32 := 16384#32
  let v11 : BitVec 1 := Scalar.cmpi .slt v10 c16384_i32_3
  let v12 : BitVec 32 := Scalar.extui v11
  let c0_i32_4 : BitVec 32 := 0#32
  let v13 : BitVec 1 := Scalar.cmpi .ne v12 c0_i32_4
  v13

def k0_off3 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c128_i32 : BitVec 32 := 128#32
  let v10 : BitVec 32 := Scalar.addi v2 c128_i32
  let c0_i32_311 : BitVec 32 := 0#32
  ![v10.toNat, 0]
def k0_cond4 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c128_i32 : BitVec 32 := 128#32
  let v10 : BitVec 32 := Scalar.addi v2 c128_i32
  let c16384_i32_5 : BitVec 32 := 16384#32
  let v14 : BitVec 1 := Scalar.cmpi .sge v10 c16384_i32_5
  let v15 : BitVec 32 := Scalar.extui v14
  let c0_i32_6 : BitVec 32 := 0#32
  let v16 : BitVec 1 := Scalar.cmpi .ne v15 c0_i32_6
  v16

def k0_off4 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c128_i32 : BitVec 32 := 128#32
  let v10 : BitVec 32 := Scalar.addi v2 c128_i32
  let c0_i32_311 : BitVec 32 := 0#32
  ![v10.toNat, 0]
def k0_cond5 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c256_i32 : BitVec 32 := 256#32
  let v17 : BitVec 32 := Scalar.addi v2 c256_i32
  let c16384_i32_7 : BitVec 32 := 16384#32
  let v18 : BitVec 1 := Scalar.cmpi .slt v17 c16384_i32_7
  let v19 : BitVec 32 := Scalar.extui v18
  let c0_i32_8 : BitVec 32 := 0#32
  let v20 : BitVec 1 := Scalar.cmpi .ne v19 c0_i32_8
  v20

def k0_off5 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c256_i32 : BitVec 32 := 256#32
  let v17 : BitVec 32 := Scalar.addi v2 c256_i32
  let c0_i32_311 : BitVec 32 := 0#32
  ![v17.toNat, 0]
def k0_cond6 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c256_i32 : BitVec 32 := 256#32
  let v17 : BitVec 32 := Scalar.addi v2 c256_i32
  let c16384_i32_9 : BitVec 32 := 16384#32
  let v21 : BitVec 1 := Scalar.cmpi .sge v17 c16384_i32_9
  let v22 : BitVec 32 := Scalar.extui v21
  let c0_i32_10 : BitVec 32 := 0#32
  let v23 : BitVec 1 := Scalar.cmpi .ne v22 c0_i32_10
  v23

def k0_off6 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c256_i32 : BitVec 32 := 256#32
  let v17 : BitVec 32 := Scalar.addi v2 c256_i32
  let c0_i32_311 : BitVec 32 := 0#32
  ![v17.toNat, 0]
def k0_off7 (i : grid0.Coords) (c0_i32_15 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let v26 : BitVec 32 := Scalar.addi v2 c0_i32_15
  let c0_i32_16 : BitVec 32 := 0#32
  ![v26.toNat, 0]
def k0_off8 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c0_i32_18 : BitVec 32 := 0#32
  ![v2.toNat, 0]
def k0_cond7 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c384_i32 : BitVec 32 := 384#32
  let v31 : BitVec 32 := Scalar.addi v2 c384_i32
  let c16384_i32_20 : BitVec 32 := 16384#32
  let v32 : BitVec 1 := Scalar.cmpi .slt v31 c16384_i32_20
  let v33 : BitVec 32 := Scalar.extui v32
  let c0_i32_21 : BitVec 32 := 0#32
  let v34 : BitVec 1 := Scalar.cmpi .ne v33 c0_i32_21
  v34

def k0_off9 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c384_i32 : BitVec 32 := 384#32
  let v31 : BitVec 32 := Scalar.addi v2 c384_i32
  let c0_i32_311 : BitVec 32 := 0#32
  ![v31.toNat, 0]
def k0_cond8 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c384_i32 : BitVec 32 := 384#32
  let v31 : BitVec 32 := Scalar.addi v2 c384_i32
  let c16384_i32_22 : BitVec 32 := 16384#32
  let v35 : BitVec 1 := Scalar.cmpi .sge v31 c16384_i32_22
  let v36 : BitVec 32 := Scalar.extui v35
  let c0_i32_23 : BitVec 32 := 0#32
  let v37 : BitVec 1 := Scalar.cmpi .ne v36 c0_i32_23
  v37

def k0_off10 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c384_i32 : BitVec 32 := 384#32
  let v31 : BitVec 32 := Scalar.addi v2 c384_i32
  let c0_i32_311 : BitVec 32 := 0#32
  ![v31.toNat, 0]
def k0_cond9 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c512_i32 : BitVec 32 := 512#32
  let v45 : BitVec 32 := Scalar.addi v2 c512_i32
  let c16384_i32_33 : BitVec 32 := 16384#32
  let v46 : BitVec 1 := Scalar.cmpi .slt v45 c16384_i32_33
  let v47 : BitVec 32 := Scalar.extui v46
  let c0_i32_34 : BitVec 32 := 0#32
  let v48 : BitVec 1 := Scalar.cmpi .ne v47 c0_i32_34
  v48

def k0_off11 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c512_i32 : BitVec 32 := 512#32
  let v45 : BitVec 32 := Scalar.addi v2 c512_i32
  let c0_i32_311 : BitVec 32 := 0#32
  ![v45.toNat, 0]
def k0_cond10 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c512_i32 : BitVec 32 := 512#32
  let v45 : BitVec 32 := Scalar.addi v2 c512_i32
  let c16384_i32_35 : BitVec 32 := 16384#32
  let v49 : BitVec 1 := Scalar.cmpi .sge v45 c16384_i32_35
  let v50 : BitVec 32 := Scalar.extui v49
  let c0_i32_36 : BitVec 32 := 0#32
  let v51 : BitVec 1 := Scalar.cmpi .ne v50 c0_i32_36
  v51

def k0_off12 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c512_i32 : BitVec 32 := 512#32
  let v45 : BitVec 32 := Scalar.addi v2 c512_i32
  let c0_i32_311 : BitVec 32 := 0#32
  ![v45.toNat, 0]
def k0_cond11 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c640_i32 : BitVec 32 := 640#32
  let v59 : BitVec 32 := Scalar.addi v2 c640_i32
  let c16384_i32_46 : BitVec 32 := 16384#32
  let v60 : BitVec 1 := Scalar.cmpi .slt v59 c16384_i32_46
  let v61 : BitVec 32 := Scalar.extui v60
  let c0_i32_47 : BitVec 32 := 0#32
  let v62 : BitVec 1 := Scalar.cmpi .ne v61 c0_i32_47
  v62

def k0_off13 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c640_i32 : BitVec 32 := 640#32
  let v59 : BitVec 32 := Scalar.addi v2 c640_i32
  let c0_i32_311 : BitVec 32 := 0#32
  ![v59.toNat, 0]
def k0_cond12 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c640_i32 : BitVec 32 := 640#32
  let v59 : BitVec 32 := Scalar.addi v2 c640_i32
  let c16384_i32_48 : BitVec 32 := 16384#32
  let v63 : BitVec 1 := Scalar.cmpi .sge v59 c16384_i32_48
  let v64 : BitVec 32 := Scalar.extui v63
  let c0_i32_49 : BitVec 32 := 0#32
  let v65 : BitVec 1 := Scalar.cmpi .ne v64 c0_i32_49
  v65

def k0_off14 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c640_i32 : BitVec 32 := 640#32
  let v59 : BitVec 32 := Scalar.addi v2 c640_i32
  let c0_i32_311 : BitVec 32 := 0#32
  ![v59.toNat, 0]
def k0_cond13 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c768_i32 : BitVec 32 := 768#32
  let v73 : BitVec 32 := Scalar.addi v2 c768_i32
  let c16384_i32_59 : BitVec 32 := 16384#32
  let v74 : BitVec 1 := Scalar.cmpi .slt v73 c16384_i32_59
  let v75 : BitVec 32 := Scalar.extui v74
  let c0_i32_60 : BitVec 32 := 0#32
  let v76 : BitVec 1 := Scalar.cmpi .ne v75 c0_i32_60
  v76

def k0_off15 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c768_i32 : BitVec 32 := 768#32
  let v73 : BitVec 32 := Scalar.addi v2 c768_i32
  let c0_i32_311 : BitVec 32 := 0#32
  ![v73.toNat, 0]
def k0_cond14 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c768_i32 : BitVec 32 := 768#32
  let v73 : BitVec 32 := Scalar.addi v2 c768_i32
  let c16384_i32_61 : BitVec 32 := 16384#32
  let v77 : BitVec 1 := Scalar.cmpi .sge v73 c16384_i32_61
  let v78 : BitVec 32 := Scalar.extui v77
  let c0_i32_62 : BitVec 32 := 0#32
  let v79 : BitVec 1 := Scalar.cmpi .ne v78 c0_i32_62
  v79

def k0_off16 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c768_i32 : BitVec 32 := 768#32
  let v73 : BitVec 32 := Scalar.addi v2 c768_i32
  let c0_i32_311 : BitVec 32 := 0#32
  ![v73.toNat, 0]
def k0_cond15 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c896_i32 : BitVec 32 := 896#32
  let v87 : BitVec 32 := Scalar.addi v2 c896_i32
  let c16384_i32_72 : BitVec 32 := 16384#32
  let v88 : BitVec 1 := Scalar.cmpi .slt v87 c16384_i32_72
  let v89 : BitVec 32 := Scalar.extui v88
  let c0_i32_73 : BitVec 32 := 0#32
  let v90 : BitVec 1 := Scalar.cmpi .ne v89 c0_i32_73
  v90

def k0_off17 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c896_i32 : BitVec 32 := 896#32
  let v87 : BitVec 32 := Scalar.addi v2 c896_i32
  let c0_i32_311 : BitVec 32 := 0#32
  ![v87.toNat, 0]
def k0_cond16 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c896_i32 : BitVec 32 := 896#32
  let v87 : BitVec 32 := Scalar.addi v2 c896_i32
  let c16384_i32_74 : BitVec 32 := 16384#32
  let v91 : BitVec 1 := Scalar.cmpi .sge v87 c16384_i32_74
  let v92 : BitVec 32 := Scalar.extui v91
  let c0_i32_75 : BitVec 32 := 0#32
  let v93 : BitVec 1 := Scalar.cmpi .ne v92 c0_i32_75
  v93

def k0_off18 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c896_i32 : BitVec 32 := 896#32
  let v87 : BitVec 32 := Scalar.addi v2 c896_i32
  let c0_i32_311 : BitVec 32 := 0#32
  ![v87.toNat, 0]
def k0_cond17 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1024_i32 : BitVec 32 := 1024#32
  let v101 : BitVec 32 := Scalar.addi v2 c1024_i32
  let c16384_i32_85 : BitVec 32 := 16384#32
  let v102 : BitVec 1 := Scalar.cmpi .slt v101 c16384_i32_85
  let v103 : BitVec 32 := Scalar.extui v102
  let c0_i32_86 : BitVec 32 := 0#32
  let v104 : BitVec 1 := Scalar.cmpi .ne v103 c0_i32_86
  v104

def k0_off19 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1024_i32 : BitVec 32 := 1024#32
  let v101 : BitVec 32 := Scalar.addi v2 c1024_i32
  let c0_i32_311 : BitVec 32 := 0#32
  ![v101.toNat, 0]
def k0_cond18 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1024_i32 : BitVec 32 := 1024#32
  let v101 : BitVec 32 := Scalar.addi v2 c1024_i32
  let c16384_i32_87 : BitVec 32 := 16384#32
  let v105 : BitVec 1 := Scalar.cmpi .sge v101 c16384_i32_87
  let v106 : BitVec 32 := Scalar.extui v105
  let c0_i32_88 : BitVec 32 := 0#32
  let v107 : BitVec 1 := Scalar.cmpi .ne v106 c0_i32_88
  v107

def k0_off20 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1024_i32 : BitVec 32 := 1024#32
  let v101 : BitVec 32 := Scalar.addi v2 c1024_i32
  let c0_i32_311 : BitVec 32 := 0#32
  ![v101.toNat, 0]
def k0_cond19 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1152_i32 : BitVec 32 := 1152#32
  let v115 : BitVec 32 := Scalar.addi v2 c1152_i32
  let c16384_i32_98 : BitVec 32 := 16384#32
  let v116 : BitVec 1 := Scalar.cmpi .slt v115 c16384_i32_98
  let v117 : BitVec 32 := Scalar.extui v116
  let c0_i32_99 : BitVec 32 := 0#32
  let v118 : BitVec 1 := Scalar.cmpi .ne v117 c0_i32_99
  v118

def k0_off21 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1152_i32 : BitVec 32 := 1152#32
  let v115 : BitVec 32 := Scalar.addi v2 c1152_i32
  let c0_i32_311 : BitVec 32 := 0#32
  ![v115.toNat, 0]
def k0_cond20 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1152_i32 : BitVec 32 := 1152#32
  let v115 : BitVec 32 := Scalar.addi v2 c1152_i32
  let c16384_i32_100 : BitVec 32 := 16384#32
  let v119 : BitVec 1 := Scalar.cmpi .sge v115 c16384_i32_100
  let v120 : BitVec 32 := Scalar.extui v119
  let c0_i32_101 : BitVec 32 := 0#32
  let v121 : BitVec 1 := Scalar.cmpi .ne v120 c0_i32_101
  v121

def k0_off22 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1152_i32 : BitVec 32 := 1152#32
  let v115 : BitVec 32 := Scalar.addi v2 c1152_i32
  let c0_i32_311 : BitVec 32 := 0#32
  ![v115.toNat, 0]
def k0_cond21 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1280_i32 : BitVec 32 := 1280#32
  let v129 : BitVec 32 := Scalar.addi v2 c1280_i32
  let c16384_i32_111 : BitVec 32 := 16384#32
  let v130 : BitVec 1 := Scalar.cmpi .slt v129 c16384_i32_111
  let v131 : BitVec 32 := Scalar.extui v130
  let c0_i32_112 : BitVec 32 := 0#32
  let v132 : BitVec 1 := Scalar.cmpi .ne v131 c0_i32_112
  v132

def k0_off23 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1280_i32 : BitVec 32 := 1280#32
  let v129 : BitVec 32 := Scalar.addi v2 c1280_i32
  let c0_i32_311 : BitVec 32 := 0#32
  ![v129.toNat, 0]
def k0_cond22 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1280_i32 : BitVec 32 := 1280#32
  let v129 : BitVec 32 := Scalar.addi v2 c1280_i32
  let c16384_i32_113 : BitVec 32 := 16384#32
  let v133 : BitVec 1 := Scalar.cmpi .sge v129 c16384_i32_113
  let v134 : BitVec 32 := Scalar.extui v133
  let c0_i32_114 : BitVec 32 := 0#32
  let v135 : BitVec 1 := Scalar.cmpi .ne v134 c0_i32_114
  v135

def k0_off24 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1280_i32 : BitVec 32 := 1280#32
  let v129 : BitVec 32 := Scalar.addi v2 c1280_i32
  let c0_i32_311 : BitVec 32 := 0#32
  ![v129.toNat, 0]
def k0_cond23 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1408_i32 : BitVec 32 := 1408#32
  let v143 : BitVec 32 := Scalar.addi v2 c1408_i32
  let c16384_i32_124 : BitVec 32 := 16384#32
  let v144 : BitVec 1 := Scalar.cmpi .slt v143 c16384_i32_124
  let v145 : BitVec 32 := Scalar.extui v144
  let c0_i32_125 : BitVec 32 := 0#32
  let v146 : BitVec 1 := Scalar.cmpi .ne v145 c0_i32_125
  v146

def k0_off25 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1408_i32 : BitVec 32 := 1408#32
  let v143 : BitVec 32 := Scalar.addi v2 c1408_i32
  let c0_i32_311 : BitVec 32 := 0#32
  ![v143.toNat, 0]
def k0_cond24 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1408_i32 : BitVec 32 := 1408#32
  let v143 : BitVec 32 := Scalar.addi v2 c1408_i32
  let c16384_i32_126 : BitVec 32 := 16384#32
  let v147 : BitVec 1 := Scalar.cmpi .sge v143 c16384_i32_126
  let v148 : BitVec 32 := Scalar.extui v147
  let c0_i32_127 : BitVec 32 := 0#32
  let v149 : BitVec 1 := Scalar.cmpi .ne v148 c0_i32_127
  v149

def k0_off26 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1408_i32 : BitVec 32 := 1408#32
  let v143 : BitVec 32 := Scalar.addi v2 c1408_i32
  let c0_i32_311 : BitVec 32 := 0#32
  ![v143.toNat, 0]
def k0_cond25 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1536_i32 : BitVec 32 := 1536#32
  let v157 : BitVec 32 := Scalar.addi v2 c1536_i32
  let c16384_i32_137 : BitVec 32 := 16384#32
  let v158 : BitVec 1 := Scalar.cmpi .slt v157 c16384_i32_137
  let v159 : BitVec 32 := Scalar.extui v158
  let c0_i32_138 : BitVec 32 := 0#32
  let v160 : BitVec 1 := Scalar.cmpi .ne v159 c0_i32_138
  v160

def k0_off27 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1536_i32 : BitVec 32 := 1536#32
  let v157 : BitVec 32 := Scalar.addi v2 c1536_i32
  let c0_i32_311 : BitVec 32 := 0#32
  ![v157.toNat, 0]
def k0_cond26 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1536_i32 : BitVec 32 := 1536#32
  let v157 : BitVec 32 := Scalar.addi v2 c1536_i32
  let c16384_i32_139 : BitVec 32 := 16384#32
  let v161 : BitVec 1 := Scalar.cmpi .sge v157 c16384_i32_139
  let v162 : BitVec 32 := Scalar.extui v161
  let c0_i32_140 : BitVec 32 := 0#32
  let v163 : BitVec 1 := Scalar.cmpi .ne v162 c0_i32_140
  v163

def k0_off28 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1536_i32 : BitVec 32 := 1536#32
  let v157 : BitVec 32 := Scalar.addi v2 c1536_i32
  let c0_i32_311 : BitVec 32 := 0#32
  ![v157.toNat, 0]
def k0_cond27 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1664_i32 : BitVec 32 := 1664#32
  let v171 : BitVec 32 := Scalar.addi v2 c1664_i32
  let c16384_i32_150 : BitVec 32 := 16384#32
  let v172 : BitVec 1 := Scalar.cmpi .slt v171 c16384_i32_150
  let v173 : BitVec 32 := Scalar.extui v172
  let c0_i32_151 : BitVec 32 := 0#32
  let v174 : BitVec 1 := Scalar.cmpi .ne v173 c0_i32_151
  v174

def k0_off29 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1664_i32 : BitVec 32 := 1664#32
  let v171 : BitVec 32 := Scalar.addi v2 c1664_i32
  let c0_i32_311 : BitVec 32 := 0#32
  ![v171.toNat, 0]
def k0_cond28 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1664_i32 : BitVec 32 := 1664#32
  let v171 : BitVec 32 := Scalar.addi v2 c1664_i32
  let c16384_i32_152 : BitVec 32 := 16384#32
  let v175 : BitVec 1 := Scalar.cmpi .sge v171 c16384_i32_152
  let v176 : BitVec 32 := Scalar.extui v175
  let c0_i32_153 : BitVec 32 := 0#32
  let v177 : BitVec 1 := Scalar.cmpi .ne v176 c0_i32_153
  v177

def k0_off30 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1664_i32 : BitVec 32 := 1664#32
  let v171 : BitVec 32 := Scalar.addi v2 c1664_i32
  let c0_i32_311 : BitVec 32 := 0#32
  ![v171.toNat, 0]
def k0_cond29 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1792_i32 : BitVec 32 := 1792#32
  let v185 : BitVec 32 := Scalar.addi v2 c1792_i32
  let c16384_i32_163 : BitVec 32 := 16384#32
  let v186 : BitVec 1 := Scalar.cmpi .slt v185 c16384_i32_163
  let v187 : BitVec 32 := Scalar.extui v186
  let c0_i32_164 : BitVec 32 := 0#32
  let v188 : BitVec 1 := Scalar.cmpi .ne v187 c0_i32_164
  v188

def k0_off31 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1792_i32 : BitVec 32 := 1792#32
  let v185 : BitVec 32 := Scalar.addi v2 c1792_i32
  let c0_i32_311 : BitVec 32 := 0#32
  ![v185.toNat, 0]
def k0_cond30 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1792_i32 : BitVec 32 := 1792#32
  let v185 : BitVec 32 := Scalar.addi v2 c1792_i32
  let c16384_i32_165 : BitVec 32 := 16384#32
  let v189 : BitVec 1 := Scalar.cmpi .sge v185 c16384_i32_165
  let v190 : BitVec 32 := Scalar.extui v189
  let c0_i32_166 : BitVec 32 := 0#32
  let v191 : BitVec 1 := Scalar.cmpi .ne v190 c0_i32_166
  v191

def k0_off32 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1792_i32 : BitVec 32 := 1792#32
  let v185 : BitVec 32 := Scalar.addi v2 c1792_i32
  let c0_i32_311 : BitVec 32 := 0#32
  ![v185.toNat, 0]
def k0_cond31 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1920_i32 : BitVec 32 := 1920#32
  let v199 : BitVec 32 := Scalar.addi v2 c1920_i32
  let c16384_i32_176 : BitVec 32 := 16384#32
  let v200 : BitVec 1 := Scalar.cmpi .slt v199 c16384_i32_176
  let v201 : BitVec 32 := Scalar.extui v200
  let c0_i32_177 : BitVec 32 := 0#32
  let v202 : BitVec 1 := Scalar.cmpi .ne v201 c0_i32_177
  v202

def k0_off33 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1920_i32 : BitVec 32 := 1920#32
  let v199 : BitVec 32 := Scalar.addi v2 c1920_i32
  let c0_i32_311 : BitVec 32 := 0#32
  ![v199.toNat, 0]
def k0_cond32 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1920_i32 : BitVec 32 := 1920#32
  let v199 : BitVec 32 := Scalar.addi v2 c1920_i32
  let c16384_i32_178 : BitVec 32 := 16384#32
  let v203 : BitVec 1 := Scalar.cmpi .sge v199 c16384_i32_178
  let v204 : BitVec 32 := Scalar.extui v203
  let c0_i32_179 : BitVec 32 := 0#32
  let v205 : BitVec 1 := Scalar.cmpi .ne v204 c0_i32_179
  v205

def k0_off34 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c1920_i32 : BitVec 32 := 1920#32
  let v199 : BitVec 32 := Scalar.addi v2 c1920_i32
  let c0_i32_311 : BitVec 32 := 0#32
  ![v199.toNat, 0]
def k0_cond33 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2048_i32 : BitVec 32 := 2048#32
  let v213 : BitVec 32 := Scalar.addi v2 c2048_i32
  let c16384_i32_189 : BitVec 32 := 16384#32
  let v214 : BitVec 1 := Scalar.cmpi .slt v213 c16384_i32_189
  let v215 : BitVec 32 := Scalar.extui v214
  let c0_i32_190 : BitVec 32 := 0#32
  let v216 : BitVec 1 := Scalar.cmpi .ne v215 c0_i32_190
  v216

def k0_off35 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2048_i32 : BitVec 32 := 2048#32
  let v213 : BitVec 32 := Scalar.addi v2 c2048_i32
  let c0_i32_311 : BitVec 32 := 0#32
  ![v213.toNat, 0]
def k0_cond34 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2048_i32 : BitVec 32 := 2048#32
  let v213 : BitVec 32 := Scalar.addi v2 c2048_i32
  let c16384_i32_191 : BitVec 32 := 16384#32
  let v217 : BitVec 1 := Scalar.cmpi .sge v213 c16384_i32_191
  let v218 : BitVec 32 := Scalar.extui v217
  let c0_i32_192 : BitVec 32 := 0#32
  let v219 : BitVec 1 := Scalar.cmpi .ne v218 c0_i32_192
  v219

def k0_off36 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2048_i32 : BitVec 32 := 2048#32
  let v213 : BitVec 32 := Scalar.addi v2 c2048_i32
  let c0_i32_311 : BitVec 32 := 0#32
  ![v213.toNat, 0]
def k0_cond35 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2176_i32 : BitVec 32 := 2176#32
  let v227 : BitVec 32 := Scalar.addi v2 c2176_i32
  let c16384_i32_202 : BitVec 32 := 16384#32
  let v228 : BitVec 1 := Scalar.cmpi .slt v227 c16384_i32_202
  let v229 : BitVec 32 := Scalar.extui v228
  let c0_i32_203 : BitVec 32 := 0#32
  let v230 : BitVec 1 := Scalar.cmpi .ne v229 c0_i32_203
  v230

def k0_off37 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2176_i32 : BitVec 32 := 2176#32
  let v227 : BitVec 32 := Scalar.addi v2 c2176_i32
  let c0_i32_311 : BitVec 32 := 0#32
  ![v227.toNat, 0]
def k0_cond36 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2176_i32 : BitVec 32 := 2176#32
  let v227 : BitVec 32 := Scalar.addi v2 c2176_i32
  let c16384_i32_204 : BitVec 32 := 16384#32
  let v231 : BitVec 1 := Scalar.cmpi .sge v227 c16384_i32_204
  let v232 : BitVec 32 := Scalar.extui v231
  let c0_i32_205 : BitVec 32 := 0#32
  let v233 : BitVec 1 := Scalar.cmpi .ne v232 c0_i32_205
  v233

def k0_off38 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2176_i32 : BitVec 32 := 2176#32
  let v227 : BitVec 32 := Scalar.addi v2 c2176_i32
  let c0_i32_311 : BitVec 32 := 0#32
  ![v227.toNat, 0]
def k0_cond37 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2304_i32 : BitVec 32 := 2304#32
  let v241 : BitVec 32 := Scalar.addi v2 c2304_i32
  let c16384_i32_215 : BitVec 32 := 16384#32
  let v242 : BitVec 1 := Scalar.cmpi .slt v241 c16384_i32_215
  let v243 : BitVec 32 := Scalar.extui v242
  let c0_i32_216 : BitVec 32 := 0#32
  let v244 : BitVec 1 := Scalar.cmpi .ne v243 c0_i32_216
  v244

def k0_off39 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2304_i32 : BitVec 32 := 2304#32
  let v241 : BitVec 32 := Scalar.addi v2 c2304_i32
  let c0_i32_311 : BitVec 32 := 0#32
  ![v241.toNat, 0]
def k0_cond38 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2304_i32 : BitVec 32 := 2304#32
  let v241 : BitVec 32 := Scalar.addi v2 c2304_i32
  let c16384_i32_217 : BitVec 32 := 16384#32
  let v245 : BitVec 1 := Scalar.cmpi .sge v241 c16384_i32_217
  let v246 : BitVec 32 := Scalar.extui v245
  let c0_i32_218 : BitVec 32 := 0#32
  let v247 : BitVec 1 := Scalar.cmpi .ne v246 c0_i32_218
  v247

def k0_off40 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2304_i32 : BitVec 32 := 2304#32
  let v241 : BitVec 32 := Scalar.addi v2 c2304_i32
  let c0_i32_311 : BitVec 32 := 0#32
  ![v241.toNat, 0]
def k0_cond39 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2432_i32 : BitVec 32 := 2432#32
  let v255 : BitVec 32 := Scalar.addi v2 c2432_i32
  let c16384_i32_228 : BitVec 32 := 16384#32
  let v256 : BitVec 1 := Scalar.cmpi .slt v255 c16384_i32_228
  let v257 : BitVec 32 := Scalar.extui v256
  let c0_i32_229 : BitVec 32 := 0#32
  let v258 : BitVec 1 := Scalar.cmpi .ne v257 c0_i32_229
  v258

def k0_off41 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2432_i32 : BitVec 32 := 2432#32
  let v255 : BitVec 32 := Scalar.addi v2 c2432_i32
  let c0_i32_311 : BitVec 32 := 0#32
  ![v255.toNat, 0]
def k0_cond40 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2432_i32 : BitVec 32 := 2432#32
  let v255 : BitVec 32 := Scalar.addi v2 c2432_i32
  let c16384_i32_230 : BitVec 32 := 16384#32
  let v259 : BitVec 1 := Scalar.cmpi .sge v255 c16384_i32_230
  let v260 : BitVec 32 := Scalar.extui v259
  let c0_i32_231 : BitVec 32 := 0#32
  let v261 : BitVec 1 := Scalar.cmpi .ne v260 c0_i32_231
  v261

def k0_off42 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2432_i32 : BitVec 32 := 2432#32
  let v255 : BitVec 32 := Scalar.addi v2 c2432_i32
  let c0_i32_311 : BitVec 32 := 0#32
  ![v255.toNat, 0]
def k0_cond41 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2560_i32 : BitVec 32 := 2560#32
  let v269 : BitVec 32 := Scalar.addi v2 c2560_i32
  let c16384_i32_241 : BitVec 32 := 16384#32
  let v270 : BitVec 1 := Scalar.cmpi .slt v269 c16384_i32_241
  let v271 : BitVec 32 := Scalar.extui v270
  let c0_i32_242 : BitVec 32 := 0#32
  let v272 : BitVec 1 := Scalar.cmpi .ne v271 c0_i32_242
  v272

def k0_off43 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2560_i32 : BitVec 32 := 2560#32
  let v269 : BitVec 32 := Scalar.addi v2 c2560_i32
  let c0_i32_311 : BitVec 32 := 0#32
  ![v269.toNat, 0]
def k0_cond42 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2560_i32 : BitVec 32 := 2560#32
  let v269 : BitVec 32 := Scalar.addi v2 c2560_i32
  let c16384_i32_243 : BitVec 32 := 16384#32
  let v273 : BitVec 1 := Scalar.cmpi .sge v269 c16384_i32_243
  let v274 : BitVec 32 := Scalar.extui v273
  let c0_i32_244 : BitVec 32 := 0#32
  let v275 : BitVec 1 := Scalar.cmpi .ne v274 c0_i32_244
  v275

def k0_off44 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2560_i32 : BitVec 32 := 2560#32
  let v269 : BitVec 32 := Scalar.addi v2 c2560_i32
  let c0_i32_311 : BitVec 32 := 0#32
  ![v269.toNat, 0]
def k0_cond43 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2688_i32 : BitVec 32 := 2688#32
  let v283 : BitVec 32 := Scalar.addi v2 c2688_i32
  let c16384_i32_254 : BitVec 32 := 16384#32
  let v284 : BitVec 1 := Scalar.cmpi .slt v283 c16384_i32_254
  let v285 : BitVec 32 := Scalar.extui v284
  let c0_i32_255 : BitVec 32 := 0#32
  let v286 : BitVec 1 := Scalar.cmpi .ne v285 c0_i32_255
  v286

def k0_off45 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2688_i32 : BitVec 32 := 2688#32
  let v283 : BitVec 32 := Scalar.addi v2 c2688_i32
  let c0_i32_311 : BitVec 32 := 0#32
  ![v283.toNat, 0]
def k0_cond44 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2688_i32 : BitVec 32 := 2688#32
  let v283 : BitVec 32 := Scalar.addi v2 c2688_i32
  let c16384_i32_256 : BitVec 32 := 16384#32
  let v287 : BitVec 1 := Scalar.cmpi .sge v283 c16384_i32_256
  let v288 : BitVec 32 := Scalar.extui v287
  let c0_i32_257 : BitVec 32 := 0#32
  let v289 : BitVec 1 := Scalar.cmpi .ne v288 c0_i32_257
  v289

def k0_off46 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2688_i32 : BitVec 32 := 2688#32
  let v283 : BitVec 32 := Scalar.addi v2 c2688_i32
  let c0_i32_311 : BitVec 32 := 0#32
  ![v283.toNat, 0]
def k0_cond45 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2816_i32 : BitVec 32 := 2816#32
  let v297 : BitVec 32 := Scalar.addi v2 c2816_i32
  let c16384_i32_267 : BitVec 32 := 16384#32
  let v298 : BitVec 1 := Scalar.cmpi .slt v297 c16384_i32_267
  let v299 : BitVec 32 := Scalar.extui v298
  let c0_i32_268 : BitVec 32 := 0#32
  let v300 : BitVec 1 := Scalar.cmpi .ne v299 c0_i32_268
  v300

def k0_off47 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2816_i32 : BitVec 32 := 2816#32
  let v297 : BitVec 32 := Scalar.addi v2 c2816_i32
  let c0_i32_311 : BitVec 32 := 0#32
  ![v297.toNat, 0]
def k0_cond46 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2816_i32 : BitVec 32 := 2816#32
  let v297 : BitVec 32 := Scalar.addi v2 c2816_i32
  let c16384_i32_269 : BitVec 32 := 16384#32
  let v301 : BitVec 1 := Scalar.cmpi .sge v297 c16384_i32_269
  let v302 : BitVec 32 := Scalar.extui v301
  let c0_i32_270 : BitVec 32 := 0#32
  let v303 : BitVec 1 := Scalar.cmpi .ne v302 c0_i32_270
  v303

def k0_off48 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2816_i32 : BitVec 32 := 2816#32
  let v297 : BitVec 32 := Scalar.addi v2 c2816_i32
  let c0_i32_311 : BitVec 32 := 0#32
  ![v297.toNat, 0]
def k0_cond47 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2944_i32 : BitVec 32 := 2944#32
  let v311 : BitVec 32 := Scalar.addi v2 c2944_i32
  let c16384_i32_280 : BitVec 32 := 16384#32
  let v312 : BitVec 1 := Scalar.cmpi .slt v311 c16384_i32_280
  let v313 : BitVec 32 := Scalar.extui v312
  let c0_i32_281 : BitVec 32 := 0#32
  let v314 : BitVec 1 := Scalar.cmpi .ne v313 c0_i32_281
  v314

def k0_off49 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2944_i32 : BitVec 32 := 2944#32
  let v311 : BitVec 32 := Scalar.addi v2 c2944_i32
  let c0_i32_311 : BitVec 32 := 0#32
  ![v311.toNat, 0]
def k0_cond48 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2944_i32 : BitVec 32 := 2944#32
  let v311 : BitVec 32 := Scalar.addi v2 c2944_i32
  let c16384_i32_282 : BitVec 32 := 16384#32
  let v315 : BitVec 1 := Scalar.cmpi .sge v311 c16384_i32_282
  let v316 : BitVec 32 := Scalar.extui v315
  let c0_i32_283 : BitVec 32 := 0#32
  let v317 : BitVec 1 := Scalar.cmpi .ne v316 c0_i32_283
  v317

def k0_off50 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  let c2944_i32 : BitVec 32 := 2944#32
  let v311 : BitVec 32 := Scalar.addi v2 c2944_i32
  let c0_i32_311 : BitVec 32 := 0#32
  ![v311.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S16384x256_S128x256_0_0 : ∀ a, (![0, 0] : Fin 2 → Nat) a + S128x256.size a ≤ S16384x256.size a
  hcc0_scratch3 : 0 + S_.numel ≤ 6
  hcc0_scratch4 : 1 + S_.numel ≤ 6
  hcc0_scratch5 : 2 + S_.numel ≤ 6
  hcc0_scratch6 : 3 + S_.numel ≤ 6
  hcc0_scratch7 : 4 + S_.numel ≤ 6
  hcc0_scratch8 : 5 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (k0_h1 : k0_cond1 i = 1#1), ∀ a, (k0_off1 i) a + S128x256.size a ≤ S16384x256.size a
  k0_off2_inb : ∀ i : grid0.Coords, ∀ (k0_h2 : k0_cond2 i = 1#1), ∀ a, (k0_off2 i) a + S128x256.size a ≤ S98304x256.size a
  k0_off3_inb : ∀ i : grid0.Coords, ∀ (k0_h3 : k0_cond3 i = 1#1), ∀ a, (k0_off3 i) a + S128x256.size a ≤ S16384x256.size a
  k0_off4_inb : ∀ i : grid0.Coords, ∀ (k0_h4 : k0_cond4 i = 1#1), ∀ a, (k0_off4 i) a + S128x256.size a ≤ S98304x256.size a
  k0_off5_inb : ∀ i : grid0.Coords, ∀ (k0_h5 : k0_cond5 i = 1#1), ∀ a, (k0_off5 i) a + S128x256.size a ≤ S16384x256.size a
  k0_off6_inb : ∀ i : grid0.Coords, ∀ (k0_h6 : k0_cond6 i = 1#1), ∀ a, (k0_off6 i) a + S128x256.size a ≤ S98304x256.size a
  k0_off7_inb : ∀ i : grid0.Coords, ∀ (r : Fin 24), ∀ a, (k0_off7 i (BitVec.ofNat 32 (128 * r.val))) a + S128x256.size a ≤ S98304x256.size a
  k0_off8_inb : ∀ i : grid0.Coords, ∀ a, (k0_off8 i) a + S128x256.size a ≤ S98304x256.size a
  k0_off9_inb : ∀ i : grid0.Coords, ∀ (k0_h7 : k0_cond7 i = 1#1), ∀ a, (k0_off9 i) a + S128x256.size a ≤ S16384x256.size a
  k0_off10_inb : ∀ i : grid0.Coords, ∀ (k0_h8 : k0_cond8 i = 1#1), ∀ a, (k0_off10 i) a + S128x256.size a ≤ S98304x256.size a
  k0_off11_inb : ∀ i : grid0.Coords, ∀ (k0_h9 : k0_cond9 i = 1#1), ∀ a, (k0_off11 i) a + S128x256.size a ≤ S16384x256.size a
  k0_off12_inb : ∀ i : grid0.Coords, ∀ (k0_h10 : k0_cond10 i = 1#1), ∀ a, (k0_off12 i) a + S128x256.size a ≤ S98304x256.size a
  k0_off13_inb : ∀ i : grid0.Coords, ∀ (k0_h11 : k0_cond11 i = 1#1), ∀ a, (k0_off13 i) a + S128x256.size a ≤ S16384x256.size a
  k0_off14_inb : ∀ i : grid0.Coords, ∀ (k0_h12 : k0_cond12 i = 1#1), ∀ a, (k0_off14 i) a + S128x256.size a ≤ S98304x256.size a
  k0_off15_inb : ∀ i : grid0.Coords, ∀ (k0_h13 : k0_cond13 i = 1#1), ∀ a, (k0_off15 i) a + S128x256.size a ≤ S16384x256.size a
  k0_off16_inb : ∀ i : grid0.Coords, ∀ (k0_h14 : k0_cond14 i = 1#1), ∀ a, (k0_off16 i) a + S128x256.size a ≤ S98304x256.size a
  k0_off17_inb : ∀ i : grid0.Coords, ∀ (k0_h15 : k0_cond15 i = 1#1), ∀ a, (k0_off17 i) a + S128x256.size a ≤ S16384x256.size a
  k0_off18_inb : ∀ i : grid0.Coords, ∀ (k0_h16 : k0_cond16 i = 1#1), ∀ a, (k0_off18 i) a + S128x256.size a ≤ S98304x256.size a
  k0_off19_inb : ∀ i : grid0.Coords, ∀ (k0_h17 : k0_cond17 i = 1#1), ∀ a, (k0_off19 i) a + S128x256.size a ≤ S16384x256.size a
  k0_off20_inb : ∀ i : grid0.Coords, ∀ (k0_h18 : k0_cond18 i = 1#1), ∀ a, (k0_off20 i) a + S128x256.size a ≤ S98304x256.size a
  k0_off21_inb : ∀ i : grid0.Coords, ∀ (k0_h19 : k0_cond19 i = 1#1), ∀ a, (k0_off21 i) a + S128x256.size a ≤ S16384x256.size a
  k0_off22_inb : ∀ i : grid0.Coords, ∀ (k0_h20 : k0_cond20 i = 1#1), ∀ a, (k0_off22 i) a + S128x256.size a ≤ S98304x256.size a
  k0_off23_inb : ∀ i : grid0.Coords, ∀ (k0_h21 : k0_cond21 i = 1#1), ∀ a, (k0_off23 i) a + S128x256.size a ≤ S16384x256.size a
  k0_off24_inb : ∀ i : grid0.Coords, ∀ (k0_h22 : k0_cond22 i = 1#1), ∀ a, (k0_off24 i) a + S128x256.size a ≤ S98304x256.size a
  k0_off25_inb : ∀ i : grid0.Coords, ∀ (k0_h23 : k0_cond23 i = 1#1), ∀ a, (k0_off25 i) a + S128x256.size a ≤ S16384x256.size a
  k0_off26_inb : ∀ i : grid0.Coords, ∀ (k0_h24 : k0_cond24 i = 1#1), ∀ a, (k0_off26 i) a + S128x256.size a ≤ S98304x256.size a
  k0_off27_inb : ∀ i : grid0.Coords, ∀ (k0_h25 : k0_cond25 i = 1#1), ∀ a, (k0_off27 i) a + S128x256.size a ≤ S16384x256.size a
  k0_off28_inb : ∀ i : grid0.Coords, ∀ (k0_h26 : k0_cond26 i = 1#1), ∀ a, (k0_off28 i) a + S128x256.size a ≤ S98304x256.size a
  k0_off29_inb : ∀ i : grid0.Coords, ∀ (k0_h27 : k0_cond27 i = 1#1), ∀ a, (k0_off29 i) a + S128x256.size a ≤ S16384x256.size a
  k0_off30_inb : ∀ i : grid0.Coords, ∀ (k0_h28 : k0_cond28 i = 1#1), ∀ a, (k0_off30 i) a + S128x256.size a ≤ S98304x256.size a
  k0_off31_inb : ∀ i : grid0.Coords, ∀ (k0_h29 : k0_cond29 i = 1#1), ∀ a, (k0_off31 i) a + S128x256.size a ≤ S16384x256.size a
  k0_off32_inb : ∀ i : grid0.Coords, ∀ (k0_h30 : k0_cond30 i = 1#1), ∀ a, (k0_off32 i) a + S128x256.size a ≤ S98304x256.size a
  k0_off33_inb : ∀ i : grid0.Coords, ∀ (k0_h31 : k0_cond31 i = 1#1), ∀ a, (k0_off33 i) a + S128x256.size a ≤ S16384x256.size a
  k0_off34_inb : ∀ i : grid0.Coords, ∀ (k0_h32 : k0_cond32 i = 1#1), ∀ a, (k0_off34 i) a + S128x256.size a ≤ S98304x256.size a
  k0_off35_inb : ∀ i : grid0.Coords, ∀ (k0_h33 : k0_cond33 i = 1#1), ∀ a, (k0_off35 i) a + S128x256.size a ≤ S16384x256.size a
  k0_off36_inb : ∀ i : grid0.Coords, ∀ (k0_h34 : k0_cond34 i = 1#1), ∀ a, (k0_off36 i) a + S128x256.size a ≤ S98304x256.size a
  k0_off37_inb : ∀ i : grid0.Coords, ∀ (k0_h35 : k0_cond35 i = 1#1), ∀ a, (k0_off37 i) a + S128x256.size a ≤ S16384x256.size a
  k0_off38_inb : ∀ i : grid0.Coords, ∀ (k0_h36 : k0_cond36 i = 1#1), ∀ a, (k0_off38 i) a + S128x256.size a ≤ S98304x256.size a
  k0_off39_inb : ∀ i : grid0.Coords, ∀ (k0_h37 : k0_cond37 i = 1#1), ∀ a, (k0_off39 i) a + S128x256.size a ≤ S16384x256.size a
  k0_off40_inb : ∀ i : grid0.Coords, ∀ (k0_h38 : k0_cond38 i = 1#1), ∀ a, (k0_off40 i) a + S128x256.size a ≤ S98304x256.size a
  k0_off41_inb : ∀ i : grid0.Coords, ∀ (k0_h39 : k0_cond39 i = 1#1), ∀ a, (k0_off41 i) a + S128x256.size a ≤ S16384x256.size a
  k0_off42_inb : ∀ i : grid0.Coords, ∀ (k0_h40 : k0_cond40 i = 1#1), ∀ a, (k0_off42 i) a + S128x256.size a ≤ S98304x256.size a
  k0_off43_inb : ∀ i : grid0.Coords, ∀ (k0_h41 : k0_cond41 i = 1#1), ∀ a, (k0_off43 i) a + S128x256.size a ≤ S16384x256.size a
  k0_off44_inb : ∀ i : grid0.Coords, ∀ (k0_h42 : k0_cond42 i = 1#1), ∀ a, (k0_off44 i) a + S128x256.size a ≤ S98304x256.size a
  k0_off45_inb : ∀ i : grid0.Coords, ∀ (k0_h43 : k0_cond43 i = 1#1), ∀ a, (k0_off45 i) a + S128x256.size a ≤ S16384x256.size a
  k0_off46_inb : ∀ i : grid0.Coords, ∀ (k0_h44 : k0_cond44 i = 1#1), ∀ a, (k0_off46 i) a + S128x256.size a ≤ S98304x256.size a
  k0_off47_inb : ∀ i : grid0.Coords, ∀ (k0_h45 : k0_cond45 i = 1#1), ∀ a, (k0_off47 i) a + S128x256.size a ≤ S16384x256.size a
  k0_off48_inb : ∀ i : grid0.Coords, ∀ (k0_h46 : k0_cond46 i = 1#1), ∀ a, (k0_off48 i) a + S128x256.size a ≤ S98304x256.size a
  k0_off49_inb : ∀ i : grid0.Coords, ∀ (k0_h47 : k0_cond47 i = 1#1), ∀ a, (k0_off49 i) a + S128x256.size a ≤ S16384x256.size a
  k0_off50_inb : ∀ i : grid0.Coords, ∀ (k0_h48 : k0_cond48 i = 1#1), ∀ a, (k0_off50 i) a + S128x256.size a ≤ S98304x256.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scratch7 : DmaSems sig S_ := SemArray.consecutive 4 S_ hcc0_scratch7
abbrev cc0_scratch8 : DmaSems sig S_ := SemArray.consecutive 5 S_ hcc0_scratch8

class Facts : Prop extends Facts₀ where

variable [Facts]
-- ==== ReferenceIdeal.lean ====
abbrev S16384x256 : Shape := ⟨2, ![16384, 256]⟩
abbrev S98304x256 : Shape := ⟨2, ![98304, 256]⟩
abbrev S_ : Shape := ⟨0, ![]⟩
abbrev S16384 : Shape := ⟨1, ![16384]⟩
abbrev S16384x1 : Shape := ⟨2, ![16384, 1]⟩

abbrev nBuf : Space → Nat
  | .hbm => 56
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S98304x256, .f32⟩
  | .hbm, ⟨2, _⟩ => ⟨S_, .i32⟩
  | .hbm, ⟨3, _⟩ => ⟨S16384, .i32⟩
  | .hbm, ⟨4, _⟩ => ⟨S16384, .i32⟩
  | .hbm, ⟨5, _⟩ => ⟨S16384, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S16384, .i32⟩
  | .hbm, ⟨19, _⟩ => ⟨S16384, .i1⟩
  | .hbm, ⟨20, _⟩ => ⟨S_, .i32⟩
  | .hbm, ⟨21, _⟩ => ⟨S_, .i1⟩
  | .hbm, ⟨22, _⟩ => ⟨S16384, .i1⟩
  | .hbm, ⟨23, _⟩ => ⟨S16384, .i1⟩
  | .hbm, ⟨24, _⟩ => ⟨S16384, .i1⟩
  | .hbm, ⟨25, _⟩ => ⟨S16384, .i32⟩
  | .hbm, ⟨26, _⟩ => ⟨S16384, .i32⟩
  | .hbm, ⟨27, _⟩ => ⟨S16384, .i32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S98304x256, .f32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i1⟩
  | .hbm, ⟨52, _⟩ => ⟨S_, .i1⟩
  | .hbm, ⟨53, _⟩ => ⟨S_, .i1⟩
  | .hbm, ⟨54, _⟩ => ⟨S_, .i32⟩
  | .hbm, ⟨55, _⟩ => ⟨S_, .i32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v3 : Ref sig .tc := ⟨.hbm, 27, rfl⟩
abbrev main_c_0 : Ref sig .tc := ⟨.hbm, 28, rfl⟩
abbrev main_v4 : Ref sig .tc := ⟨.hbm, 29, rfl⟩
abbrev main_v5 : Ref sig .tc := ⟨.hbm, 30, rfl⟩
abbrev main_c_1 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_c_2 : Ref sig .tc := ⟨.hbm, 37, rfl⟩
abbrev main_v11 : Ref sig .tc := ⟨.hbm, 38, rfl⟩
abbrev main_c_3 : Ref sig .tc := ⟨.hbm, 39, rfl⟩
abbrev main_call1_v0 : Ref sig .tc := ⟨.hbm, 40, rfl⟩
abbrev main_call1_c : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_c_1 : Ref sig .tc := ⟨.hbm, 46, rfl⟩
abbrev main_call1_v4 : Ref sig .tc := ⟨.hbm, 47, rfl⟩
abbrev main_call1_c_2 : Ref sig .tc := ⟨.hbm, 48, rfl⟩
abbrev main_call1_v5 : Ref sig .tc := ⟨.hbm, 49, rfl⟩
abbrev main_call1_c_3 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_v12 : Ref sig .tc := ⟨.hbm, 55, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  scatter_S98304x256_S16384x1_S16384x256_1_0_0_1_wf : ScatterDims.WF S98304x256 S16384x1 S16384x256 [1] [0] [0] 1

variable [Facts₀]

def scatter_S98304x256_S16384x1_S16384x256_1_0_0_1 : ScatterDims S98304x256 S16384x1 S16384x256 where
  updateWindowDims := [1]
  insertedWindowDims := [0]
  scatterDimsToOperandDims := [0]
  indexVectorDim := 1
  wf := scatter_S98304x256_S16384x1_S16384x256_1_0_0_1_wf

class Facts : Prop extends Facts₀ where

variable [Facts]
-- ==== Proof.Kernel.Conds.lean ====
/-
  Which of a tile's 48 printed conditions hold.

  Worker `w = 16·core + subcore` moves rows `3072·w + 128·k`, `k < 24`. Chunk `k` is read from the batch
  when its first row is below 16384 and from the buffer otherwise: the printed condition `2k+1` is
  `3072·w + 128·k < 16384` and condition `2k+2` its negation, on 32-bit words. Workers 0…4 read
  only the batch, workers 6…31 only the buffer, and worker 5 reads the batch for `k < 8` and the
  buffer from `k = 8` on. Each fact is decided over the 32 grid points.
-/
import proofs.«216569_g74620761801077_fold_wed_m_520_16_alg».proof.Kernel

namespace Cert.Proof.Kernel.Conds

open Cert.Kernel
open Idealize.ShloMosaic

/-- The worker's number, `16·core + subcore`. -/
def wid (L : grid0.Coords) : Nat := 16 * (L 0).val + (L 1).val

theorem lo_1 : ∀ L : grid0.Coords, wid L ≤ 4 → k0_cond1 L = 1#1 := by decide +kernel
theorem lo_2 : ∀ L : grid0.Coords, wid L ≤ 4 → ¬ k0_cond2 L = 1#1 := by decide +kernel
theorem hi_1 : ∀ L : grid0.Coords, 6 ≤ wid L → ¬ k0_cond1 L = 1#1 := by decide +kernel
theorem hi_2 : ∀ L : grid0.Coords, 6 ≤ wid L → k0_cond2 L = 1#1 := by decide +kernel
theorem mid_1 : ∀ L : grid0.Coords, wid L = 5 → k0_cond1 L = 1#1 := by decide +kernel
theorem mid_2 : ∀ L : grid0.Coords, wid L = 5 → ¬ k0_cond2 L = 1#1 := by decide +kernel
theorem lo_3 : ∀ L : grid0.Coords, wid L ≤ 4 → k0_cond3 L = 1#1 := by decide +kernel
theorem lo_4 : ∀ L : grid0.Coords, wid L ≤ 4 → ¬ k0_cond4 L = 1#1 := by decide +kernel
theorem hi_3 : ∀ L : grid0.Coords, 6 ≤ wid L → ¬ k0_cond3 L = 1#1 := by decide +kernel
theorem hi_4 : ∀ L : grid0.Coords, 6 ≤ wid L → k0_cond4 L = 1#1 := by decide +kernel
theorem mid_3 : ∀ L : grid0.Coords, wid L = 5 → k0_cond3 L = 1#1 := by decide +kernel
theorem mid_4 : ∀ L : grid0.Coords, wid L = 5 → ¬ k0_cond4 L = 1#1 := by decide +kernel
theorem lo_5 : ∀ L : grid0.Coords, wid L ≤ 4 → k0_cond5 L = 1#1 := by decide +kernel
theorem lo_6 : ∀ L : grid0.Coords, wid L ≤ 4 → ¬ k0_cond6 L = 1#1 := by decide +kernel
theorem hi_5 : ∀ L : grid0.Coords, 6 ≤ wid L → ¬ k0_cond5 L = 1#1 := by decide +kernel
theorem hi_6 : ∀ L : grid0.Coords, 6 ≤ wid L → k0_cond6 L = 1#1 := by decide +kernel
theorem mid_5 : ∀ L : grid0.Coords, wid L = 5 → k0_cond5 L = 1#1 := by decide +kernel
theorem mid_6 : ∀ L : grid0.Coords, wid L = 5 → ¬ k0_cond6 L = 1#1 := by decide +kernel
theorem lo_7 : ∀ L : grid0.Coords, wid L ≤ 4 → k0_cond7 L = 1#1 := by decide +kernel
theorem lo_8 : ∀ L : grid0.Coords, wid L ≤ 4 → ¬ k0_cond8 L = 1#1 := by decide +kernel
theorem hi_7 : ∀ L : grid0.Coords, 6 ≤ wid L → ¬ k0_cond7 L = 1#1 := by decide +kernel
theorem hi_8 : ∀ L : grid0.Coords, 6 ≤ wid L → k0_cond8 L = 1#1 := by decide +kernel
theorem mid_7 : ∀ L : grid0.Coords, wid L = 5 → k0_cond7 L = 1#1 := by decide +kernel
theorem mid_8 : ∀ L : grid0.Coords, wid L = 5 → ¬ k0_cond8 L = 1#1 := by decide +kernel
theorem lo_9 : ∀ L : grid0.Coords, wid L ≤ 4 → k0_cond9 L = 1#1 := by decide +kernel
theorem lo_10 : ∀ L : grid0.Coords, wid L ≤ 4 → ¬ k0_cond10 L = 1#1 := by decide +kernel
theorem hi_9 : ∀ L : grid0.Coords, 6 ≤ wid L → ¬ k0_cond9 L = 1#1 := by decide +kernel
theorem hi_10 : ∀ L : grid0.Coords, 6 ≤ wid L → k0_cond10 L = 1#1 := by decide +kernel
theorem mid_9 : ∀ L : grid0.Coords, wid L = 5 → k0_cond9 L = 1#1 := by decide +kernel
theorem mid_10 : ∀ L : grid0.Coords, wid L = 5 → ¬ k0_cond10 L = 1#1 := by decide +kernel
theorem lo_11 : ∀ L : grid0.Coords, wid L ≤ 4 → k0_cond11 L = 1#1 := by decide +kernel
theorem lo_12 : ∀ L : grid0.Coords, wid L ≤ 4 → ¬ k0_cond12 L = 1#1 := by decide +kernel
theorem hi_11 : ∀ L : grid0.Coords, 6 ≤ wid L → ¬ k0_cond11 L = 1#1 := by decide +kernel
theorem hi_12 : ∀ L : grid0.Coords, 6 ≤ wid L → k0_cond12 L = 1#1 := by decide +kernel
theorem mid_11 : ∀ L : grid0.Coords, wid L = 5 → k0_cond11 L = 1#1 := by decide +kernel
theorem mid_12 : ∀ L : grid0.Coords, wid L = 5 → ¬ k0_cond12 L = 1#1 := by decide +kernel
theorem lo_13 : ∀ L : grid0.Coords, wid L ≤ 4 → k0_cond13 L = 1#1 := by decide +kernel
theorem lo_14 : ∀ L : grid0.Coords, wid L ≤ 4 → ¬ k0_cond14 L = 1#1 := by decide +kernel
theorem hi_13 : ∀ L : grid0.Coords, 6 ≤ wid L → ¬ k0_cond13 L = 1#1 := by decide +kernel
theorem hi_14 : ∀ L : grid0.Coords, 6 ≤ wid L → k0_cond14 L = 1#1 := by decide +kernel
theorem mid_13 : ∀ L : grid0.Coords, wid L = 5 → k0_cond13 L = 1#1 := by decide +kernel
theorem mid_14 : ∀ L : grid0.Coords, wid L = 5 → ¬ k0_cond14 L = 1#1 := by decide +kernel
theorem lo_15 : ∀ L : grid0.Coords, wid L ≤ 4 → k0_cond15 L = 1#1 := by decide +kernel
theorem lo_16 : ∀ L : grid0.Coords, wid L ≤ 4 → ¬ k0_cond16 L = 1#1 := by decide +kernel
theorem hi_15 : ∀ L : grid0.Coords, 6 ≤ wid L → ¬ k0_cond15 L = 1#1 := by decide +kernel
theorem hi_16 : ∀ L : grid0.Coords, 6 ≤ wid L → k0_cond16 L = 1#1 := by decide +kernel
theorem mid_15 : ∀ L : grid0.Coords, wid L = 5 → k0_cond15 L = 1#1 := by decide +kernel
theorem mid_16 : ∀ L : grid0.Coords, wid L = 5 → ¬ k0_cond16 L = 1#1 := by decide +kernel
theorem lo_17 : ∀ L : grid0.Coords, wid L ≤ 4 → k0_cond17 L = 1#1 := by decide +kernel
theorem lo_18 : ∀ L : grid0.Coords, wid L ≤ 4 → ¬ k0_cond18 L = 1#1 := by decide +kernel
theorem hi_17 : ∀ L : grid0.Coords, 6 ≤ wid L → ¬ k0_cond17 L = 1#1 := by decide +kernel
theorem hi_18 : ∀ L : grid0.Coords, 6 ≤ wid L → k0_cond18 L = 1#1 := by decide +kernel
theorem mid_17 : ∀ L : grid0.Coords, wid L = 5 → ¬ k0_cond17 L = 1#1 := by decide +kernel
theorem mid_18 : ∀ L : grid0.Coords, wid L = 5 → k0_cond18 L = 1#1 := by decide +kernel
theorem lo_19 : ∀ L : grid0.Coords, wid L ≤ 4 → k0_cond19 L = 1#1 := by decide +kernel
theorem lo_20 : ∀ L : grid0.Coords, wid L ≤ 4 → ¬ k0_cond20 L = 1#1 := by decide +kernel
theorem hi_19 : ∀ L : grid0.Coords, 6 ≤ wid L → ¬ k0_cond19 L = 1#1 := by decide +kernel
theorem hi_20 : ∀ L : grid0.Coords, 6 ≤ wid L → k0_cond20 L = 1#1 := by decide +kernel
theorem mid_19 : ∀ L : grid0.Coords, wid L = 5 → ¬ k0_cond19 L = 1#1 := by decide +kernel
theorem mid_20 : ∀ L : grid0.Coords, wid L = 5 → k0_cond20 L = 1#1 := by decide +kernel
theorem lo_21 : ∀ L : grid0.Coords, wid L ≤ 4 → k0_cond21 L = 1#1 := by decide +kernel
theorem lo_22 : ∀ L : grid0.Coords, wid L ≤ 4 → ¬ k0_cond22 L = 1#1 := by decide +kernel
theorem hi_21 : ∀ L : grid0.Coords, 6 ≤ wid L → ¬ k0_cond21 L = 1#1 := by decide +kernel
theorem hi_22 : ∀ L : grid0.Coords, 6 ≤ wid L → k0_cond22 L = 1#1 := by decide +kernel
theorem mid_21 : ∀ L : grid0.Coords, wid L = 5 → ¬ k0_cond21 L = 1#1 := by decide +kernel
theorem mid_22 : ∀ L : grid0.Coords, wid L = 5 → k0_cond22 L = 1#1 := by decide +kernel
theorem lo_23 : ∀ L : grid0.Coords, wid L ≤ 4 → k0_cond23 L = 1#1 := by decide +kernel
theorem lo_24 : ∀ L : grid0.Coords, wid L ≤ 4 → ¬ k0_cond24 L = 1#1 := by decide +kernel
theorem hi_23 : ∀ L : grid0.Coords, 6 ≤ wid L → ¬ k0_cond23 L = 1#1 := by decide +kernel
theorem hi_24 : ∀ L : grid0.Coords, 6 ≤ wid L → k0_cond24 L = 1#1 := by decide +kernel
theorem mid_23 : ∀ L : grid0.Coords, wid L = 5 → ¬ k0_cond23 L = 1#1 := by decide +kernel
theorem mid_24 : ∀ L : grid0.Coords, wid L = 5 → k0_cond24 L = 1#1 := by decide +kernel
theorem lo_25 : ∀ L : grid0.Coords, wid L ≤ 4 → k0_cond25 L = 1#1 := by decide +kernel
theorem lo_26 : ∀ L : grid0.Coords, wid L ≤ 4 → ¬ k0_cond26 L = 1#1 := by decide +kernel
theorem hi_25 : ∀ L : grid0.Coords, 6 ≤ wid L → ¬ k0_cond25 L = 1#1 := by decide +kernel
theorem hi_26 : ∀ L : grid0.Coords, 6 ≤ wid L → k0_cond26 L = 1#1 := by decide +kernel
theorem mid_25 : ∀ L : grid0.Coords, wid L = 5 → ¬ k0_cond25 L = 1#1 := by decide +kernel
theorem mid_26 : ∀ L : grid0.Coords, wid L = 5 → k0_cond26 L = 1#1 := by decide +kernel
theorem lo_27 : ∀ L : grid0.Coords, wid L ≤ 4 → k0_cond27 L = 1#1 := by decide +kernel
theorem lo_28 : ∀ L : grid0.Coords, wid L ≤ 4 → ¬ k0_cond28 L = 1#1 := by decide +kernel
theorem hi_27 : ∀ L : grid0.Coords, 6 ≤ wid L → ¬ k0_cond27 L = 1#1 := by decide +kernel
theorem hi_28 : ∀ L : grid0.Coords, 6 ≤ wid L → k0_cond28 L = 1#1 := by decide +kernel
theorem mid_27 : ∀ L : grid0.Coords, wid L = 5 → ¬ k0_cond27 L = 1#1 := by decide +kernel
theorem mid_28 : ∀ L : grid0.Coords, wid L = 5 → k0_cond28 L = 1#1 := by decide +kernel
theorem lo_29 : ∀ L : grid0.Coords, wid L ≤ 4 → k0_cond29 L = 1#1 := by decide +kernel
theorem lo_30 : ∀ L : grid0.Coords, wid L ≤ 4 → ¬ k0_cond30 L = 1#1 := by decide +kernel
theorem hi_29 : ∀ L : grid0.Coords, 6 ≤ wid L → ¬ k0_cond29 L = 1#1 := by decide +kernel
theorem hi_30 : ∀ L : grid0.Coords, 6 ≤ wid L → k0_cond30 L = 1#1 := by decide +kernel
theorem mid_29 : ∀ L : grid0.Coords, wid L = 5 → ¬ k0_cond29 L = 1#1 := by decide +kernel
theorem mid_30 : ∀ L : grid0.Coords, wid L = 5 → k0_cond30 L = 1#1 := by decide +kernel
theorem lo_31 : ∀ L : grid0.Coords, wid L ≤ 4 → k0_cond31 L = 1#1 := by decide +kernel
theorem lo_32 : ∀ L : grid0.Coords, wid L ≤ 4 → ¬ k0_cond32 L = 1#1 := by decide +kernel
theorem hi_31 : ∀ L : grid0.Coords, 6 ≤ wid L → ¬ k0_cond31 L = 1#1 := by decide +kernel
theorem hi_32 : ∀ L : grid0.Coords, 6 ≤ wid L → k0_cond32 L = 1#1 := by decide +kernel
theorem mid_31 : ∀ L : grid0.Coords, wid L = 5 → ¬ k0_cond31 L = 1#1 := by decide +kernel
theorem mid_32 : ∀ L : grid0.Coords, wid L = 5 → k0_cond32 L = 1#1 := by decide +kernel
theorem lo_33 : ∀ L : grid0.Coords, wid L ≤ 4 → k0_cond33 L = 1#1 := by decide +kernel
theorem lo_34 : ∀ L : grid0.Coords, wid L ≤ 4 → ¬ k0_cond34 L = 1#1 := by decide +kernel
theorem hi_33 : ∀ L : grid0.Coords, 6 ≤ wid L → ¬ k0_cond33 L = 1#1 := by decide +kernel
theorem hi_34 : ∀ L : grid0.Coords, 6 ≤ wid L → k0_cond34 L = 1#1 := by decide +kernel
theorem mid_33 : ∀ L : grid0.Coords, wid L = 5 → ¬ k0_cond33 L = 1#1 := by decide +kernel
theorem mid_34 : ∀ L : grid0.Coords, wid L = 5 → k0_cond34 L = 1#1 := by decide +kernel
theorem lo_35 : ∀ L : grid0.Coords, wid L ≤ 4 → k0_cond35 L = 1#1 := by decide +kernel
theorem lo_36 : ∀ L : grid0.Coords, wid L ≤ 4 → ¬ k0_cond36 L = 1#1 := by decide +kernel
theorem hi_35 : ∀ L : grid0.Coords, 6 ≤ wid L → ¬ k0_cond35 L = 1#1 := by decide +kernel
theorem hi_36 : ∀ L : grid0.Coords, 6 ≤ wid L → k0_cond36 L = 1#1 := by decide +kernel
theorem mid_35 : ∀ L : grid0.Coords, wid L = 5 → ¬ k0_cond35 L = 1#1 := by decide +kernel
theorem mid_36 : ∀ L : grid0.Coords, wid L = 5 → k0_cond36 L = 1#1 := by decide +kernel
theorem lo_37 : ∀ L : grid0.Coords, wid L ≤ 4 → k0_cond37 L = 1#1 := by decide +kernel
theorem lo_38 : ∀ L : grid0.Coords, wid L ≤ 4 → ¬ k0_cond38 L = 1#1 := by decide +kernel
theorem hi_37 : ∀ L : grid0.Coords, 6 ≤ wid L → ¬ k0_cond37 L = 1#1 := by decide +kernel
theorem hi_38 : ∀ L : grid0.Coords, 6 ≤ wid L → k0_cond38 L = 1#1 := by decide +kernel
theorem mid_37 : ∀ L : grid0.Coords, wid L = 5 → ¬ k0_cond37 L = 1#1 := by decide +kernel
theorem mid_38 : ∀ L : grid0.Coords, wid L = 5 → k0_cond38 L = 1#1 := by decide +kernel
theorem lo_39 : ∀ L : grid0.Coords, wid L ≤ 4 → k0_cond39 L = 1#1 := by decide +kernel
theorem lo_40 : ∀ L : grid0.Coords, wid L ≤ 4 → ¬ k0_cond40 L = 1#1 := by decide +kernel
theorem hi_39 : ∀ L : grid0.Coords, 6 ≤ wid L → ¬ k0_cond39 L = 1#1 := by decide +kernel
theorem hi_40 : ∀ L : grid0.Coords, 6 ≤ wid L → k0_cond40 L = 1#1 := by decide +kernel
theorem mid_39 : ∀ L : grid0.Coords, wid L = 5 → ¬ k0_cond39 L = 1#1 := by decide +kernel
theorem mid_40 : ∀ L : grid0.Coords, wid L = 5 → k0_cond40 L = 1#1 := by decide +kernel
theorem lo_41 : ∀ L : grid0.Coords, wid L ≤ 4 → k0_cond41 L = 1#1 := by decide +kernel
theorem lo_42 : ∀ L : grid0.Coords, wid L ≤ 4 → ¬ k0_cond42 L = 1#1 := by decide +kernel
theorem hi_41 : ∀ L : grid0.Coords, 6 ≤ wid L → ¬ k0_cond41 L = 1#1 := by decide +kernel
theorem hi_42 : ∀ L : grid0.Coords, 6 ≤ wid L → k0_cond42 L = 1#1 := by decide +kernel
theorem mid_41 : ∀ L : grid0.Coords, wid L = 5 → ¬ k0_cond41 L = 1#1 := by decide +kernel
theorem mid_42 : ∀ L : grid0.Coords, wid L = 5 → k0_cond42 L = 1#1 := by decide +kernel
theorem lo_43 : ∀ L : grid0.Coords, wid L ≤ 4 → k0_cond43 L = 1#1 := by decide +kernel
theorem lo_44 : ∀ L : grid0.Coords, wid L ≤ 4 → ¬ k0_cond44 L = 1#1 := by decide +kernel
theorem hi_43 : ∀ L : grid0.Coords, 6 ≤ wid L → ¬ k0_cond43 L = 1#1 := by decide +kernel
theorem hi_44 : ∀ L : grid0.Coords, 6 ≤ wid L → k0_cond44 L = 1#1 := by decide +kernel
theorem mid_43 : ∀ L : grid0.Coords, wid L = 5 → ¬ k0_cond43 L = 1#1 := by decide +kernel
theorem mid_44 : ∀ L : grid0.Coords, wid L = 5 → k0_cond44 L = 1#1 := by decide +kernel
theorem lo_45 : ∀ L : grid0.Coords, wid L ≤ 4 → k0_cond45 L = 1#1 := by decide +kernel
theorem lo_46 : ∀ L : grid0.Coords, wid L ≤ 4 → ¬ k0_cond46 L = 1#1 := by decide +kernel
theorem hi_45 : ∀ L : grid0.Coords, 6 ≤ wid L → ¬ k0_cond45 L = 1#1 := by decide +kernel
theorem hi_46 : ∀ L : grid0.Coords, 6 ≤ wid L → k0_cond46 L = 1#1 := by decide +kernel
theorem mid_45 : ∀ L : grid0.Coords, wid L = 5 → ¬ k0_cond45 L = 1#1 := by decide +kernel
theorem mid_46 : ∀ L : grid0.Coords, wid L = 5 → k0_cond46 L = 1#1 := by decide +kernel
theorem lo_47 : ∀ L : grid0.Coords, wid L ≤ 4 → k0_cond47 L = 1#1 := by decide +kernel
theorem lo_48 : ∀ L : grid0.Coords, wid L ≤ 4 → ¬ k0_cond48 L = 1#1 := by decide +kernel
theorem hi_47 : ∀ L : grid0.Coords, 6 ≤ wid L → ¬ k0_cond47 L = 1#1 := by decide +kernel
theorem hi_48 : ∀ L : grid0.Coords, 6 ≤ wid L → k0_cond48 L = 1#1 := by decide +kernel
theorem mid_47 : ∀ L : grid0.Coords, wid L = 5 → ¬ k0_cond47 L = 1#1 := by decide +kernel
theorem mid_48 : ∀ L : grid0.Coords, wid L = 5 → k0_cond48 L = 1#1 := by decide +kernel

end Cert.Proof.Kernel.Conds
-- ==== Proof.Spec.lean ====
/-
  The specification both programs meet, stated over plain arrays.

  The buffer has 98304 rows of 256 entries and the batch 16384 rows. Writing the batch at the
  write pointer 0 replaces rows 0 … 16383 of the buffer by the batch's rows and leaves the rows
  from 16384 on as they were: `routed`. The next write pointer is the remainder of
  `ptr + 16384` by 98304 with the sign of the divisor, computed on 32-bit words: `nextPtr`.
-/
import Idealize.ShloMosaic.PureOps
import Idealize.ShloMosaic.Lib.ValueIdx

noncomputable section

namespace Cert.Spec

open Idealize.ShloMosaic

abbrev SBatch : Shape := ⟨2, ![16384, 256]⟩
abbrev SBuf : Shape := ⟨2, ![98304, 256]⟩
abbrev SNil : Shape := ⟨0, ![]⟩

/-- The row of the batch that lands on row `j 0` of the buffer, for a row below 16384. -/
def batchIdx (j : SBuf.Idx) (h : (j 0).val < 16384) : SBatch.Idx :=
  ValueIdx.ix2 (⟨(j 0).val, h⟩ : Fin 16384) (⟨(j 1).val, (j 1).isLt⟩ : Fin 256)

/-- The buffer after the batch is written at pointer 0: entry `(r, x)` is the batch's for
    `r < 16384` and the buffer's own otherwise. -/
def routed {α : Type} (batch : SBatch.Idx → α) (buffer : SBuf.Idx → α) : SBuf.Idx → α :=
  fun j => if h : (j 0).val < 16384 then batch (batchIdx j h) else buffer j

theorem routed_lt {α : Type} (batch : SBatch.Idx → α) (buffer : SBuf.Idx → α) (j : SBuf.Idx) (h : (j 0).val < 16384) :
    routed batch buffer j = batch (batchIdx j h) := dif_pos h

theorem routed_ge {α : Type} (batch : SBatch.Idx → α) (buffer : SBuf.Idx → α) (j : SBuf.Idx) (h : ¬ (j 0).val < 16384) :
    routed batch buffer j = buffer j := dif_neg h

/-- The next write pointer: `(ptr + 16384) mod 98304` as jnp computes a remainder on 32-bit
    words — the truncated remainder by the divisor (1 in place of a zero divisor), moved by one
    divisor when it is non-zero and its sign differs from the divisor's. -/
def nextPtr (ptr : IVec SNil 32) : IVec SNil 32 :=
  let s : IVec SNil 32 := addi ptr (constantI SNil 32 16384#32)
  let n : IVec SNil 32 := constantI SNil 32 98304#32
  let z : IVec SNil 32 := constantI SNil 32 0#32
  let d : IVec SNil 32 := select (cmpi .eq n z) (constantI SNil 32 1#32) n
  let r : IVec SNil 32 := Host.remsi s d
  let fix : IVec SNil 1 := andi (cmpi .ne (cmpi .slt r z) (cmpi .slt d z)) (cmpi .ne r z)
  select fix (addi r d) r

end Cert.Spec

end
-- ==== Proof.Kernel.Setup.lean ====
/-
  The routed copy as the launch theorem sees it: the program's names, the ghost state, the arrays as
  the TensorCore and as a tile address them, and the pieces the arrays are dealt in.

  The result array has 98304 rows; worker `w = 16·core + subcore` owns rows `3072·w … 3072·w + 3071`
  in 24 chunks of 128 rows, so the array is 768 chunks and chunk `384·core + 24·subcore + k` is the
  worker's `k`-th. The batch and the buffer are only read: every tile holds a read share of each,
  whole.
-/
import proofs.«216569_g74620761801077_fold_wed_m_520_16_alg».proof.Kernel
import proofs.«216569_g74620761801077_fold_wed_m_520_16_alg».proof.Proof.Gen.Kernel
import proofs.«216569_g74620761801077_fold_wed_m_520_16_alg».proof.Proof.Gen.Kernel.Skeleton
import proofs.«216569_g74620761801077_fold_wed_m_520_16_alg».proof.Proof.Kernel.Conds
import proofs.«216569_g74620761801077_fold_wed_m_520_16_alg».proof.Proof.Spec
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev aLoc (d : Dev nD) : Loc nD τ sig := (SparseCore.T d).loc main_arg0
abbrev bLoc (d : Dev nD) : Loc nD τ sig := (SparseCore.T d).loc main_arg1
abbrev pLoc (d : Dev nD) : Loc nD τ sig := (SparseCore.T d).loc main_arg2
abbrev oLoc (d : Dev nD) : Loc nD τ sig := (SparseCore.T d).loc main_v0

abbrev aW : Memref sig .scVector .hbm S16384x256 .f32 := Memref.whole main_arg0_scv
abbrev bW : Memref sig .scVector .hbm S98304x256 .f32 := Memref.whole main_arg1_scv
abbrev oW : Memref sig .scVector .hbm S98304x256 .f32 := Memref.whole main_v0_scv
abbrev s0 : Memref sig .scVector .vmem S128x256 .f32 := Memref.whole cc0_scratch0
abbrev s1 : Memref sig .scVector .vmem S128x256 .f32 := Memref.whole cc0_scratch1
abbrev s2 : Memref sig .scVector .vmem S128x256 .f32 := Memref.whole cc0_scratch2

/-- The tile at grid coordinates `L`. -/
abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

/-! ## The result array in 768 chunks of 128 rows -/

theorem hdiv : 768 ∣ S98304x256.size 0 := ⟨128, rfl⟩
/-- Chunk `j`: rows `128·j … 128·j + 127`, all 256 columns. -/
abbrev crow (j : Fin 768) : Rect S98304x256 := Rect.part (s := S98304x256) (a₀ := 0) hdiv j
abbrev chunkSet (j : Fin 768) : Finset S98304x256.Idx := ((oW : Memref sig .scVector .hbm S98304x256 .f32).view.slice (crow j)).set

/-- The number of worker `(c, i)`'s `k`-th chunk. -/
def jOf (L : grid0.Coords) (k : Fin 24) : Fin 768 :=
  ⟨384 * (L 0).val + 24 * (L 1).val + k.val, by
    have h0 : (L 0).val < 2 := (L 0).isLt
    have h1 : (L 1).val < 16 := (L 1).isLt
    have h2 := k.isLt
    omega⟩

/-- The `k`-th destination slice of the result as the program spells it: the chunk constant `kc` is the word `128·k`. -/
abbrev oChunk (L : grid0.Coords) (kc : BitVec 32) (h : ∀ a, (k0_off7 L kc) a + S128x256.size a ≤ S98304x256.size a) :
    Memref sig .scVector .hbm S128x256 .f32 :=
  (oW : Memref sig .scVector .hbm S98304x256 .f32).slice (Rect.unit (s := S98304x256) (k0_off7 L kc) S128x256.size h) (fun _ => rfl)

theorem rect_oChunk (L : grid0.Coords) (k : Fin 24) :
    Rect.unit (s := S98304x256) (k0_off7 L (BitVec.ofNat 32 (128 * k.val))) S128x256.size (k0_off7_inb L k) = crow (jOf L k) := by
  unfold crow Rect.part Rect.block
  congr 1 <;> funext a
  · rw [k0_off7_eq]
    match a with
    | 0 => simp [Shape.partIx, Shape.partSize, jOf]; omega
    | 1 => simp [Shape.partIx, Shape.partSize]
  · match a with
    | 0 => simp [Shape.partSize]
    | 1 => simp [Shape.partSize]

theorem set_oChunk (L : grid0.Coords) (k : Fin 24) :
    (oChunk L (BitVec.ofNat 32 (128 * k.val)) (k0_off7_inb L k)).view.set = chunkSet (jOf L k) := by
  show ((oW : Memref sig .scVector .hbm S98304x256 .f32).view.slice
      (Rect.unit (s := S98304x256) (k0_off7 L (BitVec.ofNat 32 (128 * k.val))) S128x256.size (k0_off7_inb L k))).set
    = ((oW : Memref sig .scVector .hbm S98304x256 .f32).view.slice (crow (jOf L k))).set
  rw [rect_oChunk]

end Cert.Proof.Kernel.Run

end
-- ==== Proof.Kernel.Pay.lean ====
/-
  What the launch's handshakes carry, and the same resources as a tile's program spells them.

  A core's call carries a read share of the batch and of the buffer and the core's 384 chunks of the
  result; a tile's task carries a read share of each source and the tile's 24 chunks, and brings the
  24 chunks back holding the routed rows. A read share is never returned: the TensorCore keeps one of
  its own, which is all the final memory is read through.
-/
import proofs.«216569_g74620761801077_fold_wed_m_520_16_alg».proof.Proof.Kernel.Setup

noncomputable section

namespace Cert.Proof.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Read shares: the full share cut per core, per tile, per gather semaphore -/

def qc (c : ℕ) : PosShare TreeShare := Transfers.shareTokN fullShare c
def qt (c i : ℕ) : PosShare TreeShare := Transfers.shareTokN (qc c) i
def qb (c i b : ℕ) : PosShare TreeShare := Transfers.shareTokN (qt c i) b

variable (m : (ℓ : Loc nD τ sig) → Buf (Elt F) ℓ) (ρ : Dev nD → PrngReg)

/-- The result the kernel leaves: the batch's rows on rows below 16384, the buffer's own rows from there on. -/
def R (d : Dev nD) : Buf (Elt F) (oLoc d) :=
  Cert.Spec.routed (m (aLoc d) : S16384x256.Idx → Elt F .f32) (m (bLoc d) : S98304x256.Idx → Elt F .f32)

/-- Chunk `k` of the tile at `L`, as the TensorCore addresses the result array. -/
abbrev chunkPts (d : Dev nD) (L : grid0.Coords) (k : Fin 24) (f : Buf (Elt F) (oLoc d)) : sProp 𝕄 :=
  oLoc d ↦[chunkSet (jOf L k)]{fullShare} f

/-- A tile's task: a read share of both sources, its 24 chunks at the launch contents. -/
def goPts (d : Dev nD) (L : grid0.Coords) : sProp 𝕄 :=
  iprop((aLoc d ↦{qt (L 0).val (L 1).val} m (aLoc d)) ∗ (bLoc d ↦{qt (L 0).val (L 1).val} m (bLoc d))
    ∗ bigSep Finset.univ fun k : Fin 24 => chunkPts d L k (m (oLoc d)))

/-- What the task brings back: its 24 chunks at the routed rows. -/
def tdPts (d : Dev nD) (L : grid0.Coords) : sProp 𝕄 :=
  bigSep Finset.univ fun k : Fin 24 => chunkPts d L k (R m d)

omit m in
theorem bigSep_fin24 (Φ : Fin 24 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) := by
  rw [show (Finset.univ : Finset (Fin 24)) = {0, 1, 2, 3, 4, 5, 6, 7, 8, 9, 10, 11, 12, 13, 14, 15, 16, 17, 18, 19, 20, 21, 22, 23} by decide]
  rw [bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  rfl

/-! ## The same resources in the program's spelling -/

omit m in
theorem pts_oChunk (d : Dev nD) (L : grid0.Coords) (k : Fin 24) (f : Buf (Elt F) (oLoc d)) :
    ((oChunk L (BitVec.ofNat 32 (128 * k.val)) (k0_off7_inb L k)).view.loc (V d (cV L) (jV L))
        ↦[(oChunk L (BitVec.ofNat 32 (128 * k.val)) (k0_off7_inb L k)).view.set]{fullShare} f : sProp 𝕄) = chunkPts d L k f := by
  rw [set_oChunk]

omit m in
theorem pts_oChunk_0 (d : Dev nD) (L : grid0.Coords) (f : Buf (Elt F) (oLoc d)) :
    ((oChunk L 0#32 (k0_off7_inb L 0)).view.loc (V d (cV L) (jV L)) ↦[(oChunk L 0#32 (k0_off7_inb L 0)).view.set]{fullShare} f : sProp 𝕄)
      = chunkPts d L 0 f := pts_oChunk d L 0 f
omit m in
theorem pts_oChunk_1 (d : Dev nD) (L : grid0.Coords) (f : Buf (Elt F) (oLoc d)) :
    ((oChunk L 128#32 (k0_off7_inb L 1)).view.loc (V d (cV L) (jV L)) ↦[(oChunk L 128#32 (k0_off7_inb L 1)).view.set]{fullShare} f : sProp 𝕄)
      = chunkPts d L 1 f := pts_oChunk d L 1 f
omit m in
theorem pts_oChunk_2 (d : Dev nD) (L : grid0.Coords) (f : Buf (Elt F) (oLoc d)) :
    ((oChunk L 256#32 (k0_off7_inb L 2)).view.loc (V d (cV L) (jV L)) ↦[(oChunk L 256#32 (k0_off7_inb L 2)).view.set]{fullShare} f : sProp 𝕄)
      = chunkPts d L 2 f := pts_oChunk d L 2 f
omit m in
theorem pts_oChunk_3 (d : Dev nD) (L : grid0.Coords) (f : Buf (Elt F) (oLoc d)) :
    ((oChunk L 384#32 (k0_off7_inb L 3)).view.loc (V d (cV L) (jV L)) ↦[(oChunk L 384#32 (k0_off7_inb L 3)).view.set]{fullShare} f : sProp 𝕄)
      = chunkPts d L 3 f := pts_oChunk d L 3 f
omit m in
theorem pts_oChunk_4 (d : Dev nD) (L : grid0.Coords) (f : Buf (Elt F) (oLoc d)) :
    ((oChunk L 512#32 (k0_off7_inb L 4)).view.loc (V d (cV L) (jV L)) ↦[(oChunk L 512#32 (k0_off7_inb L 4)).view.set]{fullShare} f : sProp 𝕄)
      = chunkPts d L 4 f := pts_oChunk d L 4 f
omit m in
theorem pts_oChunk_5 (d : Dev nD) (L : grid0.Coords) (f : Buf (Elt F) (oLoc d)) :
    ((oChunk L 640#32 (k0_off7_inb L 5)).view.loc (V d (cV L) (jV L)) ↦[(oChunk L 640#32 (k0_off7_inb L 5)).view.set]{fullShare} f : sProp 𝕄)
      = chunkPts d L 5 f := pts_oChunk d L 5 f
omit m in
theorem pts_oChunk_6 (d : Dev nD) (L : grid0.Coords) (f : Buf (Elt F) (oLoc d)) :
    ((oChunk L 768#32 (k0_off7_inb L 6)).view.loc (V d (cV L) (jV L)) ↦[(oChunk L 768#32 (k0_off7_inb L 6)).view.set]{fullShare} f : sProp 𝕄)
      = chunkPts d L 6 f := pts_oChunk d L 6 f
omit m in
theorem pts_oChunk_7 (d : Dev nD) (L : grid0.Coords) (f : Buf (Elt F) (oLoc d)) :
    ((oChunk L 896#32 (k0_off7_inb L 7)).view.loc (V d (cV L) (jV L)) ↦[(oChunk L 896#32 (k0_off7_inb L 7)).view.set]{fullShare} f : sProp 𝕄)
      = chunkPts d L 7 f := pts_oChunk d L 7 f
omit m in
theorem pts_oChunk_8 (d : Dev nD) (L : grid0.Coords) (f : Buf (Elt F) (oLoc d)) :
    ((oChunk L 1024#32 (k0_off7_inb L 8)).view.loc (V d (cV L) (jV L)) ↦[(oChunk L 1024#32 (k0_off7_inb L 8)).view.set]{fullShare} f : sProp 𝕄)
      = chunkPts d L 8 f := pts_oChunk d L 8 f
omit m in
theorem pts_oChunk_9 (d : Dev nD) (L : grid0.Coords) (f : Buf (Elt F) (oLoc d)) :
    ((oChunk L 1152#32 (k0_off7_inb L 9)).view.loc (V d (cV L) (jV L)) ↦[(oChunk L 1152#32 (k0_off7_inb L 9)).view.set]{fullShare} f : sProp 𝕄)
      = chunkPts d L 9 f := pts_oChunk d L 9 f
omit m in
theorem pts_oChunk_10 (d : Dev nD) (L : grid0.Coords) (f : Buf (Elt F) (oLoc d)) :
    ((oChunk L 1280#32 (k0_off7_inb L 10)).view.loc (V d (cV L) (jV L)) ↦[(oChunk L 1280#32 (k0_off7_inb L 10)).view.set]{fullShare} f : sProp 𝕄)
      = chunkPts d L 10 f := pts_oChunk d L 10 f
omit m in
theorem pts_oChunk_11 (d : Dev nD) (L : grid0.Coords) (f : Buf (Elt F) (oLoc d)) :
    ((oChunk L 1408#32 (k0_off7_inb L 11)).view.loc (V d (cV L) (jV L)) ↦[(oChunk L 1408#32 (k0_off7_inb L 11)).view.set]{fullShare} f : sProp 𝕄)
      = chunkPts d L 11 f := pts_oChunk d L 11 f
omit m in
theorem pts_oChunk_12 (d : Dev nD) (L : grid0.Coords) (f : Buf (Elt F) (oLoc d)) :
    ((oChunk L 1536#32 (k0_off7_inb L 12)).view.loc (V d (cV L) (jV L)) ↦[(oChunk L 1536#32 (k0_off7_inb L 12)).view.set]{fullShare} f : sProp 𝕄)
      = chunkPts d L 12 f := pts_oChunk d L 12 f
omit m in
theorem pts_oChunk_13 (d : Dev nD) (L : grid0.Coords) (f : Buf (Elt F) (oLoc d)) :
    ((oChunk L 1664#32 (k0_off7_inb L 13)).view.loc (V d (cV L) (jV L)) ↦[(oChunk L 1664#32 (k0_off7_inb L 13)).view.set]{fullShare} f : sProp 𝕄)
      = chunkPts d L 13 f := pts_oChunk d L 13 f
omit m in
theorem pts_oChunk_14 (d : Dev nD) (L : grid0.Coords) (f : Buf (Elt F) (oLoc d)) :
    ((oChunk L 1792#32 (k0_off7_inb L 14)).view.loc (V d (cV L) (jV L)) ↦[(oChunk L 1792#32 (k0_off7_inb L 14)).view.set]{fullShare} f : sProp 𝕄)
      = chunkPts d L 14 f := pts_oChunk d L 14 f
omit m in
theorem pts_oChunk_15 (d : Dev nD) (L : grid0.Coords) (f : Buf (Elt F) (oLoc d)) :
    ((oChunk L 1920#32 (k0_off7_inb L 15)).view.loc (V d (cV L) (jV L)) ↦[(oChunk L 1920#32 (k0_off7_inb L 15)).view.set]{fullShare} f : sProp 𝕄)
      = chunkPts d L 15 f := pts_oChunk d L 15 f
omit m in
theorem pts_oChunk_16 (d : Dev nD) (L : grid0.Coords) (f : Buf (Elt F) (oLoc d)) :
    ((oChunk L 2048#32 (k0_off7_inb L 16)).view.loc (V d (cV L) (jV L)) ↦[(oChunk L 2048#32 (k0_off7_inb L 16)).view.set]{fullShare} f : sProp 𝕄)
      = chunkPts d L 16 f := pts_oChunk d L 16 f
omit m in
theorem pts_oChunk_17 (d : Dev nD) (L : grid0.Coords) (f : Buf (Elt F) (oLoc d)) :
    ((oChunk L 2176#32 (k0_off7_inb L 17)).view.loc (V d (cV L) (jV L)) ↦[(oChunk L 2176#32 (k0_off7_inb L 17)).view.set]{fullShare} f : sProp 𝕄)
      = chunkPts d L 17 f := pts_oChunk d L 17 f
omit m in
theorem pts_oChunk_18 (d : Dev nD) (L : grid0.Coords) (f : Buf (Elt F) (oLoc d)) :
    ((oChunk L 2304#32 (k0_off7_inb L 18)).view.loc (V d (cV L) (jV L)) ↦[(oChunk L 2304#32 (k0_off7_inb L 18)).view.set]{fullShare} f : sProp 𝕄)
      = chunkPts d L 18 f := pts_oChunk d L 18 f
omit m in
theorem pts_oChunk_19 (d : Dev nD) (L : grid0.Coords) (f : Buf (Elt F) (oLoc d)) :
    ((oChunk L 2432#32 (k0_off7_inb L 19)).view.loc (V d (cV L) (jV L)) ↦[(oChunk L 2432#32 (k0_off7_inb L 19)).view.set]{fullShare} f : sProp 𝕄)
      = chunkPts d L 19 f := pts_oChunk d L 19 f
omit m in
theorem pts_oChunk_20 (d : Dev nD) (L : grid0.Coords) (f : Buf (Elt F) (oLoc d)) :
    ((oChunk L 2560#32 (k0_off7_inb L 20)).view.loc (V d (cV L) (jV L)) ↦[(oChunk L 2560#32 (k0_off7_inb L 20)).view.set]{fullShare} f : sProp 𝕄)
      = chunkPts d L 20 f := pts_oChunk d L 20 f
omit m in
theorem pts_oChunk_21 (d : Dev nD) (L : grid0.Coords) (f : Buf (Elt F) (oLoc d)) :
    ((oChunk L 2688#32 (k0_off7_inb L 21)).view.loc (V d (cV L) (jV L)) ↦[(oChunk L 2688#32 (k0_off7_inb L 21)).view.set]{fullShare} f : sProp 𝕄)
      = chunkPts d L 21 f := pts_oChunk d L 21 f
omit m in
theorem pts_oChunk_22 (d : Dev nD) (L : grid0.Coords) (f : Buf (Elt F) (oLoc d)) :
    ((oChunk L 2816#32 (k0_off7_inb L 22)).view.loc (V d (cV L) (jV L)) ↦[(oChunk L 2816#32 (k0_off7_inb L 22)).view.set]{fullShare} f : sProp 𝕄)
      = chunkPts d L 22 f := pts_oChunk d L 22 f
omit m in
theorem pts_oChunk_23 (d : Dev nD) (L : grid0.Coords) (f : Buf (Elt F) (oLoc d)) :
    ((oChunk L 2944#32 (k0_off7_inb L 23)).view.loc (V d (cV L) (jV L)) ↦[(oChunk L 2944#32 (k0_off7_inb L 23)).view.set]{fullShare} f : sProp 𝕄)
      = chunkPts d L 23 f := pts_oChunk d L 23 f

omit m in
theorem pts_a (d : Dev nD) (L : grid0.Coords) (q : PosShare TreeShare) (f : Buf (Elt F) (aLoc d)) :
    ((aW : Memref sig .scVector .hbm S16384x256 .f32).view.loc (V d (cV L) (jV L)) ↦{q} f : sProp 𝕄) = aLoc d ↦{q} f := rfl
omit m in
theorem pts_b (d : Dev nD) (L : grid0.Coords) (q : PosShare TreeShare) (f : Buf (Elt F) (bLoc d)) :
    ((bW : Memref sig .scVector .hbm S98304x256 .f32).view.loc (V d (cV L) (jV L)) ↦{q} f : sProp 𝕄) = bLoc d ↦{q} f := rfl
omit m in
theorem pts_s0 (d : Dev nD) (L : grid0.Coords) (f : Buf (Elt F) ((V d (cV L) (jV L)).loc cc0_scratch0)) :
    ((s0 : Memref sig .scVector .vmem S128x256 .f32).view.loc (V d (cV L) (jV L)) ↦{fullShare} f : sProp 𝕄) = (V d (cV L) (jV L)).loc cc0_scratch0 ↦{fullShare} f := rfl
omit m in
theorem pts_s1 (d : Dev nD) (L : grid0.Coords) (f : Buf (Elt F) ((V d (cV L) (jV L)).loc cc0_scratch1)) :
    ((s1 : Memref sig .scVector .vmem S128x256 .f32).view.loc (V d (cV L) (jV L)) ↦{fullShare} f : sProp 𝕄) = (V d (cV L) (jV L)).loc cc0_scratch1 ↦{fullShare} f := rfl
omit m in
theorem pts_s2 (d : Dev nD) (L : grid0.Coords) (f : Buf (Elt F) ((V d (cV L) (jV L)).loc cc0_scratch2)) :
    ((s2 : Memref sig .scVector .vmem S128x256 .f32).view.loc (V d (cV L) (jV L)) ↦{fullShare} f : sProp 𝕄) = (V d (cV L) (jV L)).loc cc0_scratch2 ↦{fullShare} f := rfl

/-! ## A tile's own semaphores and buffers: the six transfer semaphores and the three scratch buffers, and the rest -/

/-- A transfer semaphore of a thread's own, as a cell. -/
def semEmb (thr : Thread nD τ) : DmaSem sig ↪ GSem nD τ sig :=
  ⟨fun s => (thr, SemLoc.dma s), fun a b e => by injection e with _ e2; injection e2⟩

abbrev sems6 : Finset (DmaSem sig) :=
  {cc0_scratch3.sem, cc0_scratch4.sem, cc0_scratch5.sem, cc0_scratch6.sem, cc0_scratch7.sem, cc0_scratch8.sem}

omit m in
theorem sems6_sub (d : Dev nD) (L : grid0.Coords) : sems6.map (semEmb (V d (cV L) (jV L))) ⊆ ownCells (V d (cV L) (jV L)) := by
  intro g hg
  obtain ⟨s, hs, rfl⟩ := Finset.mem_map.mp hg
  refine mem_ownCells.mpr ⟨rfl, ?_⟩
  have key : ∀ s ∈ sems6, (SemLoc.dma s : SemLoc sig).isScoped .scVector = true := by decide
  exact key s hs

omit m in
theorem ownSems0_V (d : Dev nD) (L : grid0.Coords) :
    (ownSems0 (V d (cV L) (jV L)) : sProp 𝕄)
      = iprop((semVal (V d (cV L) (jV L), SemLoc.dma cc0_scratch3.sem) 0 ∗ semVal (V d (cV L) (jV L), SemLoc.dma cc0_scratch4.sem) 0
          ∗ semVal (V d (cV L) (jV L), SemLoc.dma cc0_scratch5.sem) 0 ∗ semVal (V d (cV L) (jV L), SemLoc.dma cc0_scratch6.sem) 0
          ∗ semVal (V d (cV L) (jV L), SemLoc.dma cc0_scratch7.sem) 0 ∗ semVal (V d (cV L) (jV L), SemLoc.dma cc0_scratch8.sem) 0)
          ∗ bigSep (ownCells (V d (cV L) (jV L)) \ sems6.map (semEmb (V d (cV L) (jV L)))) fun g => semVal g 0) := by
  unfold SparseCore.Cfg.ownSems0
  rw [bigSep_sdiff_split (sems6_sub d L), bigSep_map]
  rw [bigSep_insert (by decide), bigSep_insert (by decide), bigSep_insert (by decide), bigSep_insert (by decide), bigSep_insert (by decide), bigSep_singleton]
  rfl

/-- A scratch buffer of a tile's own, as a buffer of the device. -/
def refEmb (c : Fin τ.nSC) (i : Fin τ.nSub) : Ref sig .scVector ↪ DevRef τ sig :=
  ⟨(Proc.scVector c i).devRef, Proc.devRef_injective _⟩

abbrev refs3 : Finset (Ref sig .scVector) := {cc0_scratch0, cc0_scratch1, cc0_scratch2}

omit m in
theorem refs3_sub (L : grid0.Coords) : refs3.map (refEmb (cV L) (jV L)) ⊆ ownRefs (τ := τ) (.scVector (cV L) (jV L)) := by
  intro b hb
  obtain ⟨r, hr, rfl⟩ := Finset.mem_map.mp hb
  simp only [Finset.mem_insert, Finset.mem_singleton] at hr
  rcases hr with rfl | rfl | rfl <;> exact SparseCore.Cfg.mem_ownRefs_of_owner (p := Proc.scVector (cV L) (jV L)) rfl

omit m in
theorem ownBufs_V (d : Dev nD) (L : grid0.Coords) :
    (ownBufs (V d (cV L) (jV L)) : sProp 𝕄)
      = iprop(((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f))
          ∗ bigSep (ownRefs (τ := τ) (.scVector (cV L) (jV L)) \ refs3.map (refEmb (cV L) (jV L)))
              fun b => iprop(∃ f, ((d, b) : Loc nD τ sig) ↦{fullShare} f)) := by
  unfold SparseCore.Cfg.ownBufs
  rw [bigSep_sdiff_split (refs3_sub L), bigSep_map]
  rw [bigSep_insert (by decide), bigSep_insert (by decide), bigSep_singleton]
  rfl

end Cert.Proof.Kernel.Run

end
-- ==== Proof.Kernel.Value.lean ====
/-
  What a chunk of the result holds after the tile's task.

  The destination slice of chunk `k` and the source slice the chunk was fetched from start at the
  same row and span all 256 columns, so entry `(y₀, y₁)` of the written block is the source's entry
  at row `off + y₀`, column `y₁`. When the chunk's rows lie below 16384 the source is the batch and
  the routed rows there are the batch's; when they lie at or above 16384 the source is the buffer and
  the routed rows are the buffer's own.
-/
import proofs.«216569_g74620761801077_fold_wed_m_520_16_alg».proof.Proof.Kernel.Pay
import Idealize.ShloMosaic.Lib.Writes
import Idealize.ShloMosaic.Lib.Pipeline.Value

noncomputable section

namespace Cert.Proof.Kernel.Run

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-- A chunk fetched from the batch: its rows are below 16384, where the routed rows are the batch's. -/
theorem val_batch (d : Dev nD) (offA : Fin 2 → ℕ) (hA : ∀ a, offA a + S128x256.size a ≤ S16384x256.size a)
    (offO : Fin 2 → ℕ) (hO : ∀ a, offO a + S128x256.size a ≤ S98304x256.size a) (e : offA = offO)
    (hlt : offO 0 + 128 ≤ 16384) (y : S128x256.Idx) :
    View.read (Elt F) ((aW : Memref sig .scVector .hbm S16384x256 .f32).slice (Rect.unit (s := S16384x256) offA S128x256.size hA) (fun _ => rfl)).view (m (aLoc d)) y
      = R m d (((oW : Memref sig .scVector .hbm S98304x256 .f32).slice (Rect.unit (s := S98304x256) offO S128x256.size hO) (fun _ => rfl)).view.emb y) := by
  subst e
  have hy : (y 0).val < 128 := (y 0).isLt
  have hj : ((((oW : Memref sig .scVector .hbm S98304x256 .f32).slice (Rect.unit (s := S98304x256) offA S128x256.size hO) (fun _ => rfl)).view.emb y) 0).val < 16384 := by
    show offA 0 + 1 * (y 0).val < 16384
    omega
  unfold R
  rw [Cert.Spec.routed_lt _ _ _ hj]
  show m (aLoc d) _ = m (aLoc d) _
  congr 1
  funext a
  match a with
  | 0 => rfl
  | 1 => rfl

/-- A chunk fetched from the buffer: its rows are at or above 16384, where the routed rows are the buffer's own. -/
theorem val_buffer (d : Dev nD) (offB : Fin 2 → ℕ) (hB : ∀ a, offB a + S128x256.size a ≤ S98304x256.size a)
    (offO : Fin 2 → ℕ) (hO : ∀ a, offO a + S128x256.size a ≤ S98304x256.size a) (e : offB = offO)
    (hge : 16384 ≤ offO 0) (y : S128x256.Idx) :
    View.read (Elt F) ((bW : Memref sig .scVector .hbm S98304x256 .f32).slice (Rect.unit (s := S98304x256) offB S128x256.size hB) (fun _ => rfl)).view (m (bLoc d)) y
      = R m d (((oW : Memref sig .scVector .hbm S98304x256 .f32).slice (Rect.unit (s := S98304x256) offO S128x256.size hO) (fun _ => rfl)).view.emb y) := by
  subst e
  have hj : ¬ ((((oW : Memref sig .scVector .hbm S98304x256 .f32).slice (Rect.unit (s := S98304x256) offB S128x256.size hO) (fun _ => rfl)).view.emb y) 0).val < 16384 := by
    show ¬ offB 0 + 1 * (y 0).val < 16384
    omega
  unfold R
  rw [Cert.Spec.routed_ge _ _ _ hj]
  rfl

/-- A chunk written whole with a block that is the routed rows there holds the routed rows. -/
theorem chunk_done (d : Dev nD) (L : grid0.Coords) (k : Fin 24) (kc : BitVec 32)
    (h : ∀ a, (k0_off7 L kc) a + S128x256.size a ≤ S98304x256.size a)
    (hset : (oChunk L kc h).view.set = chunkSet (jOf L k)) (g : Buf (Elt F) (oLoc d)) (pay : S128x256.Idx → Elt F .f32)
    (hpay : ∀ y, pay y = R m d ((oChunk L kc h).view.emb y)) :
    ((oChunk L kc h).view.loc (V d (cV L) (jV L)) ↦[(oChunk L kc h).view.set]{fullShare}
        (oChunk L kc h).view.writes (Elt F) g [⟨Rect.whole S128x256, pay⟩] : sProp 𝕄)
      ⊢ chunkPts d L k (R m d) := by
  have hc : ∀ i ∈ (oChunk L kc h).view.set,
      (oChunk L kc h).view.writes (Elt F) g [⟨Rect.whole S128x256, pay⟩] i = R m d i := by
    intro i hi
    obtain ⟨y, rfl⟩ := View.exists_emb_of_mem_set _ hi
    have hr := View.read_writes_cons_emb (oChunk L kc h).view g (Rect.whole S128x256) pay [] y
    rw [Rect.emb_whole_apply] at hr
    rw [← hpay y, ← hr]
    rfl
  rw [pointsTo_congr hc, hset]

omit m in
/-- The first row of the tile's `k`-th destination slice: `3072·w + 128·k` for worker `w`. -/
theorem off7_row (L : grid0.Coords) (k : Fin 24) :
    (k0_off7 L (BitVec.ofNat 32 (128 * k.val))) 0 = 3072 * Conds.wid L + 128 * k.val := by
  rw [k0_off7_eq]
  show 49152 * (L 0).val + 3072 * (L 1).val + 128 * k.val = 3072 * (16 * (L 0).val + (L 1).val) + 128 * k.val
  omega

omit m in
/-- The 24 chunks at one contents are the tile's chunks. -/
theorem chunks_pack (d : Dev nD) (L : grid0.Coords) (f : Buf (Elt F) (oLoc d)) :
    (iprop(chunkPts d L 0 f ∗ chunkPts d L 1 f ∗ chunkPts d L 2 f ∗ chunkPts d L 3 f ∗ chunkPts d L 4 f ∗ chunkPts d L 5 f ∗ chunkPts d L 6 f ∗ chunkPts d L 7 f ∗ chunkPts d L 8 f ∗ chunkPts d L 9 f ∗ chunkPts d L 10 f ∗ chunkPts d L 11 f ∗ chunkPts d L 12 f ∗ chunkPts d L 13 f ∗ chunkPts d L 14 f ∗ chunkPts d L 15 f ∗ chunkPts d L 16 f ∗ chunkPts d L 17 f ∗ chunkPts d L 18 f ∗ chunkPts d L 19 f ∗ chunkPts d L 20 f ∗ chunkPts d L 21 f ∗ chunkPts d L 22 f ∗ chunkPts d L 23 f) : sProp 𝕄)
      ⊢ bigSep Finset.univ fun k : Fin 24 => chunkPts d L k f :=
  Entails.of_eq (bigSep_fin24 (F := F) (fun k : Fin 24 => chunkPts d L k f)).symm

omit m in
/-- One more recorded wait at no call's index. -/
theorem waits_insert {W W' : Waits sig (HIx 1)} {x : SemLoc sig × HIx 1} (hx : x.2 = none)
    (hW : ∀ p ∈ W', p ∈ W ∨ p.2 = none) : ∀ p ∈ insert x W', p ∈ W ∨ p.2 = none := by
  intro p hp
  rcases Finset.mem_insert.mp hp with rfl | hp
  · exact .inr hx
  · exact hW p hp

end Cert.Proof.Kernel.Run

end
-- ==== Proof.Kernel.Body.lean ====
/-
  One tile's task: 24 chunks of 128 rows through a ring of three scratch buffers.

  Chunk `k` is fetched into scratch `k mod 3` on that scratch's own fetch semaphore, waited for, and
  written out to rows `3072·w + 128·k …` of the result on that scratch's own write-back semaphore; the
  fetch of chunk `k + 3` starts only after the write-back of chunk `k` has been waited for. So each
  semaphore has one transfer in flight at a time, and no scratch is touched while a transfer reads or
  writes it. What lands in chunk `k` of the result is the source chunk at the same rows: the batch's
  when those rows are below 16384, the buffer's otherwise — the routed rows.
-/
import proofs.«216569_g74620761801077_fold_wed_m_520_16_alg».proof.Proof.Kernel.Value

noncomputable section

namespace Cert.Proof.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

omit m [FloatOps F] in
theorem bigSep_fin3 (Φ : Fin 3 → sProp 𝕄) : bigSep Finset.univ Φ = iprop(Φ 0 ∗ Φ 1 ∗ Φ 2) := by
  rw [show (Finset.univ : Finset (Fin 3)) = {0, 1, 2} by decide, bigSep_insert (by decide), bigSep_insert (by decide), bigSep_singleton]
  rfl

theorem tile_body_lo (hF : (K (F := F)).Facts) (d : Dev nD) (L : grid0.Coords) (hL : Conds.wid L ≤ 4)
    (O : CellTallies nD τ sig (HIx 1)) (W : Waits sig (HIx 1)) (hO : ∀ g, O g none = 0) :
    iprop(levAts (K (F := F)).L (K (F := F)).lev ∗ emp ∗ goPts m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_routed_copy L aW (Memref.isWhole_whole _) bW (Memref.isWhole_whole _) oW (Memref.isWhole_whole _)
            s0 (Memref.isWhole_whole _) s1 (Memref.isWhole_whole _) s2 (Memref.isWhole_whole _)
            cc0_scratch3 cc0_scratch4 cc0_scratch5 cc0_scratch6 cc0_scratch7 cc0_scratch8)
          fun _ => iprop(tdPts m d L ∗ scopedBufs (V d (cV L) (jV L)) ∗ scopedSems0 (V d (cV L) (jV L))
            ∗ ∃ W', ⌜∀ p ∈ W', p ∈ W ∨ p.2 = none⌝ ∗ owes (V d (cV L) (jV L)) O W') := by
  have k0_h1 := Conds.lo_1 L hL
  have k0_h2 := Conds.lo_2 L hL
  have k0_h3 := Conds.lo_3 L hL
  have k0_h4 := Conds.lo_4 L hL
  have k0_h5 := Conds.lo_5 L hL
  have k0_h6 := Conds.lo_6 L hL
  have k0_h7 := Conds.lo_7 L hL
  have k0_h8 := Conds.lo_8 L hL
  have k0_h9 := Conds.lo_9 L hL
  have k0_h10 := Conds.lo_10 L hL
  have k0_h11 := Conds.lo_11 L hL
  have k0_h12 := Conds.lo_12 L hL
  have k0_h13 := Conds.lo_13 L hL
  have k0_h14 := Conds.lo_14 L hL
  have k0_h15 := Conds.lo_15 L hL
  have k0_h16 := Conds.lo_16 L hL
  have k0_h17 := Conds.lo_17 L hL
  have k0_h18 := Conds.lo_18 L hL
  have k0_h19 := Conds.lo_19 L hL
  have k0_h20 := Conds.lo_20 L hL
  have k0_h21 := Conds.lo_21 L hL
  have k0_h22 := Conds.lo_22 L hL
  have k0_h23 := Conds.lo_23 L hL
  have k0_h24 := Conds.lo_24 L hL
  have k0_h25 := Conds.lo_25 L hL
  have k0_h26 := Conds.lo_26 L hL
  have k0_h27 := Conds.lo_27 L hL
  have k0_h28 := Conds.lo_28 L hL
  have k0_h29 := Conds.lo_29 L hL
  have k0_h30 := Conds.lo_30 L hL
  have k0_h31 := Conds.lo_31 L hL
  have k0_h32 := Conds.lo_32 L hL
  have k0_h33 := Conds.lo_33 L hL
  have k0_h34 := Conds.lo_34 L hL
  have k0_h35 := Conds.lo_35 L hL
  have k0_h36 := Conds.lo_36 L hL
  have k0_h37 := Conds.lo_37 L hL
  have k0_h38 := Conds.lo_38 L hL
  have k0_h39 := Conds.lo_39 L hL
  have k0_h40 := Conds.lo_40 L hL
  have k0_h41 := Conds.lo_41 L hL
  have k0_h42 := Conds.lo_42 L hL
  have k0_h43 := Conds.lo_43 L hL
  have k0_h44 := Conds.lo_44 L hL
  have k0_h45 := Conds.lo_45 L hL
  have k0_h46 := Conds.lo_46 L hL
  have k0_h47 := Conds.lo_47 L hL
  have k0_h48 := Conds.lo_48 L hL
  simp only [cc0__sc_routed_copy_eq_skeleton]; unfold cc0__sc_routed_copy_skel
  rw [(K (F := F)).scopedBufs_V hF d (cV L) (jV L), SparseCore.Cfg.scopedSems0_V (Val := Elt F) d (cV L) (jV L), ownSems0_V, ownBufs_V]
  unfold goPts
  rw [bigSep_fin24]
  iintro ⟨#Hlv, -, ⟨Ha, Hb, Hc0, Hc1, Hc2, Hc3, Hc4, Hc5, Hc6, Hc7, Hc8, Hc9, Hc10, Hc11, Hc12, Hc13, Hc14, Hc15, Hc16, Hc17, Hc18, Hc19, Hc20, Hc21, Hc22, Hc23⟩, ⟨⟨⟨%f0, Hs0⟩, ⟨%f1, Hs1⟩, ⟨%f2, Hs2⟩⟩, Hbrest⟩, ⟨⟨Hg0, Hg1, Hg2, Hq0, Hq1, Hq2⟩, Hsrest⟩, HO⟩
  ihave Hmw := ((K (F := F)).mayWaits_none (thr := V d (cV L) (jV L)) hO) $$ Hlv
  -- three read shares of each source, one per gather in flight
  ihave Ha' := (Transfers.pointsTo_toks_split (qt (L 0).val (L 1).val) 3) $$ Ha
  icases Ha' with ⟨-, Ha'⟩
  ihave Hb' := (Transfers.pointsTo_toks_split (qt (L 0).val (L 1).val) 3) $$ Hb
  icases Hb' with ⟨-, Hb'⟩
  ihave Ha' := (Entails.of_eq (bigSep_fin3 (F := F) _)) $$ Ha'
  ihave Hb' := (Entails.of_eq (bigSep_fin3 (F := F) _)) $$ Hb'
  icases Ha' with ⟨Ha0, Ha1, Ha2⟩
  icases Hb' with ⟨Hb0, Hb1, Hb2⟩
  ihave Ha0 := (Entails.of_eq (pts_a (F := F) d L _ _).symm) $$ Ha0
  ihave Ha1 := (Entails.of_eq (pts_a (F := F) d L _ _).symm) $$ Ha1
  ihave Ha2 := (Entails.of_eq (pts_a (F := F) d L _ _).symm) $$ Ha2
  ihave Hb0 := (Entails.of_eq (pts_b (F := F) d L _ _).symm) $$ Hb0
  ihave Hb1 := (Entails.of_eq (pts_b (F := F) d L _ _).symm) $$ Hb1
  ihave Hb2 := (Entails.of_eq (pts_b (F := F) d L _ _).symm) $$ Hb2
  ihave Hs0 := (Entails.of_eq (pts_s0 (F := F) d L _).symm) $$ Hs0
  ihave Hs1 := (Entails.of_eq (pts_s1 (F := F) d L _).symm) $$ Hs1
  ihave Hs2 := (Entails.of_eq (pts_s2 (F := F) d L _).symm) $$ Hs2
  ihave Hc0 := (Entails.of_eq (pts_oChunk_0 (F := F) d L _).symm) $$ Hc0
  ihave Hc1 := (Entails.of_eq (pts_oChunk_1 (F := F) d L _).symm) $$ Hc1
  ihave Hc2 := (Entails.of_eq (pts_oChunk_2 (F := F) d L _).symm) $$ Hc2
  ihave Hc3 := (Entails.of_eq (pts_oChunk_3 (F := F) d L _).symm) $$ Hc3
  ihave Hc4 := (Entails.of_eq (pts_oChunk_4 (F := F) d L _).symm) $$ Hc4
  ihave Hc5 := (Entails.of_eq (pts_oChunk_5 (F := F) d L _).symm) $$ Hc5
  ihave Hc6 := (Entails.of_eq (pts_oChunk_6 (F := F) d L _).symm) $$ Hc6
  ihave Hc7 := (Entails.of_eq (pts_oChunk_7 (F := F) d L _).symm) $$ Hc7
  ihave Hc8 := (Entails.of_eq (pts_oChunk_8 (F := F) d L _).symm) $$ Hc8
  ihave Hc9 := (Entails.of_eq (pts_oChunk_9 (F := F) d L _).symm) $$ Hc9
  ihave Hc10 := (Entails.of_eq (pts_oChunk_10 (F := F) d L _).symm) $$ Hc10
  ihave Hc11 := (Entails.of_eq (pts_oChunk_11 (F := F) d L _).symm) $$ Hc11
  ihave Hc12 := (Entails.of_eq (pts_oChunk_12 (F := F) d L _).symm) $$ Hc12
  ihave Hc13 := (Entails.of_eq (pts_oChunk_13 (F := F) d L _).symm) $$ Hc13
  ihave Hc14 := (Entails.of_eq (pts_oChunk_14 (F := F) d L _).symm) $$ Hc14
  ihave Hc15 := (Entails.of_eq (pts_oChunk_15 (F := F) d L _).symm) $$ Hc15
  ihave Hc16 := (Entails.of_eq (pts_oChunk_16 (F := F) d L _).symm) $$ Hc16
  ihave Hc17 := (Entails.of_eq (pts_oChunk_17 (F := F) d L _).symm) $$ Hc17
  ihave Hc18 := (Entails.of_eq (pts_oChunk_18 (F := F) d L _).symm) $$ Hc18
  ihave Hc19 := (Entails.of_eq (pts_oChunk_19 (F := F) d L _).symm) $$ Hc19
  ihave Hc20 := (Entails.of_eq (pts_oChunk_20 (F := F) d L _).symm) $$ Hc20
  ihave Hc21 := (Entails.of_eq (pts_oChunk_21 (F := F) d L _).symm) $$ Hc21
  ihave Hc22 := (Entails.of_eq (pts_oChunk_22 (F := F) d L _).symm) $$ Hc22
  ihave Hc23 := (Entails.of_eq (pts_oChunk_23 (F := F) d L _).symm) $$ Hc23
  sl_exec_parts
  sl_step
  have hp0 : ∀ y, tile_body_lo.sl.dma0_3 m d L k0_h1 f0 y
      = R m d ((oChunk L 0#32 (k0_off7_inb L 0)).view.emb y) := by
    intro y
    have e : k0_off1 L = k0_off7 L 0#32 := (k0_off1_eq L).trans (k0_off7_eq L 0).symm
    have hr : (k0_off7 L 0#32) 0 = 3072 * Conds.wid L + 128 * 0 := off7_row L 0
    unfold tile_body_lo.sl.dma0_3
    rw [View.read_write_univ]
    unfold tile_body_lo.sl.dma0
    exact val_batch m d _ _ _ _ e (by omega) y
  have hp1 : ∀ y, tile_body_lo.sl.dma0_5 m d L k0_h3 f1 y
      = R m d ((oChunk L 128#32 (k0_off7_inb L 1)).view.emb y) := by
    intro y
    have e : k0_off3 L = k0_off7 L 128#32 := (k0_off3_eq L).trans (k0_off7_eq L 1).symm
    have hr : (k0_off7 L 128#32) 0 = 3072 * Conds.wid L + 128 * 1 := off7_row L 1
    unfold tile_body_lo.sl.dma0_5
    rw [View.read_write_univ]
    unfold tile_body_lo.sl.dma0_1
    exact val_batch m d _ _ _ _ e (by omega) y
  have hp2 : ∀ y, tile_body_lo.sl.dma0_7 m d L k0_h5 f2 y
      = R m d ((oChunk L 256#32 (k0_off7_inb L 2)).view.emb y) := by
    intro y
    have e : k0_off5 L = k0_off7 L 256#32 := (k0_off5_eq L).trans (k0_off7_eq L 2).symm
    have hr : (k0_off7 L 256#32) 0 = 3072 * Conds.wid L + 128 * 2 := off7_row L 2
    unfold tile_body_lo.sl.dma0_7
    rw [View.read_write_univ]
    unfold tile_body_lo.sl.dma0_2
    exact val_batch m d _ _ _ _ e (by omega) y
  have hp3 : ∀ y, tile_body_lo.sl.dma0_9 m d L k0_h1 k0_h7 f0 y
      = R m d ((oChunk L 384#32 (k0_off7_inb L 3)).view.emb y) := by
    intro y
    have e : k0_off9 L = k0_off7 L 384#32 := (k0_off9_eq L).trans (k0_off7_eq L 3).symm
    have hr : (k0_off7 L 384#32) 0 = 3072 * Conds.wid L + 128 * 3 := off7_row L 3
    unfold tile_body_lo.sl.dma0_9
    rw [View.read_write_univ]
    unfold tile_body_lo.sl.dma0_4
    exact val_batch m d _ _ _ _ e (by omega) y
  have hp4 : ∀ y, tile_body_lo.sl.dma0_11 m d L k0_h3 k0_h9 f1 y
      = R m d ((oChunk L 512#32 (k0_off7_inb L 4)).view.emb y) := by
    intro y
    have e : k0_off11 L = k0_off7 L 512#32 := (k0_off11_eq L).trans (k0_off7_eq L 4).symm
    have hr : (k0_off7 L 512#32) 0 = 3072 * Conds.wid L + 128 * 4 := off7_row L 4
    unfold tile_body_lo.sl.dma0_11
    rw [View.read_write_univ]
    unfold tile_body_lo.sl.dma0_6
    exact val_batch m d _ _ _ _ e (by omega) y
  have hp5 : ∀ y, tile_body_lo.sl.dma0_13 m d L k0_h5 k0_h11 f2 y
      = R m d ((oChunk L 640#32 (k0_off7_inb L 5)).view.emb y) := by
    intro y
    have e : k0_off13 L = k0_off7 L 640#32 := (k0_off13_eq L).trans (k0_off7_eq L 5).symm
    have hr : (k0_off7 L 640#32) 0 = 3072 * Conds.wid L + 128 * 5 := off7_row L 5
    unfold tile_body_lo.sl.dma0_13
    rw [View.read_write_univ]
    unfold tile_body_lo.sl.dma0_8
    exact val_batch m d _ _ _ _ e (by omega) y
  have hp6 : ∀ y, tile_body_lo.sl.dma0_15 m d L k0_h1 k0_h7 k0_h13 f0 y
      = R m d ((oChunk L 768#32 (k0_off7_inb L 6)).view.emb y) := by
    intro y
    have e : k0_off15 L = k0_off7 L 768#32 := (k0_off15_eq L).trans (k0_off7_eq L 6).symm
    have hr : (k0_off7 L 768#32) 0 = 3072 * Conds.wid L + 128 * 6 := off7_row L 6
    unfold tile_body_lo.sl.dma0_15
    rw [View.read_write_univ]
    unfold tile_body_lo.sl.dma0_10
    exact val_batch m d _ _ _ _ e (by omega) y
  have hp7 : ∀ y, tile_body_lo.sl.dma0_17 m d L k0_h3 k0_h9 k0_h15 f1 y
      = R m d ((oChunk L 896#32 (k0_off7_inb L 7)).view.emb y) := by
    intro y
    have e : k0_off17 L = k0_off7 L 896#32 := (k0_off17_eq L).trans (k0_off7_eq L 7).symm
    have hr : (k0_off7 L 896#32) 0 = 3072 * Conds.wid L + 128 * 7 := off7_row L 7
    unfold tile_body_lo.sl.dma0_17
    rw [View.read_write_univ]
    unfold tile_body_lo.sl.dma0_12
    exact val_batch m d _ _ _ _ e (by omega) y
  have hp8 : ∀ y, tile_body_lo.sl.dma0_19 m d L k0_h5 k0_h11 k0_h17 f2 y
      = R m d ((oChunk L 1024#32 (k0_off7_inb L 8)).view.emb y) := by
    intro y
    have e : k0_off19 L = k0_off7 L 1024#32 := (k0_off19_eq L).trans (k0_off7_eq L 8).symm
    have hr : (k0_off7 L 1024#32) 0 = 3072 * Conds.wid L + 128 * 8 := off7_row L 8
    unfold tile_body_lo.sl.dma0_19
    rw [View.read_write_univ]
    unfold tile_body_lo.sl.dma0_14
    exact val_batch m d _ _ _ _ e (by omega) y
  have hp9 : ∀ y, tile_body_lo.sl.dma0_21 m d L k0_h1 k0_h7 k0_h13 k0_h19 f0 y
      = R m d ((oChunk L 1152#32 (k0_off7_inb L 9)).view.emb y) := by
    intro y
    have e : k0_off21 L = k0_off7 L 1152#32 := (k0_off21_eq L).trans (k0_off7_eq L 9).symm
    have hr : (k0_off7 L 1152#32) 0 = 3072 * Conds.wid L + 128 * 9 := off7_row L 9
    unfold tile_body_lo.sl.dma0_21
    rw [View.read_write_univ]
    unfold tile_body_lo.sl.dma0_16
    exact val_batch m d _ _ _ _ e (by omega) y
  have hp10 : ∀ y, tile_body_lo.sl.dma0_23 m d L k0_h3 k0_h9 k0_h15 k0_h21 f1 y
      = R m d ((oChunk L 1280#32 (k0_off7_inb L 10)).view.emb y) := by
    intro y
    have e : k0_off23 L = k0_off7 L 1280#32 := (k0_off23_eq L).trans (k0_off7_eq L 10).symm
    have hr : (k0_off7 L 1280#32) 0 = 3072 * Conds.wid L + 128 * 10 := off7_row L 10
    unfold tile_body_lo.sl.dma0_23
    rw [View.read_write_univ]
    unfold tile_body_lo.sl.dma0_18
    exact val_batch m d _ _ _ _ e (by omega) y
  have hp11 : ∀ y, tile_body_lo.sl.dma0_25 m d L k0_h5 k0_h11 k0_h17 k0_h23 f2 y
      = R m d ((oChunk L 1408#32 (k0_off7_inb L 11)).view.emb y) := by
    intro y
    have e : k0_off25 L = k0_off7 L 1408#32 := (k0_off25_eq L).trans (k0_off7_eq L 11).symm
    have hr : (k0_off7 L 1408#32) 0 = 3072 * Conds.wid L + 128 * 11 := off7_row L 11
    unfold tile_body_lo.sl.dma0_25
    rw [View.read_write_univ]
    unfold tile_body_lo.sl.dma0_20
    exact val_batch m d _ _ _ _ e (by omega) y
  have hp12 : ∀ y, tile_body_lo.sl.dma0_27 m d L k0_h1 k0_h7 k0_h13 k0_h19 k0_h25 f0 y
      = R m d ((oChunk L 1536#32 (k0_off7_inb L 12)).view.emb y) := by
    intro y
    have e : k0_off27 L = k0_off7 L 1536#32 := (k0_off27_eq L).trans (k0_off7_eq L 12).symm
    have hr : (k0_off7 L 1536#32) 0 = 3072 * Conds.wid L + 128 * 12 := off7_row L 12
    unfold tile_body_lo.sl.dma0_27
    rw [View.read_write_univ]
    unfold tile_body_lo.sl.dma0_22
    exact val_batch m d _ _ _ _ e (by omega) y
  have hp13 : ∀ y, tile_body_lo.sl.dma0_29 m d L k0_h3 k0_h9 k0_h15 k0_h21 k0_h27 f1 y
      = R m d ((oChunk L 1664#32 (k0_off7_inb L 13)).view.emb y) := by
    intro y
    have e : k0_off29 L = k0_off7 L 1664#32 := (k0_off29_eq L).trans (k0_off7_eq L 13).symm
    have hr : (k0_off7 L 1664#32) 0 = 3072 * Conds.wid L + 128 * 13 := off7_row L 13
    unfold tile_body_lo.sl.dma0_29
    rw [View.read_write_univ]
    unfold tile_body_lo.sl.dma0_24
    exact val_batch m d _ _ _ _ e (by omega) y
  have hp14 : ∀ y, tile_body_lo.sl.dma0_31 m d L k0_h5 k0_h11 k0_h17 k0_h23 k0_h29 f2 y
      = R m d ((oChunk L 1792#32 (k0_off7_inb L 14)).view.emb y) := by
    intro y
    have e : k0_off31 L = k0_off7 L 1792#32 := (k0_off31_eq L).trans (k0_off7_eq L 14).symm
    have hr : (k0_off7 L 1792#32) 0 = 3072 * Conds.wid L + 128 * 14 := off7_row L 14
    unfold tile_body_lo.sl.dma0_31
    rw [View.read_write_univ]
    unfold tile_body_lo.sl.dma0_26
    exact val_batch m d _ _ _ _ e (by omega) y
  have hp15 : ∀ y, tile_body_lo.sl.dma0_33 m d L k0_h1 k0_h7 k0_h13 k0_h19 k0_h25 k0_h31 f0 y
      = R m d ((oChunk L 1920#32 (k0_off7_inb L 15)).view.emb y) := by
    intro y
    have e : k0_off33 L = k0_off7 L 1920#32 := (k0_off33_eq L).trans (k0_off7_eq L 15).symm
    have hr : (k0_off7 L 1920#32) 0 = 3072 * Conds.wid L + 128 * 15 := off7_row L 15
    unfold tile_body_lo.sl.dma0_33
    rw [View.read_write_univ]
    unfold tile_body_lo.sl.dma0_28
    exact val_batch m d _ _ _ _ e (by omega) y
  have hp16 : ∀ y, tile_body_lo.sl.dma0_35 m d L k0_h3 k0_h9 k0_h15 k0_h21 k0_h27 k0_h33 f1 y
      = R m d ((oChunk L 2048#32 (k0_off7_inb L 16)).view.emb y) := by
    intro y
    have e : k0_off35 L = k0_off7 L 2048#32 := (k0_off35_eq L).trans (k0_off7_eq L 16).symm
    have hr : (k0_off7 L 2048#32) 0 = 3072 * Conds.wid L + 128 * 16 := off7_row L 16
    unfold tile_body_lo.sl.dma0_35
    rw [View.read_write_univ]
    unfold tile_body_lo.sl.dma0_30
    exact val_batch m d _ _ _ _ e (by omega) y
  have hp17 : ∀ y, tile_body_lo.sl.dma0_37 m d L k0_h5 k0_h11 k0_h17 k0_h23 k0_h29 k0_h35 f2 y
      = R m d ((oChunk L 2176#32 (k0_off7_inb L 17)).view.emb y) := by
    intro y
    have e : k0_off37 L = k0_off7 L 2176#32 := (k0_off37_eq L).trans (k0_off7_eq L 17).symm
    have hr : (k0_off7 L 2176#32) 0 = 3072 * Conds.wid L + 128 * 17 := off7_row L 17
    unfold tile_body_lo.sl.dma0_37
    rw [View.read_write_univ]
    unfold tile_body_lo.sl.dma0_32
    exact val_batch m d _ _ _ _ e (by omega) y
  have hp18 : ∀ y, tile_body_lo.sl.dma0_39 m d L k0_h1 k0_h7 k0_h13 k0_h19 k0_h25 k0_h31 k0_h37 f0 y
      = R m d ((oChunk L 2304#32 (k0_off7_inb L 18)).view.emb y) := by
    intro y
    have e : k0_off39 L = k0_off7 L 2304#32 := (k0_off39_eq L).trans (k0_off7_eq L 18).symm
    have hr : (k0_off7 L 2304#32) 0 = 3072 * Conds.wid L + 128 * 18 := off7_row L 18
    unfold tile_body_lo.sl.dma0_39
    rw [View.read_write_univ]
    unfold tile_body_lo.sl.dma0_34
    exact val_batch m d _ _ _ _ e (by omega) y
  have hp19 : ∀ y, tile_body_lo.sl.dma0_41 m d L k0_h3 k0_h9 k0_h15 k0_h21 k0_h27 k0_h33 k0_h39 f1 y
      = R m d ((oChunk L 2432#32 (k0_off7_inb L 19)).view.emb y) := by
    intro y
    have e : k0_off41 L = k0_off7 L 2432#32 := (k0_off41_eq L).trans (k0_off7_eq L 19).symm
    have hr : (k0_off7 L 2432#32) 0 = 3072 * Conds.wid L + 128 * 19 := off7_row L 19
    unfold tile_body_lo.sl.dma0_41
    rw [View.read_write_univ]
    unfold tile_body_lo.sl.dma0_36
    exact val_batch m d _ _ _ _ e (by omega) y
  have hp20 : ∀ y, tile_body_lo.sl.dma0_43 m d L k0_h5 k0_h11 k0_h17 k0_h23 k0_h29 k0_h35 k0_h41 f2 y
      = R m d ((oChunk L 2560#32 (k0_off7_inb L 20)).view.emb y) := by
    intro y
    have e : k0_off43 L = k0_off7 L 2560#32 := (k0_off43_eq L).trans (k0_off7_eq L 20).symm
    have hr : (k0_off7 L 2560#32) 0 = 3072 * Conds.wid L + 128 * 20 := off7_row L 20
    unfold tile_body_lo.sl.dma0_43
    rw [View.read_write_univ]
    unfold tile_body_lo.sl.dma0_38
    exact val_batch m d _ _ _ _ e (by omega) y
  have hp21 : ∀ y, tile_body_lo.sl.dma0_45 m d L k0_h1 k0_h7 k0_h13 k0_h19 k0_h25 k0_h31 k0_h37 k0_h43 f0 y
      = R m d ((oChunk L 2688#32 (k0_off7_inb L 21)).view.emb y) := by
    intro y
    have e : k0_off45 L = k0_off7 L 2688#32 := (k0_off45_eq L).trans (k0_off7_eq L 21).symm
    have hr : (k0_off7 L 2688#32) 0 = 3072 * Conds.wid L + 128 * 21 := off7_row L 21
    unfold tile_body_lo.sl.dma0_45
    rw [View.read_write_univ]
    unfold tile_body_lo.sl.dma0_40
    exact val_batch m d _ _ _ _ e (by omega) y
  have hp22 : ∀ y, tile_body_lo.sl.dma0_46 m d L k0_h3 k0_h9 k0_h15 k0_h21 k0_h27 k0_h33 k0_h39 k0_h45 f1 y
      = R m d ((oChunk L 2816#32 (k0_off7_inb L 22)).view.emb y) := by
    intro y
    have e : k0_off47 L = k0_off7 L 2816#32 := (k0_off47_eq L).trans (k0_off7_eq L 22).symm
    have hr : (k0_off7 L 2816#32) 0 = 3072 * Conds.wid L + 128 * 22 := off7_row L 22
    unfold tile_body_lo.sl.dma0_46
    rw [View.read_write_univ]
    unfold tile_body_lo.sl.dma0_42
    exact val_batch m d _ _ _ _ e (by omega) y
  have hp23 : ∀ y, tile_body_lo.sl.dma0_47 m d L k0_h5 k0_h11 k0_h17 k0_h23 k0_h29 k0_h35 k0_h41 k0_h47 f2 y
      = R m d ((oChunk L 2944#32 (k0_off7_inb L 23)).view.emb y) := by
    intro y
    have e : k0_off49 L = k0_off7 L 2944#32 := (k0_off49_eq L).trans (k0_off7_eq L 23).symm
    have hr : (k0_off7 L 2944#32) 0 = 3072 * Conds.wid L + 128 * 23 := off7_row L 23
    unfold tile_body_lo.sl.dma0_47
    rw [View.read_write_univ]
    unfold tile_body_lo.sl.dma0_44
    exact val_batch m d _ _ _ _ e (by omega) y
  isplitl [Hc0 Hc1 Hc2 Hc3 Hc4 Hc5 Hc6 Hc7 Hc8 Hc9 Hc10 Hc11 Hc12 Hc13 Hc14 Hc15 Hc16 Hc17 Hc18 Hc19 Hc20 Hc21 Hc22 Hc23]
  · unfold tdPts
    iapply (chunks_pack (F := F) d L (R m d))
    isplitl [Hc0]; · iapply (chunk_done m d L 0 0#32 (k0_off7_inb L 0) (set_oChunk L 0) _ _ hp0); iexact Hc0
    isplitl [Hc1]; · iapply (chunk_done m d L 1 128#32 (k0_off7_inb L 1) (set_oChunk L 1) _ _ hp1); iexact Hc1
    isplitl [Hc2]; · iapply (chunk_done m d L 2 256#32 (k0_off7_inb L 2) (set_oChunk L 2) _ _ hp2); iexact Hc2
    isplitl [Hc3]; · iapply (chunk_done m d L 3 384#32 (k0_off7_inb L 3) (set_oChunk L 3) _ _ hp3); iexact Hc3
    isplitl [Hc4]; · iapply (chunk_done m d L 4 512#32 (k0_off7_inb L 4) (set_oChunk L 4) _ _ hp4); iexact Hc4
    isplitl [Hc5]; · iapply (chunk_done m d L 5 640#32 (k0_off7_inb L 5) (set_oChunk L 5) _ _ hp5); iexact Hc5
    isplitl [Hc6]; · iapply (chunk_done m d L 6 768#32 (k0_off7_inb L 6) (set_oChunk L 6) _ _ hp6); iexact Hc6
    isplitl [Hc7]; · iapply (chunk_done m d L 7 896#32 (k0_off7_inb L 7) (set_oChunk L 7) _ _ hp7); iexact Hc7
    isplitl [Hc8]; · iapply (chunk_done m d L 8 1024#32 (k0_off7_inb L 8) (set_oChunk L 8) _ _ hp8); iexact Hc8
    isplitl [Hc9]; · iapply (chunk_done m d L 9 1152#32 (k0_off7_inb L 9) (set_oChunk L 9) _ _ hp9); iexact Hc9
    isplitl [Hc10]; · iapply (chunk_done m d L 10 1280#32 (k0_off7_inb L 10) (set_oChunk L 10) _ _ hp10); iexact Hc10
    isplitl [Hc11]; · iapply (chunk_done m d L 11 1408#32 (k0_off7_inb L 11) (set_oChunk L 11) _ _ hp11); iexact Hc11
    isplitl [Hc12]; · iapply (chunk_done m d L 12 1536#32 (k0_off7_inb L 12) (set_oChunk L 12) _ _ hp12); iexact Hc12
    isplitl [Hc13]; · iapply (chunk_done m d L 13 1664#32 (k0_off7_inb L 13) (set_oChunk L 13) _ _ hp13); iexact Hc13
    isplitl [Hc14]; · iapply (chunk_done m d L 14 1792#32 (k0_off7_inb L 14) (set_oChunk L 14) _ _ hp14); iexact Hc14
    isplitl [Hc15]; · iapply (chunk_done m d L 15 1920#32 (k0_off7_inb L 15) (set_oChunk L 15) _ _ hp15); iexact Hc15
    isplitl [Hc16]; · iapply (chunk_done m d L 16 2048#32 (k0_off7_inb L 16) (set_oChunk L 16) _ _ hp16); iexact Hc16
    isplitl [Hc17]; · iapply (chunk_done m d L 17 2176#32 (k0_off7_inb L 17) (set_oChunk L 17) _ _ hp17); iexact Hc17
    isplitl [Hc18]; · iapply (chunk_done m d L 18 2304#32 (k0_off7_inb L 18) (set_oChunk L 18) _ _ hp18); iexact Hc18
    isplitl [Hc19]; · iapply (chunk_done m d L 19 2432#32 (k0_off7_inb L 19) (set_oChunk L 19) _ _ hp19); iexact Hc19
    isplitl [Hc20]; · iapply (chunk_done m d L 20 2560#32 (k0_off7_inb L 20) (set_oChunk L 20) _ _ hp20); iexact Hc20
    isplitl [Hc21]; · iapply (chunk_done m d L 21 2688#32 (k0_off7_inb L 21) (set_oChunk L 21) _ _ hp21); iexact Hc21
    isplitl [Hc22]; · iapply (chunk_done m d L 22 2816#32 (k0_off7_inb L 22) (set_oChunk L 22) _ _ hp22); iexact Hc22
    iapply (chunk_done m d L 23 2944#32 (k0_off7_inb L 23) (set_oChunk L 23) _ _ hp23); iexact Hc23
  isplitl [Hs0 Hs1 Hs2 Hbrest]
  · isplitl [Hs0 Hs1 Hs2]
    · isplitl [Hs0]; · iexists _; iapply (Entails.of_eq (pts_s0 (F := F) d L _)); iexact Hs0
      isplitl [Hs1]; · iexists _; iapply (Entails.of_eq (pts_s1 (F := F) d L _)); iexact Hs1
      iexists _; iapply (Entails.of_eq (pts_s2 (F := F) d L _)); iexact Hs2
    iexact Hbrest
  isplitl [Hg0 Hg1 Hg2 Hq0 Hq1 Hq2 Hsrest]
  · isplitl [Hg0 Hg1 Hg2 Hq0 Hq1 Hq2]
    · isplitl [Hg0]; · iexact Hg0
      isplitl [Hg1]; · iexact Hg1
      isplitl [Hg2]; · iexact Hg2
      isplitl [Hq0]; · iexact Hq0
      isplitl [Hq1]; · iexact Hq1
      iexact Hq2
    iexact Hsrest
  iexists _; isplitr
  on_goal 2 => iexact HO
  ipureintro
  repeat (refine waits_insert rfl ?_)
  exact fun p hp => .inl hp

theorem tile_body_mid (hF : (K (F := F)).Facts) (d : Dev nD) (L : grid0.Coords) (hL : Conds.wid L = 5)
    (O : CellTallies nD τ sig (HIx 1)) (W : Waits sig (HIx 1)) (hO : ∀ g, O g none = 0) :
    iprop(levAts (K (F := F)).L (K (F := F)).lev ∗ emp ∗ goPts m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_routed_copy L aW (Memref.isWhole_whole _) bW (Memref.isWhole_whole _) oW (Memref.isWhole_whole _)
            s0 (Memref.isWhole_whole _) s1 (Memref.isWhole_whole _) s2 (Memref.isWhole_whole _)
            cc0_scratch3 cc0_scratch4 cc0_scratch5 cc0_scratch6 cc0_scratch7 cc0_scratch8)
          fun _ => iprop(tdPts m d L ∗ scopedBufs (V d (cV L) (jV L)) ∗ scopedSems0 (V d (cV L) (jV L))
            ∗ ∃ W', ⌜∀ p ∈ W', p ∈ W ∨ p.2 = none⌝ ∗ owes (V d (cV L) (jV L)) O W') := by
  have k0_h1 := Conds.mid_1 L hL
  have k0_h2 := Conds.mid_2 L hL
  have k0_h3 := Conds.mid_3 L hL
  have k0_h4 := Conds.mid_4 L hL
  have k0_h5 := Conds.mid_5 L hL
  have k0_h6 := Conds.mid_6 L hL
  have k0_h7 := Conds.mid_7 L hL
  have k0_h8 := Conds.mid_8 L hL
  have k0_h9 := Conds.mid_9 L hL
  have k0_h10 := Conds.mid_10 L hL
  have k0_h11 := Conds.mid_11 L hL
  have k0_h12 := Conds.mid_12 L hL
  have k0_h13 := Conds.mid_13 L hL
  have k0_h14 := Conds.mid_14 L hL
  have k0_h15 := Conds.mid_15 L hL
  have k0_h16 := Conds.mid_16 L hL
  have k0_h17 := Conds.mid_17 L hL
  have k0_h18 := Conds.mid_18 L hL
  have k0_h19 := Conds.mid_19 L hL
  have k0_h20 := Conds.mid_20 L hL
  have k0_h21 := Conds.mid_21 L hL
  have k0_h22 := Conds.mid_22 L hL
  have k0_h23 := Conds.mid_23 L hL
  have k0_h24 := Conds.mid_24 L hL
  have k0_h25 := Conds.mid_25 L hL
  have k0_h26 := Conds.mid_26 L hL
  have k0_h27 := Conds.mid_27 L hL
  have k0_h28 := Conds.mid_28 L hL
  have k0_h29 := Conds.mid_29 L hL
  have k0_h30 := Conds.mid_30 L hL
  have k0_h31 := Conds.mid_31 L hL
  have k0_h32 := Conds.mid_32 L hL
  have k0_h33 := Conds.mid_33 L hL
  have k0_h34 := Conds.mid_34 L hL
  have k0_h35 := Conds.mid_35 L hL
  have k0_h36 := Conds.mid_36 L hL
  have k0_h37 := Conds.mid_37 L hL
  have k0_h38 := Conds.mid_38 L hL
  have k0_h39 := Conds.mid_39 L hL
  have k0_h40 := Conds.mid_40 L hL
  have k0_h41 := Conds.mid_41 L hL
  have k0_h42 := Conds.mid_42 L hL
  have k0_h43 := Conds.mid_43 L hL
  have k0_h44 := Conds.mid_44 L hL
  have k0_h45 := Conds.mid_45 L hL
  have k0_h46 := Conds.mid_46 L hL
  have k0_h47 := Conds.mid_47 L hL
  have k0_h48 := Conds.mid_48 L hL
  simp only [cc0__sc_routed_copy_eq_skeleton]; unfold cc0__sc_routed_copy_skel
  rw [(K (F := F)).scopedBufs_V hF d (cV L) (jV L), SparseCore.Cfg.scopedSems0_V (Val := Elt F) d (cV L) (jV L), ownSems0_V, ownBufs_V]
  unfold goPts
  rw [bigSep_fin24]
  iintro ⟨#Hlv, -, ⟨Ha, Hb, Hc0, Hc1, Hc2, Hc3, Hc4, Hc5, Hc6, Hc7, Hc8, Hc9, Hc10, Hc11, Hc12, Hc13, Hc14, Hc15, Hc16, Hc17, Hc18, Hc19, Hc20, Hc21, Hc22, Hc23⟩, ⟨⟨⟨%f0, Hs0⟩, ⟨%f1, Hs1⟩, ⟨%f2, Hs2⟩⟩, Hbrest⟩, ⟨⟨Hg0, Hg1, Hg2, Hq0, Hq1, Hq2⟩, Hsrest⟩, HO⟩
  ihave Hmw := ((K (F := F)).mayWaits_none (thr := V d (cV L) (jV L)) hO) $$ Hlv
  -- three read shares of each source, one per gather in flight
  ihave Ha' := (Transfers.pointsTo_toks_split (qt (L 0).val (L 1).val) 3) $$ Ha
  icases Ha' with ⟨-, Ha'⟩
  ihave Hb' := (Transfers.pointsTo_toks_split (qt (L 0).val (L 1).val) 3) $$ Hb
  icases Hb' with ⟨-, Hb'⟩
  ihave Ha' := (Entails.of_eq (bigSep_fin3 (F := F) _)) $$ Ha'
  ihave Hb' := (Entails.of_eq (bigSep_fin3 (F := F) _)) $$ Hb'
  icases Ha' with ⟨Ha0, Ha1, Ha2⟩
  icases Hb' with ⟨Hb0, Hb1, Hb2⟩
  ihave Ha0 := (Entails.of_eq (pts_a (F := F) d L _ _).symm) $$ Ha0
  ihave Ha1 := (Entails.of_eq (pts_a (F := F) d L _ _).symm) $$ Ha1
  ihave Ha2 := (Entails.of_eq (pts_a (F := F) d L _ _).symm) $$ Ha2
  ihave Hb0 := (Entails.of_eq (pts_b (F := F) d L _ _).symm) $$ Hb0
  ihave Hb1 := (Entails.of_eq (pts_b (F := F) d L _ _).symm) $$ Hb1
  ihave Hb2 := (Entails.of_eq (pts_b (F := F) d L _ _).symm) $$ Hb2
  ihave Hs0 := (Entails.of_eq (pts_s0 (F := F) d L _).symm) $$ Hs0
  ihave Hs1 := (Entails.of_eq (pts_s1 (F := F) d L _).symm) $$ Hs1
  ihave Hs2 := (Entails.of_eq (pts_s2 (F := F) d L _).symm) $$ Hs2
  ihave Hc0 := (Entails.of_eq (pts_oChunk_0 (F := F) d L _).symm) $$ Hc0
  ihave Hc1 := (Entails.of_eq (pts_oChunk_1 (F := F) d L _).symm) $$ Hc1
  ihave Hc2 := (Entails.of_eq (pts_oChunk_2 (F := F) d L _).symm) $$ Hc2
  ihave Hc3 := (Entails.of_eq (pts_oChunk_3 (F := F) d L _).symm) $$ Hc3
  ihave Hc4 := (Entails.of_eq (pts_oChunk_4 (F := F) d L _).symm) $$ Hc4
  ihave Hc5 := (Entails.of_eq (pts_oChunk_5 (F := F) d L _).symm) $$ Hc5
  ihave Hc6 := (Entails.of_eq (pts_oChunk_6 (F := F) d L _).symm) $$ Hc6
  ihave Hc7 := (Entails.of_eq (pts_oChunk_7 (F := F) d L _).symm) $$ Hc7
  ihave Hc8 := (Entails.of_eq (pts_oChunk_8 (F := F) d L _).symm) $$ Hc8
  ihave Hc9 := (Entails.of_eq (pts_oChunk_9 (F := F) d L _).symm) $$ Hc9
  ihave Hc10 := (Entails.of_eq (pts_oChunk_10 (F := F) d L _).symm) $$ Hc10
  ihave Hc11 := (Entails.of_eq (pts_oChunk_11 (F := F) d L _).symm) $$ Hc11
  ihave Hc12 := (Entails.of_eq (pts_oChunk_12 (F := F) d L _).symm) $$ Hc12
  ihave Hc13 := (Entails.of_eq (pts_oChunk_13 (F := F) d L _).symm) $$ Hc13
  ihave Hc14 := (Entails.of_eq (pts_oChunk_14 (F := F) d L _).symm) $$ Hc14
  ihave Hc15 := (Entails.of_eq (pts_oChunk_15 (F := F) d L _).symm) $$ Hc15
  ihave Hc16 := (Entails.of_eq (pts_oChunk_16 (F := F) d L _).symm) $$ Hc16
  ihave Hc17 := (Entails.of_eq (pts_oChunk_17 (F := F) d L _).symm) $$ Hc17
  ihave Hc18 := (Entails.of_eq (pts_oChunk_18 (F := F) d L _).symm) $$ Hc18
  ihave Hc19 := (Entails.of_eq (pts_oChunk_19 (F := F) d L _).symm) $$ Hc19
  ihave Hc20 := (Entails.of_eq (pts_oChunk_20 (F := F) d L _).symm) $$ Hc20
  ihave Hc21 := (Entails.of_eq (pts_oChunk_21 (F := F) d L _).symm) $$ Hc21
  ihave Hc22 := (Entails.of_eq (pts_oChunk_22 (F := F) d L _).symm) $$ Hc22
  ihave Hc23 := (Entails.of_eq (pts_oChunk_23 (F := F) d L _).symm) $$ Hc23
  sl_exec_parts
  sl_step
  have hp0 : ∀ y, tile_body_mid.sl.dma0_3 m d L k0_h1 f0 y
      = R m d ((oChunk L 0#32 (k0_off7_inb L 0)).view.emb y) := by
    intro y
    have e : k0_off1 L = k0_off7 L 0#32 := (k0_off1_eq L).trans (k0_off7_eq L 0).symm
    have hr : (k0_off7 L 0#32) 0 = 3072 * Conds.wid L + 128 * 0 := off7_row L 0
    unfold tile_body_mid.sl.dma0_3
    rw [View.read_write_univ]
    unfold tile_body_mid.sl.dma0
    exact val_batch m d _ _ _ _ e (by omega) y
  have hp1 : ∀ y, tile_body_mid.sl.dma0_5 m d L k0_h3 f1 y
      = R m d ((oChunk L 128#32 (k0_off7_inb L 1)).view.emb y) := by
    intro y
    have e : k0_off3 L = k0_off7 L 128#32 := (k0_off3_eq L).trans (k0_off7_eq L 1).symm
    have hr : (k0_off7 L 128#32) 0 = 3072 * Conds.wid L + 128 * 1 := off7_row L 1
    unfold tile_body_mid.sl.dma0_5
    rw [View.read_write_univ]
    unfold tile_body_mid.sl.dma0_1
    exact val_batch m d _ _ _ _ e (by omega) y
  have hp2 : ∀ y, tile_body_mid.sl.dma0_7 m d L k0_h5 f2 y
      = R m d ((oChunk L 256#32 (k0_off7_inb L 2)).view.emb y) := by
    intro y
    have e : k0_off5 L = k0_off7 L 256#32 := (k0_off5_eq L).trans (k0_off7_eq L 2).symm
    have hr : (k0_off7 L 256#32) 0 = 3072 * Conds.wid L + 128 * 2 := off7_row L 2
    unfold tile_body_mid.sl.dma0_7
    rw [View.read_write_univ]
    unfold tile_body_mid.sl.dma0_2
    exact val_batch m d _ _ _ _ e (by omega) y
  have hp3 : ∀ y, tile_body_mid.sl.dma0_9 m d L k0_h1 k0_h7 f0 y
      = R m d ((oChunk L 384#32 (k0_off7_inb L 3)).view.emb y) := by
    intro y
    have e : k0_off9 L = k0_off7 L 384#32 := (k0_off9_eq L).trans (k0_off7_eq L 3).symm
    have hr : (k0_off7 L 384#32) 0 = 3072 * Conds.wid L + 128 * 3 := off7_row L 3
    unfold tile_body_mid.sl.dma0_9
    rw [View.read_write_univ]
    unfold tile_body_mid.sl.dma0_4
    exact val_batch m d _ _ _ _ e (by omega) y
  have hp4 : ∀ y, tile_body_mid.sl.dma0_11 m d L k0_h3 k0_h9 f1 y
      = R m d ((oChunk L 512#32 (k0_off7_inb L 4)).view.emb y) := by
    intro y
    have e : k0_off11 L = k0_off7 L 512#32 := (k0_off11_eq L).trans (k0_off7_eq L 4).symm
    have hr : (k0_off7 L 512#32) 0 = 3072 * Conds.wid L + 128 * 4 := off7_row L 4
    unfold tile_body_mid.sl.dma0_11
    rw [View.read_write_univ]
    unfold tile_body_mid.sl.dma0_6
    exact val_batch m d _ _ _ _ e (by omega) y
  have hp5 : ∀ y, tile_body_mid.sl.dma0_13 m d L k0_h5 k0_h11 f2 y
      = R m d ((oChunk L 640#32 (k0_off7_inb L 5)).view.emb y) := by
    intro y
    have e : k0_off13 L = k0_off7 L 640#32 := (k0_off13_eq L).trans (k0_off7_eq L 5).symm
    have hr : (k0_off7 L 640#32) 0 = 3072 * Conds.wid L + 128 * 5 := off7_row L 5
    unfold tile_body_mid.sl.dma0_13
    rw [View.read_write_univ]
    unfold tile_body_mid.sl.dma0_8
    exact val_batch m d _ _ _ _ e (by omega) y
  have hp6 : ∀ y, tile_body_mid.sl.dma0_15 m d L k0_h1 k0_h7 k0_h13 f0 y
      = R m d ((oChunk L 768#32 (k0_off7_inb L 6)).view.emb y) := by
    intro y
    have e : k0_off15 L = k0_off7 L 768#32 := (k0_off15_eq L).trans (k0_off7_eq L 6).symm
    have hr : (k0_off7 L 768#32) 0 = 3072 * Conds.wid L + 128 * 6 := off7_row L 6
    unfold tile_body_mid.sl.dma0_15
    rw [View.read_write_univ]
    unfold tile_body_mid.sl.dma0_10
    exact val_batch m d _ _ _ _ e (by omega) y
  have hp7 : ∀ y, tile_body_mid.sl.dma0_17 m d L k0_h3 k0_h9 k0_h15 f1 y
      = R m d ((oChunk L 896#32 (k0_off7_inb L 7)).view.emb y) := by
    intro y
    have e : k0_off17 L = k0_off7 L 896#32 := (k0_off17_eq L).trans (k0_off7_eq L 7).symm
    have hr : (k0_off7 L 896#32) 0 = 3072 * Conds.wid L + 128 * 7 := off7_row L 7
    unfold tile_body_mid.sl.dma0_17
    rw [View.read_write_univ]
    unfold tile_body_mid.sl.dma0_12
    exact val_batch m d _ _ _ _ e (by omega) y
  have hp8 : ∀ y, tile_body_mid.sl.dma0_19 m d L k0_h5 k0_h11 k0_h18 f2 y
      = R m d ((oChunk L 1024#32 (k0_off7_inb L 8)).view.emb y) := by
    intro y
    have e : k0_off20 L = k0_off7 L 1024#32 := (k0_off20_eq L).trans (k0_off7_eq L 8).symm
    have hr : (k0_off7 L 1024#32) 0 = 3072 * Conds.wid L + 128 * 8 := off7_row L 8
    unfold tile_body_mid.sl.dma0_19
    rw [View.read_write_univ]
    unfold tile_body_mid.sl.dma0_14
    exact val_buffer m d _ _ _ _ e (by omega) y
  have hp9 : ∀ y, tile_body_mid.sl.dma0_21 m d L k0_h1 k0_h7 k0_h13 k0_h20 f0 y
      = R m d ((oChunk L 1152#32 (k0_off7_inb L 9)).view.emb y) := by
    intro y
    have e : k0_off22 L = k0_off7 L 1152#32 := (k0_off22_eq L).trans (k0_off7_eq L 9).symm
    have hr : (k0_off7 L 1152#32) 0 = 3072 * Conds.wid L + 128 * 9 := off7_row L 9
    unfold tile_body_mid.sl.dma0_21
    rw [View.read_write_univ]
    unfold tile_body_mid.sl.dma0_16
    exact val_buffer m d _ _ _ _ e (by omega) y
  have hp10 : ∀ y, tile_body_mid.sl.dma0_23 m d L k0_h3 k0_h9 k0_h15 k0_h22 f1 y
      = R m d ((oChunk L 1280#32 (k0_off7_inb L 10)).view.emb y) := by
    intro y
    have e : k0_off24 L = k0_off7 L 1280#32 := (k0_off24_eq L).trans (k0_off7_eq L 10).symm
    have hr : (k0_off7 L 1280#32) 0 = 3072 * Conds.wid L + 128 * 10 := off7_row L 10
    unfold tile_body_mid.sl.dma0_23
    rw [View.read_write_univ]
    unfold tile_body_mid.sl.dma0_18
    exact val_buffer m d _ _ _ _ e (by omega) y
  have hp11 : ∀ y, tile_body_mid.sl.dma0_25 m d L k0_h5 k0_h11 k0_h18 k0_h24 f2 y
      = R m d ((oChunk L 1408#32 (k0_off7_inb L 11)).view.emb y) := by
    intro y
    have e : k0_off26 L = k0_off7 L 1408#32 := (k0_off26_eq L).trans (k0_off7_eq L 11).symm
    have hr : (k0_off7 L 1408#32) 0 = 3072 * Conds.wid L + 128 * 11 := off7_row L 11
    unfold tile_body_mid.sl.dma0_25
    rw [View.read_write_univ]
    unfold tile_body_mid.sl.dma0_20
    exact val_buffer m d _ _ _ _ e (by omega) y
  have hp12 : ∀ y, tile_body_mid.sl.dma0_27 m d L k0_h1 k0_h7 k0_h13 k0_h20 k0_h26 f0 y
      = R m d ((oChunk L 1536#32 (k0_off7_inb L 12)).view.emb y) := by
    intro y
    have e : k0_off28 L = k0_off7 L 1536#32 := (k0_off28_eq L).trans (k0_off7_eq L 12).symm
    have hr : (k0_off7 L 1536#32) 0 = 3072 * Conds.wid L + 128 * 12 := off7_row L 12
    unfold tile_body_mid.sl.dma0_27
    rw [View.read_write_univ]
    unfold tile_body_mid.sl.dma0_22
    exact val_buffer m d _ _ _ _ e (by omega) y
  have hp13 : ∀ y, tile_body_mid.sl.dma0_29 m d L k0_h3 k0_h9 k0_h15 k0_h22 k0_h28 f1 y
      = R m d ((oChunk L 1664#32 (k0_off7_inb L 13)).view.emb y) := by
    intro y
    have e : k0_off30 L = k0_off7 L 1664#32 := (k0_off30_eq L).trans (k0_off7_eq L 13).symm
    have hr : (k0_off7 L 1664#32) 0 = 3072 * Conds.wid L + 128 * 13 := off7_row L 13
    unfold tile_body_mid.sl.dma0_29
    rw [View.read_write_univ]
    unfold tile_body_mid.sl.dma0_24
    exact val_buffer m d _ _ _ _ e (by omega) y
  have hp14 : ∀ y, tile_body_mid.sl.dma0_31 m d L k0_h5 k0_h11 k0_h18 k0_h24 k0_h30 f2 y
      = R m d ((oChunk L 1792#32 (k0_off7_inb L 14)).view.emb y) := by
    intro y
    have e : k0_off32 L = k0_off7 L 1792#32 := (k0_off32_eq L).trans (k0_off7_eq L 14).symm
    have hr : (k0_off7 L 1792#32) 0 = 3072 * Conds.wid L + 128 * 14 := off7_row L 14
    unfold tile_body_mid.sl.dma0_31
    rw [View.read_write_univ]
    unfold tile_body_mid.sl.dma0_26
    exact val_buffer m d _ _ _ _ e (by omega) y
  have hp15 : ∀ y, tile_body_mid.sl.dma0_33 m d L k0_h1 k0_h7 k0_h13 k0_h20 k0_h26 k0_h32 f0 y
      = R m d ((oChunk L 1920#32 (k0_off7_inb L 15)).view.emb y) := by
    intro y
    have e : k0_off34 L = k0_off7 L 1920#32 := (k0_off34_eq L).trans (k0_off7_eq L 15).symm
    have hr : (k0_off7 L 1920#32) 0 = 3072 * Conds.wid L + 128 * 15 := off7_row L 15
    unfold tile_body_mid.sl.dma0_33
    rw [View.read_write_univ]
    unfold tile_body_mid.sl.dma0_28
    exact val_buffer m d _ _ _ _ e (by omega) y
  have hp16 : ∀ y, tile_body_mid.sl.dma0_35 m d L k0_h3 k0_h9 k0_h15 k0_h22 k0_h28 k0_h34 f1 y
      = R m d ((oChunk L 2048#32 (k0_off7_inb L 16)).view.emb y) := by
    intro y
    have e : k0_off36 L = k0_off7 L 2048#32 := (k0_off36_eq L).trans (k0_off7_eq L 16).symm
    have hr : (k0_off7 L 2048#32) 0 = 3072 * Conds.wid L + 128 * 16 := off7_row L 16
    unfold tile_body_mid.sl.dma0_35
    rw [View.read_write_univ]
    unfold tile_body_mid.sl.dma0_30
    exact val_buffer m d _ _ _ _ e (by omega) y
  have hp17 : ∀ y, tile_body_mid.sl.dma0_37 m d L k0_h5 k0_h11 k0_h18 k0_h24 k0_h30 k0_h36 f2 y
      = R m d ((oChunk L 2176#32 (k0_off7_inb L 17)).view.emb y) := by
    intro y
    have e : k0_off38 L = k0_off7 L 2176#32 := (k0_off38_eq L).trans (k0_off7_eq L 17).symm
    have hr : (k0_off7 L 2176#32) 0 = 3072 * Conds.wid L + 128 * 17 := off7_row L 17
    unfold tile_body_mid.sl.dma0_37
    rw [View.read_write_univ]
    unfold tile_body_mid.sl.dma0_32
    exact val_buffer m d _ _ _ _ e (by omega) y
  have hp18 : ∀ y, tile_body_mid.sl.dma0_39 m d L k0_h1 k0_h7 k0_h13 k0_h20 k0_h26 k0_h32 k0_h38 f0 y
      = R m d ((oChunk L 2304#32 (k0_off7_inb L 18)).view.emb y) := by
    intro y
    have e : k0_off40 L = k0_off7 L 2304#32 := (k0_off40_eq L).trans (k0_off7_eq L 18).symm
    have hr : (k0_off7 L 2304#32) 0 = 3072 * Conds.wid L + 128 * 18 := off7_row L 18
    unfold tile_body_mid.sl.dma0_39
    rw [View.read_write_univ]
    unfold tile_body_mid.sl.dma0_34
    exact val_buffer m d _ _ _ _ e (by omega) y
  have hp19 : ∀ y, tile_body_mid.sl.dma0_41 m d L k0_h3 k0_h9 k0_h15 k0_h22 k0_h28 k0_h34 k0_h40 f1 y
      = R m d ((oChunk L 2432#32 (k0_off7_inb L 19)).view.emb y) := by
    intro y
    have e : k0_off42 L = k0_off7 L 2432#32 := (k0_off42_eq L).trans (k0_off7_eq L 19).symm
    have hr : (k0_off7 L 2432#32) 0 = 3072 * Conds.wid L + 128 * 19 := off7_row L 19
    unfold tile_body_mid.sl.dma0_41
    rw [View.read_write_univ]
    unfold tile_body_mid.sl.dma0_36
    exact val_buffer m d _ _ _ _ e (by omega) y
  have hp20 : ∀ y, tile_body_mid.sl.dma0_43 m d L k0_h5 k0_h11 k0_h18 k0_h24 k0_h30 k0_h36 k0_h42 f2 y
      = R m d ((oChunk L 2560#32 (k0_off7_inb L 20)).view.emb y) := by
    intro y
    have e : k0_off44 L = k0_off7 L 2560#32 := (k0_off44_eq L).trans (k0_off7_eq L 20).symm
    have hr : (k0_off7 L 2560#32) 0 = 3072 * Conds.wid L + 128 * 20 := off7_row L 20
    unfold tile_body_mid.sl.dma0_43
    rw [View.read_write_univ]
    unfold tile_body_mid.sl.dma0_38
    exact val_buffer m d _ _ _ _ e (by omega) y
  have hp21 : ∀ y, tile_body_mid.sl.dma0_45 m d L k0_h1 k0_h7 k0_h13 k0_h20 k0_h26 k0_h32 k0_h38 k0_h44 f0 y
      = R m d ((oChunk L 2688#32 (k0_off7_inb L 21)).view.emb y) := by
    intro y
    have e : k0_off46 L = k0_off7 L 2688#32 := (k0_off46_eq L).trans (k0_off7_eq L 21).symm
    have hr : (k0_off7 L 2688#32) 0 = 3072 * Conds.wid L + 128 * 21 := off7_row L 21
    unfold tile_body_mid.sl.dma0_45
    rw [View.read_write_univ]
    unfold tile_body_mid.sl.dma0_40
    exact val_buffer m d _ _ _ _ e (by omega) y
  have hp22 : ∀ y, tile_body_mid.sl.dma0_46 m d L k0_h3 k0_h9 k0_h15 k0_h22 k0_h28 k0_h34 k0_h40 k0_h46 f1 y
      = R m d ((oChunk L 2816#32 (k0_off7_inb L 22)).view.emb y) := by
    intro y
    have e : k0_off48 L = k0_off7 L 2816#32 := (k0_off48_eq L).trans (k0_off7_eq L 22).symm
    have hr : (k0_off7 L 2816#32) 0 = 3072 * Conds.wid L + 128 * 22 := off7_row L 22
    unfold tile_body_mid.sl.dma0_46
    rw [View.read_write_univ]
    unfold tile_body_mid.sl.dma0_42
    exact val_buffer m d _ _ _ _ e (by omega) y
  have hp23 : ∀ y, tile_body_mid.sl.dma0_47 m d L k0_h5 k0_h11 k0_h18 k0_h24 k0_h30 k0_h36 k0_h42 k0_h48 f2 y
      = R m d ((oChunk L 2944#32 (k0_off7_inb L 23)).view.emb y) := by
    intro y
    have e : k0_off50 L = k0_off7 L 2944#32 := (k0_off50_eq L).trans (k0_off7_eq L 23).symm
    have hr : (k0_off7 L 2944#32) 0 = 3072 * Conds.wid L + 128 * 23 := off7_row L 23
    unfold tile_body_mid.sl.dma0_47
    rw [View.read_write_univ]
    unfold tile_body_mid.sl.dma0_44
    exact val_buffer m d _ _ _ _ e (by omega) y
  isplitl [Hc0 Hc1 Hc2 Hc3 Hc4 Hc5 Hc6 Hc7 Hc8 Hc9 Hc10 Hc11 Hc12 Hc13 Hc14 Hc15 Hc16 Hc17 Hc18 Hc19 Hc20 Hc21 Hc22 Hc23]
  · unfold tdPts
    iapply (chunks_pack (F := F) d L (R m d))
    isplitl [Hc0]; · iapply (chunk_done m d L 0 0#32 (k0_off7_inb L 0) (set_oChunk L 0) _ _ hp0); iexact Hc0
    isplitl [Hc1]; · iapply (chunk_done m d L 1 128#32 (k0_off7_inb L 1) (set_oChunk L 1) _ _ hp1); iexact Hc1
    isplitl [Hc2]; · iapply (chunk_done m d L 2 256#32 (k0_off7_inb L 2) (set_oChunk L 2) _ _ hp2); iexact Hc2
    isplitl [Hc3]; · iapply (chunk_done m d L 3 384#32 (k0_off7_inb L 3) (set_oChunk L 3) _ _ hp3); iexact Hc3
    isplitl [Hc4]; · iapply (chunk_done m d L 4 512#32 (k0_off7_inb L 4) (set_oChunk L 4) _ _ hp4); iexact Hc4
    isplitl [Hc5]; · iapply (chunk_done m d L 5 640#32 (k0_off7_inb L 5) (set_oChunk L 5) _ _ hp5); iexact Hc5
    isplitl [Hc6]; · iapply (chunk_done m d L 6 768#32 (k0_off7_inb L 6) (set_oChunk L 6) _ _ hp6); iexact Hc6
    isplitl [Hc7]; · iapply (chunk_done m d L 7 896#32 (k0_off7_inb L 7) (set_oChunk L 7) _ _ hp7); iexact Hc7
    isplitl [Hc8]; · iapply (chunk_done m d L 8 1024#32 (k0_off7_inb L 8) (set_oChunk L 8) _ _ hp8); iexact Hc8
    isplitl [Hc9]; · iapply (chunk_done m d L 9 1152#32 (k0_off7_inb L 9) (set_oChunk L 9) _ _ hp9); iexact Hc9
    isplitl [Hc10]; · iapply (chunk_done m d L 10 1280#32 (k0_off7_inb L 10) (set_oChunk L 10) _ _ hp10); iexact Hc10
    isplitl [Hc11]; · iapply (chunk_done m d L 11 1408#32 (k0_off7_inb L 11) (set_oChunk L 11) _ _ hp11); iexact Hc11
    isplitl [Hc12]; · iapply (chunk_done m d L 12 1536#32 (k0_off7_inb L 12) (set_oChunk L 12) _ _ hp12); iexact Hc12
    isplitl [Hc13]; · iapply (chunk_done m d L 13 1664#32 (k0_off7_inb L 13) (set_oChunk L 13) _ _ hp13); iexact Hc13
    isplitl [Hc14]; · iapply (chunk_done m d L 14 1792#32 (k0_off7_inb L 14) (set_oChunk L 14) _ _ hp14); iexact Hc14
    isplitl [Hc15]; · iapply (chunk_done m d L 15 1920#32 (k0_off7_inb L 15) (set_oChunk L 15) _ _ hp15); iexact Hc15
    isplitl [Hc16]; · iapply (chunk_done m d L 16 2048#32 (k0_off7_inb L 16) (set_oChunk L 16) _ _ hp16); iexact Hc16
    isplitl [Hc17]; · iapply (chunk_done m d L 17 2176#32 (k0_off7_inb L 17) (set_oChunk L 17) _ _ hp17); iexact Hc17
    isplitl [Hc18]; · iapply (chunk_done m d L 18 2304#32 (k0_off7_inb L 18) (set_oChunk L 18) _ _ hp18); iexact Hc18
    isplitl [Hc19]; · iapply (chunk_done m d L 19 2432#32 (k0_off7_inb L 19) (set_oChunk L 19) _ _ hp19); iexact Hc19
    isplitl [Hc20]; · iapply (chunk_done m d L 20 2560#32 (k0_off7_inb L 20) (set_oChunk L 20) _ _ hp20); iexact Hc20
    isplitl [Hc21]; · iapply (chunk_done m d L 21 2688#32 (k0_off7_inb L 21) (set_oChunk L 21) _ _ hp21); iexact Hc21
    isplitl [Hc22]; · iapply (chunk_done m d L 22 2816#32 (k0_off7_inb L 22) (set_oChunk L 22) _ _ hp22); iexact Hc22
    iapply (chunk_done m d L 23 2944#32 (k0_off7_inb L 23) (set_oChunk L 23) _ _ hp23); iexact Hc23
  isplitl [Hs0 Hs1 Hs2 Hbrest]
  · isplitl [Hs0 Hs1 Hs2]
    · isplitl [Hs0]; · iexists _; iapply (Entails.of_eq (pts_s0 (F := F) d L _)); iexact Hs0
      isplitl [Hs1]; · iexists _; iapply (Entails.of_eq (pts_s1 (F := F) d L _)); iexact Hs1
      iexists _; iapply (Entails.of_eq (pts_s2 (F := F) d L _)); iexact Hs2
    iexact Hbrest
  isplitl [Hg0 Hg1 Hg2 Hq0 Hq1 Hq2 Hsrest]
  · isplitl [Hg0 Hg1 Hg2 Hq0 Hq1 Hq2]
    · isplitl [Hg0]; · iexact Hg0
      isplitl [Hg1]; · iexact Hg1
      isplitl [Hg2]; · iexact Hg2
      isplitl [Hq0]; · iexact Hq0
      isplitl [Hq1]; · iexact Hq1
      iexact Hq2
    iexact Hsrest
  iexists _; isplitr
  on_goal 2 => iexact HO
  ipureintro
  repeat (refine waits_insert rfl ?_)
  exact fun p hp => .inl hp

theorem tile_body_hi (hF : (K (F := F)).Facts) (d : Dev nD) (L : grid0.Coords) (hL : 6 ≤ Conds.wid L)
    (O : CellTallies nD τ sig (HIx 1)) (W : Waits sig (HIx 1)) (hO : ∀ g, O g none = 0) :
    iprop(levAts (K (F := F)).L (K (F := F)).lev ∗ emp ∗ goPts m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_routed_copy L aW (Memref.isWhole_whole _) bW (Memref.isWhole_whole _) oW (Memref.isWhole_whole _)
            s0 (Memref.isWhole_whole _) s1 (Memref.isWhole_whole _) s2 (Memref.isWhole_whole _)
            cc0_scratch3 cc0_scratch4 cc0_scratch5 cc0_scratch6 cc0_scratch7 cc0_scratch8)
          fun _ => iprop(tdPts m d L ∗ scopedBufs (V d (cV L) (jV L)) ∗ scopedSems0 (V d (cV L) (jV L))
            ∗ ∃ W', ⌜∀ p ∈ W', p ∈ W ∨ p.2 = none⌝ ∗ owes (V d (cV L) (jV L)) O W') := by
  have k0_h1 := Conds.hi_1 L hL
  have k0_h2 := Conds.hi_2 L hL
  have k0_h3 := Conds.hi_3 L hL
  have k0_h4 := Conds.hi_4 L hL
  have k0_h5 := Conds.hi_5 L hL
  have k0_h6 := Conds.hi_6 L hL
  have k0_h7 := Conds.hi_7 L hL
  have k0_h8 := Conds.hi_8 L hL
  have k0_h9 := Conds.hi_9 L hL
  have k0_h10 := Conds.hi_10 L hL
  have k0_h11 := Conds.hi_11 L hL
  have k0_h12 := Conds.hi_12 L hL
  have k0_h13 := Conds.hi_13 L hL
  have k0_h14 := Conds.hi_14 L hL
  have k0_h15 := Conds.hi_15 L hL
  have k0_h16 := Conds.hi_16 L hL
  have k0_h17 := Conds.hi_17 L hL
  have k0_h18 := Conds.hi_18 L hL
  have k0_h19 := Conds.hi_19 L hL
  have k0_h20 := Conds.hi_20 L hL
  have k0_h21 := Conds.hi_21 L hL
  have k0_h22 := Conds.hi_22 L hL
  have k0_h23 := Conds.hi_23 L hL
  have k0_h24 := Conds.hi_24 L hL
  have k0_h25 := Conds.hi_25 L hL
  have k0_h26 := Conds.hi_26 L hL
  have k0_h27 := Conds.hi_27 L hL
  have k0_h28 := Conds.hi_28 L hL
  have k0_h29 := Conds.hi_29 L hL
  have k0_h30 := Conds.hi_30 L hL
  have k0_h31 := Conds.hi_31 L hL
  have k0_h32 := Conds.hi_32 L hL
  have k0_h33 := Conds.hi_33 L hL
  have k0_h34 := Conds.hi_34 L hL
  have k0_h35 := Conds.hi_35 L hL
  have k0_h36 := Conds.hi_36 L hL
  have k0_h37 := Conds.hi_37 L hL
  have k0_h38 := Conds.hi_38 L hL
  have k0_h39 := Conds.hi_39 L hL
  have k0_h40 := Conds.hi_40 L hL
  have k0_h41 := Conds.hi_41 L hL
  have k0_h42 := Conds.hi_42 L hL
  have k0_h43 := Conds.hi_43 L hL
  have k0_h44 := Conds.hi_44 L hL
  have k0_h45 := Conds.hi_45 L hL
  have k0_h46 := Conds.hi_46 L hL
  have k0_h47 := Conds.hi_47 L hL
  have k0_h48 := Conds.hi_48 L hL
  simp only [cc0__sc_routed_copy_eq_skeleton]; unfold cc0__sc_routed_copy_skel
  rw [(K (F := F)).scopedBufs_V hF d (cV L) (jV L), SparseCore.Cfg.scopedSems0_V (Val := Elt F) d (cV L) (jV L), ownSems0_V, ownBufs_V]
  unfold goPts
  rw [bigSep_fin24]
  iintro ⟨#Hlv, -, ⟨Ha, Hb, Hc0, Hc1, Hc2, Hc3, Hc4, Hc5, Hc6, Hc7, Hc8, Hc9, Hc10, Hc11, Hc12, Hc13, Hc14, Hc15, Hc16, Hc17, Hc18, Hc19, Hc20, Hc21, Hc22, Hc23⟩, ⟨⟨⟨%f0, Hs0⟩, ⟨%f1, Hs1⟩, ⟨%f2, Hs2⟩⟩, Hbrest⟩, ⟨⟨Hg0, Hg1, Hg2, Hq0, Hq1, Hq2⟩, Hsrest⟩, HO⟩
  ihave Hmw := ((K (F := F)).mayWaits_none (thr := V d (cV L) (jV L)) hO) $$ Hlv
  -- three read shares of each source, one per gather in flight
  ihave Ha' := (Transfers.pointsTo_toks_split (qt (L 0).val (L 1).val) 3) $$ Ha
  icases Ha' with ⟨-, Ha'⟩
  ihave Hb' := (Transfers.pointsTo_toks_split (qt (L 0).val (L 1).val) 3) $$ Hb
  icases Hb' with ⟨-, Hb'⟩
  ihave Ha' := (Entails.of_eq (bigSep_fin3 (F := F) _)) $$ Ha'
  ihave Hb' := (Entails.of_eq (bigSep_fin3 (F := F) _)) $$ Hb'
  icases Ha' with ⟨Ha0, Ha1, Ha2⟩
  icases Hb' with ⟨Hb0, Hb1, Hb2⟩
  ihave Ha0 := (Entails.of_eq (pts_a (F := F) d L _ _).symm) $$ Ha0
  ihave Ha1 := (Entails.of_eq (pts_a (F := F) d L _ _).symm) $$ Ha1
  ihave Ha2 := (Entails.of_eq (pts_a (F := F) d L _ _).symm) $$ Ha2
  ihave Hb0 := (Entails.of_eq (pts_b (F := F) d L _ _).symm) $$ Hb0
  ihave Hb1 := (Entails.of_eq (pts_b (F := F) d L _ _).symm) $$ Hb1
  ihave Hb2 := (Entails.of_eq (pts_b (F := F) d L _ _).symm) $$ Hb2
  ihave Hs0 := (Entails.of_eq (pts_s0 (F := F) d L _).symm) $$ Hs0
  ihave Hs1 := (Entails.of_eq (pts_s1 (F := F) d L _).symm) $$ Hs1
  ihave Hs2 := (Entails.of_eq (pts_s2 (F := F) d L _).symm) $$ Hs2
  ihave Hc0 := (Entails.of_eq (pts_oChunk_0 (F := F) d L _).symm) $$ Hc0
  ihave Hc1 := (Entails.of_eq (pts_oChunk_1 (F := F) d L _).symm) $$ Hc1
  ihave Hc2 := (Entails.of_eq (pts_oChunk_2 (F := F) d L _).symm) $$ Hc2
  ihave Hc3 := (Entails.of_eq (pts_oChunk_3 (F := F) d L _).symm) $$ Hc3
  ihave Hc4 := (Entails.of_eq (pts_oChunk_4 (F := F) d L _).symm) $$ Hc4
  ihave Hc5 := (Entails.of_eq (pts_oChunk_5 (F := F) d L _).symm) $$ Hc5
  ihave Hc6 := (Entails.of_eq (pts_oChunk_6 (F := F) d L _).symm) $$ Hc6
  ihave Hc7 := (Entails.of_eq (pts_oChunk_7 (F := F) d L _).symm) $$ Hc7
  ihave Hc8 := (Entails.of_eq (pts_oChunk_8 (F := F) d L _).symm) $$ Hc8
  ihave Hc9 := (Entails.of_eq (pts_oChunk_9 (F := F) d L _).symm) $$ Hc9
  ihave Hc10 := (Entails.of_eq (pts_oChunk_10 (F := F) d L _).symm) $$ Hc10
  ihave Hc11 := (Entails.of_eq (pts_oChunk_11 (F := F) d L _).symm) $$ Hc11
  ihave Hc12 := (Entails.of_eq (pts_oChunk_12 (F := F) d L _).symm) $$ Hc12
  ihave Hc13 := (Entails.of_eq (pts_oChunk_13 (F := F) d L _).symm) $$ Hc13
  ihave Hc14 := (Entails.of_eq (pts_oChunk_14 (F := F) d L _).symm) $$ Hc14
  ihave Hc15 := (Entails.of_eq (pts_oChunk_15 (F := F) d L _).symm) $$ Hc15
  ihave Hc16 := (Entails.of_eq (pts_oChunk_16 (F := F) d L _).symm) $$ Hc16
  ihave Hc17 := (Entails.of_eq (pts_oChunk_17 (F := F) d L _).symm) $$ Hc17
  ihave Hc18 := (Entails.of_eq (pts_oChunk_18 (F := F) d L _).symm) $$ Hc18
  ihave Hc19 := (Entails.of_eq (pts_oChunk_19 (F := F) d L _).symm) $$ Hc19
  ihave Hc20 := (Entails.of_eq (pts_oChunk_20 (F := F) d L _).symm) $$ Hc20
  ihave Hc21 := (Entails.of_eq (pts_oChunk_21 (F := F) d L _).symm) $$ Hc21
  ihave Hc22 := (Entails.of_eq (pts_oChunk_22 (F := F) d L _).symm) $$ Hc22
  ihave Hc23 := (Entails.of_eq (pts_oChunk_23 (F := F) d L _).symm) $$ Hc23
  sl_exec_parts
  sl_step
  have hp0 : ∀ y, tile_body_hi.sl.dma0_3 m d L k0_h2 f0 y
      = R m d ((oChunk L 0#32 (k0_off7_inb L 0)).view.emb y) := by
    intro y
    have e : k0_off2 L = k0_off7 L 0#32 := (k0_off2_eq L).trans (k0_off7_eq L 0).symm
    have hr : (k0_off7 L 0#32) 0 = 3072 * Conds.wid L + 128 * 0 := off7_row L 0
    unfold tile_body_hi.sl.dma0_3
    rw [View.read_write_univ]
    unfold tile_body_hi.sl.dma0
    exact val_buffer m d _ _ _ _ e (by omega) y
  have hp1 : ∀ y, tile_body_hi.sl.dma0_5 m d L k0_h4 f1 y
      = R m d ((oChunk L 128#32 (k0_off7_inb L 1)).view.emb y) := by
    intro y
    have e : k0_off4 L = k0_off7 L 128#32 := (k0_off4_eq L).trans (k0_off7_eq L 1).symm
    have hr : (k0_off7 L 128#32) 0 = 3072 * Conds.wid L + 128 * 1 := off7_row L 1
    unfold tile_body_hi.sl.dma0_5
    rw [View.read_write_univ]
    unfold tile_body_hi.sl.dma0_1
    exact val_buffer m d _ _ _ _ e (by omega) y
  have hp2 : ∀ y, tile_body_hi.sl.dma0_7 m d L k0_h6 f2 y
      = R m d ((oChunk L 256#32 (k0_off7_inb L 2)).view.emb y) := by
    intro y
    have e : k0_off6 L = k0_off7 L 256#32 := (k0_off6_eq L).trans (k0_off7_eq L 2).symm
    have hr : (k0_off7 L 256#32) 0 = 3072 * Conds.wid L + 128 * 2 := off7_row L 2
    unfold tile_body_hi.sl.dma0_7
    rw [View.read_write_univ]
    unfold tile_body_hi.sl.dma0_2
    exact val_buffer m d _ _ _ _ e (by omega) y
  have hp3 : ∀ y, tile_body_hi.sl.dma0_9 m d L k0_h2 k0_h8 f0 y
      = R m d ((oChunk L 384#32 (k0_off7_inb L 3)).view.emb y) := by
    intro y
    have e : k0_off10 L = k0_off7 L 384#32 := (k0_off10_eq L).trans (k0_off7_eq L 3).symm
    have hr : (k0_off7 L 384#32) 0 = 3072 * Conds.wid L + 128 * 3 := off7_row L 3
    unfold tile_body_hi.sl.dma0_9
    rw [View.read_write_univ]
    unfold tile_body_hi.sl.dma0_4
    exact val_buffer m d _ _ _ _ e (by omega) y
  have hp4 : ∀ y, tile_body_hi.sl.dma0_11 m d L k0_h4 k0_h10 f1 y
      = R m d ((oChunk L 512#32 (k0_off7_inb L 4)).view.emb y) := by
    intro y
    have e : k0_off12 L = k0_off7 L 512#32 := (k0_off12_eq L).trans (k0_off7_eq L 4).symm
    have hr : (k0_off7 L 512#32) 0 = 3072 * Conds.wid L + 128 * 4 := off7_row L 4
    unfold tile_body_hi.sl.dma0_11
    rw [View.read_write_univ]
    unfold tile_body_hi.sl.dma0_6
    exact val_buffer m d _ _ _ _ e (by omega) y
  have hp5 : ∀ y, tile_body_hi.sl.dma0_13 m d L k0_h6 k0_h12 f2 y
      = R m d ((oChunk L 640#32 (k0_off7_inb L 5)).view.emb y) := by
    intro y
    have e : k0_off14 L = k0_off7 L 640#32 := (k0_off14_eq L).trans (k0_off7_eq L 5).symm
    have hr : (k0_off7 L 640#32) 0 = 3072 * Conds.wid L + 128 * 5 := off7_row L 5
    unfold tile_body_hi.sl.dma0_13
    rw [View.read_write_univ]
    unfold tile_body_hi.sl.dma0_8
    exact val_buffer m d _ _ _ _ e (by omega) y
  have hp6 : ∀ y, tile_body_hi.sl.dma0_15 m d L k0_h2 k0_h8 k0_h14 f0 y
      = R m d ((oChunk L 768#32 (k0_off7_inb L 6)).view.emb y) := by
    intro y
    have e : k0_off16 L = k0_off7 L 768#32 := (k0_off16_eq L).trans (k0_off7_eq L 6).symm
    have hr : (k0_off7 L 768#32) 0 = 3072 * Conds.wid L + 128 * 6 := off7_row L 6
    unfold tile_body_hi.sl.dma0_15
    rw [View.read_write_univ]
    unfold tile_body_hi.sl.dma0_10
    exact val_buffer m d _ _ _ _ e (by omega) y
  have hp7 : ∀ y, tile_body_hi.sl.dma0_17 m d L k0_h4 k0_h10 k0_h16 f1 y
      = R m d ((oChunk L 896#32 (k0_off7_inb L 7)).view.emb y) := by
    intro y
    have e : k0_off18 L = k0_off7 L 896#32 := (k0_off18_eq L).trans (k0_off7_eq L 7).symm
    have hr : (k0_off7 L 896#32) 0 = 3072 * Conds.wid L + 128 * 7 := off7_row L 7
    unfold tile_body_hi.sl.dma0_17
    rw [View.read_write_univ]
    unfold tile_body_hi.sl.dma0_12
    exact val_buffer m d _ _ _ _ e (by omega) y
  have hp8 : ∀ y, tile_body_hi.sl.dma0_19 m d L k0_h6 k0_h12 k0_h18 f2 y
      = R m d ((oChunk L 1024#32 (k0_off7_inb L 8)).view.emb y) := by
    intro y
    have e : k0_off20 L = k0_off7 L 1024#32 := (k0_off20_eq L).trans (k0_off7_eq L 8).symm
    have hr : (k0_off7 L 1024#32) 0 = 3072 * Conds.wid L + 128 * 8 := off7_row L 8
    unfold tile_body_hi.sl.dma0_19
    rw [View.read_write_univ]
    unfold tile_body_hi.sl.dma0_14
    exact val_buffer m d _ _ _ _ e (by omega) y
  have hp9 : ∀ y, tile_body_hi.sl.dma0_21 m d L k0_h2 k0_h8 k0_h14 k0_h20 f0 y
      = R m d ((oChunk L 1152#32 (k0_off7_inb L 9)).view.emb y) := by
    intro y
    have e : k0_off22 L = k0_off7 L 1152#32 := (k0_off22_eq L).trans (k0_off7_eq L 9).symm
    have hr : (k0_off7 L 1152#32) 0 = 3072 * Conds.wid L + 128 * 9 := off7_row L 9
    unfold tile_body_hi.sl.dma0_21
    rw [View.read_write_univ]
    unfold tile_body_hi.sl.dma0_16
    exact val_buffer m d _ _ _ _ e (by omega) y
  have hp10 : ∀ y, tile_body_hi.sl.dma0_23 m d L k0_h4 k0_h10 k0_h16 k0_h22 f1 y
      = R m d ((oChunk L 1280#32 (k0_off7_inb L 10)).view.emb y) := by
    intro y
    have e : k0_off24 L = k0_off7 L 1280#32 := (k0_off24_eq L).trans (k0_off7_eq L 10).symm
    have hr : (k0_off7 L 1280#32) 0 = 3072 * Conds.wid L + 128 * 10 := off7_row L 10
    unfold tile_body_hi.sl.dma0_23
    rw [View.read_write_univ]
    unfold tile_body_hi.sl.dma0_18
    exact val_buffer m d _ _ _ _ e (by omega) y
  have hp11 : ∀ y, tile_body_hi.sl.dma0_25 m d L k0_h6 k0_h12 k0_h18 k0_h24 f2 y
      = R m d ((oChunk L 1408#32 (k0_off7_inb L 11)).view.emb y) := by
    intro y
    have e : k0_off26 L = k0_off7 L 1408#32 := (k0_off26_eq L).trans (k0_off7_eq L 11).symm
    have hr : (k0_off7 L 1408#32) 0 = 3072 * Conds.wid L + 128 * 11 := off7_row L 11
    unfold tile_body_hi.sl.dma0_25
    rw [View.read_write_univ]
    unfold tile_body_hi.sl.dma0_20
    exact val_buffer m d _ _ _ _ e (by omega) y
  have hp12 : ∀ y, tile_body_hi.sl.dma0_27 m d L k0_h2 k0_h8 k0_h14 k0_h20 k0_h26 f0 y
      = R m d ((oChunk L 1536#32 (k0_off7_inb L 12)).view.emb y) := by
    intro y
    have e : k0_off28 L = k0_off7 L 1536#32 := (k0_off28_eq L).trans (k0_off7_eq L 12).symm
    have hr : (k0_off7 L 1536#32) 0 = 3072 * Conds.wid L + 128 * 12 := off7_row L 12
    unfold tile_body_hi.sl.dma0_27
    rw [View.read_write_univ]
    unfold tile_body_hi.sl.dma0_22
    exact val_buffer m d _ _ _ _ e (by omega) y
  have hp13 : ∀ y, tile_body_hi.sl.dma0_29 m d L k0_h4 k0_h10 k0_h16 k0_h22 k0_h28 f1 y
      = R m d ((oChunk L 1664#32 (k0_off7_inb L 13)).view.emb y) := by
    intro y
    have e : k0_off30 L = k0_off7 L 1664#32 := (k0_off30_eq L).trans (k0_off7_eq L 13).symm
    have hr : (k0_off7 L 1664#32) 0 = 3072 * Conds.wid L + 128 * 13 := off7_row L 13
    unfold tile_body_hi.sl.dma0_29
    rw [View.read_write_univ]
    unfold tile_body_hi.sl.dma0_24
    exact val_buffer m d _ _ _ _ e (by omega) y
  have hp14 : ∀ y, tile_body_hi.sl.dma0_31 m d L k0_h6 k0_h12 k0_h18 k0_h24 k0_h30 f2 y
      = R m d ((oChunk L 1792#32 (k0_off7_inb L 14)).view.emb y) := by
    intro y
    have e : k0_off32 L = k0_off7 L 1792#32 := (k0_off32_eq L).trans (k0_off7_eq L 14).symm
    have hr : (k0_off7 L 1792#32) 0 = 3072 * Conds.wid L + 128 * 14 := off7_row L 14
    unfold tile_body_hi.sl.dma0_31
    rw [View.read_write_univ]
    unfold tile_body_hi.sl.dma0_26
    exact val_buffer m d _ _ _ _ e (by omega) y
  have hp15 : ∀ y, tile_body_hi.sl.dma0_33 m d L k0_h2 k0_h8 k0_h14 k0_h20 k0_h26 k0_h32 f0 y
      = R m d ((oChunk L 1920#32 (k0_off7_inb L 15)).view.emb y) := by
    intro y
    have e : k0_off34 L = k0_off7 L 1920#32 := (k0_off34_eq L).trans (k0_off7_eq L 15).symm
    have hr : (k0_off7 L 1920#32) 0 = 3072 * Conds.wid L + 128 * 15 := off7_row L 15
    unfold tile_body_hi.sl.dma0_33
    rw [View.read_write_univ]
    unfold tile_body_hi.sl.dma0_28
    exact val_buffer m d _ _ _ _ e (by omega) y
  have hp16 : ∀ y, tile_body_hi.sl.dma0_35 m d L k0_h4 k0_h10 k0_h16 k0_h22 k0_h28 k0_h34 f1 y
      = R m d ((oChunk L 2048#32 (k0_off7_inb L 16)).view.emb y) := by
    intro y
    have e : k0_off36 L = k0_off7 L 2048#32 := (k0_off36_eq L).trans (k0_off7_eq L 16).symm
    have hr : (k0_off7 L 2048#32) 0 = 3072 * Conds.wid L + 128 * 16 := off7_row L 16
    unfold tile_body_hi.sl.dma0_35
    rw [View.read_write_univ]
    unfold tile_body_hi.sl.dma0_30
    exact val_buffer m d _ _ _ _ e (by omega) y
  have hp17 : ∀ y, tile_body_hi.sl.dma0_37 m d L k0_h6 k0_h12 k0_h18 k0_h24 k0_h30 k0_h36 f2 y
      = R m d ((oChunk L 2176#32 (k0_off7_inb L 17)).view.emb y) := by
    intro y
    have e : k0_off38 L = k0_off7 L 2176#32 := (k0_off38_eq L).trans (k0_off7_eq L 17).symm
    have hr : (k0_off7 L 2176#32) 0 = 3072 * Conds.wid L + 128 * 17 := off7_row L 17
    unfold tile_body_hi.sl.dma0_37
    rw [View.read_write_univ]
    unfold tile_body_hi.sl.dma0_32
    exact val_buffer m d _ _ _ _ e (by omega) y
  have hp18 : ∀ y, tile_body_hi.sl.dma0_39 m d L k0_h2 k0_h8 k0_h14 k0_h20 k0_h26 k0_h32 k0_h38 f0 y
      = R m d ((oChunk L 2304#32 (k0_off7_inb L 18)).view.emb y) := by
    intro y
    have e : k0_off40 L = k0_off7 L 2304#32 := (k0_off40_eq L).trans (k0_off7_eq L 18).symm
    have hr : (k0_off7 L 2304#32) 0 = 3072 * Conds.wid L + 128 * 18 := off7_row L 18
    unfold tile_body_hi.sl.dma0_39
    rw [View.read_write_univ]
    unfold tile_body_hi.sl.dma0_34
    exact val_buffer m d _ _ _ _ e (by omega) y
  have hp19 : ∀ y, tile_body_hi.sl.dma0_41 m d L k0_h4 k0_h10 k0_h16 k0_h22 k0_h28 k0_h34 k0_h40 f1 y
      = R m d ((oChunk L 2432#32 (k0_off7_inb L 19)).view.emb y) := by
    intro y
    have e : k0_off42 L = k0_off7 L 2432#32 := (k0_off42_eq L).trans (k0_off7_eq L 19).symm
    have hr : (k0_off7 L 2432#32) 0 = 3072 * Conds.wid L + 128 * 19 := off7_row L 19
    unfold tile_body_hi.sl.dma0_41
    rw [View.read_write_univ]
    unfold tile_body_hi.sl.dma0_36
    exact val_buffer m d _ _ _ _ e (by omega) y
  have hp20 : ∀ y, tile_body_hi.sl.dma0_43 m d L k0_h6 k0_h12 k0_h18 k0_h24 k0_h30 k0_h36 k0_h42 f2 y
      = R m d ((oChunk L 2560#32 (k0_off7_inb L 20)).view.emb y) := by
    intro y
    have e : k0_off44 L = k0_off7 L 2560#32 := (k0_off44_eq L).trans (k0_off7_eq L 20).symm
    have hr : (k0_off7 L 2560#32) 0 = 3072 * Conds.wid L + 128 * 20 := off7_row L 20
    unfold tile_body_hi.sl.dma0_43
    rw [View.read_write_univ]
    unfold tile_body_hi.sl.dma0_38
    exact val_buffer m d _ _ _ _ e (by omega) y
  have hp21 : ∀ y, tile_body_hi.sl.dma0_45 m d L k0_h2 k0_h8 k0_h14 k0_h20 k0_h26 k0_h32 k0_h38 k0_h44 f0 y
      = R m d ((oChunk L 2688#32 (k0_off7_inb L 21)).view.emb y) := by
    intro y
    have e : k0_off46 L = k0_off7 L 2688#32 := (k0_off46_eq L).trans (k0_off7_eq L 21).symm
    have hr : (k0_off7 L 2688#32) 0 = 3072 * Conds.wid L + 128 * 21 := off7_row L 21
    unfold tile_body_hi.sl.dma0_45
    rw [View.read_write_univ]
    unfold tile_body_hi.sl.dma0_40
    exact val_buffer m d _ _ _ _ e (by omega) y
  have hp22 : ∀ y, tile_body_hi.sl.dma0_46 m d L k0_h4 k0_h10 k0_h16 k0_h22 k0_h28 k0_h34 k0_h40 k0_h46 f1 y
      = R m d ((oChunk L 2816#32 (k0_off7_inb L 22)).view.emb y) := by
    intro y
    have e : k0_off48 L = k0_off7 L 2816#32 := (k0_off48_eq L).trans (k0_off7_eq L 22).symm
    have hr : (k0_off7 L 2816#32) 0 = 3072 * Conds.wid L + 128 * 22 := off7_row L 22
    unfold tile_body_hi.sl.dma0_46
    rw [View.read_write_univ]
    unfold tile_body_hi.sl.dma0_42
    exact val_buffer m d _ _ _ _ e (by omega) y
  have hp23 : ∀ y, tile_body_hi.sl.dma0_47 m d L k0_h6 k0_h12 k0_h18 k0_h24 k0_h30 k0_h36 k0_h42 k0_h48 f2 y
      = R m d ((oChunk L 2944#32 (k0_off7_inb L 23)).view.emb y) := by
    intro y
    have e : k0_off50 L = k0_off7 L 2944#32 := (k0_off50_eq L).trans (k0_off7_eq L 23).symm
    have hr : (k0_off7 L 2944#32) 0 = 3072 * Conds.wid L + 128 * 23 := off7_row L 23
    unfold tile_body_hi.sl.dma0_47
    rw [View.read_write_univ]
    unfold tile_body_hi.sl.dma0_44
    exact val_buffer m d _ _ _ _ e (by omega) y
  isplitl [Hc0 Hc1 Hc2 Hc3 Hc4 Hc5 Hc6 Hc7 Hc8 Hc9 Hc10 Hc11 Hc12 Hc13 Hc14 Hc15 Hc16 Hc17 Hc18 Hc19 Hc20 Hc21 Hc22 Hc23]
  · unfold tdPts
    iapply (chunks_pack (F := F) d L (R m d))
    isplitl [Hc0]; · iapply (chunk_done m d L 0 0#32 (k0_off7_inb L 0) (set_oChunk L 0) _ _ hp0); iexact Hc0
    isplitl [Hc1]; · iapply (chunk_done m d L 1 128#32 (k0_off7_inb L 1) (set_oChunk L 1) _ _ hp1); iexact Hc1
    isplitl [Hc2]; · iapply (chunk_done m d L 2 256#32 (k0_off7_inb L 2) (set_oChunk L 2) _ _ hp2); iexact Hc2
    isplitl [Hc3]; · iapply (chunk_done m d L 3 384#32 (k0_off7_inb L 3) (set_oChunk L 3) _ _ hp3); iexact Hc3
    isplitl [Hc4]; · iapply (chunk_done m d L 4 512#32 (k0_off7_inb L 4) (set_oChunk L 4) _ _ hp4); iexact Hc4
    isplitl [Hc5]; · iapply (chunk_done m d L 5 640#32 (k0_off7_inb L 5) (set_oChunk L 5) _ _ hp5); iexact Hc5
    isplitl [Hc6]; · iapply (chunk_done m d L 6 768#32 (k0_off7_inb L 6) (set_oChunk L 6) _ _ hp6); iexact Hc6
    isplitl [Hc7]; · iapply (chunk_done m d L 7 896#32 (k0_off7_inb L 7) (set_oChunk L 7) _ _ hp7); iexact Hc7
    isplitl [Hc8]; · iapply (chunk_done m d L 8 1024#32 (k0_off7_inb L 8) (set_oChunk L 8) _ _ hp8); iexact Hc8
    isplitl [Hc9]; · iapply (chunk_done m d L 9 1152#32 (k0_off7_inb L 9) (set_oChunk L 9) _ _ hp9); iexact Hc9
    isplitl [Hc10]; · iapply (chunk_done m d L 10 1280#32 (k0_off7_inb L 10) (set_oChunk L 10) _ _ hp10); iexact Hc10
    isplitl [Hc11]; · iapply (chunk_done m d L 11 1408#32 (k0_off7_inb L 11) (set_oChunk L 11) _ _ hp11); iexact Hc11
    isplitl [Hc12]; · iapply (chunk_done m d L 12 1536#32 (k0_off7_inb L 12) (set_oChunk L 12) _ _ hp12); iexact Hc12
    isplitl [Hc13]; · iapply (chunk_done m d L 13 1664#32 (k0_off7_inb L 13) (set_oChunk L 13) _ _ hp13); iexact Hc13
    isplitl [Hc14]; · iapply (chunk_done m d L 14 1792#32 (k0_off7_inb L 14) (set_oChunk L 14) _ _ hp14); iexact Hc14
    isplitl [Hc15]; · iapply (chunk_done m d L 15 1920#32 (k0_off7_inb L 15) (set_oChunk L 15) _ _ hp15); iexact Hc15
    isplitl [Hc16]; · iapply (chunk_done m d L 16 2048#32 (k0_off7_inb L 16) (set_oChunk L 16) _ _ hp16); iexact Hc16
    isplitl [Hc17]; · iapply (chunk_done m d L 17 2176#32 (k0_off7_inb L 17) (set_oChunk L 17) _ _ hp17); iexact Hc17
    isplitl [Hc18]; · iapply (chunk_done m d L 18 2304#32 (k0_off7_inb L 18) (set_oChunk L 18) _ _ hp18); iexact Hc18
    isplitl [Hc19]; · iapply (chunk_done m d L 19 2432#32 (k0_off7_inb L 19) (set_oChunk L 19) _ _ hp19); iexact Hc19
    isplitl [Hc20]; · iapply (chunk_done m d L 20 2560#32 (k0_off7_inb L 20) (set_oChunk L 20) _ _ hp20); iexact Hc20
    isplitl [Hc21]; · iapply (chunk_done m d L 21 2688#32 (k0_off7_inb L 21) (set_oChunk L 21) _ _ hp21); iexact Hc21
    isplitl [Hc22]; · iapply (chunk_done m d L 22 2816#32 (k0_off7_inb L 22) (set_oChunk L 22) _ _ hp22); iexact Hc22
    iapply (chunk_done m d L 23 2944#32 (k0_off7_inb L 23) (set_oChunk L 23) _ _ hp23); iexact Hc23
  isplitl [Hs0 Hs1 Hs2 Hbrest]
  · isplitl [Hs0 Hs1 Hs2]
    · isplitl [Hs0]; · iexists _; iapply (Entails.of_eq (pts_s0 (F := F) d L _)); iexact Hs0
      isplitl [Hs1]; · iexists _; iapply (Entails.of_eq (pts_s1 (F := F) d L _)); iexact Hs1
      iexists _; iapply (Entails.of_eq (pts_s2 (F := F) d L _)); iexact Hs2
    iexact Hbrest
  isplitl [Hg0 Hg1 Hg2 Hq0 Hq1 Hq2 Hsrest]
  · isplitl [Hg0 Hg1 Hg2 Hq0 Hq1 Hq2]
    · isplitl [Hg0]; · iexact Hg0
      isplitl [Hg1]; · iexact Hg1
      isplitl [Hg2]; · iexact Hg2
      isplitl [Hq0]; · iexact Hq0
      isplitl [Hq1]; · iexact Hq1
      iexact Hq2
    iexact Hsrest
  iexists _; isplitr
  on_goal 2 => iexact HO
  ipureintro
  repeat (refine waits_insert rfl ?_)
  exact fun p hp => .inl hp

end Cert.Proof.Kernel.Run

end
-- ==== Proof.Kernel.Part.lean ====
/-
  The result array as its 768 chunks, numbered by core, tile and the tile's chunk.

  Chunk `(c, i, k)` is chunk `384·c + 24·i + k` of the 768 equal parts of the rows: the numbering is
  one-to-one and onto, so the chunks are pairwise disjoint and cover the array, and holding the array
  whole is holding every chunk.
-/
import proofs.«216569_g74620761801077_fold_wed_m_520_16_alg».proof.Proof.Kernel.Pay

noncomputable section

namespace Cert.Proof.Kernel.Run

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

theorem chunkSet_eq (j : Fin 768) : chunkSet j = (crow j).set := by
  show ((View.whole (main_v0_scv : Ref sig .scVector)).slice (crow j)).set = _
  rw [View.set_slice]; exact Finset.map_refl

/-- Core, tile, chunk of the tile. -/
abbrev T3 : Type := Fin (grid0.bound 0) × Fin (grid0.bound 1) × Fin 24

def jOf3 (t : T3) : Fin 768 := jOf (coordsV t.1 t.2.1) t.2.2

theorem jOf3_val (t : T3) : (jOf3 t).val = 384 * t.1.val + 24 * t.2.1.val + t.2.2.val := rfl

theorem jOf3_inj : Function.Injective jOf3 := by
  intro t t' h
  have hv := congrArg Fin.val h
  rw [jOf3_val, jOf3_val] at hv
  obtain ⟨c, i, k⟩ := t
  obtain ⟨c', i', k'⟩ := t'
  have h1 : c.val < 2 := c.isLt
  have h2 : c'.val < 2 := c'.isLt
  have h3 : i.val < 16 := i.isLt
  have h4 : i'.val < 16 := i'.isLt
  have h5 := k.isLt
  have h6 := k'.isLt
  simp only at hv
  have e1 : c = c' := Fin.ext (by omega)
  have e2 : i = i' := Fin.ext (by omega)
  have e3 : k = k' := Fin.ext (by omega)
  rw [e1, e2, e3]

theorem chunks_disjoint : ∀ t ∈ (Finset.univ : Finset T3), ∀ t' ∈ (Finset.univ : Finset T3), t ≠ t' →
    Disjoint (chunkSet (jOf3 t)) (chunkSet (jOf3 t')) :=
  fun t _ t' _ h => by rw [chunkSet_eq, chunkSet_eq]; exact Rect.part_disjoint hdiv (fun e => h (jOf3_inj e))

theorem chunks_cover : (Finset.univ : Finset T3).biUnion (fun t => chunkSet (jOf3 t)) = Finset.univ := by
  refine Finset.eq_univ_iff_forall.mpr fun x => ?_
  have hx : x ∈ (Finset.univ : Finset (Fin 768)).biUnion (fun j => (crow j).set) := by
    rw [Rect.biUnion_part hdiv]; exact Finset.mem_univ x
  obtain ⟨j, -, hj⟩ := Finset.mem_biUnion.mp hx
  have hj768 := j.isLt
  refine Finset.mem_biUnion.mpr ⟨((⟨j.val / 384, by show j.val / 384 < 2; omega⟩ : Fin (grid0.bound 0)),
    (⟨(j.val % 384) / 24, by show (j.val % 384) / 24 < 16; omega⟩ : Fin (grid0.bound 1)), (⟨j.val % 24, by omega⟩ : Fin 24)), Finset.mem_univ _, ?_⟩
  rw [chunkSet_eq]
  have e : jOf3 ((⟨j.val / 384, by show j.val / 384 < 2; omega⟩ : Fin (grid0.bound 0)),
      (⟨(j.val % 384) / 24, by show (j.val % 384) / 24 < 16; omega⟩ : Fin (grid0.bound 1)), (⟨j.val % 24, by omega⟩ : Fin 24)) = j := by
    apply Fin.ext
    rw [jOf3_val]
    show 384 * (j.val / 384) + 24 * ((j.val % 384) / 24) + j.val % 24 = j.val
    omega
  rw [e]; exact hj

/-- The result array whole is its chunks, core by core, tile by tile. -/
theorem oPts_chunks (d : Dev nD) (f : Buf (Elt F) (oLoc d)) :
    (oLoc d ↦{fullShare} f : sProp 𝕄)
      = bigSep Finset.univ fun c : Fin (grid0.bound 0) => bigSep Finset.univ fun i : Fin (grid0.bound 1) =>
          bigSep Finset.univ fun k : Fin 24 => chunkPts d (coordsV c i) k f := by
  have h1 : (oLoc d ↦{fullShare} f : sProp 𝕄) = bigSep (Finset.univ : Finset T3) fun t => oLoc d ↦[chunkSet (jOf3 t)]{fullShare} f := by
    rw [← pointsTo_biUnion Finset.univ (ℓ := oLoc d) (fun t : T3 => chunkSet (jOf3 t)) chunks_disjoint, chunks_cover]; try rfl
  rw [h1, bigSep_univ_prod]
  refine bigSep_congr fun c _ => ?_
  rw [bigSep_univ_prod]
  rfl

end Cert.Proof.Kernel.Run

end
-- ==== Proof.Kernel.Launch.lean ====
/-
  The launch theorem's obligations for the routed copy: what each handshake carries, one tile's task
  as the launch states it, how a core's call splits into its sixteen tasks, and the launch element of
  the ghost state.
-/
import proofs.«216569_g74620761801077_fold_wed_m_520_16_alg».proof.Proof.Kernel.Body
import proofs.«216569_g74620761801077_fold_wed_m_520_16_alg».proof.Proof.Kernel.Part

noncomputable section

namespace Cert.Proof.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## What the handshakes carry -/

/-- A core's call: a read share of both sources and the core's 16 × 24 chunks at the launch contents. -/
def stPts (d : Dev nD) (c : Fin (grid0.bound 0)) : sProp 𝕄 :=
  iprop((aLoc d ↦{qc c.val} m (aLoc d)) ∗ (bLoc d ↦{qc c.val} m (bLoc d))
    ∗ bigSep Finset.univ fun i : Fin (grid0.bound 1) => bigSep Finset.univ fun k : Fin 24 => chunkPts d (coordsV c i) k (m (oLoc d)))

/-- What comes back: the core's chunks at the routed rows. -/
def dnPts (d : Dev nD) (c : Fin (grid0.bound 0)) : sProp 𝕄 :=
  bigSep Finset.univ fun i : Fin (grid0.bound 1) => bigSep Finset.univ fun k : Fin 24 => chunkPts d (coordsV c i) k (R m d)

def P : (K (F := F)).Pay (nD := nD) (Val := Elt F) (Name := ℕ) (U := UU) where
  st := fun q d c => match q with | 0 => stPts m d c
  dn := fun q d c => match q with | 0 => dnPts m d c
  go := fun q d c i => match q with | 0 => goPts m d (coordsV c i)
  td := fun q d c i => match q with | 0 => tdPts m d (coordsV c i)
  x := fun _ _ => iprop(emp)

instance P_storable : (P (F := F) m).IsStorable where
  st q d c := match q with | 0 => by unfold P stPts; infer_instance
  dn q d c := match q with | 0 => by unfold P dnPts; infer_instance
  go q d c i := match q with | 0 => by unfold P goPts; infer_instance
  td q d c i := match q with | 0 => by unfold P tdPts; infer_instance

variable [FloatOps F]

/-! ## One tile's task -/

/-- Any tile's task: its worker number is at most 4, is 5, or is at least 6. -/
theorem tile_body (hF : (K (F := F)).Facts) (d : Dev nD) (L : grid0.Coords)
    (O : CellTallies nD τ sig (HIx 1)) (W : Waits sig (HIx 1)) (hO : ∀ g, O g none = 0) :
    iprop(levAts (K (F := F)).L (K (F := F)).lev ∗ emp ∗ goPts m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_routed_copy L aW (Memref.isWhole_whole _) bW (Memref.isWhole_whole _) oW (Memref.isWhole_whole _)
            s0 (Memref.isWhole_whole _) s1 (Memref.isWhole_whole _) s2 (Memref.isWhole_whole _)
            cc0_scratch3 cc0_scratch4 cc0_scratch5 cc0_scratch6 cc0_scratch7 cc0_scratch8)
          fun _ => iprop(tdPts m d L ∗ scopedBufs (V d (cV L) (jV L)) ∗ scopedSems0 (V d (cV L) (jV L))
            ∗ ∃ W', ⌜∀ p ∈ W', p ∈ W ∨ p.2 = none⌝ ∗ owes (V d (cV L) (jV L)) O W') := by
  rcases Nat.lt_or_ge (Conds.wid L) 5 with h | h
  · exact tile_body_lo m hF d L (by omega) O W hO
  · rcases Nat.eq_or_lt_of_le h with h' | h'
    · exact tile_body_mid m hF d L h'.symm O W hO
    · exact tile_body_hi m hF d L (by omega) O W hO

theorem defs₀_vector (c : Fin τ.nSC) (s : Fin τ.nSub) :
    defs₀ (F := F) (.scVector c s) 0 ()
      = SparseCore.onTile hcore0 hsub0 (fun c s => cc0__sc_routed_copy (coordsV c s)
          aW (Memref.isWhole_whole _) bW (Memref.isWhole_whole _) oW (Memref.isWhole_whole _)
          s0 (Memref.isWhole_whole _) s1 (Memref.isWhole_whole _) s2 (Memref.isWhole_whole _)
          cc0_scratch3 cc0_scratch4 cc0_scratch5 cc0_scratch6 cc0_scratch7 cc0_scratch8) ⟨⟩ c s := rfl

omit m [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m hF d (coordsV ⟨_, hc.1⟩ ⟨_, hc.2⟩) O W hO).trans (wp_mono frame _ _ fun _ => obl_post)

/-! ## A core's call splits into its sixteen tasks -/

omit [FloatOps F] in
theorem vecSplit : (K (F := F)).VecSplit' (P m) 0 := by
  intro d c
  show stPts m d c ⊢ |={Set.univ}=> iprop(
      (bigSep Finset.univ fun i : Fin (grid0.bound 1) => goPts m d (coordsV c i))
      ∗ ((bigSep Finset.univ fun i : Fin (grid0.bound 1) => tdPts m d (coordsV c i)) -∗ dnPts m d c))
  unfold stPts goPts tdPts dnPts
  rw [bigSep_sep', bigSep_sep']
  iintro ⟨Ha, Hb, Hc⟩
  ihave Ha' := (Transfers.pointsTo_toks_split (qc c.val) 16) $$ Ha
  icases Ha' with ⟨-, Ha'⟩
  ihave Hb' := (Transfers.pointsTo_toks_split (qc c.val) 16) $$ Hb
  icases Hb' with ⟨-, Hb'⟩
  imodintro
  isplitl [Ha' Hb' Hc]
  · isplitl [Ha']; · iexact Ha'
    isplitl [Hb']; · iexact Hb'
    iexact Hc
  iintro H; iexact H

/-! ## The launch element: the handshakes' rounds; nothing of the kernel's own -/

def u₀ : UU := (initOf (K (F := F)).hsCells (K (F := F)).hsToks, 1)

omit m [FloatOps F] in
theorem bigSep_emp' {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.Kernel.Run

end
-- ==== Proof.Kernel.Main.lean ====
/-
  @main on the TensorCore, and the program's run.

  @main starts the routed copy on both SparseCores and waits for it, then computes the next write
  pointer from `ptr` alone by nineteen host operations. The call takes a read share of the batch and
  of the buffer and the result array in chunks, and brings the chunks back at the routed rows; the
  host operations never touch the three arrays. At the end the TensorCore holds the result at the
  routed rows, the next pointer, and its inputs at the launch contents.
-/
import proofs.«216569_g74620761801077_fold_wed_m_520_16_alg».proof.Proof.Kernel.Launch

noncomputable section

namespace Cert.Proof.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The host operations after the call -/

variable [FloatOps F]

/-- `ptr + 16384`, then its remainder by 98304 as jnp computes it (the outlined function's operations at the call). -/
abbrev tail : List (HloOp τ sig (Elt F)) :=
  [ nullary main_c (constantI S_ 32 16384#32),
    binary main_arg2 main_c main_v1 (addi : (⟨S_, .i32⟩ : BufTy).Contents (Elt F) → (⟨S_, .i32⟩ : BufTy).Contents (Elt F) → (⟨S_, .i32⟩ : BufTy).Contents (Elt F)),
    nullary main_c_0 (constantI S_ 32 98304#32),
    TRef.unary (.of main_c_0) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.binary (.of main_v1) main_call0.call0.v0 main_call0.v3 Host.remsi,
    TRef.nullary main_call0.c_1 (constantI S_ 32 0#32),
    TRef.binary main_call0.v3 main_call0.c_1 main_call0.v4 (cmpi .ne),
    TRef.nullary main_call0.c_2 (constantI S_ 32 0#32),
    TRef.binary main_call0.v3 main_call0.c_2 main_call0.v5 (cmpi .slt),
    TRef.nullary main_call0.c_3 (constantI S_ 32 0#32),
    TRef.binary main_call0.call0.v0 main_call0.c_3 main_call0.v6 (cmpi .slt),
    TRef.binary main_call0.v5 main_call0.v6 main_call0.v7 (cmpi .ne),
    TRef.binary main_call0.v7 main_call0.v4 main_call0.v8 andi,
    TRef.binary main_call0.v3 main_call0.call0.v0 main_call0.v9 addi,
    TRef.ternary main_call0.v8 main_call0.v9 main_call0.v3 main_call0.v10 select ]

set_option maxRecDepth 1024 in
theorem main_eq (d : Dev nD) :
    main (F := F) d = ((sc (F := F)).run d 0 >>= fun _ => (seq (tail (F := F)) >>= fun _ => pure ⟨⟩)) := by
  simp only [main, fn_remainder.body, fn_where.body, seq, bind_assoc, pure_bind]

/-! ## The TensorCore's arrays -/

abbrev a' : DevRef τ sig := Proc.devRef .tc (main_arg0 : Ref sig .tc)
abbrev b' : DevRef τ sig := Proc.devRef .tc (main_arg1 : Ref sig .tc)
abbrev p' : DevRef τ sig := Proc.devRef .tc (main_arg2 : Ref sig .tc)
abbrev o' : DevRef τ sig := Proc.devRef .tc (main_v0 : Ref sig .tc)
abbrev n' : DevRef τ sig := Proc.devRef .tc (main_v2 : Ref sig .tc)
abbrev nLoc (d : Dev nD) : Loc nD τ sig := (SparseCore.T d).loc main_v2

def tcEmb : Ref sig .tc ↪ DevRef τ sig := ⟨(Proc.tc : Proc τ).devRef, Proc.devRef_injective _⟩

/-- Every array of @main. -/
abbrev Sall : Finset (DevRef τ sig) := (Finset.univ.filter fun b : Ref sig .tc => ¬ b.isScoped).map tcEmb
/-- The three the kernel works on, -/
abbrev S3 : Finset (DevRef τ sig) := {a', b', o'}
/-- and the host operations' own. -/
abbrev Stail : Finset (DevRef τ sig) := Sall \ S3
abbrev S2 : Finset (DevRef τ sig) := {p', n'}

abbrev V0 (d : Dev nD) : Valuation τ sig (Elt F) := fun b => m (d, b)

omit [FloatOps F] in
theorem unscoped_held (d : Dev nD) : (unscopedBufs d (fun b => m ((SparseCore.T d).loc b)) : sProp 𝕄) = held (T d) Sall (V0 m d) := by
  unfold unscopedBufs held Sall
  rw [bigSep_map]; rfl

omit [FloatOps F] in
theorem held_S3 (d : Dev nD) (W : Valuation τ sig (Elt F)) :
    (held (T d) S3 W : sProp 𝕄) = iprop((aLoc d ↦{fullShare} W a') ∗ (bLoc d ↦{fullShare} W b') ∗ oLoc d ↦{fullShare} W o') := by
  unfold held S3
  rw [SparseCore.bigSep_insert' (by decide), SparseCore.bigSep_insert' (by decide), bigSep_singleton]

omit [FloatOps F] in
theorem held_S2 (d : Dev nD) (W : Valuation τ sig (Elt F)) :
    (held (T d) S2 W : sProp 𝕄) = iprop((pLoc d ↦{fullShare} W p') ∗ nLoc d ↦{fullShare} W n') := by
  unfold held S2
  rw [SparseCore.bigSep_insert' (by decide), bigSep_singleton]

set_option maxRecDepth 8192 in
theorem tail_sub : ∀ op ∈ (tail (F := F)), op.bufs ⊆ Stail := by
  intro op hop
  simp only [tail, List.mem_cons, List.not_mem_nil, or_false] at hop
  rcases hop with rfl | rfl | rfl | rfl | rfl | rfl | rfl | rfl | rfl | rfl | rfl | rfl | rfl | rfl | rfl | rfl | rfl | rfl | rfl <;> exact of_decide_eq_true rfl

theorem tail_fresh : ∀ op ∈ (tail (F := F)), op.fresh = ∅ := by
  intro op hop
  simp only [tail, List.mem_cons, List.not_mem_nil, or_false] at hop
  rcases hop with rfl | rfl | rfl | rfl | rfl | rfl | rfl | rfl | rfl | rfl | rfl | rfl | rfl | rfl | rfl | rfl | rfl | rfl | rfl <;> rfl

set_option maxRecDepth 8192 in
set_option maxHeartbeats 400000 in
/-- The next pointer is read off the operations' fold: the chain is `Spec.nextPtr` of `ptr`. -/
theorem next_eq (W : Valuation τ sig (Elt F)) : after (tail (F := F)) W n' = Cert.Spec.nextPtr (W p') := by
  after_results_simp
  simp only [TRef.toBuf, TRef.ofBuf, cast_eq, id]
  rfl

set_option maxRecDepth 8192 in
theorem ptr_eq (W : Valuation τ sig (Elt F)) : after (tail (F := F)) W p' = W p' := by
  simp only [after_cons, after_nil]
  rfl

/-- After the host operations: `ptr` as launched, and the next pointer. -/
theorem tail_done (d : Dev nD) :
    (held (T d) Stail (after (tail (F := F)) (V0 m d)) : sProp 𝕄)
      ⊢ iprop((pLoc d ↦{fullShare} m (pLoc d)) ∗ nLoc d ↦{fullShare} Cert.Spec.nextPtr (m (pLoc d))) := by
  rw [held_sub_split (T d) (show S2 ⊆ Stail by decide) (after (tail (F := F)) (V0 m d)), held_S2, next_eq, ptr_eq]
  exact sep_elim_left

/-! ## What the call takes and hands back -/

omit [FloatOps F] in
theorem st0_eq (d : Dev nD) :
    (bigSep Finset.univ fun c : Fin ((K (F := F)).nCore 0) => (P m).st 0 d c)
      = iprop((bigSep Finset.univ fun c : Fin 2 => aLoc d ↦{Transfers.shareTok fullShare 2 c} m (aLoc d))
          ∗ (bigSep Finset.univ fun c : Fin 2 => bLoc d ↦{Transfers.shareTok fullShare 2 c} m (bLoc d))
          ∗ oLoc d ↦{fullShare} m (oLoc d)) := by
  show (bigSep Finset.univ fun c : Fin (grid0.bound 0) => stPts m d c) = _
  unfold stPts
  rw [bigSep_sep', bigSep_sep', oPts_chunks]
  rfl

omit [FloatOps F] in
theorem dn0_eq (d : Dev nD) :
    (bigSep Finset.univ fun c : Fin ((K (F := F)).nCore 0) => (P m).dn 0 d c) = (oLoc d ↦{fullShare} R m d : sProp 𝕄) := by
  show (bigSep Finset.univ fun c : Fin (grid0.bound 0) => dnPts m d c) = _
  unfold dnPts
  rw [oPts_chunks]

/-- What @main leaves the claim. -/
def FIN (d : Dev nD) : sProp 𝕄 :=
  iprop((aLoc d ↦{Transfers.shareDrop fullShare 2} m (aLoc d)) ∗ (bLoc d ↦{Transfers.shareDrop fullShare 2} m (bLoc d))
    ∗ (pLoc d ↦{fullShare} m (pLoc d)) ∗ (oLoc d ↦{fullShare} R m d) ∗ nLoc d ↦{fullShare} Cert.Spec.nextPtr (m (pLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq, wp_bind]
  rw [held_sub_split (T d) (show S3 ⊆ Sall by decide) (V0 m d), held_S3]
  iintro ⟨#Hctx, Hst, ⟨Hb, ⟨⟨Ha, Hbf, Ho⟩, Htl⟩, -, -⟩, -⟩
  ihave Ha' := (Transfers.pointsTo_toks_split fullShare 2) $$ Ha
  icases Ha' with ⟨Ha0, Ha'⟩
  ihave Hb' := (Transfers.pointsTo_toks_split fullShare 2) $$ Hbf
  icases Hb' with ⟨Hb0, Hb'⟩
  iapply ((K (F := F)).wp_run (D (F := F)) 𝒱 (EH := EH) (P := P m) κ d 0) $$ [Hst Ha' Hb' Ho Hb Htl Ha0 Hb0]
  isplitr; · iexact Hctx
  isplitl [Hst]; · iexact Hst
  isplitl [Ha' Hb' Ho]
  · rw [st0_eq]
    isplitl [Ha']; · iexact Ha'
    isplitl [Hb']; · iexact Hb'
    iexact Ho
  iintro ⟨Hst, Hdn⟩
  ihave Ho := (Entails.of_eq (dn0_eq m d)) $$ Hdn
  iapply (wp_seq 𝒱 none Set.univ d Stail (fun _ => pure ⟨⟩) (tail (F := F)) tail_sub tail_fresh (V0 m d)) $$ [Hb Htl]
  · isplitl [Hb]; · iexact Hb
    iexact Htl
  iintro ⟨Hb, Htl⟩
  ihave Htl := (tail_done m d) $$ Htl
  icases Htl with ⟨Hp, Hn⟩
  rw [wp_pure]; imodintro
  isplitl [Hst]; · iexact Hst
  unfold FIN
  isplitl [Ha0]; · iexact Ha0
  isplitl [Hb0]; · iexact Hb0
  isplitl [Hp]; · iexact Hp
  isplitl [Ho]; · iexact Ho
  iexact Hn

/-! ## The final memory -/

def fq (d : Dev nD) (s' : Phys nD τ sig (Elt F)) : Prop :=
  s'.mem.mem (oLoc d) = R m d ∧ s'.mem.mem (nLoc d) = Cert.Spec.nextPtr (m (pLoc d))
    ∧ s'.mem.mem (aLoc d) = m (aLoc d) ∧ s'.mem.mem (bLoc d) = m (bLoc d) ∧ s'.mem.mem (pLoc d) = m (pLoc d)

omit [FloatOps F] in
theorem hfin (d : Dev nD) (s' : Phys nD τ sig (Elt F)) : iprop(FIN m d ∗ SI s') ⊢ (⌜fq m d s'⌝ : sProp 𝕄) := by
  unfold FIN
  iintro ⟨⟨Ha, Hb, Hp, Ho, Hn⟩, HSI⟩
  ihave H := (persistent_entails_right (SI_pointsTo_agree (st := s') (ℓ := aLoc d) (I := Finset.univ) (q := Transfers.shareDrop fullShare 2) (f := m (aLoc d)))) $$ [HSI Ha]
  · isplitl [HSI] <;> iassumption
  icases H with ⟨%h1, HSI, -⟩
  ihave H := (persistent_entails_right (SI_pointsTo_agree (st := s') (ℓ := bLoc d) (I := Finset.univ) (q := Transfers.shareDrop fullShare 2) (f := m (bLoc d)))) $$ [HSI Hb]
  · isplitl [HSI] <;> iassumption
  icases H with ⟨%h2, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h3, HSI, -⟩
  ihave H := (persistent_entails_right (SI_pointsTo_agree (st := s') (ℓ := oLoc d) (I := Finset.univ) (q := fullShare) (f := R m d))) $$ [HSI Ho]
  · isplitl [HSI] <;> iassumption
  icases H with ⟨%h4, HSI, -⟩
  ihave H := (SI_pointsTo_agree (st := s') (ℓ := nLoc d) (I := Finset.univ) (q := fullShare) (f := Cert.Spec.nextPtr (m (pLoc d)))) $$ [HSI Hn]
  · isplitl [HSI] <;> iassumption
  icases H with %h5
  ipureintro
  exact ⟨funext fun i => h4 i (Finset.mem_univ i), funext fun i => h5 i (Finset.mem_univ i), funext fun i => h1 i (Finset.mem_univ i),
    funext fun i => h2 i (Finset.mem_univ i), funext fun i => h3 i (Finset.mem_univ i)⟩

/-! ## The program's run -/

/-- Every device ends with the result at the routed rows, the next pointer, and its inputs as launched. -/
def QC : PUnit × MemSt nD τ sig (Elt F) → Prop := fun r => ∀ c : Dev nD,
  r.2.mem (oLoc c) = R m c ∧ r.2.mem (nLoc c) = Cert.Spec.nextPtr (m (pLoc c))
    ∧ r.2.mem (aLoc c) = m (aLoc c) ∧ r.2.mem (bLoc c) = m (bLoc c) ∧ r.2.mem (pLoc c) = m (pLoc c)

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.Kernel.Run

end
-- ==== Proof.KernelIdeal.Conds.lean ====
/-
  Which of a tile's 48 printed conditions hold.

  Worker `w = 16·core + subcore` moves rows `3072·w + 128·k`, `k < 24`. Chunk `k` is read from the batch
  when its first row is below 16384 and from the buffer otherwise: the printed condition `2k+1` is
  `3072·w + 128·k < 16384` and condition `2k+2` its negation, on 32-bit words. Workers 0…4 read
  only the batch, workers 6…31 only the buffer, and worker 5 reads the batch for `k < 8` and the
  buffer from `k = 8` on. Each fact is decided over the 32 grid points.
-/
import proofs.«216569_g74620761801077_fold_wed_m_520_16_alg».proof.KernelIdeal

namespace Cert.Proof.KernelIdeal.Conds

open Cert.KernelIdeal
open Idealize.ShloMosaic

/-- The worker's number, `16·core + subcore`. -/
def wid (L : grid0.Coords) : Nat := 16 * (L 0).val + (L 1).val

theorem lo_1 : ∀ L : grid0.Coords, wid L ≤ 4 → k0_cond1 L = 1#1 := by decide +kernel
theorem lo_2 : ∀ L : grid0.Coords, wid L ≤ 4 → ¬ k0_cond2 L = 1#1 := by decide +kernel
theorem hi_1 : ∀ L : grid0.Coords, 6 ≤ wid L → ¬ k0_cond1 L = 1#1 := by decide +kernel
theorem hi_2 : ∀ L : grid0.Coords, 6 ≤ wid L → k0_cond2 L = 1#1 := by decide +kernel
theorem mid_1 : ∀ L : grid0.Coords, wid L = 5 → k0_cond1 L = 1#1 := by decide +kernel
theorem mid_2 : ∀ L : grid0.Coords, wid L = 5 → ¬ k0_cond2 L = 1#1 := by decide +kernel
theorem lo_3 : ∀ L : grid0.Coords, wid L ≤ 4 → k0_cond3 L = 1#1 := by decide +kernel
theorem lo_4 : ∀ L : grid0.Coords, wid L ≤ 4 → ¬ k0_cond4 L = 1#1 := by decide +kernel
theorem hi_3 : ∀ L : grid0.Coords, 6 ≤ wid L → ¬ k0_cond3 L = 1#1 := by decide +kernel
theorem hi_4 : ∀ L : grid0.Coords, 6 ≤ wid L → k0_cond4 L = 1#1 := by decide +kernel
theorem mid_3 : ∀ L : grid0.Coords, wid L = 5 → k0_cond3 L = 1#1 := by decide +kernel
theorem mid_4 : ∀ L : grid0.Coords, wid L = 5 → ¬ k0_cond4 L = 1#1 := by decide +kernel
theorem lo_5 : ∀ L : grid0.Coords, wid L ≤ 4 → k0_cond5 L = 1#1 := by decide +kernel
theorem lo_6 : ∀ L : grid0.Coords, wid L ≤ 4 → ¬ k0_cond6 L = 1#1 := by decide +kernel
theorem hi_5 : ∀ L : grid0.Coords, 6 ≤ wid L → ¬ k0_cond5 L = 1#1 := by decide +kernel
theorem hi_6 : ∀ L : grid0.Coords, 6 ≤ wid L → k0_cond6 L = 1#1 := by decide +kernel
theorem mid_5 : ∀ L : grid0.Coords, wid L = 5 → k0_cond5 L = 1#1 := by decide +kernel
theorem mid_6 : ∀ L : grid0.Coords, wid L = 5 → ¬ k0_cond6 L = 1#1 := by decide +kernel
theorem lo_7 : ∀ L : grid0.Coords, wid L ≤ 4 → k0_cond7 L = 1#1 := by decide +kernel
theorem lo_8 : ∀ L : grid0.Coords, wid L ≤ 4 → ¬ k0_cond8 L = 1#1 := by decide +kernel
theorem hi_7 : ∀ L : grid0.Coords, 6 ≤ wid L → ¬ k0_cond7 L = 1#1 := by decide +kernel
theorem hi_8 : ∀ L : grid0.Coords, 6 ≤ wid L → k0_cond8 L = 1#1 := by decide +kernel
theorem mid_7 : ∀ L : grid0.Coords, wid L = 5 → k0_cond7 L = 1#1 := by decide +kernel
theorem mid_8 : ∀ L : grid0.Coords, wid L = 5 → ¬ k0_cond8 L = 1#1 := by decide +kernel
theorem lo_9 : ∀ L : grid0.Coords, wid L ≤ 4 → k0_cond9 L = 1#1 := by decide +kernel
theorem lo_10 : ∀ L : grid0.Coords, wid L ≤ 4 → ¬ k0_cond10 L = 1#1 := by decide +kernel
theorem hi_9 : ∀ L : grid0.Coords, 6 ≤ wid L → ¬ k0_cond9 L = 1#1 := by decide +kernel
theorem hi_10 : ∀ L : grid0.Coords, 6 ≤ wid L → k0_cond10 L = 1#1 := by decide +kernel
theorem mid_9 : ∀ L : grid0.Coords, wid L = 5 → k0_cond9 L = 1#1 := by decide +kernel
theorem mid_10 : ∀ L : grid0.Coords, wid L = 5 → ¬ k0_cond10 L = 1#1 := by decide +kernel
theorem lo_11 : ∀ L : grid0.Coords, wid L ≤ 4 → k0_cond11 L = 1#1 := by decide +kernel
theorem lo_12 : ∀ L : grid0.Coords, wid L ≤ 4 → ¬ k0_cond12 L = 1#1 := by decide +kernel
theorem hi_11 : ∀ L : grid0.Coords, 6 ≤ wid L → ¬ k0_cond11 L = 1#1 := by decide +kernel
theorem hi_12 : ∀ L : grid0.Coords, 6 ≤ wid L → k0_cond12 L = 1#1 := by decide +kernel
theorem mid_11 : ∀ L : grid0.Coords, wid L = 5 → k0_cond11 L = 1#1 := by decide +kernel
theorem mid_12 : ∀ L : grid0.Coords, wid L = 5 → ¬ k0_cond12 L = 1#1 := by decide +kernel
theorem lo_13 : ∀ L : grid0.Coords, wid L ≤ 4 → k0_cond13 L = 1#1 := by decide +kernel
theorem lo_14 : ∀ L : grid0.Coords, wid L ≤ 4 → ¬ k0_cond14 L = 1#1 := by decide +kernel
theorem hi_13 : ∀ L : grid0.Coords, 6 ≤ wid L → ¬ k0_cond13 L = 1#1 := by decide +kernel
theorem hi_14 : ∀ L : grid0.Coords, 6 ≤ wid L → k0_cond14 L = 1#1 := by decide +kernel
theorem mid_13 : ∀ L : grid0.Coords, wid L = 5 → k0_cond13 L = 1#1 := by decide +kernel
theorem mid_14 : ∀ L : grid0.Coords, wid L = 5 → ¬ k0_cond14 L = 1#1 := by decide +kernel
theorem lo_15 : ∀ L : grid0.Coords, wid L ≤ 4 → k0_cond15 L = 1#1 := by decide +kernel
theorem lo_16 : ∀ L : grid0.Coords, wid L ≤ 4 → ¬ k0_cond16 L = 1#1 := by decide +kernel
theorem hi_15 : ∀ L : grid0.Coords, 6 ≤ wid L → ¬ k0_cond15 L = 1#1 := by decide +kernel
theorem hi_16 : ∀ L : grid0.Coords, 6 ≤ wid L → k0_cond16 L = 1#1 := by decide +kernel
theorem mid_15 : ∀ L : grid0.Coords, wid L = 5 → k0_cond15 L = 1#1 := by decide +kernel
theorem mid_16 : ∀ L : grid0.Coords, wid L = 5 → ¬ k0_cond16 L = 1#1 := by decide +kernel
theorem lo_17 : ∀ L : grid0.Coords, wid L ≤ 4 → k0_cond17 L = 1#1 := by decide +kernel
theorem lo_18 : ∀ L : grid0.Coords, wid L ≤ 4 → ¬ k0_cond18 L = 1#1 := by decide +kernel
theorem hi_17 : ∀ L : grid0.Coords, 6 ≤ wid L → ¬ k0_cond17 L = 1#1 := by decide +kernel
theorem hi_18 : ∀ L : grid0.Coords, 6 ≤ wid L → k0_cond18 L = 1#1 := by decide +kernel
theorem mid_17 : ∀ L : grid0.Coords, wid L = 5 → ¬ k0_cond17 L = 1#1 := by decide +kernel
theorem mid_18 : ∀ L : grid0.Coords, wid L = 5 → k0_cond18 L = 1#1 := by decide +kernel
theorem lo_19 : ∀ L : grid0.Coords, wid L ≤ 4 → k0_cond19 L = 1#1 := by decide +kernel
theorem lo_20 : ∀ L : grid0.Coords, wid L ≤ 4 → ¬ k0_cond20 L = 1#1 := by decide +kernel
theorem hi_19 : ∀ L : grid0.Coords, 6 ≤ wid L → ¬ k0_cond19 L = 1#1 := by decide +kernel
theorem hi_20 : ∀ L : grid0.Coords, 6 ≤ wid L → k0_cond20 L = 1#1 := by decide +kernel
theorem mid_19 : ∀ L : grid0.Coords, wid L = 5 → ¬ k0_cond19 L = 1#1 := by decide +kernel
theorem mid_20 : ∀ L : grid0.Coords, wid L = 5 → k0_cond20 L = 1#1 := by decide +kernel
theorem lo_21 : ∀ L : grid0.Coords, wid L ≤ 4 → k0_cond21 L = 1#1 := by decide +kernel
theorem lo_22 : ∀ L : grid0.Coords, wid L ≤ 4 → ¬ k0_cond22 L = 1#1 := by decide +kernel
theorem hi_21 : ∀ L : grid0.Coords, 6 ≤ wid L → ¬ k0_cond21 L = 1#1 := by decide +kernel
theorem hi_22 : ∀ L : grid0.Coords, 6 ≤ wid L → k0_cond22 L = 1#1 := by decide +kernel
theorem mid_21 : ∀ L : grid0.Coords, wid L = 5 → ¬ k0_cond21 L = 1#1 := by decide +kernel
theorem mid_22 : ∀ L : grid0.Coords, wid L = 5 → k0_cond22 L = 1#1 := by decide +kernel
theorem lo_23 : ∀ L : grid0.Coords, wid L ≤ 4 → k0_cond23 L = 1#1 := by decide +kernel
theorem lo_24 : ∀ L : grid0.Coords, wid L ≤ 4 → ¬ k0_cond24 L = 1#1 := by decide +kernel
theorem hi_23 : ∀ L : grid0.Coords, 6 ≤ wid L → ¬ k0_cond23 L = 1#1 := by decide +kernel
theorem hi_24 : ∀ L : grid0.Coords, 6 ≤ wid L → k0_cond24 L = 1#1 := by decide +kernel
theorem mid_23 : ∀ L : grid0.Coords, wid L = 5 → ¬ k0_cond23 L = 1#1 := by decide +kernel
theorem mid_24 : ∀ L : grid0.Coords, wid L = 5 → k0_cond24 L = 1#1 := by decide +kernel
theorem lo_25 : ∀ L : grid0.Coords, wid L ≤ 4 → k0_cond25 L = 1#1 := by decide +kernel
theorem lo_26 : ∀ L : grid0.Coords, wid L ≤ 4 → ¬ k0_cond26 L = 1#1 := by decide +kernel
theorem hi_25 : ∀ L : grid0.Coords, 6 ≤ wid L → ¬ k0_cond25 L = 1#1 := by decide +kernel
theorem hi_26 : ∀ L : grid0.Coords, 6 ≤ wid L → k0_cond26 L = 1#1 := by decide +kernel
theorem mid_25 : ∀ L : grid0.Coords, wid L = 5 → ¬ k0_cond25 L = 1#1 := by decide +kernel
theorem mid_26 : ∀ L : grid0.Coords, wid L = 5 → k0_cond26 L = 1#1 := by decide +kernel
theorem lo_27 : ∀ L : grid0.Coords, wid L ≤ 4 → k0_cond27 L = 1#1 := by decide +kernel
theorem lo_28 : ∀ L : grid0.Coords, wid L ≤ 4 → ¬ k0_cond28 L = 1#1 := by decide +kernel
theorem hi_27 : ∀ L : grid0.Coords, 6 ≤ wid L → ¬ k0_cond27 L = 1#1 := by decide +kernel
theorem hi_28 : ∀ L : grid0.Coords, 6 ≤ wid L → k0_cond28 L = 1#1 := by decide +kernel
theorem mid_27 : ∀ L : grid0.Coords, wid L = 5 → ¬ k0_cond27 L = 1#1 := by decide +kernel
theorem mid_28 : ∀ L : grid0.Coords, wid L = 5 → k0_cond28 L = 1#1 := by decide +kernel
theorem lo_29 : ∀ L : grid0.Coords, wid L ≤ 4 → k0_cond29 L = 1#1 := by decide +kernel
theorem lo_30 : ∀ L : grid0.Coords, wid L ≤ 4 → ¬ k0_cond30 L = 1#1 := by decide +kernel
theorem hi_29 : ∀ L : grid0.Coords, 6 ≤ wid L → ¬ k0_cond29 L = 1#1 := by decide +kernel
theorem hi_30 : ∀ L : grid0.Coords, 6 ≤ wid L → k0_cond30 L = 1#1 := by decide +kernel
theorem mid_29 : ∀ L : grid0.Coords, wid L = 5 → ¬ k0_cond29 L = 1#1 := by decide +kernel
theorem mid_30 : ∀ L : grid0.Coords, wid L = 5 → k0_cond30 L = 1#1 := by decide +kernel
theorem lo_31 : ∀ L : grid0.Coords, wid L ≤ 4 → k0_cond31 L = 1#1 := by decide +kernel
theorem lo_32 : ∀ L : grid0.Coords, wid L ≤ 4 → ¬ k0_cond32 L = 1#1 := by decide +kernel
theorem hi_31 : ∀ L : grid0.Coords, 6 ≤ wid L → ¬ k0_cond31 L = 1#1 := by decide +kernel
theorem hi_32 : ∀ L : grid0.Coords, 6 ≤ wid L → k0_cond32 L = 1#1 := by decide +kernel
theorem mid_31 : ∀ L : grid0.Coords, wid L = 5 → ¬ k0_cond31 L = 1#1 := by decide +kernel
theorem mid_32 : ∀ L : grid0.Coords, wid L = 5 → k0_cond32 L = 1#1 := by decide +kernel
theorem lo_33 : ∀ L : grid0.Coords, wid L ≤ 4 → k0_cond33 L = 1#1 := by decide +kernel
theorem lo_34 : ∀ L : grid0.Coords, wid L ≤ 4 → ¬ k0_cond34 L = 1#1 := by decide +kernel
theorem hi_33 : ∀ L : grid0.Coords, 6 ≤ wid L → ¬ k0_cond33 L = 1#1 := by decide +kernel
theorem hi_34 : ∀ L : grid0.Coords, 6 ≤ wid L → k0_cond34 L = 1#1 := by decide +kernel
theorem mid_33 : ∀ L : grid0.Coords, wid L = 5 → ¬ k0_cond33 L = 1#1 := by decide +kernel
theorem mid_34 : ∀ L : grid0.Coords, wid L = 5 → k0_cond34 L = 1#1 := by decide +kernel
theorem lo_35 : ∀ L : grid0.Coords, wid L ≤ 4 → k0_cond35 L = 1#1 := by decide +kernel
theorem lo_36 : ∀ L : grid0.Coords, wid L ≤ 4 → ¬ k0_cond36 L = 1#1 := by decide +kernel
theorem hi_35 : ∀ L : grid0.Coords, 6 ≤ wid L → ¬ k0_cond35 L = 1#1 := by decide +kernel
theorem hi_36 : ∀ L : grid0.Coords, 6 ≤ wid L → k0_cond36 L = 1#1 := by decide +kernel
theorem mid_35 : ∀ L : grid0.Coords, wid L = 5 → ¬ k0_cond35 L = 1#1 := by decide +kernel
theorem mid_36 : ∀ L : grid0.Coords, wid L = 5 → k0_cond36 L = 1#1 := by decide +kernel
theorem lo_37 : ∀ L : grid0.Coords, wid L ≤ 4 → k0_cond37 L = 1#1 := by decide +kernel
theorem lo_38 : ∀ L : grid0.Coords, wid L ≤ 4 → ¬ k0_cond38 L = 1#1 := by decide +kernel
theorem hi_37 : ∀ L : grid0.Coords, 6 ≤ wid L → ¬ k0_cond37 L = 1#1 := by decide +kernel
theorem hi_38 : ∀ L : grid0.Coords, 6 ≤ wid L → k0_cond38 L = 1#1 := by decide +kernel
theorem mid_37 : ∀ L : grid0.Coords, wid L = 5 → ¬ k0_cond37 L = 1#1 := by decide +kernel
theorem mid_38 : ∀ L : grid0.Coords, wid L = 5 → k0_cond38 L = 1#1 := by decide +kernel
theorem lo_39 : ∀ L : grid0.Coords, wid L ≤ 4 → k0_cond39 L = 1#1 := by decide +kernel
theorem lo_40 : ∀ L : grid0.Coords, wid L ≤ 4 → ¬ k0_cond40 L = 1#1 := by decide +kernel
theorem hi_39 : ∀ L : grid0.Coords, 6 ≤ wid L → ¬ k0_cond39 L = 1#1 := by decide +kernel
theorem hi_40 : ∀ L : grid0.Coords, 6 ≤ wid L → k0_cond40 L = 1#1 := by decide +kernel
theorem mid_39 : ∀ L : grid0.Coords, wid L = 5 → ¬ k0_cond39 L = 1#1 := by decide +kernel
theorem mid_40 : ∀ L : grid0.Coords, wid L = 5 → k0_cond40 L = 1#1 := by decide +kernel
theorem lo_41 : ∀ L : grid0.Coords, wid L ≤ 4 → k0_cond41 L = 1#1 := by decide +kernel
theorem lo_42 : ∀ L : grid0.Coords, wid L ≤ 4 → ¬ k0_cond42 L = 1#1 := by decide +kernel
theorem hi_41 : ∀ L : grid0.Coords, 6 ≤ wid L → ¬ k0_cond41 L = 1#1 := by decide +kernel
theorem hi_42 : ∀ L : grid0.Coords, 6 ≤ wid L → k0_cond42 L = 1#1 := by decide +kernel
theorem mid_41 : ∀ L : grid0.Coords, wid L = 5 → ¬ k0_cond41 L = 1#1 := by decide +kernel
theorem mid_42 : ∀ L : grid0.Coords, wid L = 5 → k0_cond42 L = 1#1 := by decide +kernel
theorem lo_43 : ∀ L : grid0.Coords, wid L ≤ 4 → k0_cond43 L = 1#1 := by decide +kernel
theorem lo_44 : ∀ L : grid0.Coords, wid L ≤ 4 → ¬ k0_cond44 L = 1#1 := by decide +kernel
theorem hi_43 : ∀ L : grid0.Coords, 6 ≤ wid L → ¬ k0_cond43 L = 1#1 := by decide +kernel
theorem hi_44 : ∀ L : grid0.Coords, 6 ≤ wid L → k0_cond44 L = 1#1 := by decide +kernel
theorem mid_43 : ∀ L : grid0.Coords, wid L = 5 → ¬ k0_cond43 L = 1#1 := by decide +kernel
theorem mid_44 : ∀ L : grid0.Coords, wid L = 5 → k0_cond44 L = 1#1 := by decide +kernel
theorem lo_45 : ∀ L : grid0.Coords, wid L ≤ 4 → k0_cond45 L = 1#1 := by decide +kernel
theorem lo_46 : ∀ L : grid0.Coords, wid L ≤ 4 → ¬ k0_cond46 L = 1#1 := by decide +kernel
theorem hi_45 : ∀ L : grid0.Coords, 6 ≤ wid L → ¬ k0_cond45 L = 1#1 := by decide +kernel
theorem hi_46 : ∀ L : grid0.Coords, 6 ≤ wid L → k0_cond46 L = 1#1 := by decide +kernel
theorem mid_45 : ∀ L : grid0.Coords, wid L = 5 → ¬ k0_cond45 L = 1#1 := by decide +kernel
theorem mid_46 : ∀ L : grid0.Coords, wid L = 5 → k0_cond46 L = 1#1 := by decide +kernel
theorem lo_47 : ∀ L : grid0.Coords, wid L ≤ 4 → k0_cond47 L = 1#1 := by decide +kernel
theorem lo_48 : ∀ L : grid0.Coords, wid L ≤ 4 → ¬ k0_cond48 L = 1#1 := by decide +kernel
theorem hi_47 : ∀ L : grid0.Coords, 6 ≤ wid L → ¬ k0_cond47 L = 1#1 := by decide +kernel
theorem hi_48 : ∀ L : grid0.Coords, 6 ≤ wid L → k0_cond48 L = 1#1 := by decide +kernel
theorem mid_47 : ∀ L : grid0.Coords, wid L = 5 → ¬ k0_cond47 L = 1#1 := by decide +kernel
theorem mid_48 : ∀ L : grid0.Coords, wid L = 5 → k0_cond48 L = 1#1 := by decide +kernel

end Cert.Proof.KernelIdeal.Conds
-- ==== Proof.KernelIdeal.Setup.lean ====
/-
  The routed copy as the launch theorem sees it: the program's names, the ghost state, the arrays as
  the TensorCore and as a tile address them, and the pieces the arrays are dealt in.

  The result array has 98304 rows; worker `w = 16·core + subcore` owns rows `3072·w … 3072·w + 3071`
  in 24 chunks of 128 rows, so the array is 768 chunks and chunk `384·core + 24·subcore + k` is the
  worker's `k`-th. The batch and the buffer are only read: every tile holds a read share of each,
  whole.
-/
import proofs.«216569_g74620761801077_fold_wed_m_520_16_alg».proof.KernelIdeal
import proofs.«216569_g74620761801077_fold_wed_m_520_16_alg».proof.Proof.Gen.KernelIdeal
import proofs.«216569_g74620761801077_fold_wed_m_520_16_alg».proof.Proof.Gen.KernelIdeal.Skeleton
import proofs.«216569_g74620761801077_fold_wed_m_520_16_alg».proof.Proof.KernelIdeal.Conds
import proofs.«216569_g74620761801077_fold_wed_m_520_16_alg».proof.Proof.Spec
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev aLoc (d : Dev nD) : Loc nD τ sig := (SparseCore.T d).loc main_arg0
abbrev bLoc (d : Dev nD) : Loc nD τ sig := (SparseCore.T d).loc main_arg1
abbrev pLoc (d : Dev nD) : Loc nD τ sig := (SparseCore.T d).loc main_arg2
abbrev oLoc (d : Dev nD) : Loc nD τ sig := (SparseCore.T d).loc main_v0

abbrev aW : Memref sig .scVector .hbm S16384x256 .f32 := Memref.whole main_arg0_scv
abbrev bW : Memref sig .scVector .hbm S98304x256 .f32 := Memref.whole main_arg1_scv
abbrev oW : Memref sig .scVector .hbm S98304x256 .f32 := Memref.whole main_v0_scv
abbrev s0 : Memref sig .scVector .vmem S128x256 .f32 := Memref.whole cc0_scratch0
abbrev s1 : Memref sig .scVector .vmem S128x256 .f32 := Memref.whole cc0_scratch1
abbrev s2 : Memref sig .scVector .vmem S128x256 .f32 := Memref.whole cc0_scratch2

/-- The tile at grid coordinates `L`. -/
abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

/-! ## The result array in 768 chunks of 128 rows -/

theorem hdiv : 768 ∣ S98304x256.size 0 := ⟨128, rfl⟩
/-- Chunk `j`: rows `128·j … 128·j + 127`, all 256 columns. -/
abbrev crow (j : Fin 768) : Rect S98304x256 := Rect.part (s := S98304x256) (a₀ := 0) hdiv j
abbrev chunkSet (j : Fin 768) : Finset S98304x256.Idx := ((oW : Memref sig .scVector .hbm S98304x256 .f32).view.slice (crow j)).set

/-- The number of worker `(c, i)`'s `k`-th chunk. -/
def jOf (L : grid0.Coords) (k : Fin 24) : Fin 768 :=
  ⟨384 * (L 0).val + 24 * (L 1).val + k.val, by
    have h0 : (L 0).val < 2 := (L 0).isLt
    have h1 : (L 1).val < 16 := (L 1).isLt
    have h2 := k.isLt
    omega⟩

/-- The `k`-th destination slice of the result as the program spells it: the chunk constant `kc` is the word `128·k`. -/
abbrev oChunk (L : grid0.Coords) (kc : BitVec 32) (h : ∀ a, (k0_off7 L kc) a + S128x256.size a ≤ S98304x256.size a) :
    Memref sig .scVector .hbm S128x256 .f32 :=
  (oW : Memref sig .scVector .hbm S98304x256 .f32).slice (Rect.unit (s := S98304x256) (k0_off7 L kc) S128x256.size h) (fun _ => rfl)

theorem rect_oChunk (L : grid0.Coords) (k : Fin 24) :
    Rect.unit (s := S98304x256) (k0_off7 L (BitVec.ofNat 32 (128 * k.val))) S128x256.size (k0_off7_inb L k) = crow (jOf L k) := by
  unfold crow Rect.part Rect.block
  congr 1 <;> funext a
  · rw [k0_off7_eq]
    match a with
    | 0 => simp [Shape.partIx, Shape.partSize, jOf]; omega
    | 1 => simp [Shape.partIx, Shape.partSize]
  · match a with
    | 0 => simp [Shape.partSize]
    | 1 => simp [Shape.partSize]

theorem set_oChunk (L : grid0.Coords) (k : Fin 24) :
    (oChunk L (BitVec.ofNat 32 (128 * k.val)) (k0_off7_inb L k)).view.set = chunkSet (jOf L k) := by
  show ((oW : Memref sig .scVector .hbm S98304x256 .f32).view.slice
      (Rect.unit (s := S98304x256) (k0_off7 L (BitVec.ofNat 32 (128 * k.val))) S128x256.size (k0_off7_inb L k))).set
    = ((oW : Memref sig .scVector .hbm S98304x256 .f32).view.slice (crow (jOf L k))).set
  rw [rect_oChunk]

end Cert.Proof.KernelIdeal.Run

end
-- ==== Proof.KernelIdeal.Pay.lean ====
/-
  What the launch's handshakes carry, and the same resources as a tile's program spells them.

  A core's call carries a read share of the batch and of the buffer and the core's 384 chunks of the
  result; a tile's task carries a read share of each source and the tile's 24 chunks, and brings the
  24 chunks back holding the routed rows. A read share is never returned: the TensorCore keeps one of
  its own, which is all the final memory is read through.
-/
import proofs.«216569_g74620761801077_fold_wed_m_520_16_alg».proof.Proof.KernelIdeal.Setup

noncomputable section

namespace Cert.Proof.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Read shares: the full share cut per core, per tile, per gather semaphore -/

def qc (c : ℕ) : PosShare TreeShare := Transfers.shareTokN fullShare c
def qt (c i : ℕ) : PosShare TreeShare := Transfers.shareTokN (qc c) i
def qb (c i b : ℕ) : PosShare TreeShare := Transfers.shareTokN (qt c i) b

variable (m : (ℓ : Loc nD τ sig) → Buf (Elt F) ℓ) (ρ : Dev nD → PrngReg)

/-- The result the kernel leaves: the batch's rows on rows below 16384, the buffer's own rows from there on. -/
def R (d : Dev nD) : Buf (Elt F) (oLoc d) :=
  Cert.Spec.routed (m (aLoc d) : S16384x256.Idx → Elt F .f32) (m (bLoc d) : S98304x256.Idx → Elt F .f32)

/-- Chunk `k` of the tile at `L`, as the TensorCore addresses the result array. -/
abbrev chunkPts (d : Dev nD) (L : grid0.Coords) (k : Fin 24) (f : Buf (Elt F) (oLoc d)) : sProp 𝕄 :=
  oLoc d ↦[chunkSet (jOf L k)]{fullShare} f

/-- A tile's task: a read share of both sources, its 24 chunks at the launch contents. -/
def goPts (d : Dev nD) (L : grid0.Coords) : sProp 𝕄 :=
  iprop((aLoc d ↦{qt (L 0).val (L 1).val} m (aLoc d)) ∗ (bLoc d ↦{qt (L 0).val (L 1).val} m (bLoc d))
    ∗ bigSep Finset.univ fun k : Fin 24 => chunkPts d L k (m (oLoc d)))

/-- What the task brings back: its 24 chunks at the routed rows. -/
def tdPts (d : Dev nD) (L : grid0.Coords) : sProp 𝕄 :=
  bigSep Finset.univ fun k : Fin 24 => chunkPts d L k (R m d)

omit m in
theorem bigSep_fin24 (Φ : Fin 24 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) := by
  rw [show (Finset.univ : Finset (Fin 24)) = {0, 1, 2, 3, 4, 5, 6, 7, 8, 9, 10, 11, 12, 13, 14, 15, 16, 17, 18, 19, 20, 21, 22, 23} by decide]
  rw [bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  rfl

/-! ## The same resources in the program's spelling -/

omit m in
theorem pts_oChunk (d : Dev nD) (L : grid0.Coords) (k : Fin 24) (f : Buf (Elt F) (oLoc d)) :
    ((oChunk L (BitVec.ofNat 32 (128 * k.val)) (k0_off7_inb L k)).view.loc (V d (cV L) (jV L))
        ↦[(oChunk L (BitVec.ofNat 32 (128 * k.val)) (k0_off7_inb L k)).view.set]{fullShare} f : sProp 𝕄) = chunkPts d L k f := by
  rw [set_oChunk]

omit m in
theorem pts_oChunk_0 (d : Dev nD) (L : grid0.Coords) (f : Buf (Elt F) (oLoc d)) :
    ((oChunk L 0#32 (k0_off7_inb L 0)).view.loc (V d (cV L) (jV L)) ↦[(oChunk L 0#32 (k0_off7_inb L 0)).view.set]{fullShare} f : sProp 𝕄)
      = chunkPts d L 0 f := pts_oChunk d L 0 f
omit m in
theorem pts_oChunk_1 (d : Dev nD) (L : grid0.Coords) (f : Buf (Elt F) (oLoc d)) :
    ((oChunk L 128#32 (k0_off7_inb L 1)).view.loc (V d (cV L) (jV L)) ↦[(oChunk L 128#32 (k0_off7_inb L 1)).view.set]{fullShare} f : sProp 𝕄)
      = chunkPts d L 1 f := pts_oChunk d L 1 f
omit m in
theorem pts_oChunk_2 (d : Dev nD) (L : grid0.Coords) (f : Buf (Elt F) (oLoc d)) :
    ((oChunk L 256#32 (k0_off7_inb L 2)).view.loc (V d (cV L) (jV L)) ↦[(oChunk L 256#32 (k0_off7_inb L 2)).view.set]{fullShare} f : sProp 𝕄)
      = chunkPts d L 2 f := pts_oChunk d L 2 f
omit m in
theorem pts_oChunk_3 (d : Dev nD) (L : grid0.Coords) (f : Buf (Elt F) (oLoc d)) :
    ((oChunk L 384#32 (k0_off7_inb L 3)).view.loc (V d (cV L) (jV L)) ↦[(oChunk L 384#32 (k0_off7_inb L 3)).view.set]{fullShare} f : sProp 𝕄)
      = chunkPts d L 3 f := pts_oChunk d L 3 f
omit m in
theorem pts_oChunk_4 (d : Dev nD) (L : grid0.Coords) (f : Buf (Elt F) (oLoc d)) :
    ((oChunk L 512#32 (k0_off7_inb L 4)).view.loc (V d (cV L) (jV L)) ↦[(oChunk L 512#32 (k0_off7_inb L 4)).view.set]{fullShare} f : sProp 𝕄)
      = chunkPts d L 4 f := pts_oChunk d L 4 f
omit m in
theorem pts_oChunk_5 (d : Dev nD) (L : grid0.Coords) (f : Buf (Elt F) (oLoc d)) :
    ((oChunk L 640#32 (k0_off7_inb L 5)).view.loc (V d (cV L) (jV L)) ↦[(oChunk L 640#32 (k0_off7_inb L 5)).view.set]{fullShare} f : sProp 𝕄)
      = chunkPts d L 5 f := pts_oChunk d L 5 f
omit m in
theorem pts_oChunk_6 (d : Dev nD) (L : grid0.Coords) (f : Buf (Elt F) (oLoc d)) :
    ((oChunk L 768#32 (k0_off7_inb L 6)).view.loc (V d (cV L) (jV L)) ↦[(oChunk L 768#32 (k0_off7_inb L 6)).view.set]{fullShare} f : sProp 𝕄)
      = chunkPts d L 6 f := pts_oChunk d L 6 f
omit m in
theorem pts_oChunk_7 (d : Dev nD) (L : grid0.Coords) (f : Buf (Elt F) (oLoc d)) :
    ((oChunk L 896#32 (k0_off7_inb L 7)).view.loc (V d (cV L) (jV L)) ↦[(oChunk L 896#32 (k0_off7_inb L 7)).view.set]{fullShare} f : sProp 𝕄)
      = chunkPts d L 7 f := pts_oChunk d L 7 f
omit m in
theorem pts_oChunk_8 (d : Dev nD) (L : grid0.Coords) (f : Buf (Elt F) (oLoc d)) :
    ((oChunk L 1024#32 (k0_off7_inb L 8)).view.loc (V d (cV L) (jV L)) ↦[(oChunk L 1024#32 (k0_off7_inb L 8)).view.set]{fullShare} f : sProp 𝕄)
      = chunkPts d L 8 f := pts_oChunk d L 8 f
omit m in
theorem pts_oChunk_9 (d : Dev nD) (L : grid0.Coords) (f : Buf (Elt F) (oLoc d)) :
    ((oChunk L 1152#32 (k0_off7_inb L 9)).view.loc (V d (cV L) (jV L)) ↦[(oChunk L 1152#32 (k0_off7_inb L 9)).view.set]{fullShare} f : sProp 𝕄)
      = chunkPts d L 9 f := pts_oChunk d L 9 f
omit m in
theorem pts_oChunk_10 (d : Dev nD) (L : grid0.Coords) (f : Buf (Elt F) (oLoc d)) :
    ((oChunk L 1280#32 (k0_off7_inb L 10)).view.loc (V d (cV L) (jV L)) ↦[(oChunk L 1280#32 (k0_off7_inb L 10)).view.set]{fullShare} f : sProp 𝕄)
      = chunkPts d L 10 f := pts_oChunk d L 10 f
omit m in
theorem pts_oChunk_11 (d : Dev nD) (L : grid0.Coords) (f : Buf (Elt F) (oLoc d)) :
    ((oChunk L 1408#32 (k0_off7_inb L 11)).view.loc (V d (cV L) (jV L)) ↦[(oChunk L 1408#32 (k0_off7_inb L 11)).view.set]{fullShare} f : sProp 𝕄)
      = chunkPts d L 11 f := pts_oChunk d L 11 f
omit m in
theorem pts_oChunk_12 (d : Dev nD) (L : grid0.Coords) (f : Buf (Elt F) (oLoc d)) :
    ((oChunk L 1536#32 (k0_off7_inb L 12)).view.loc (V d (cV L) (jV L)) ↦[(oChunk L 1536#32 (k0_off7_inb L 12)).view.set]{fullShare} f : sProp 𝕄)
      = chunkPts d L 12 f := pts_oChunk d L 12 f
omit m in
theorem pts_oChunk_13 (d : Dev nD) (L : grid0.Coords) (f : Buf (Elt F) (oLoc d)) :
    ((oChunk L 1664#32 (k0_off7_inb L 13)).view.loc (V d (cV L) (jV L)) ↦[(oChunk L 1664#32 (k0_off7_inb L 13)).view.set]{fullShare} f : sProp 𝕄)
      = chunkPts d L 13 f := pts_oChunk d L 13 f
omit m in
theorem pts_oChunk_14 (d : Dev nD) (L : grid0.Coords) (f : Buf (Elt F) (oLoc d)) :
    ((oChunk L 1792#32 (k0_off7_inb L 14)).view.loc (V d (cV L) (jV L)) ↦[(oChunk L 1792#32 (k0_off7_inb L 14)).view.set]{fullShare} f : sProp 𝕄)
      = chunkPts d L 14 f := pts_oChunk d L 14 f
omit m in
theorem pts_oChunk_15 (d : Dev nD) (L : grid0.Coords) (f : Buf (Elt F) (oLoc d)) :
    ((oChunk L 1920#32 (k0_off7_inb L 15)).view.loc (V d (cV L) (jV L)) ↦[(oChunk L 1920#32 (k0_off7_inb L 15)).view.set]{fullShare} f : sProp 𝕄)
      = chunkPts d L 15 f := pts_oChunk d L 15 f
omit m in
theorem pts_oChunk_16 (d : Dev nD) (L : grid0.Coords) (f : Buf (Elt F) (oLoc d)) :
    ((oChunk L 2048#32 (k0_off7_inb L 16)).view.loc (V d (cV L) (jV L)) ↦[(oChunk L 2048#32 (k0_off7_inb L 16)).view.set]{fullShare} f : sProp 𝕄)
      = chunkPts d L 16 f := pts_oChunk d L 16 f
omit m in
theorem pts_oChunk_17 (d : Dev nD) (L : grid0.Coords) (f : Buf (Elt F) (oLoc d)) :
    ((oChunk L 2176#32 (k0_off7_inb L 17)).view.loc (V d (cV L) (jV L)) ↦[(oChunk L 2176#32 (k0_off7_inb L 17)).view.set]{fullShare} f : sProp 𝕄)
      = chunkPts d L 17 f := pts_oChunk d L 17 f
omit m in
theorem pts_oChunk_18 (d : Dev nD) (L : grid0.Coords) (f : Buf (Elt F) (oLoc d)) :
    ((oChunk L 2304#32 (k0_off7_inb L 18)).view.loc (V d (cV L) (jV L)) ↦[(oChunk L 2304#32 (k0_off7_inb L 18)).view.set]{fullShare} f : sProp 𝕄)
      = chunkPts d L 18 f := pts_oChunk d L 18 f
omit m in
theorem pts_oChunk_19 (d : Dev nD) (L : grid0.Coords) (f : Buf (Elt F) (oLoc d)) :
    ((oChunk L 2432#32 (k0_off7_inb L 19)).view.loc (V d (cV L) (jV L)) ↦[(oChunk L 2432#32 (k0_off7_inb L 19)).view.set]{fullShare} f : sProp 𝕄)
      = chunkPts d L 19 f := pts_oChunk d L 19 f
omit m in
theorem pts_oChunk_20 (d : Dev nD) (L : grid0.Coords) (f : Buf (Elt F) (oLoc d)) :
    ((oChunk L 2560#32 (k0_off7_inb L 20)).view.loc (V d (cV L) (jV L)) ↦[(oChunk L 2560#32 (k0_off7_inb L 20)).view.set]{fullShare} f : sProp 𝕄)
      = chunkPts d L 20 f := pts_oChunk d L 20 f
omit m in
theorem pts_oChunk_21 (d : Dev nD) (L : grid0.Coords) (f : Buf (Elt F) (oLoc d)) :
    ((oChunk L 2688#32 (k0_off7_inb L 21)).view.loc (V d (cV L) (jV L)) ↦[(oChunk L 2688#32 (k0_off7_inb L 21)).view.set]{fullShare} f : sProp 𝕄)
      = chunkPts d L 21 f := pts_oChunk d L 21 f
omit m in
theorem pts_oChunk_22 (d : Dev nD) (L : grid0.Coords) (f : Buf (Elt F) (oLoc d)) :
    ((oChunk L 2816#32 (k0_off7_inb L 22)).view.loc (V d (cV L) (jV L)) ↦[(oChunk L 2816#32 (k0_off7_inb L 22)).view.set]{fullShare} f : sProp 𝕄)
      = chunkPts d L 22 f := pts_oChunk d L 22 f
omit m in
theorem pts_oChunk_23 (d : Dev nD) (L : grid0.Coords) (f : Buf (Elt F) (oLoc d)) :
    ((oChunk L 2944#32 (k0_off7_inb L 23)).view.loc (V d (cV L) (jV L)) ↦[(oChunk L 2944#32 (k0_off7_inb L 23)).view.set]{fullShare} f : sProp 𝕄)
      = chunkPts d L 23 f := pts_oChunk d L 23 f

omit m in
theorem pts_a (d : Dev nD) (L : grid0.Coords) (q : PosShare TreeShare) (f : Buf (Elt F) (aLoc d)) :
    ((aW : Memref sig .scVector .hbm S16384x256 .f32).view.loc (V d (cV L) (jV L)) ↦{q} f : sProp 𝕄) = aLoc d ↦{q} f := rfl
omit m in
theorem pts_b (d : Dev nD) (L : grid0.Coords) (q : PosShare TreeShare) (f : Buf (Elt F) (bLoc d)) :
    ((bW : Memref sig .scVector .hbm S98304x256 .f32).view.loc (V d (cV L) (jV L)) ↦{q} f : sProp 𝕄) = bLoc d ↦{q} f := rfl
omit m in
theorem pts_s0 (d : Dev nD) (L : grid0.Coords) (f : Buf (Elt F) ((V d (cV L) (jV L)).loc cc0_scratch0)) :
    ((s0 : Memref sig .scVector .vmem S128x256 .f32).view.loc (V d (cV L) (jV L)) ↦{fullShare} f : sProp 𝕄) = (V d (cV L) (jV L)).loc cc0_scratch0 ↦{fullShare} f := rfl
omit m in
theorem pts_s1 (d : Dev nD) (L : grid0.Coords) (f : Buf (Elt F) ((V d (cV L) (jV L)).loc cc0_scratch1)) :
    ((s1 : Memref sig .scVector .vmem S128x256 .f32).view.loc (V d (cV L) (jV L)) ↦{fullShare} f : sProp 𝕄) = (V d (cV L) (jV L)).loc cc0_scratch1 ↦{fullShare} f := rfl
omit m in
theorem pts_s2 (d : Dev nD) (L : grid0.Coords) (f : Buf (Elt F) ((V d (cV L) (jV L)).loc cc0_scratch2)) :
    ((s2 : Memref sig .scVector .vmem S128x256 .f32).view.loc (V d (cV L) (jV L)) ↦{fullShare} f : sProp 𝕄) = (V d (cV L) (jV L)).loc cc0_scratch2 ↦{fullShare} f := rfl

/-! ## A tile's own semaphores and buffers: the six transfer semaphores and the three scratch buffers, and the rest -/

/-- A transfer semaphore of a thread's own, as a cell. -/
def semEmb (thr : Thread nD τ) : DmaSem sig ↪ GSem nD τ sig :=
  ⟨fun s => (thr, SemLoc.dma s), fun a b e => by injection e with _ e2; injection e2⟩

abbrev sems6 : Finset (DmaSem sig) :=
  {cc0_scratch3.sem, cc0_scratch4.sem, cc0_scratch5.sem, cc0_scratch6.sem, cc0_scratch7.sem, cc0_scratch8.sem}

omit m in
theorem sems6_sub (d : Dev nD) (L : grid0.Coords) : sems6.map (semEmb (V d (cV L) (jV L))) ⊆ ownCells (V d (cV L) (jV L)) := by
  intro g hg
  obtain ⟨s, hs, rfl⟩ := Finset.mem_map.mp hg
  refine mem_ownCells.mpr ⟨rfl, ?_⟩
  have key : ∀ s ∈ sems6, (SemLoc.dma s : SemLoc sig).isScoped .scVector = true := by decide
  exact key s hs

omit m in
theorem ownSems0_V (d : Dev nD) (L : grid0.Coords) :
    (ownSems0 (V d (cV L) (jV L)) : sProp 𝕄)
      = iprop((semVal (V d (cV L) (jV L), SemLoc.dma cc0_scratch3.sem) 0 ∗ semVal (V d (cV L) (jV L), SemLoc.dma cc0_scratch4.sem) 0
          ∗ semVal (V d (cV L) (jV L), SemLoc.dma cc0_scratch5.sem) 0 ∗ semVal (V d (cV L) (jV L), SemLoc.dma cc0_scratch6.sem) 0
          ∗ semVal (V d (cV L) (jV L), SemLoc.dma cc0_scratch7.sem) 0 ∗ semVal (V d (cV L) (jV L), SemLoc.dma cc0_scratch8.sem) 0)
          ∗ bigSep (ownCells (V d (cV L) (jV L)) \ sems6.map (semEmb (V d (cV L) (jV L)))) fun g => semVal g 0) := by
  unfold SparseCore.Cfg.ownSems0
  rw [bigSep_sdiff_split (sems6_sub d L), bigSep_map]
  rw [bigSep_insert (by decide), bigSep_insert (by decide), bigSep_insert (by decide), bigSep_insert (by decide), bigSep_insert (by decide), bigSep_singleton]
  rfl

/-- A scratch buffer of a tile's own, as a buffer of the device. -/
def refEmb (c : Fin τ.nSC) (i : Fin τ.nSub) : Ref sig .scVector ↪ DevRef τ sig :=
  ⟨(Proc.scVector c i).devRef, Proc.devRef_injective _⟩

abbrev refs3 : Finset (Ref sig .scVector) := {cc0_scratch0, cc0_scratch1, cc0_scratch2}

omit m in
theorem refs3_sub (L : grid0.Coords) : refs3.map (refEmb (cV L) (jV L)) ⊆ ownRefs (τ := τ) (.scVector (cV L) (jV L)) := by
  intro b hb
  obtain ⟨r, hr, rfl⟩ := Finset.mem_map.mp hb
  simp only [Finset.mem_insert, Finset.mem_singleton] at hr
  rcases hr with rfl | rfl | rfl <;> exact SparseCore.Cfg.mem_ownRefs_of_owner (p := Proc.scVector (cV L) (jV L)) rfl

omit m in
theorem ownBufs_V (d : Dev nD) (L : grid0.Coords) :
    (ownBufs (V d (cV L) (jV L)) : sProp 𝕄)
      = iprop(((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f))
          ∗ bigSep (ownRefs (τ := τ) (.scVector (cV L) (jV L)) \ refs3.map (refEmb (cV L) (jV L)))
              fun b => iprop(∃ f, ((d, b) : Loc nD τ sig) ↦{fullShare} f)) := by
  unfold SparseCore.Cfg.ownBufs
  rw [bigSep_sdiff_split (refs3_sub L), bigSep_map]
  rw [bigSep_insert (by decide), bigSep_insert (by decide), bigSep_singleton]
  rfl

end Cert.Proof.KernelIdeal.Run

end
-- ==== Proof.KernelIdeal.Value.lean ====
/-
  What a chunk of the result holds after the tile's task.

  The destination slice of chunk `k` and the source slice the chunk was fetched from start at the
  same row and span all 256 columns, so entry `(y₀, y₁)` of the written block is the source's entry
  at row `off + y₀`, column `y₁`. When the chunk's rows lie below 16384 the source is the batch and
  the routed rows there are the batch's; when they lie at or above 16384 the source is the buffer and
  the routed rows are the buffer's own.
-/
import proofs.«216569_g74620761801077_fold_wed_m_520_16_alg».proof.Proof.KernelIdeal.Pay
import Idealize.ShloMosaic.Lib.Writes
import Idealize.ShloMosaic.Lib.Pipeline.Value

noncomputable section

namespace Cert.Proof.KernelIdeal.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-- A chunk fetched from the batch: its rows are below 16384, where the routed rows are the batch's. -/
theorem val_batch (d : Dev nD) (offA : Fin 2 → ℕ) (hA : ∀ a, offA a + S128x256.size a ≤ S16384x256.size a)
    (offO : Fin 2 → ℕ) (hO : ∀ a, offO a + S128x256.size a ≤ S98304x256.size a) (e : offA = offO)
    (hlt : offO 0 + 128 ≤ 16384) (y : S128x256.Idx) :
    View.read (Elt F) ((aW : Memref sig .scVector .hbm S16384x256 .f32).slice (Rect.unit (s := S16384x256) offA S128x256.size hA) (fun _ => rfl)).view (m (aLoc d)) y
      = R m d (((oW : Memref sig .scVector .hbm S98304x256 .f32).slice (Rect.unit (s := S98304x256) offO S128x256.size hO) (fun _ => rfl)).view.emb y) := by
  subst e
  have hy : (y 0).val < 128 := (y 0).isLt
  have hj : ((((oW : Memref sig .scVector .hbm S98304x256 .f32).slice (Rect.unit (s := S98304x256) offA S128x256.size hO) (fun _ => rfl)).view.emb y) 0).val < 16384 := by
    show offA 0 + 1 * (y 0).val < 16384
    omega
  unfold R
  rw [Cert.Spec.routed_lt _ _ _ hj]
  show m (aLoc d) _ = m (aLoc d) _
  congr 1
  funext a
  match a with
  | 0 => rfl
  | 1 => rfl

/-- A chunk fetched from the buffer: its rows are at or above 16384, where the routed rows are the buffer's own. -/
theorem val_buffer (d : Dev nD) (offB : Fin 2 → ℕ) (hB : ∀ a, offB a + S128x256.size a ≤ S98304x256.size a)
    (offO : Fin 2 → ℕ) (hO : ∀ a, offO a + S128x256.size a ≤ S98304x256.size a) (e : offB = offO)
    (hge : 16384 ≤ offO 0) (y : S128x256.Idx) :
    View.read (Elt F) ((bW : Memref sig .scVector .hbm S98304x256 .f32).slice (Rect.unit (s := S98304x256) offB S128x256.size hB) (fun _ => rfl)).view (m (bLoc d)) y
      = R m d (((oW : Memref sig .scVector .hbm S98304x256 .f32).slice (Rect.unit (s := S98304x256) offO S128x256.size hO) (fun _ => rfl)).view.emb y) := by
  subst e
  have hj : ¬ ((((oW : Memref sig .scVector .hbm S98304x256 .f32).slice (Rect.unit (s := S98304x256) offB S128x256.size hO) (fun _ => rfl)).view.emb y) 0).val < 16384 := by
    show ¬ offB 0 + 1 * (y 0).val < 16384
    omega
  unfold R
  rw [Cert.Spec.routed_ge _ _ _ hj]
  rfl

/-- A chunk written whole with a block that is the routed rows there holds the routed rows. -/
theorem chunk_done (d : Dev nD) (L : grid0.Coords) (k : Fin 24) (kc : BitVec 32)
    (h : ∀ a, (k0_off7 L kc) a + S128x256.size a ≤ S98304x256.size a)
    (hset : (oChunk L kc h).view.set = chunkSet (jOf L k)) (g : Buf (Elt F) (oLoc d)) (pay : S128x256.Idx → Elt F .f32)
    (hpay : ∀ y, pay y = R m d ((oChunk L kc h).view.emb y)) :
    ((oChunk L kc h).view.loc (V d (cV L) (jV L)) ↦[(oChunk L kc h).view.set]{fullShare}
        (oChunk L kc h).view.writes (Elt F) g [⟨Rect.whole S128x256, pay⟩] : sProp 𝕄)
      ⊢ chunkPts d L k (R m d) := by
  have hc : ∀ i ∈ (oChunk L kc h).view.set,
      (oChunk L kc h).view.writes (Elt F) g [⟨Rect.whole S128x256, pay⟩] i = R m d i := by
    intro i hi
    obtain ⟨y, rfl⟩ := View.exists_emb_of_mem_set _ hi
    have hr := View.read_writes_cons_emb (oChunk L kc h).view g (Rect.whole S128x256) pay [] y
    rw [Rect.emb_whole_apply] at hr
    rw [← hpay y, ← hr]
    rfl
  rw [pointsTo_congr hc, hset]

omit m in
/-- The first row of the tile's `k`-th destination slice: `3072·w + 128·k` for worker `w`. -/
theorem off7_row (L : grid0.Coords) (k : Fin 24) :
    (k0_off7 L (BitVec.ofNat 32 (128 * k.val))) 0 = 3072 * Conds.wid L + 128 * k.val := by
  rw [k0_off7_eq]
  show 49152 * (L 0).val + 3072 * (L 1).val + 128 * k.val = 3072 * (16 * (L 0).val + (L 1).val) + 128 * k.val
  omega

omit m in
/-- The 24 chunks at one contents are the tile's chunks. -/
theorem chunks_pack (d : Dev nD) (L : grid0.Coords) (f : Buf (Elt F) (oLoc d)) :
    (iprop(chunkPts d L 0 f ∗ chunkPts d L 1 f ∗ chunkPts d L 2 f ∗ chunkPts d L 3 f ∗ chunkPts d L 4 f ∗ chunkPts d L 5 f ∗ chunkPts d L 6 f ∗ chunkPts d L 7 f ∗ chunkPts d L 8 f ∗ chunkPts d L 9 f ∗ chunkPts d L 10 f ∗ chunkPts d L 11 f ∗ chunkPts d L 12 f ∗ chunkPts d L 13 f ∗ chunkPts d L 14 f ∗ chunkPts d L 15 f ∗ chunkPts d L 16 f ∗ chunkPts d L 17 f ∗ chunkPts d L 18 f ∗ chunkPts d L 19 f ∗ chunkPts d L 20 f ∗ chunkPts d L 21 f ∗ chunkPts d L 22 f ∗ chunkPts d L 23 f) : sProp 𝕄)
      ⊢ bigSep Finset.univ fun k : Fin 24 => chunkPts d L k f :=
  Entails.of_eq (bigSep_fin24 (F := F) (fun k : Fin 24 => chunkPts d L k f)).symm

omit m in
/-- One more recorded wait at no call's index. -/
theorem waits_insert {W W' : Waits sig (HIx 1)} {x : SemLoc sig × HIx 1} (hx : x.2 = none)
    (hW : ∀ p ∈ W', p ∈ W ∨ p.2 = none) : ∀ p ∈ insert x W', p ∈ W ∨ p.2 = none := by
  intro p hp
  rcases Finset.mem_insert.mp hp with rfl | hp
  · exact .inr hx
  · exact hW p hp

end Cert.Proof.KernelIdeal.Run

end
-- ==== Proof.KernelIdeal.Body.lean ====
/-
  One tile's task: 24 chunks of 128 rows through a ring of three scratch buffers.

  Chunk `k` is fetched into scratch `k mod 3` on that scratch's own fetch semaphore, waited for, and
  written out to rows `3072·w + 128·k …` of the result on that scratch's own write-back semaphore; the
  fetch of chunk `k + 3` starts only after the write-back of chunk `k` has been waited for. So each
  semaphore has one transfer in flight at a time, and no scratch is touched while a transfer reads or
  writes it. What lands in chunk `k` of the result is the source chunk at the same rows: the batch's
  when those rows are below 16384, the buffer's otherwise — the routed rows.
-/
import proofs.«216569_g74620761801077_fold_wed_m_520_16_alg».proof.Proof.KernelIdeal.Value

noncomputable section

namespace Cert.Proof.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

omit m [FloatOps F] in
theorem bigSep_fin3 (Φ : Fin 3 → sProp 𝕄) : bigSep Finset.univ Φ = iprop(Φ 0 ∗ Φ 1 ∗ Φ 2) := by
  rw [show (Finset.univ : Finset (Fin 3)) = {0, 1, 2} by decide, bigSep_insert (by decide), bigSep_insert (by decide), bigSep_singleton]
  rfl

theorem tile_body_lo (hF : (K (F := F)).Facts) (d : Dev nD) (L : grid0.Coords) (hL : Conds.wid L ≤ 4)
    (O : CellTallies nD τ sig (HIx 1)) (W : Waits sig (HIx 1)) (hO : ∀ g, O g none = 0) :
    iprop(levAts (K (F := F)).L (K (F := F)).lev ∗ emp ∗ goPts m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_routed_copy L aW (Memref.isWhole_whole _) bW (Memref.isWhole_whole _) oW (Memref.isWhole_whole _)
            s0 (Memref.isWhole_whole _) s1 (Memref.isWhole_whole _) s2 (Memref.isWhole_whole _)
            cc0_scratch3 cc0_scratch4 cc0_scratch5 cc0_scratch6 cc0_scratch7 cc0_scratch8)
          fun _ => iprop(tdPts m d L ∗ scopedBufs (V d (cV L) (jV L)) ∗ scopedSems0 (V d (cV L) (jV L))
            ∗ ∃ W', ⌜∀ p ∈ W', p ∈ W ∨ p.2 = none⌝ ∗ owes (V d (cV L) (jV L)) O W') := by
  have k0_h1 := Conds.lo_1 L hL
  have k0_h2 := Conds.lo_2 L hL
  have k0_h3 := Conds.lo_3 L hL
  have k0_h4 := Conds.lo_4 L hL
  have k0_h5 := Conds.lo_5 L hL
  have k0_h6 := Conds.lo_6 L hL
  have k0_h7 := Conds.lo_7 L hL
  have k0_h8 := Conds.lo_8 L hL
  have k0_h9 := Conds.lo_9 L hL
  have k0_h10 := Conds.lo_10 L hL
  have k0_h11 := Conds.lo_11 L hL
  have k0_h12 := Conds.lo_12 L hL
  have k0_h13 := Conds.lo_13 L hL
  have k0_h14 := Conds.lo_14 L hL
  have k0_h15 := Conds.lo_15 L hL
  have k0_h16 := Conds.lo_16 L hL
  have k0_h17 := Conds.lo_17 L hL
  have k0_h18 := Conds.lo_18 L hL
  have k0_h19 := Conds.lo_19 L hL
  have k0_h20 := Conds.lo_20 L hL
  have k0_h21 := Conds.lo_21 L hL
  have k0_h22 := Conds.lo_22 L hL
  have k0_h23 := Conds.lo_23 L hL
  have k0_h24 := Conds.lo_24 L hL
  have k0_h25 := Conds.lo_25 L hL
  have k0_h26 := Conds.lo_26 L hL
  have k0_h27 := Conds.lo_27 L hL
  have k0_h28 := Conds.lo_28 L hL
  have k0_h29 := Conds.lo_29 L hL
  have k0_h30 := Conds.lo_30 L hL
  have k0_h31 := Conds.lo_31 L hL
  have k0_h32 := Conds.lo_32 L hL
  have k0_h33 := Conds.lo_33 L hL
  have k0_h34 := Conds.lo_34 L hL
  have k0_h35 := Conds.lo_35 L hL
  have k0_h36 := Conds.lo_36 L hL
  have k0_h37 := Conds.lo_37 L hL
  have k0_h38 := Conds.lo_38 L hL
  have k0_h39 := Conds.lo_39 L hL
  have k0_h40 := Conds.lo_40 L hL
  have k0_h41 := Conds.lo_41 L hL
  have k0_h42 := Conds.lo_42 L hL
  have k0_h43 := Conds.lo_43 L hL
  have k0_h44 := Conds.lo_44 L hL
  have k0_h45 := Conds.lo_45 L hL
  have k0_h46 := Conds.lo_46 L hL
  have k0_h47 := Conds.lo_47 L hL
  have k0_h48 := Conds.lo_48 L hL
  simp only [cc0__sc_routed_copy_eq_skeleton]; unfold cc0__sc_routed_copy_skel
  rw [(K (F := F)).scopedBufs_V hF d (cV L) (jV L), SparseCore.Cfg.scopedSems0_V (Val := Elt F) d (cV L) (jV L), ownSems0_V, ownBufs_V]
  unfold goPts
  rw [bigSep_fin24]
  iintro ⟨#Hlv, -, ⟨Ha, Hb, Hc0, Hc1, Hc2, Hc3, Hc4, Hc5, Hc6, Hc7, Hc8, Hc9, Hc10, Hc11, Hc12, Hc13, Hc14, Hc15, Hc16, Hc17, Hc18, Hc19, Hc20, Hc21, Hc22, Hc23⟩, ⟨⟨⟨%f0, Hs0⟩, ⟨%f1, Hs1⟩, ⟨%f2, Hs2⟩⟩, Hbrest⟩, ⟨⟨Hg0, Hg1, Hg2, Hq0, Hq1, Hq2⟩, Hsrest⟩, HO⟩
  ihave Hmw := ((K (F := F)).mayWaits_none (thr := V d (cV L) (jV L)) hO) $$ Hlv
  -- three read shares of each source, one per gather in flight
  ihave Ha' := (Transfers.pointsTo_toks_split (qt (L 0).val (L 1).val) 3) $$ Ha
  icases Ha' with ⟨-, Ha'⟩
  ihave Hb' := (Transfers.pointsTo_toks_split (qt (L 0).val (L 1).val) 3) $$ Hb
  icases Hb' with ⟨-, Hb'⟩
  ihave Ha' := (Entails.of_eq (bigSep_fin3 (F := F) _)) $$ Ha'
  ihave Hb' := (Entails.of_eq (bigSep_fin3 (F := F) _)) $$ Hb'
  icases Ha' with ⟨Ha0, Ha1, Ha2⟩
  icases Hb' with ⟨Hb0, Hb1, Hb2⟩
  ihave Ha0 := (Entails.of_eq (pts_a (F := F) d L _ _).symm) $$ Ha0
  ihave Ha1 := (Entails.of_eq (pts_a (F := F) d L _ _).symm) $$ Ha1
  ihave Ha2 := (Entails.of_eq (pts_a (F := F) d L _ _).symm) $$ Ha2
  ihave Hb0 := (Entails.of_eq (pts_b (F := F) d L _ _).symm) $$ Hb0
  ihave Hb1 := (Entails.of_eq (pts_b (F := F) d L _ _).symm) $$ Hb1
  ihave Hb2 := (Entails.of_eq (pts_b (F := F) d L _ _).symm) $$ Hb2
  ihave Hs0 := (Entails.of_eq (pts_s0 (F := F) d L _).symm) $$ Hs0
  ihave Hs1 := (Entails.of_eq (pts_s1 (F := F) d L _).symm) $$ Hs1
  ihave Hs2 := (Entails.of_eq (pts_s2 (F := F) d L _).symm) $$ Hs2
  ihave Hc0 := (Entails.of_eq (pts_oChunk_0 (F := F) d L _).symm) $$ Hc0
  ihave Hc1 := (Entails.of_eq (pts_oChunk_1 (F := F) d L _).symm) $$ Hc1
  ihave Hc2 := (Entails.of_eq (pts_oChunk_2 (F := F) d L _).symm) $$ Hc2
  ihave Hc3 := (Entails.of_eq (pts_oChunk_3 (F := F) d L _).symm) $$ Hc3
  ihave Hc4 := (Entails.of_eq (pts_oChunk_4 (F := F) d L _).symm) $$ Hc4
  ihave Hc5 := (Entails.of_eq (pts_oChunk_5 (F := F) d L _).symm) $$ Hc5
  ihave Hc6 := (Entails.of_eq (pts_oChunk_6 (F := F) d L _).symm) $$ Hc6
  ihave Hc7 := (Entails.of_eq (pts_oChunk_7 (F := F) d L _).symm) $$ Hc7
  ihave Hc8 := (Entails.of_eq (pts_oChunk_8 (F := F) d L _).symm) $$ Hc8
  ihave Hc9 := (Entails.of_eq (pts_oChunk_9 (F := F) d L _).symm) $$ Hc9
  ihave Hc10 := (Entails.of_eq (pts_oChunk_10 (F := F) d L _).symm) $$ Hc10
  ihave Hc11 := (Entails.of_eq (pts_oChunk_11 (F := F) d L _).symm) $$ Hc11
  ihave Hc12 := (Entails.of_eq (pts_oChunk_12 (F := F) d L _).symm) $$ Hc12
  ihave Hc13 := (Entails.of_eq (pts_oChunk_13 (F := F) d L _).symm) $$ Hc13
  ihave Hc14 := (Entails.of_eq (pts_oChunk_14 (F := F) d L _).symm) $$ Hc14
  ihave Hc15 := (Entails.of_eq (pts_oChunk_15 (F := F) d L _).symm) $$ Hc15
  ihave Hc16 := (Entails.of_eq (pts_oChunk_16 (F := F) d L _).symm) $$ Hc16
  ihave Hc17 := (Entails.of_eq (pts_oChunk_17 (F := F) d L _).symm) $$ Hc17
  ihave Hc18 := (Entails.of_eq (pts_oChunk_18 (F := F) d L _).symm) $$ Hc18
  ihave Hc19 := (Entails.of_eq (pts_oChunk_19 (F := F) d L _).symm) $$ Hc19
  ihave Hc20 := (Entails.of_eq (pts_oChunk_20 (F := F) d L _).symm) $$ Hc20
  ihave Hc21 := (Entails.of_eq (pts_oChunk_21 (F := F) d L _).symm) $$ Hc21
  ihave Hc22 := (Entails.of_eq (pts_oChunk_22 (F := F) d L _).symm) $$ Hc22
  ihave Hc23 := (Entails.of_eq (pts_oChunk_23 (F := F) d L _).symm) $$ Hc23
  sl_exec_parts
  sl_step
  have hp0 : ∀ y, tile_body_lo.sl.dma0_3 m d L k0_h1 f0 y
      = R m d ((oChunk L 0#32 (k0_off7_inb L 0)).view.emb y) := by
    intro y
    have e : k0_off1 L = k0_off7 L 0#32 := (k0_off1_eq L).trans (k0_off7_eq L 0).symm
    have hr : (k0_off7 L 0#32) 0 = 3072 * Conds.wid L + 128 * 0 := off7_row L 0
    unfold tile_body_lo.sl.dma0_3
    rw [View.read_write_univ]
    unfold tile_body_lo.sl.dma0
    exact val_batch m d _ _ _ _ e (by omega) y
  have hp1 : ∀ y, tile_body_lo.sl.dma0_5 m d L k0_h3 f1 y
      = R m d ((oChunk L 128#32 (k0_off7_inb L 1)).view.emb y) := by
    intro y
    have e : k0_off3 L = k0_off7 L 128#32 := (k0_off3_eq L).trans (k0_off7_eq L 1).symm
    have hr : (k0_off7 L 128#32) 0 = 3072 * Conds.wid L + 128 * 1 := off7_row L 1
    unfold tile_body_lo.sl.dma0_5
    rw [View.read_write_univ]
    unfold tile_body_lo.sl.dma0_1
    exact val_batch m d _ _ _ _ e (by omega) y
  have hp2 : ∀ y, tile_body_lo.sl.dma0_7 m d L k0_h5 f2 y
      = R m d ((oChunk L 256#32 (k0_off7_inb L 2)).view.emb y) := by
    intro y
    have e : k0_off5 L = k0_off7 L 256#32 := (k0_off5_eq L).trans (k0_off7_eq L 2).symm
    have hr : (k0_off7 L 256#32) 0 = 3072 * Conds.wid L + 128 * 2 := off7_row L 2
    unfold tile_body_lo.sl.dma0_7
    rw [View.read_write_univ]
    unfold tile_body_lo.sl.dma0_2
    exact val_batch m d _ _ _ _ e (by omega) y
  have hp3 : ∀ y, tile_body_lo.sl.dma0_9 m d L k0_h1 k0_h7 f0 y
      = R m d ((oChunk L 384#32 (k0_off7_inb L 3)).view.emb y) := by
    intro y
    have e : k0_off9 L = k0_off7 L 384#32 := (k0_off9_eq L).trans (k0_off7_eq L 3).symm
    have hr : (k0_off7 L 384#32) 0 = 3072 * Conds.wid L + 128 * 3 := off7_row L 3
    unfold tile_body_lo.sl.dma0_9
    rw [View.read_write_univ]
    unfold tile_body_lo.sl.dma0_4
    exact val_batch m d _ _ _ _ e (by omega) y
  have hp4 : ∀ y, tile_body_lo.sl.dma0_11 m d L k0_h3 k0_h9 f1 y
      = R m d ((oChunk L 512#32 (k0_off7_inb L 4)).view.emb y) := by
    intro y
    have e : k0_off11 L = k0_off7 L 512#32 := (k0_off11_eq L).trans (k0_off7_eq L 4).symm
    have hr : (k0_off7 L 512#32) 0 = 3072 * Conds.wid L + 128 * 4 := off7_row L 4
    unfold tile_body_lo.sl.dma0_11
    rw [View.read_write_univ]
    unfold tile_body_lo.sl.dma0_6
    exact val_batch m d _ _ _ _ e (by omega) y
  have hp5 : ∀ y, tile_body_lo.sl.dma0_13 m d L k0_h5 k0_h11 f2 y
      = R m d ((oChunk L 640#32 (k0_off7_inb L 5)).view.emb y) := by
    intro y
    have e : k0_off13 L = k0_off7 L 640#32 := (k0_off13_eq L).trans (k0_off7_eq L 5).symm
    have hr : (k0_off7 L 640#32) 0 = 3072 * Conds.wid L + 128 * 5 := off7_row L 5
    unfold tile_body_lo.sl.dma0_13
    rw [View.read_write_univ]
    unfold tile_body_lo.sl.dma0_8
    exact val_batch m d _ _ _ _ e (by omega) y
  have hp6 : ∀ y, tile_body_lo.sl.dma0_15 m d L k0_h1 k0_h7 k0_h13 f0 y
      = R m d ((oChunk L 768#32 (k0_off7_inb L 6)).view.emb y) := by
    intro y
    have e : k0_off15 L = k0_off7 L 768#32 := (k0_off15_eq L).trans (k0_off7_eq L 6).symm
    have hr : (k0_off7 L 768#32) 0 = 3072 * Conds.wid L + 128 * 6 := off7_row L 6
    unfold tile_body_lo.sl.dma0_15
    rw [View.read_write_univ]
    unfold tile_body_lo.sl.dma0_10
    exact val_batch m d _ _ _ _ e (by omega) y
  have hp7 : ∀ y, tile_body_lo.sl.dma0_17 m d L k0_h3 k0_h9 k0_h15 f1 y
      = R m d ((oChunk L 896#32 (k0_off7_inb L 7)).view.emb y) := by
    intro y
    have e : k0_off17 L = k0_off7 L 896#32 := (k0_off17_eq L).trans (k0_off7_eq L 7).symm
    have hr : (k0_off7 L 896#32) 0 = 3072 * Conds.wid L + 128 * 7 := off7_row L 7
    unfold tile_body_lo.sl.dma0_17
    rw [View.read_write_univ]
    unfold tile_body_lo.sl.dma0_12
    exact val_batch m d _ _ _ _ e (by omega) y
  have hp8 : ∀ y, tile_body_lo.sl.dma0_19 m d L k0_h5 k0_h11 k0_h17 f2 y
      = R m d ((oChunk L 1024#32 (k0_off7_inb L 8)).view.emb y) := by
    intro y
    have e : k0_off19 L = k0_off7 L 1024#32 := (k0_off19_eq L).trans (k0_off7_eq L 8).symm
    have hr : (k0_off7 L 1024#32) 0 = 3072 * Conds.wid L + 128 * 8 := off7_row L 8
    unfold tile_body_lo.sl.dma0_19
    rw [View.read_write_univ]
    unfold tile_body_lo.sl.dma0_14
    exact val_batch m d _ _ _ _ e (by omega) y
  have hp9 : ∀ y, tile_body_lo.sl.dma0_21 m d L k0_h1 k0_h7 k0_h13 k0_h19 f0 y
      = R m d ((oChunk L 1152#32 (k0_off7_inb L 9)).view.emb y) := by
    intro y
    have e : k0_off21 L = k0_off7 L 1152#32 := (k0_off21_eq L).trans (k0_off7_eq L 9).symm
    have hr : (k0_off7 L 1152#32) 0 = 3072 * Conds.wid L + 128 * 9 := off7_row L 9
    unfold tile_body_lo.sl.dma0_21
    rw [View.read_write_univ]
    unfold tile_body_lo.sl.dma0_16
    exact val_batch m d _ _ _ _ e (by omega) y
  have hp10 : ∀ y, tile_body_lo.sl.dma0_23 m d L k0_h3 k0_h9 k0_h15 k0_h21 f1 y
      = R m d ((oChunk L 1280#32 (k0_off7_inb L 10)).view.emb y) := by
    intro y
    have e : k0_off23 L = k0_off7 L 1280#32 := (k0_off23_eq L).trans (k0_off7_eq L 10).symm
    have hr : (k0_off7 L 1280#32) 0 = 3072 * Conds.wid L + 128 * 10 := off7_row L 10
    unfold tile_body_lo.sl.dma0_23
    rw [View.read_write_univ]
    unfold tile_body_lo.sl.dma0_18
    exact val_batch m d _ _ _ _ e (by omega) y
  have hp11 : ∀ y, tile_body_lo.sl.dma0_25 m d L k0_h5 k0_h11 k0_h17 k0_h23 f2 y
      = R m d ((oChunk L 1408#32 (k0_off7_inb L 11)).view.emb y) := by
    intro y
    have e : k0_off25 L = k0_off7 L 1408#32 := (k0_off25_eq L).trans (k0_off7_eq L 11).symm
    have hr : (k0_off7 L 1408#32) 0 = 3072 * Conds.wid L + 128 * 11 := off7_row L 11
    unfold tile_body_lo.sl.dma0_25
    rw [View.read_write_univ]
    unfold tile_body_lo.sl.dma0_20
    exact val_batch m d _ _ _ _ e (by omega) y
  have hp12 : ∀ y, tile_body_lo.sl.dma0_27 m d L k0_h1 k0_h7 k0_h13 k0_h19 k0_h25 f0 y
      = R m d ((oChunk L 1536#32 (k0_off7_inb L 12)).view.emb y) := by
    intro y
    have e : k0_off27 L = k0_off7 L 1536#32 := (k0_off27_eq L).trans (k0_off7_eq L 12).symm
    have hr : (k0_off7 L 1536#32) 0 = 3072 * Conds.wid L + 128 * 12 := off7_row L 12
    unfold tile_body_lo.sl.dma0_27
    rw [View.read_write_univ]
    unfold tile_body_lo.sl.dma0_22
    exact val_batch m d _ _ _ _ e (by omega) y
  have hp13 : ∀ y, tile_body_lo.sl.dma0_29 m d L k0_h3 k0_h9 k0_h15 k0_h21 k0_h27 f1 y
      = R m d ((oChunk L 1664#32 (k0_off7_inb L 13)).view.emb y) := by
    intro y
    have e : k0_off29 L = k0_off7 L 1664#32 := (k0_off29_eq L).trans (k0_off7_eq L 13).symm
    have hr : (k0_off7 L 1664#32) 0 = 3072 * Conds.wid L + 128 * 13 := off7_row L 13
    unfold tile_body_lo.sl.dma0_29
    rw [View.read_write_univ]
    unfold tile_body_lo.sl.dma0_24
    exact val_batch m d _ _ _ _ e (by omega) y
  have hp14 : ∀ y, tile_body_lo.sl.dma0_31 m d L k0_h5 k0_h11 k0_h17 k0_h23 k0_h29 f2 y
      = R m d ((oChunk L 1792#32 (k0_off7_inb L 14)).view.emb y) := by
    intro y
    have e : k0_off31 L = k0_off7 L 1792#32 := (k0_off31_eq L).trans (k0_off7_eq L 14).symm
    have hr : (k0_off7 L 1792#32) 0 = 3072 * Conds.wid L + 128 * 14 := off7_row L 14
    unfold tile_body_lo.sl.dma0_31
    rw [View.read_write_univ]
    unfold tile_body_lo.sl.dma0_26
    exact val_batch m d _ _ _ _ e (by omega) y
  have hp15 : ∀ y, tile_body_lo.sl.dma0_33 m d L k0_h1 k0_h7 k0_h13 k0_h19 k0_h25 k0_h31 f0 y
      = R m d ((oChunk L 1920#32 (k0_off7_inb L 15)).view.emb y) := by
    intro y
    have e : k0_off33 L = k0_off7 L 1920#32 := (k0_off33_eq L).trans (k0_off7_eq L 15).symm
    have hr : (k0_off7 L 1920#32) 0 = 3072 * Conds.wid L + 128 * 15 := off7_row L 15
    unfold tile_body_lo.sl.dma0_33
    rw [View.read_write_univ]
    unfold tile_body_lo.sl.dma0_28
    exact val_batch m d _ _ _ _ e (by omega) y
  have hp16 : ∀ y, tile_body_lo.sl.dma0_35 m d L k0_h3 k0_h9 k0_h15 k0_h21 k0_h27 k0_h33 f1 y
      = R m d ((oChunk L 2048#32 (k0_off7_inb L 16)).view.emb y) := by
    intro y
    have e : k0_off35 L = k0_off7 L 2048#32 := (k0_off35_eq L).trans (k0_off7_eq L 16).symm
    have hr : (k0_off7 L 2048#32) 0 = 3072 * Conds.wid L + 128 * 16 := off7_row L 16
    unfold tile_body_lo.sl.dma0_35
    rw [View.read_write_univ]
    unfold tile_body_lo.sl.dma0_30
    exact val_batch m d _ _ _ _ e (by omega) y
  have hp17 : ∀ y, tile_body_lo.sl.dma0_37 m d L k0_h5 k0_h11 k0_h17 k0_h23 k0_h29 k0_h35 f2 y
      = R m d ((oChunk L 2176#32 (k0_off7_inb L 17)).view.emb y) := by
    intro y
    have e : k0_off37 L = k0_off7 L 2176#32 := (k0_off37_eq L).trans (k0_off7_eq L 17).symm
    have hr : (k0_off7 L 2176#32) 0 = 3072 * Conds.wid L + 128 * 17 := off7_row L 17
    unfold tile_body_lo.sl.dma0_37
    rw [View.read_write_univ]
    unfold tile_body_lo.sl.dma0_32
    exact val_batch m d _ _ _ _ e (by omega) y
  have hp18 : ∀ y, tile_body_lo.sl.dma0_39 m d L k0_h1 k0_h7 k0_h13 k0_h19 k0_h25 k0_h31 k0_h37 f0 y
      = R m d ((oChunk L 2304#32 (k0_off7_inb L 18)).view.emb y) := by
    intro y
    have e : k0_off39 L = k0_off7 L 2304#32 := (k0_off39_eq L).trans (k0_off7_eq L 18).symm
    have hr : (k0_off7 L 2304#32) 0 = 3072 * Conds.wid L + 128 * 18 := off7_row L 18
    unfold tile_body_lo.sl.dma0_39
    rw [View.read_write_univ]
    unfold tile_body_lo.sl.dma0_34
    exact val_batch m d _ _ _ _ e (by omega) y
  have hp19 : ∀ y, tile_body_lo.sl.dma0_41 m d L k0_h3 k0_h9 k0_h15 k0_h21 k0_h27 k0_h33 k0_h39 f1 y
      = R m d ((oChunk L 2432#32 (k0_off7_inb L 19)).view.emb y) := by
    intro y
    have e : k0_off41 L = k0_off7 L 2432#32 := (k0_off41_eq L).trans (k0_off7_eq L 19).symm
    have hr : (k0_off7 L 2432#32) 0 = 3072 * Conds.wid L + 128 * 19 := off7_row L 19
    unfold tile_body_lo.sl.dma0_41
    rw [View.read_write_univ]
    unfold tile_body_lo.sl.dma0_36
    exact val_batch m d _ _ _ _ e (by omega) y
  have hp20 : ∀ y, tile_body_lo.sl.dma0_43 m d L k0_h5 k0_h11 k0_h17 k0_h23 k0_h29 k0_h35 k0_h41 f2 y
      = R m d ((oChunk L 2560#32 (k0_off7_inb L 20)).view.emb y) := by
    intro y
    have e : k0_off43 L = k0_off7 L 2560#32 := (k0_off43_eq L).trans (k0_off7_eq L 20).symm
    have hr : (k0_off7 L 2560#32) 0 = 3072 * Conds.wid L + 128 * 20 := off7_row L 20
    unfold tile_body_lo.sl.dma0_43
    rw [View.read_write_univ]
    unfold tile_body_lo.sl.dma0_38
    exact val_batch m d _ _ _ _ e (by omega) y
  have hp21 : ∀ y, tile_body_lo.sl.dma0_45 m d L k0_h1 k0_h7 k0_h13 k0_h19 k0_h25 k0_h31 k0_h37 k0_h43 f0 y
      = R m d ((oChunk L 2688#32 (k0_off7_inb L 21)).view.emb y) := by
    intro y
    have e : k0_off45 L = k0_off7 L 2688#32 := (k0_off45_eq L).trans (k0_off7_eq L 21).symm
    have hr : (k0_off7 L 2688#32) 0 = 3072 * Conds.wid L + 128 * 21 := off7_row L 21
    unfold tile_body_lo.sl.dma0_45
    rw [View.read_write_univ]
    unfold tile_body_lo.sl.dma0_40
    exact val_batch m d _ _ _ _ e (by omega) y
  have hp22 : ∀ y, tile_body_lo.sl.dma0_46 m d L k0_h3 k0_h9 k0_h15 k0_h21 k0_h27 k0_h33 k0_h39 k0_h45 f1 y
      = R m d ((oChunk L 2816#32 (k0_off7_inb L 22)).view.emb y) := by
    intro y
    have e : k0_off47 L = k0_off7 L 2816#32 := (k0_off47_eq L).trans (k0_off7_eq L 22).symm
    have hr : (k0_off7 L 2816#32) 0 = 3072 * Conds.wid L + 128 * 22 := off7_row L 22
    unfold tile_body_lo.sl.dma0_46
    rw [View.read_write_univ]
    unfold tile_body_lo.sl.dma0_42
    exact val_batch m d _ _ _ _ e (by omega) y
  have hp23 : ∀ y, tile_body_lo.sl.dma0_47 m d L k0_h5 k0_h11 k0_h17 k0_h23 k0_h29 k0_h35 k0_h41 k0_h47 f2 y
      = R m d ((oChunk L 2944#32 (k0_off7_inb L 23)).view.emb y) := by
    intro y
    have e : k0_off49 L = k0_off7 L 2944#32 := (k0_off49_eq L).trans (k0_off7_eq L 23).symm
    have hr : (k0_off7 L 2944#32) 0 = 3072 * Conds.wid L + 128 * 23 := off7_row L 23
    unfold tile_body_lo.sl.dma0_47
    rw [View.read_write_univ]
    unfold tile_body_lo.sl.dma0_44
    exact val_batch m d _ _ _ _ e (by omega) y
  isplitl [Hc0 Hc1 Hc2 Hc3 Hc4 Hc5 Hc6 Hc7 Hc8 Hc9 Hc10 Hc11 Hc12 Hc13 Hc14 Hc15 Hc16 Hc17 Hc18 Hc19 Hc20 Hc21 Hc22 Hc23]
  · unfold tdPts
    iapply (chunks_pack (F := F) d L (R m d))
    isplitl [Hc0]; · iapply (chunk_done m d L 0 0#32 (k0_off7_inb L 0) (set_oChunk L 0) _ _ hp0); iexact Hc0
    isplitl [Hc1]; · iapply (chunk_done m d L 1 128#32 (k0_off7_inb L 1) (set_oChunk L 1) _ _ hp1); iexact Hc1
    isplitl [Hc2]; · iapply (chunk_done m d L 2 256#32 (k0_off7_inb L 2) (set_oChunk L 2) _ _ hp2); iexact Hc2
    isplitl [Hc3]; · iapply (chunk_done m d L 3 384#32 (k0_off7_inb L 3) (set_oChunk L 3) _ _ hp3); iexact Hc3
    isplitl [Hc4]; · iapply (chunk_done m d L 4 512#32 (k0_off7_inb L 4) (set_oChunk L 4) _ _ hp4); iexact Hc4
    isplitl [Hc5]; · iapply (chunk_done m d L 5 640#32 (k0_off7_inb L 5) (set_oChunk L 5) _ _ hp5); iexact Hc5
    isplitl [Hc6]; · iapply (chunk_done m d L 6 768#32 (k0_off7_inb L 6) (set_oChunk L 6) _ _ hp6); iexact Hc6
    isplitl [Hc7]; · iapply (chunk_done m d L 7 896#32 (k0_off7_inb L 7) (set_oChunk L 7) _ _ hp7); iexact Hc7
    isplitl [Hc8]; · iapply (chunk_done m d L 8 1024#32 (k0_off7_inb L 8) (set_oChunk L 8) _ _ hp8); iexact Hc8
    isplitl [Hc9]; · iapply (chunk_done m d L 9 1152#32 (k0_off7_inb L 9) (set_oChunk L 9) _ _ hp9); iexact Hc9
    isplitl [Hc10]; · iapply (chunk_done m d L 10 1280#32 (k0_off7_inb L 10) (set_oChunk L 10) _ _ hp10); iexact Hc10
    isplitl [Hc11]; · iapply (chunk_done m d L 11 1408#32 (k0_off7_inb L 11) (set_oChunk L 11) _ _ hp11); iexact Hc11
    isplitl [Hc12]; · iapply (chunk_done m d L 12 1536#32 (k0_off7_inb L 12) (set_oChunk L 12) _ _ hp12); iexact Hc12
    isplitl [Hc13]; · iapply (chunk_done m d L 13 1664#32 (k0_off7_inb L 13) (set_oChunk L 13) _ _ hp13); iexact Hc13
    isplitl [Hc14]; · iapply (chunk_done m d L 14 1792#32 (k0_off7_inb L 14) (set_oChunk L 14) _ _ hp14); iexact Hc14
    isplitl [Hc15]; · iapply (chunk_done m d L 15 1920#32 (k0_off7_inb L 15) (set_oChunk L 15) _ _ hp15); iexact Hc15
    isplitl [Hc16]; · iapply (chunk_done m d L 16 2048#32 (k0_off7_inb L 16) (set_oChunk L 16) _ _ hp16); iexact Hc16
    isplitl [Hc17]; · iapply (chunk_done m d L 17 2176#32 (k0_off7_inb L 17) (set_oChunk L 17) _ _ hp17); iexact Hc17
    isplitl [Hc18]; · iapply (chunk_done m d L 18 2304#32 (k0_off7_inb L 18) (set_oChunk L 18) _ _ hp18); iexact Hc18
    isplitl [Hc19]; · iapply (chunk_done m d L 19 2432#32 (k0_off7_inb L 19) (set_oChunk L 19) _ _ hp19); iexact Hc19
    isplitl [Hc20]; · iapply (chunk_done m d L 20 2560#32 (k0_off7_inb L 20) (set_oChunk L 20) _ _ hp20); iexact Hc20
    isplitl [Hc21]; · iapply (chunk_done m d L 21 2688#32 (k0_off7_inb L 21) (set_oChunk L 21) _ _ hp21); iexact Hc21
    isplitl [Hc22]; · iapply (chunk_done m d L 22 2816#32 (k0_off7_inb L 22) (set_oChunk L 22) _ _ hp22); iexact Hc22
    iapply (chunk_done m d L 23 2944#32 (k0_off7_inb L 23) (set_oChunk L 23) _ _ hp23); iexact Hc23
  isplitl [Hs0 Hs1 Hs2 Hbrest]
  · isplitl [Hs0 Hs1 Hs2]
    · isplitl [Hs0]; · iexists _; iapply (Entails.of_eq (pts_s0 (F := F) d L _)); iexact Hs0
      isplitl [Hs1]; · iexists _; iapply (Entails.of_eq (pts_s1 (F := F) d L _)); iexact Hs1
      iexists _; iapply (Entails.of_eq (pts_s2 (F := F) d L _)); iexact Hs2
    iexact Hbrest
  isplitl [Hg0 Hg1 Hg2 Hq0 Hq1 Hq2 Hsrest]
  · isplitl [Hg0 Hg1 Hg2 Hq0 Hq1 Hq2]
    · isplitl [Hg0]; · iexact Hg0
      isplitl [Hg1]; · iexact Hg1
      isplitl [Hg2]; · iexact Hg2
      isplitl [Hq0]; · iexact Hq0
      isplitl [Hq1]; · iexact Hq1
      iexact Hq2
    iexact Hsrest
  iexists _; isplitr
  on_goal 2 => iexact HO
  ipureintro
  repeat (refine waits_insert rfl ?_)
  exact fun p hp => .inl hp

theorem tile_body_mid (hF : (K (F := F)).Facts) (d : Dev nD) (L : grid0.Coords) (hL : Conds.wid L = 5)
    (O : CellTallies nD τ sig (HIx 1)) (W : Waits sig (HIx 1)) (hO : ∀ g, O g none = 0) :
    iprop(levAts (K (F := F)).L (K (F := F)).lev ∗ emp ∗ goPts m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_routed_copy L aW (Memref.isWhole_whole _) bW (Memref.isWhole_whole _) oW (Memref.isWhole_whole _)
            s0 (Memref.isWhole_whole _) s1 (Memref.isWhole_whole _) s2 (Memref.isWhole_whole _)
            cc0_scratch3 cc0_scratch4 cc0_scratch5 cc0_scratch6 cc0_scratch7 cc0_scratch8)
          fun _ => iprop(tdPts m d L ∗ scopedBufs (V d (cV L) (jV L)) ∗ scopedSems0 (V d (cV L) (jV L))
            ∗ ∃ W', ⌜∀ p ∈ W', p ∈ W ∨ p.2 = none⌝ ∗ owes (V d (cV L) (jV L)) O W') := by
  have k0_h1 := Conds.mid_1 L hL
  have k0_h2 := Conds.mid_2 L hL
  have k0_h3 := Conds.mid_3 L hL
  have k0_h4 := Conds.mid_4 L hL
  have k0_h5 := Conds.mid_5 L hL
  have k0_h6 := Conds.mid_6 L hL
  have k0_h7 := Conds.mid_7 L hL
  have k0_h8 := Conds.mid_8 L hL
  have k0_h9 := Conds.mid_9 L hL
  have k0_h10 := Conds.mid_10 L hL
  have k0_h11 := Conds.mid_11 L hL
  have k0_h12 := Conds.mid_12 L hL
  have k0_h13 := Conds.mid_13 L hL
  have k0_h14 := Conds.mid_14 L hL
  have k0_h15 := Conds.mid_15 L hL
  have k0_h16 := Conds.mid_16 L hL
  have k0_h17 := Conds.mid_17 L hL
  have k0_h18 := Conds.mid_18 L hL
  have k0_h19 := Conds.mid_19 L hL
  have k0_h20 := Conds.mid_20 L hL
  have k0_h21 := Conds.mid_21 L hL
  have k0_h22 := Conds.mid_22 L hL
  have k0_h23 := Conds.mid_23 L hL
  have k0_h24 := Conds.mid_24 L hL
  have k0_h25 := Conds.mid_25 L hL
  have k0_h26 := Conds.mid_26 L hL
  have k0_h27 := Conds.mid_27 L hL
  have k0_h28 := Conds.mid_28 L hL
  have k0_h29 := Conds.mid_29 L hL
  have k0_h30 := Conds.mid_30 L hL
  have k0_h31 := Conds.mid_31 L hL
  have k0_h32 := Conds.mid_32 L hL
  have k0_h33 := Conds.mid_33 L hL
  have k0_h34 := Conds.mid_34 L hL
  have k0_h35 := Conds.mid_35 L hL
  have k0_h36 := Conds.mid_36 L hL
  have k0_h37 := Conds.mid_37 L hL
  have k0_h38 := Conds.mid_38 L hL
  have k0_h39 := Conds.mid_39 L hL
  have k0_h40 := Conds.mid_40 L hL
  have k0_h41 := Conds.mid_41 L hL
  have k0_h42 := Conds.mid_42 L hL
  have k0_h43 := Conds.mid_43 L hL
  have k0_h44 := Conds.mid_44 L hL
  have k0_h45 := Conds.mid_45 L hL
  have k0_h46 := Conds.mid_46 L hL
  have k0_h47 := Conds.mid_47 L hL
  have k0_h48 := Conds.mid_48 L hL
  simp only [cc0__sc_routed_copy_eq_skeleton]; unfold cc0__sc_routed_copy_skel
  rw [(K (F := F)).scopedBufs_V hF d (cV L) (jV L), SparseCore.Cfg.scopedSems0_V (Val := Elt F) d (cV L) (jV L), ownSems0_V, ownBufs_V]
  unfold goPts
  rw [bigSep_fin24]
  iintro ⟨#Hlv, -, ⟨Ha, Hb, Hc0, Hc1, Hc2, Hc3, Hc4, Hc5, Hc6, Hc7, Hc8, Hc9, Hc10, Hc11, Hc12, Hc13, Hc14, Hc15, Hc16, Hc17, Hc18, Hc19, Hc20, Hc21, Hc22, Hc23⟩, ⟨⟨⟨%f0, Hs0⟩, ⟨%f1, Hs1⟩, ⟨%f2, Hs2⟩⟩, Hbrest⟩, ⟨⟨Hg0, Hg1, Hg2, Hq0, Hq1, Hq2⟩, Hsrest⟩, HO⟩
  ihave Hmw := ((K (F := F)).mayWaits_none (thr := V d (cV L) (jV L)) hO) $$ Hlv
  -- three read shares of each source, one per gather in flight
  ihave Ha' := (Transfers.pointsTo_toks_split (qt (L 0).val (L 1).val) 3) $$ Ha
  icases Ha' with ⟨-, Ha'⟩
  ihave Hb' := (Transfers.pointsTo_toks_split (qt (L 0).val (L 1).val) 3) $$ Hb
  icases Hb' with ⟨-, Hb'⟩
  ihave Ha' := (Entails.of_eq (bigSep_fin3 (F := F) _)) $$ Ha'
  ihave Hb' := (Entails.of_eq (bigSep_fin3 (F := F) _)) $$ Hb'
  icases Ha' with ⟨Ha0, Ha1, Ha2⟩
  icases Hb' with ⟨Hb0, Hb1, Hb2⟩
  ihave Ha0 := (Entails.of_eq (pts_a (F := F) d L _ _).symm) $$ Ha0
  ihave Ha1 := (Entails.of_eq (pts_a (F := F) d L _ _).symm) $$ Ha1
  ihave Ha2 := (Entails.of_eq (pts_a (F := F) d L _ _).symm) $$ Ha2
  ihave Hb0 := (Entails.of_eq (pts_b (F := F) d L _ _).symm) $$ Hb0
  ihave Hb1 := (Entails.of_eq (pts_b (F := F) d L _ _).symm) $$ Hb1
  ihave Hb2 := (Entails.of_eq (pts_b (F := F) d L _ _).symm) $$ Hb2
  ihave Hs0 := (Entails.of_eq (pts_s0 (F := F) d L _).symm) $$ Hs0
  ihave Hs1 := (Entails.of_eq (pts_s1 (F := F) d L _).symm) $$ Hs1
  ihave Hs2 := (Entails.of_eq (pts_s2 (F := F) d L _).symm) $$ Hs2
  ihave Hc0 := (Entails.of_eq (pts_oChunk_0 (F := F) d L _).symm) $$ Hc0
  ihave Hc1 := (Entails.of_eq (pts_oChunk_1 (F := F) d L _).symm) $$ Hc1
  ihave Hc2 := (Entails.of_eq (pts_oChunk_2 (F := F) d L _).symm) $$ Hc2
  ihave Hc3 := (Entails.of_eq (pts_oChunk_3 (F := F) d L _).symm) $$ Hc3
  ihave Hc4 := (Entails.of_eq (pts_oChunk_4 (F := F) d L _).symm) $$ Hc4
  ihave Hc5 := (Entails.of_eq (pts_oChunk_5 (F := F) d L _).symm) $$ Hc5
  ihave Hc6 := (Entails.of_eq (pts_oChunk_6 (F := F) d L _).symm) $$ Hc6
  ihave Hc7 := (Entails.of_eq (pts_oChunk_7 (F := F) d L _).symm) $$ Hc7
  ihave Hc8 := (Entails.of_eq (pts_oChunk_8 (F := F) d L _).symm) $$ Hc8
  ihave Hc9 := (Entails.of_eq (pts_oChunk_9 (F := F) d L _).symm) $$ Hc9
  ihave Hc10 := (Entails.of_eq (pts_oChunk_10 (F := F) d L _).symm) $$ Hc10
  ihave Hc11 := (Entails.of_eq (pts_oChunk_11 (F := F) d L _).symm) $$ Hc11
  ihave Hc12 := (Entails.of_eq (pts_oChunk_12 (F := F) d L _).symm) $$ Hc12
  ihave Hc13 := (Entails.of_eq (pts_oChunk_13 (F := F) d L _).symm) $$ Hc13
  ihave Hc14 := (Entails.of_eq (pts_oChunk_14 (F := F) d L _).symm) $$ Hc14
  ihave Hc15 := (Entails.of_eq (pts_oChunk_15 (F := F) d L _).symm) $$ Hc15
  ihave Hc16 := (Entails.of_eq (pts_oChunk_16 (F := F) d L _).symm) $$ Hc16
  ihave Hc17 := (Entails.of_eq (pts_oChunk_17 (F := F) d L _).symm) $$ Hc17
  ihave Hc18 := (Entails.of_eq (pts_oChunk_18 (F := F) d L _).symm) $$ Hc18
  ihave Hc19 := (Entails.of_eq (pts_oChunk_19 (F := F) d L _).symm) $$ Hc19
  ihave Hc20 := (Entails.of_eq (pts_oChunk_20 (F := F) d L _).symm) $$ Hc20
  ihave Hc21 := (Entails.of_eq (pts_oChunk_21 (F := F) d L _).symm) $$ Hc21
  ihave Hc22 := (Entails.of_eq (pts_oChunk_22 (F := F) d L _).symm) $$ Hc22
  ihave Hc23 := (Entails.of_eq (pts_oChunk_23 (F := F) d L _).symm) $$ Hc23
  sl_exec_parts
  sl_step
  have hp0 : ∀ y, tile_body_mid.sl.dma0_3 m d L k0_h1 f0 y
      = R m d ((oChunk L 0#32 (k0_off7_inb L 0)).view.emb y) := by
    intro y
    have e : k0_off1 L = k0_off7 L 0#32 := (k0_off1_eq L).trans (k0_off7_eq L 0).symm
    have hr : (k0_off7 L 0#32) 0 = 3072 * Conds.wid L + 128 * 0 := off7_row L 0
    unfold tile_body_mid.sl.dma0_3
    rw [View.read_write_univ]
    unfold tile_body_mid.sl.dma0
    exact val_batch m d _ _ _ _ e (by omega) y
  have hp1 : ∀ y, tile_body_mid.sl.dma0_5 m d L k0_h3 f1 y
      = R m d ((oChunk L 128#32 (k0_off7_inb L 1)).view.emb y) := by
    intro y
    have e : k0_off3 L = k0_off7 L 128#32 := (k0_off3_eq L).trans (k0_off7_eq L 1).symm
    have hr : (k0_off7 L 128#32) 0 = 3072 * Conds.wid L + 128 * 1 := off7_row L 1
    unfold tile_body_mid.sl.dma0_5
    rw [View.read_write_univ]
    unfold tile_body_mid.sl.dma0_1
    exact val_batch m d _ _ _ _ e (by omega) y
  have hp2 : ∀ y, tile_body_mid.sl.dma0_7 m d L k0_h5 f2 y
      = R m d ((oChunk L 256#32 (k0_off7_inb L 2)).view.emb y) := by
    intro y
    have e : k0_off5 L = k0_off7 L 256#32 := (k0_off5_eq L).trans (k0_off7_eq L 2).symm
    have hr : (k0_off7 L 256#32) 0 = 3072 * Conds.wid L + 128 * 2 := off7_row L 2
    unfold tile_body_mid.sl.dma0_7
    rw [View.read_write_univ]
    unfold tile_body_mid.sl.dma0_2
    exact val_batch m d _ _ _ _ e (by omega) y
  have hp3 : ∀ y, tile_body_mid.sl.dma0_9 m d L k0_h1 k0_h7 f0 y
      = R m d ((oChunk L 384#32 (k0_off7_inb L 3)).view.emb y) := by
    intro y
    have e : k0_off9 L = k0_off7 L 384#32 := (k0_off9_eq L).trans (k0_off7_eq L 3).symm
    have hr : (k0_off7 L 384#32) 0 = 3072 * Conds.wid L + 128 * 3 := off7_row L 3
    unfold tile_body_mid.sl.dma0_9
    rw [View.read_write_univ]
    unfold tile_body_mid.sl.dma0_4
    exact val_batch m d _ _ _ _ e (by omega) y
  have hp4 : ∀ y, tile_body_mid.sl.dma0_11 m d L k0_h3 k0_h9 f1 y
      = R m d ((oChunk L 512#32 (k0_off7_inb L 4)).view.emb y) := by
    intro y
    have e : k0_off11 L = k0_off7 L 512#32 := (k0_off11_eq L).trans (k0_off7_eq L 4).symm
    have hr : (k0_off7 L 512#32) 0 = 3072 * Conds.wid L + 128 * 4 := off7_row L 4
    unfold tile_body_mid.sl.dma0_11
    rw [View.read_write_univ]
    unfold tile_body_mid.sl.dma0_6
    exact val_batch m d _ _ _ _ e (by omega) y
  have hp5 : ∀ y, tile_body_mid.sl.dma0_13 m d L k0_h5 k0_h11 f2 y
      = R m d ((oChunk L 640#32 (k0_off7_inb L 5)).view.emb y) := by
    intro y
    have e : k0_off13 L = k0_off7 L 640#32 := (k0_off13_eq L).trans (k0_off7_eq L 5).symm
    have hr : (k0_off7 L 640#32) 0 = 3072 * Conds.wid L + 128 * 5 := off7_row L 5
    unfold tile_body_mid.sl.dma0_13
    rw [View.read_write_univ]
    unfold tile_body_mid.sl.dma0_8
    exact val_batch m d _ _ _ _ e (by omega) y
  have hp6 : ∀ y, tile_body_mid.sl.dma0_15 m d L k0_h1 k0_h7 k0_h13 f0 y
      = R m d ((oChunk L 768#32 (k0_off7_inb L 6)).view.emb y) := by
    intro y
    have e : k0_off15 L = k0_off7 L 768#32 := (k0_off15_eq L).trans (k0_off7_eq L 6).symm
    have hr : (k0_off7 L 768#32) 0 = 3072 * Conds.wid L + 128 * 6 := off7_row L 6
    unfold tile_body_mid.sl.dma0_15
    rw [View.read_write_univ]
    unfold tile_body_mid.sl.dma0_10
    exact val_batch m d _ _ _ _ e (by omega) y
  have hp7 : ∀ y, tile_body_mid.sl.dma0_17 m d L k0_h3 k0_h9 k0_h15 f1 y
      = R m d ((oChunk L 896#32 (k0_off7_inb L 7)).view.emb y) := by
    intro y
    have e : k0_off17 L = k0_off7 L 896#32 := (k0_off17_eq L).trans (k0_off7_eq L 7).symm
    have hr : (k0_off7 L 896#32) 0 = 3072 * Conds.wid L + 128 * 7 := off7_row L 7
    unfold tile_body_mid.sl.dma0_17
    rw [View.read_write_univ]
    unfold tile_body_mid.sl.dma0_12
    exact val_batch m d _ _ _ _ e (by omega) y
  have hp8 : ∀ y, tile_body_mid.sl.dma0_19 m d L k0_h5 k0_h11 k0_h18 f2 y
      = R m d ((oChunk L 1024#32 (k0_off7_inb L 8)).view.emb y) := by
    intro y
    have e : k0_off20 L = k0_off7 L 1024#32 := (k0_off20_eq L).trans (k0_off7_eq L 8).symm
    have hr : (k0_off7 L 1024#32) 0 = 3072 * Conds.wid L + 128 * 8 := off7_row L 8
    unfold tile_body_mid.sl.dma0_19
    rw [View.read_write_univ]
    unfold tile_body_mid.sl.dma0_14
    exact val_buffer m d _ _ _ _ e (by omega) y
  have hp9 : ∀ y, tile_body_mid.sl.dma0_21 m d L k0_h1 k0_h7 k0_h13 k0_h20 f0 y
      = R m d ((oChunk L 1152#32 (k0_off7_inb L 9)).view.emb y) := by
    intro y
    have e : k0_off22 L = k0_off7 L 1152#32 := (k0_off22_eq L).trans (k0_off7_eq L 9).symm
    have hr : (k0_off7 L 1152#32) 0 = 3072 * Conds.wid L + 128 * 9 := off7_row L 9
    unfold tile_body_mid.sl.dma0_21
    rw [View.read_write_univ]
    unfold tile_body_mid.sl.dma0_16
    exact val_buffer m d _ _ _ _ e (by omega) y
  have hp10 : ∀ y, tile_body_mid.sl.dma0_23 m d L k0_h3 k0_h9 k0_h15 k0_h22 f1 y
      = R m d ((oChunk L 1280#32 (k0_off7_inb L 10)).view.emb y) := by
    intro y
    have e : k0_off24 L = k0_off7 L 1280#32 := (k0_off24_eq L).trans (k0_off7_eq L 10).symm
    have hr : (k0_off7 L 1280#32) 0 = 3072 * Conds.wid L + 128 * 10 := off7_row L 10
    unfold tile_body_mid.sl.dma0_23
    rw [View.read_write_univ]
    unfold tile_body_mid.sl.dma0_18
    exact val_buffer m d _ _ _ _ e (by omega) y
  have hp11 : ∀ y, tile_body_mid.sl.dma0_25 m d L k0_h5 k0_h11 k0_h18 k0_h24 f2 y
      = R m d ((oChunk L 1408#32 (k0_off7_inb L 11)).view.emb y) := by
    intro y
    have e : k0_off26 L = k0_off7 L 1408#32 := (k0_off26_eq L).trans (k0_off7_eq L 11).symm
    have hr : (k0_off7 L 1408#32) 0 = 3072 * Conds.wid L + 128 * 11 := off7_row L 11
    unfold tile_body_mid.sl.dma0_25
    rw [View.read_write_univ]
    unfold tile_body_mid.sl.dma0_20
    exact val_buffer m d _ _ _ _ e (by omega) y
  have hp12 : ∀ y, tile_body_mid.sl.dma0_27 m d L k0_h1 k0_h7 k0_h13 k0_h20 k0_h26 f0 y
      = R m d ((oChunk L 1536#32 (k0_off7_inb L 12)).view.emb y) := by
    intro y
    have e : k0_off28 L = k0_off7 L 1536#32 := (k0_off28_eq L).trans (k0_off7_eq L 12).symm
    have hr : (k0_off7 L 1536#32) 0 = 3072 * Conds.wid L + 128 * 12 := off7_row L 12
    unfold tile_body_mid.sl.dma0_27
    rw [View.read_write_univ]
    unfold tile_body_mid.sl.dma0_22
    exact val_buffer m d _ _ _ _ e (by omega) y
  have hp13 : ∀ y, tile_body_mid.sl.dma0_29 m d L k0_h3 k0_h9 k0_h15 k0_h22 k0_h28 f1 y
      = R m d ((oChunk L 1664#32 (k0_off7_inb L 13)).view.emb y) := by
    intro y
    have e : k0_off30 L = k0_off7 L 1664#32 := (k0_off30_eq L).trans (k0_off7_eq L 13).symm
    have hr : (k0_off7 L 1664#32) 0 = 3072 * Conds.wid L + 128 * 13 := off7_row L 13
    unfold tile_body_mid.sl.dma0_29
    rw [View.read_write_univ]
    unfold tile_body_mid.sl.dma0_24
    exact val_buffer m d _ _ _ _ e (by omega) y
  have hp14 : ∀ y, tile_body_mid.sl.dma0_31 m d L k0_h5 k0_h11 k0_h18 k0_h24 k0_h30 f2 y
      = R m d ((oChunk L 1792#32 (k0_off7_inb L 14)).view.emb y) := by
    intro y
    have e : k0_off32 L = k0_off7 L 1792#32 := (k0_off32_eq L).trans (k0_off7_eq L 14).symm
    have hr : (k0_off7 L 1792#32) 0 = 3072 * Conds.wid L + 128 * 14 := off7_row L 14
    unfold tile_body_mid.sl.dma0_31
    rw [View.read_write_univ]
    unfold tile_body_mid.sl.dma0_26
    exact val_buffer m d _ _ _ _ e (by omega) y
  have hp15 : ∀ y, tile_body_mid.sl.dma0_33 m d L k0_h1 k0_h7 k0_h13 k0_h20 k0_h26 k0_h32 f0 y
      = R m d ((oChunk L 1920#32 (k0_off7_inb L 15)).view.emb y) := by
    intro y
    have e : k0_off34 L = k0_off7 L 1920#32 := (k0_off34_eq L).trans (k0_off7_eq L 15).symm
    have hr : (k0_off7 L 1920#32) 0 = 3072 * Conds.wid L + 128 * 15 := off7_row L 15
    unfold tile_body_mid.sl.dma0_33
    rw [View.read_write_univ]
    unfold tile_body_mid.sl.dma0_28
    exact val_buffer m d _ _ _ _ e (by omega) y
  have hp16 : ∀ y, tile_body_mid.sl.dma0_35 m d L k0_h3 k0_h9 k0_h15 k0_h22 k0_h28 k0_h34 f1 y
      = R m d ((oChunk L 2048#32 (k0_off7_inb L 16)).view.emb y) := by
    intro y
    have e : k0_off36 L = k0_off7 L 2048#32 := (k0_off36_eq L).trans (k0_off7_eq L 16).symm
    have hr : (k0_off7 L 2048#32) 0 = 3072 * Conds.wid L + 128 * 16 := off7_row L 16
    unfold tile_body_mid.sl.dma0_35
    rw [View.read_write_univ]
    unfold tile_body_mid.sl.dma0_30
    exact val_buffer m d _ _ _ _ e (by omega) y
  have hp17 : ∀ y, tile_body_mid.sl.dma0_37 m d L k0_h5 k0_h11 k0_h18 k0_h24 k0_h30 k0_h36 f2 y
      = R m d ((oChunk L 2176#32 (k0_off7_inb L 17)).view.emb y) := by
    intro y
    have e : k0_off38 L = k0_off7 L 2176#32 := (k0_off38_eq L).trans (k0_off7_eq L 17).symm
    have hr : (k0_off7 L 2176#32) 0 = 3072 * Conds.wid L + 128 * 17 := off7_row L 17
    unfold tile_body_mid.sl.dma0_37
    rw [View.read_write_univ]
    unfold tile_body_mid.sl.dma0_32
    exact val_buffer m d _ _ _ _ e (by omega) y
  have hp18 : ∀ y, tile_body_mid.sl.dma0_39 m d L k0_h1 k0_h7 k0_h13 k0_h20 k0_h26 k0_h32 k0_h38 f0 y
      = R m d ((oChunk L 2304#32 (k0_off7_inb L 18)).view.emb y) := by
    intro y
    have e : k0_off40 L = k0_off7 L 2304#32 := (k0_off40_eq L).trans (k0_off7_eq L 18).symm
    have hr : (k0_off7 L 2304#32) 0 = 3072 * Conds.wid L + 128 * 18 := off7_row L 18
    unfold tile_body_mid.sl.dma0_39
    rw [View.read_write_univ]
    unfold tile_body_mid.sl.dma0_34
    exact val_buffer m d _ _ _ _ e (by omega) y
  have hp19 : ∀ y, tile_body_mid.sl.dma0_41 m d L k0_h3 k0_h9 k0_h15 k0_h22 k0_h28 k0_h34 k0_h40 f1 y
      = R m d ((oChunk L 2432#32 (k0_off7_inb L 19)).view.emb y) := by
    intro y
    have e : k0_off42 L = k0_off7 L 2432#32 := (k0_off42_eq L).trans (k0_off7_eq L 19).symm
    have hr : (k0_off7 L 2432#32) 0 = 3072 * Conds.wid L + 128 * 19 := off7_row L 19
    unfold tile_body_mid.sl.dma0_41
    rw [View.read_write_univ]
    unfold tile_body_mid.sl.dma0_36
    exact val_buffer m d _ _ _ _ e (by omega) y
  have hp20 : ∀ y, tile_body_mid.sl.dma0_43 m d L k0_h5 k0_h11 k0_h18 k0_h24 k0_h30 k0_h36 k0_h42 f2 y
      = R m d ((oChunk L 2560#32 (k0_off7_inb L 20)).view.emb y) := by
    intro y
    have e : k0_off44 L = k0_off7 L 2560#32 := (k0_off44_eq L).trans (k0_off7_eq L 20).symm
    have hr : (k0_off7 L 2560#32) 0 = 3072 * Conds.wid L + 128 * 20 := off7_row L 20
    unfold tile_body_mid.sl.dma0_43
    rw [View.read_write_univ]
    unfold tile_body_mid.sl.dma0_38
    exact val_buffer m d _ _ _ _ e (by omega) y
  have hp21 : ∀ y, tile_body_mid.sl.dma0_45 m d L k0_h1 k0_h7 k0_h13 k0_h20 k0_h26 k0_h32 k0_h38 k0_h44 f0 y
      = R m d ((oChunk L 2688#32 (k0_off7_inb L 21)).view.emb y) := by
    intro y
    have e : k0_off46 L = k0_off7 L 2688#32 := (k0_off46_eq L).trans (k0_off7_eq L 21).symm
    have hr : (k0_off7 L 2688#32) 0 = 3072 * Conds.wid L + 128 * 21 := off7_row L 21
    unfold tile_body_mid.sl.dma0_45
    rw [View.read_write_univ]
    unfold tile_body_mid.sl.dma0_40
    exact val_buffer m d _ _ _ _ e (by omega) y
  have hp22 : ∀ y, tile_body_mid.sl.dma0_46 m d L k0_h3 k0_h9 k0_h15 k0_h22 k0_h28 k0_h34 k0_h40 k0_h46 f1 y
      = R m d ((oChunk L 2816#32 (k0_off7_inb L 22)).view.emb y) := by
    intro y
    have e : k0_off48 L = k0_off7 L 2816#32 := (k0_off48_eq L).trans (k0_off7_eq L 22).symm
    have hr : (k0_off7 L 2816#32) 0 = 3072 * Conds.wid L + 128 * 22 := off7_row L 22
    unfold tile_body_mid.sl.dma0_46
    rw [View.read_write_univ]
    unfold tile_body_mid.sl.dma0_42
    exact val_buffer m d _ _ _ _ e (by omega) y
  have hp23 : ∀ y, tile_body_mid.sl.dma0_47 m d L k0_h5 k0_h11 k0_h18 k0_h24 k0_h30 k0_h36 k0_h42 k0_h48 f2 y
      = R m d ((oChunk L 2944#32 (k0_off7_inb L 23)).view.emb y) := by
    intro y
    have e : k0_off50 L = k0_off7 L 2944#32 := (k0_off50_eq L).trans (k0_off7_eq L 23).symm
    have hr : (k0_off7 L 2944#32) 0 = 3072 * Conds.wid L + 128 * 23 := off7_row L 23
    unfold tile_body_mid.sl.dma0_47
    rw [View.read_write_univ]
    unfold tile_body_mid.sl.dma0_44
    exact val_buffer m d _ _ _ _ e (by omega) y
  isplitl [Hc0 Hc1 Hc2 Hc3 Hc4 Hc5 Hc6 Hc7 Hc8 Hc9 Hc10 Hc11 Hc12 Hc13 Hc14 Hc15 Hc16 Hc17 Hc18 Hc19 Hc20 Hc21 Hc22 Hc23]
  · unfold tdPts
    iapply (chunks_pack (F := F) d L (R m d))
    isplitl [Hc0]; · iapply (chunk_done m d L 0 0#32 (k0_off7_inb L 0) (set_oChunk L 0) _ _ hp0); iexact Hc0
    isplitl [Hc1]; · iapply (chunk_done m d L 1 128#32 (k0_off7_inb L 1) (set_oChunk L 1) _ _ hp1); iexact Hc1
    isplitl [Hc2]; · iapply (chunk_done m d L 2 256#32 (k0_off7_inb L 2) (set_oChunk L 2) _ _ hp2); iexact Hc2
    isplitl [Hc3]; · iapply (chunk_done m d L 3 384#32 (k0_off7_inb L 3) (set_oChunk L 3) _ _ hp3); iexact Hc3
    isplitl [Hc4]; · iapply (chunk_done m d L 4 512#32 (k0_off7_inb L 4) (set_oChunk L 4) _ _ hp4); iexact Hc4
    isplitl [Hc5]; · iapply (chunk_done m d L 5 640#32 (k0_off7_inb L 5) (set_oChunk L 5) _ _ hp5); iexact Hc5
    isplitl [Hc6]; · iapply (chunk_done m d L 6 768#32 (k0_off7_inb L 6) (set_oChunk L 6) _ _ hp6); iexact Hc6
    isplitl [Hc7]; · iapply (chunk_done m d L 7 896#32 (k0_off7_inb L 7) (set_oChunk L 7) _ _ hp7); iexact Hc7
    isplitl [Hc8]; · iapply (chunk_done m d L 8 1024#32 (k0_off7_inb L 8) (set_oChunk L 8) _ _ hp8); iexact Hc8
    isplitl [Hc9]; · iapply (chunk_done m d L 9 1152#32 (k0_off7_inb L 9) (set_oChunk L 9) _ _ hp9); iexact Hc9
    isplitl [Hc10]; · iapply (chunk_done m d L 10 1280#32 (k0_off7_inb L 10) (set_oChunk L 10) _ _ hp10); iexact Hc10
    isplitl [Hc11]; · iapply (chunk_done m d L 11 1408#32 (k0_off7_inb L 11) (set_oChunk L 11) _ _ hp11); iexact Hc11
    isplitl [Hc12]; · iapply (chunk_done m d L 12 1536#32 (k0_off7_inb L 12) (set_oChunk L 12) _ _ hp12); iexact Hc12
    isplitl [Hc13]; · iapply (chunk_done m d L 13 1664#32 (k0_off7_inb L 13) (set_oChunk L 13) _ _ hp13); iexact Hc13
    isplitl [Hc14]; · iapply (chunk_done m d L 14 1792#32 (k0_off7_inb L 14) (set_oChunk L 14) _ _ hp14); iexact Hc14
    isplitl [Hc15]; · iapply (chunk_done m d L 15 1920#32 (k0_off7_inb L 15) (set_oChunk L 15) _ _ hp15); iexact Hc15
    isplitl [Hc16]; · iapply (chunk_done m d L 16 2048#32 (k0_off7_inb L 16) (set_oChunk L 16) _ _ hp16); iexact Hc16
    isplitl [Hc17]; · iapply (chunk_done m d L 17 2176#32 (k0_off7_inb L 17) (set_oChunk L 17) _ _ hp17); iexact Hc17
    isplitl [Hc18]; · iapply (chunk_done m d L 18 2304#32 (k0_off7_inb L 18) (set_oChunk L 18) _ _ hp18); iexact Hc18
    isplitl [Hc19]; · iapply (chunk_done m d L 19 2432#32 (k0_off7_inb L 19) (set_oChunk L 19) _ _ hp19); iexact Hc19
    isplitl [Hc20]; · iapply (chunk_done m d L 20 2560#32 (k0_off7_inb L 20) (set_oChunk L 20) _ _ hp20); iexact Hc20
    isplitl [Hc21]; · iapply (chunk_done m d L 21 2688#32 (k0_off7_inb L 21) (set_oChunk L 21) _ _ hp21); iexact Hc21
    isplitl [Hc22]; · iapply (chunk_done m d L 22 2816#32 (k0_off7_inb L 22) (set_oChunk L 22) _ _ hp22); iexact Hc22
    iapply (chunk_done m d L 23 2944#32 (k0_off7_inb L 23) (set_oChunk L 23) _ _ hp23); iexact Hc23
  isplitl [Hs0 Hs1 Hs2 Hbrest]
  · isplitl [Hs0 Hs1 Hs2]
    · isplitl [Hs0]; · iexists _; iapply (Entails.of_eq (pts_s0 (F := F) d L _)); iexact Hs0
      isplitl [Hs1]; · iexists _; iapply (Entails.of_eq (pts_s1 (F := F) d L _)); iexact Hs1
      iexists _; iapply (Entails.of_eq (pts_s2 (F := F) d L _)); iexact Hs2
    iexact Hbrest
  isplitl [Hg0 Hg1 Hg2 Hq0 Hq1 Hq2 Hsrest]
  · isplitl [Hg0 Hg1 Hg2 Hq0 Hq1 Hq2]
    · isplitl [Hg0]; · iexact Hg0
      isplitl [Hg1]; · iexact Hg1
      isplitl [Hg2]; · iexact Hg2
      isplitl [Hq0]; · iexact Hq0
      isplitl [Hq1]; · iexact Hq1
      iexact Hq2
    iexact Hsrest
  iexists _; isplitr
  on_goal 2 => iexact HO
  ipureintro
  repeat (refine waits_insert rfl ?_)
  exact fun p hp => .inl hp

theorem tile_body_hi (hF : (K (F := F)).Facts) (d : Dev nD) (L : grid0.Coords) (hL : 6 ≤ Conds.wid L)
    (O : CellTallies nD τ sig (HIx 1)) (W : Waits sig (HIx 1)) (hO : ∀ g, O g none = 0) :
    iprop(levAts (K (F := F)).L (K (F := F)).lev ∗ emp ∗ goPts m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_routed_copy L aW (Memref.isWhole_whole _) bW (Memref.isWhole_whole _) oW (Memref.isWhole_whole _)
            s0 (Memref.isWhole_whole _) s1 (Memref.isWhole_whole _) s2 (Memref.isWhole_whole _)
            cc0_scratch3 cc0_scratch4 cc0_scratch5 cc0_scratch6 cc0_scratch7 cc0_scratch8)
          fun _ => iprop(tdPts m d L ∗ scopedBufs (V d (cV L) (jV L)) ∗ scopedSems0 (V d (cV L) (jV L))
            ∗ ∃ W', ⌜∀ p ∈ W', p ∈ W ∨ p.2 = none⌝ ∗ owes (V d (cV L) (jV L)) O W') := by
  have k0_h1 := Conds.hi_1 L hL
  have k0_h2 := Conds.hi_2 L hL
  have k0_h3 := Conds.hi_3 L hL
  have k0_h4 := Conds.hi_4 L hL
  have k0_h5 := Conds.hi_5 L hL
  have k0_h6 := Conds.hi_6 L hL
  have k0_h7 := Conds.hi_7 L hL
  have k0_h8 := Conds.hi_8 L hL
  have k0_h9 := Conds.hi_9 L hL
  have k0_h10 := Conds.hi_10 L hL
  have k0_h11 := Conds.hi_11 L hL
  have k0_h12 := Conds.hi_12 L hL
  have k0_h13 := Conds.hi_13 L hL
  have k0_h14 := Conds.hi_14 L hL
  have k0_h15 := Conds.hi_15 L hL
  have k0_h16 := Conds.hi_16 L hL
  have k0_h17 := Conds.hi_17 L hL
  have k0_h18 := Conds.hi_18 L hL
  have k0_h19 := Conds.hi_19 L hL
  have k0_h20 := Conds.hi_20 L hL
  have k0_h21 := Conds.hi_21 L hL
  have k0_h22 := Conds.hi_22 L hL
  have k0_h23 := Conds.hi_23 L hL
  have k0_h24 := Conds.hi_24 L hL
  have k0_h25 := Conds.hi_25 L hL
  have k0_h26 := Conds.hi_26 L hL
  have k0_h27 := Conds.hi_27 L hL
  have k0_h28 := Conds.hi_28 L hL
  have k0_h29 := Conds.hi_29 L hL
  have k0_h30 := Conds.hi_30 L hL
  have k0_h31 := Conds.hi_31 L hL
  have k0_h32 := Conds.hi_32 L hL
  have k0_h33 := Conds.hi_33 L hL
  have k0_h34 := Conds.hi_34 L hL
  have k0_h35 := Conds.hi_35 L hL
  have k0_h36 := Conds.hi_36 L hL
  have k0_h37 := Conds.hi_37 L hL
  have k0_h38 := Conds.hi_38 L hL
  have k0_h39 := Conds.hi_39 L hL
  have k0_h40 := Conds.hi_40 L hL
  have k0_h41 := Conds.hi_41 L hL
  have k0_h42 := Conds.hi_42 L hL
  have k0_h43 := Conds.hi_43 L hL
  have k0_h44 := Conds.hi_44 L hL
  have k0_h45 := Conds.hi_45 L hL
  have k0_h46 := Conds.hi_46 L hL
  have k0_h47 := Conds.hi_47 L hL
  have k0_h48 := Conds.hi_48 L hL
  simp only [cc0__sc_routed_copy_eq_skeleton]; unfold cc0__sc_routed_copy_skel
  rw [(K (F := F)).scopedBufs_V hF d (cV L) (jV L), SparseCore.Cfg.scopedSems0_V (Val := Elt F) d (cV L) (jV L), ownSems0_V, ownBufs_V]
  unfold goPts
  rw [bigSep_fin24]
  iintro ⟨#Hlv, -, ⟨Ha, Hb, Hc0, Hc1, Hc2, Hc3, Hc4, Hc5, Hc6, Hc7, Hc8, Hc9, Hc10, Hc11, Hc12, Hc13, Hc14, Hc15, Hc16, Hc17, Hc18, Hc19, Hc20, Hc21, Hc22, Hc23⟩, ⟨⟨⟨%f0, Hs0⟩, ⟨%f1, Hs1⟩, ⟨%f2, Hs2⟩⟩, Hbrest⟩, ⟨⟨Hg0, Hg1, Hg2, Hq0, Hq1, Hq2⟩, Hsrest⟩, HO⟩
  ihave Hmw := ((K (F := F)).mayWaits_none (thr := V d (cV L) (jV L)) hO) $$ Hlv
  -- three read shares of each source, one per gather in flight
  ihave Ha' := (Transfers.pointsTo_toks_split (qt (L 0).val (L 1).val) 3) $$ Ha
  icases Ha' with ⟨-, Ha'⟩
  ihave Hb' := (Transfers.pointsTo_toks_split (qt (L 0).val (L 1).val) 3) $$ Hb
  icases Hb' with ⟨-, Hb'⟩
  ihave Ha' := (Entails.of_eq (bigSep_fin3 (F := F) _)) $$ Ha'
  ihave Hb' := (Entails.of_eq (bigSep_fin3 (F := F) _)) $$ Hb'
  icases Ha' with ⟨Ha0, Ha1, Ha2⟩
  icases Hb' with ⟨Hb0, Hb1, Hb2⟩
  ihave Ha0 := (Entails.of_eq (pts_a (F := F) d L _ _).symm) $$ Ha0
  ihave Ha1 := (Entails.of_eq (pts_a (F := F) d L _ _).symm) $$ Ha1
  ihave Ha2 := (Entails.of_eq (pts_a (F := F) d L _ _).symm) $$ Ha2
  ihave Hb0 := (Entails.of_eq (pts_b (F := F) d L _ _).symm) $$ Hb0
  ihave Hb1 := (Entails.of_eq (pts_b (F := F) d L _ _).symm) $$ Hb1
  ihave Hb2 := (Entails.of_eq (pts_b (F := F) d L _ _).symm) $$ Hb2
  ihave Hs0 := (Entails.of_eq (pts_s0 (F := F) d L _).symm) $$ Hs0
  ihave Hs1 := (Entails.of_eq (pts_s1 (F := F) d L _).symm) $$ Hs1
  ihave Hs2 := (Entails.of_eq (pts_s2 (F := F) d L _).symm) $$ Hs2
  ihave Hc0 := (Entails.of_eq (pts_oChunk_0 (F := F) d L _).symm) $$ Hc0
  ihave Hc1 := (Entails.of_eq (pts_oChunk_1 (F := F) d L _).symm) $$ Hc1
  ihave Hc2 := (Entails.of_eq (pts_oChunk_2 (F := F) d L _).symm) $$ Hc2
  ihave Hc3 := (Entails.of_eq (pts_oChunk_3 (F := F) d L _).symm) $$ Hc3
  ihave Hc4 := (Entails.of_eq (pts_oChunk_4 (F := F) d L _).symm) $$ Hc4
  ihave Hc5 := (Entails.of_eq (pts_oChunk_5 (F := F) d L _).symm) $$ Hc5
  ihave Hc6 := (Entails.of_eq (pts_oChunk_6 (F := F) d L _).symm) $$ Hc6
  ihave Hc7 := (Entails.of_eq (pts_oChunk_7 (F := F) d L _).symm) $$ Hc7
  ihave Hc8 := (Entails.of_eq (pts_oChunk_8 (F := F) d L _).symm) $$ Hc8
  ihave Hc9 := (Entails.of_eq (pts_oChunk_9 (F := F) d L _).symm) $$ Hc9
  ihave Hc10 := (Entails.of_eq (pts_oChunk_10 (F := F) d L _).symm) $$ Hc10
  ihave Hc11 := (Entails.of_eq (pts_oChunk_11 (F := F) d L _).symm) $$ Hc11
  ihave Hc12 := (Entails.of_eq (pts_oChunk_12 (F := F) d L _).symm) $$ Hc12
  ihave Hc13 := (Entails.of_eq (pts_oChunk_13 (F := F) d L _).symm) $$ Hc13
  ihave Hc14 := (Entails.of_eq (pts_oChunk_14 (F := F) d L _).symm) $$ Hc14
  ihave Hc15 := (Entails.of_eq (pts_oChunk_15 (F := F) d L _).symm) $$ Hc15
  ihave Hc16 := (Entails.of_eq (pts_oChunk_16 (F := F) d L _).symm) $$ Hc16
  ihave Hc17 := (Entails.of_eq (pts_oChunk_17 (F := F) d L _).symm) $$ Hc17
  ihave Hc18 := (Entails.of_eq (pts_oChunk_18 (F := F) d L _).symm) $$ Hc18
  ihave Hc19 := (Entails.of_eq (pts_oChunk_19 (F := F) d L _).symm) $$ Hc19
  ihave Hc20 := (Entails.of_eq (pts_oChunk_20 (F := F) d L _).symm) $$ Hc20
  ihave Hc21 := (Entails.of_eq (pts_oChunk_21 (F := F) d L _).symm) $$ Hc21
  ihave Hc22 := (Entails.of_eq (pts_oChunk_22 (F := F) d L _).symm) $$ Hc22
  ihave Hc23 := (Entails.of_eq (pts_oChunk_23 (F := F) d L _).symm) $$ Hc23
  sl_exec_parts
  sl_step
  have hp0 : ∀ y, tile_body_hi.sl.dma0_3 m d L k0_h2 f0 y
      = R m d ((oChunk L 0#32 (k0_off7_inb L 0)).view.emb y) := by
    intro y
    have e : k0_off2 L = k0_off7 L 0#32 := (k0_off2_eq L).trans (k0_off7_eq L 0).symm
    have hr : (k0_off7 L 0#32) 0 = 3072 * Conds.wid L + 128 * 0 := off7_row L 0
    unfold tile_body_hi.sl.dma0_3
    rw [View.read_write_univ]
    unfold tile_body_hi.sl.dma0
    exact val_buffer m d _ _ _ _ e (by omega) y
  have hp1 : ∀ y, tile_body_hi.sl.dma0_5 m d L k0_h4 f1 y
      = R m d ((oChunk L 128#32 (k0_off7_inb L 1)).view.emb y) := by
    intro y
    have e : k0_off4 L = k0_off7 L 128#32 := (k0_off4_eq L).trans (k0_off7_eq L 1).symm
    have hr : (k0_off7 L 128#32) 0 = 3072 * Conds.wid L + 128 * 1 := off7_row L 1
    unfold tile_body_hi.sl.dma0_5
    rw [View.read_write_univ]
    unfold tile_body_hi.sl.dma0_1
    exact val_buffer m d _ _ _ _ e (by omega) y
  have hp2 : ∀ y, tile_body_hi.sl.dma0_7 m d L k0_h6 f2 y
      = R m d ((oChunk L 256#32 (k0_off7_inb L 2)).view.emb y) := by
    intro y
    have e : k0_off6 L = k0_off7 L 256#32 := (k0_off6_eq L).trans (k0_off7_eq L 2).symm
    have hr : (k0_off7 L 256#32) 0 = 3072 * Conds.wid L + 128 * 2 := off7_row L 2
    unfold tile_body_hi.sl.dma0_7
    rw [View.read_write_univ]
    unfold tile_body_hi.sl.dma0_2
    exact val_buffer m d _ _ _ _ e (by omega) y
  have hp3 : ∀ y, tile_body_hi.sl.dma0_9 m d L k0_h2 k0_h8 f0 y
      = R m d ((oChunk L 384#32 (k0_off7_inb L 3)).view.emb y) := by
    intro y
    have e : k0_off10 L = k0_off7 L 384#32 := (k0_off10_eq L).trans (k0_off7_eq L 3).symm
    have hr : (k0_off7 L 384#32) 0 = 3072 * Conds.wid L + 128 * 3 := off7_row L 3
    unfold tile_body_hi.sl.dma0_9
    rw [View.read_write_univ]
    unfold tile_body_hi.sl.dma0_4
    exact val_buffer m d _ _ _ _ e (by omega) y
  have hp4 : ∀ y, tile_body_hi.sl.dma0_11 m d L k0_h4 k0_h10 f1 y
      = R m d ((oChunk L 512#32 (k0_off7_inb L 4)).view.emb y) := by
    intro y
    have e : k0_off12 L = k0_off7 L 512#32 := (k0_off12_eq L).trans (k0_off7_eq L 4).symm
    have hr : (k0_off7 L 512#32) 0 = 3072 * Conds.wid L + 128 * 4 := off7_row L 4
    unfold tile_body_hi.sl.dma0_11
    rw [View.read_write_univ]
    unfold tile_body_hi.sl.dma0_6
    exact val_buffer m d _ _ _ _ e (by omega) y
  have hp5 : ∀ y, tile_body_hi.sl.dma0_13 m d L k0_h6 k0_h12 f2 y
      = R m d ((oChunk L 640#32 (k0_off7_inb L 5)).view.emb y) := by
    intro y
    have e : k0_off14 L = k0_off7 L 640#32 := (k0_off14_eq L).trans (k0_off7_eq L 5).symm
    have hr : (k0_off7 L 640#32) 0 = 3072 * Conds.wid L + 128 * 5 := off7_row L 5
    unfold tile_body_hi.sl.dma0_13
    rw [View.read_write_univ]
    unfold tile_body_hi.sl.dma0_8
    exact val_buffer m d _ _ _ _ e (by omega) y
  have hp6 : ∀ y, tile_body_hi.sl.dma0_15 m d L k0_h2 k0_h8 k0_h14 f0 y
      = R m d ((oChunk L 768#32 (k0_off7_inb L 6)).view.emb y) := by
    intro y
    have e : k0_off16 L = k0_off7 L 768#32 := (k0_off16_eq L).trans (k0_off7_eq L 6).symm
    have hr : (k0_off7 L 768#32) 0 = 3072 * Conds.wid L + 128 * 6 := off7_row L 6
    unfold tile_body_hi.sl.dma0_15
    rw [View.read_write_univ]
    unfold tile_body_hi.sl.dma0_10
    exact val_buffer m d _ _ _ _ e (by omega) y
  have hp7 : ∀ y, tile_body_hi.sl.dma0_17 m d L k0_h4 k0_h10 k0_h16 f1 y
      = R m d ((oChunk L 896#32 (k0_off7_inb L 7)).view.emb y) := by
    intro y
    have e : k0_off18 L = k0_off7 L 896#32 := (k0_off18_eq L).trans (k0_off7_eq L 7).symm
    have hr : (k0_off7 L 896#32) 0 = 3072 * Conds.wid L + 128 * 7 := off7_row L 7
    unfold tile_body_hi.sl.dma0_17
    rw [View.read_write_univ]
    unfold tile_body_hi.sl.dma0_12
    exact val_buffer m d _ _ _ _ e (by omega) y
  have hp8 : ∀ y, tile_body_hi.sl.dma0_19 m d L k0_h6 k0_h12 k0_h18 f2 y
      = R m d ((oChunk L 1024#32 (k0_off7_inb L 8)).view.emb y) := by
    intro y
    have e : k0_off20 L = k0_off7 L 1024#32 := (k0_off20_eq L).trans (k0_off7_eq L 8).symm
    have hr : (k0_off7 L 1024#32) 0 = 3072 * Conds.wid L + 128 * 8 := off7_row L 8
    unfold tile_body_hi.sl.dma0_19
    rw [View.read_write_univ]
    unfold tile_body_hi.sl.dma0_14
    exact val_buffer m d _ _ _ _ e (by omega) y
  have hp9 : ∀ y, tile_body_hi.sl.dma0_21 m d L k0_h2 k0_h8 k0_h14 k0_h20 f0 y
      = R m d ((oChunk L 1152#32 (k0_off7_inb L 9)).view.emb y) := by
    intro y
    have e : k0_off22 L = k0_off7 L 1152#32 := (k0_off22_eq L).trans (k0_off7_eq L 9).symm
    have hr : (k0_off7 L 1152#32) 0 = 3072 * Conds.wid L + 128 * 9 := off7_row L 9
    unfold tile_body_hi.sl.dma0_21
    rw [View.read_write_univ]
    unfold tile_body_hi.sl.dma0_16
    exact val_buffer m d _ _ _ _ e (by omega) y
  have hp10 : ∀ y, tile_body_hi.sl.dma0_23 m d L k0_h4 k0_h10 k0_h16 k0_h22 f1 y
      = R m d ((oChunk L 1280#32 (k0_off7_inb L 10)).view.emb y) := by
    intro y
    have e : k0_off24 L = k0_off7 L 1280#32 := (k0_off24_eq L).trans (k0_off7_eq L 10).symm
    have hr : (k0_off7 L 1280#32) 0 = 3072 * Conds.wid L + 128 * 10 := off7_row L 10
    unfold tile_body_hi.sl.dma0_23
    rw [View.read_write_univ]
    unfold tile_body_hi.sl.dma0_18
    exact val_buffer m d _ _ _ _ e (by omega) y
  have hp11 : ∀ y, tile_body_hi.sl.dma0_25 m d L k0_h6 k0_h12 k0_h18 k0_h24 f2 y
      = R m d ((oChunk L 1408#32 (k0_off7_inb L 11)).view.emb y) := by
    intro y
    have e : k0_off26 L = k0_off7 L 1408#32 := (k0_off26_eq L).trans (k0_off7_eq L 11).symm
    have hr : (k0_off7 L 1408#32) 0 = 3072 * Conds.wid L + 128 * 11 := off7_row L 11
    unfold tile_body_hi.sl.dma0_25
    rw [View.read_write_univ]
    unfold tile_body_hi.sl.dma0_20
    exact val_buffer m d _ _ _ _ e (by omega) y
  have hp12 : ∀ y, tile_body_hi.sl.dma0_27 m d L k0_h2 k0_h8 k0_h14 k0_h20 k0_h26 f0 y
      = R m d ((oChunk L 1536#32 (k0_off7_inb L 12)).view.emb y) := by
    intro y
    have e : k0_off28 L = k0_off7 L 1536#32 := (k0_off28_eq L).trans (k0_off7_eq L 12).symm
    have hr : (k0_off7 L 1536#32) 0 = 3072 * Conds.wid L + 128 * 12 := off7_row L 12
    unfold tile_body_hi.sl.dma0_27
    rw [View.read_write_univ]
    unfold tile_body_hi.sl.dma0_22
    exact val_buffer m d _ _ _ _ e (by omega) y
  have hp13 : ∀ y, tile_body_hi.sl.dma0_29 m d L k0_h4 k0_h10 k0_h16 k0_h22 k0_h28 f1 y
      = R m d ((oChunk L 1664#32 (k0_off7_inb L 13)).view.emb y) := by
    intro y
    have e : k0_off30 L = k0_off7 L 1664#32 := (k0_off30_eq L).trans (k0_off7_eq L 13).symm
    have hr : (k0_off7 L 1664#32) 0 = 3072 * Conds.wid L + 128 * 13 := off7_row L 13
    unfold tile_body_hi.sl.dma0_29
    rw [View.read_write_univ]
    unfold tile_body_hi.sl.dma0_24
    exact val_buffer m d _ _ _ _ e (by omega) y
  have hp14 : ∀ y, tile_body_hi.sl.dma0_31 m d L k0_h6 k0_h12 k0_h18 k0_h24 k0_h30 f2 y
      = R m d ((oChunk L 1792#32 (k0_off7_inb L 14)).view.emb y) := by
    intro y
    have e : k0_off32 L = k0_off7 L 1792#32 := (k0_off32_eq L).trans (k0_off7_eq L 14).symm
    have hr : (k0_off7 L 1792#32) 0 = 3072 * Conds.wid L + 128 * 14 := off7_row L 14
    unfold tile_body_hi.sl.dma0_31
    rw [View.read_write_univ]
    unfold tile_body_hi.sl.dma0_26
    exact val_buffer m d _ _ _ _ e (by omega) y
  have hp15 : ∀ y, tile_body_hi.sl.dma0_33 m d L k0_h2 k0_h8 k0_h14 k0_h20 k0_h26 k0_h32 f0 y
      = R m d ((oChunk L 1920#32 (k0_off7_inb L 15)).view.emb y) := by
    intro y
    have e : k0_off34 L = k0_off7 L 1920#32 := (k0_off34_eq L).trans (k0_off7_eq L 15).symm
    have hr : (k0_off7 L 1920#32) 0 = 3072 * Conds.wid L + 128 * 15 := off7_row L 15
    unfold tile_body_hi.sl.dma0_33
    rw [View.read_write_univ]
    unfold tile_body_hi.sl.dma0_28
    exact val_buffer m d _ _ _ _ e (by omega) y
  have hp16 : ∀ y, tile_body_hi.sl.dma0_35 m d L k0_h4 k0_h10 k0_h16 k0_h22 k0_h28 k0_h34 f1 y
      = R m d ((oChunk L 2048#32 (k0_off7_inb L 16)).view.emb y) := by
    intro y
    have e : k0_off36 L = k0_off7 L 2048#32 := (k0_off36_eq L).trans (k0_off7_eq L 16).symm
    have hr : (k0_off7 L 2048#32) 0 = 3072 * Conds.wid L + 128 * 16 := off7_row L 16
    unfold tile_body_hi.sl.dma0_35
    rw [View.read_write_univ]
    unfold tile_body_hi.sl.dma0_30
    exact val_buffer m d _ _ _ _ e (by omega) y
  have hp17 : ∀ y, tile_body_hi.sl.dma0_37 m d L k0_h6 k0_h12 k0_h18 k0_h24 k0_h30 k0_h36 f2 y
      = R m d ((oChunk L 2176#32 (k0_off7_inb L 17)).view.emb y) := by
    intro y
    have e : k0_off38 L = k0_off7 L 2176#32 := (k0_off38_eq L).trans (k0_off7_eq L 17).symm
    have hr : (k0_off7 L 2176#32) 0 = 3072 * Conds.wid L + 128 * 17 := off7_row L 17
    unfold tile_body_hi.sl.dma0_37
    rw [View.read_write_univ]
    unfold tile_body_hi.sl.dma0_32
    exact val_buffer m d _ _ _ _ e (by omega) y
  have hp18 : ∀ y, tile_body_hi.sl.dma0_39 m d L k0_h2 k0_h8 k0_h14 k0_h20 k0_h26 k0_h32 k0_h38 f0 y
      = R m d ((oChunk L 2304#32 (k0_off7_inb L 18)).view.emb y) := by
    intro y
    have e : k0_off40 L = k0_off7 L 2304#32 := (k0_off40_eq L).trans (k0_off7_eq L 18).symm
    have hr : (k0_off7 L 2304#32) 0 = 3072 * Conds.wid L + 128 * 18 := off7_row L 18
    unfold tile_body_hi.sl.dma0_39
    rw [View.read_write_univ]
    unfold tile_body_hi.sl.dma0_34
    exact val_buffer m d _ _ _ _ e (by omega) y
  have hp19 : ∀ y, tile_body_hi.sl.dma0_41 m d L k0_h4 k0_h10 k0_h16 k0_h22 k0_h28 k0_h34 k0_h40 f1 y
      = R m d ((oChunk L 2432#32 (k0_off7_inb L 19)).view.emb y) := by
    intro y
    have e : k0_off42 L = k0_off7 L 2432#32 := (k0_off42_eq L).trans (k0_off7_eq L 19).symm
    have hr : (k0_off7 L 2432#32) 0 = 3072 * Conds.wid L + 128 * 19 := off7_row L 19
    unfold tile_body_hi.sl.dma0_41
    rw [View.read_write_univ]
    unfold tile_body_hi.sl.dma0_36
    exact val_buffer m d _ _ _ _ e (by omega) y
  have hp20 : ∀ y, tile_body_hi.sl.dma0_43 m d L k0_h6 k0_h12 k0_h18 k0_h24 k0_h30 k0_h36 k0_h42 f2 y
      = R m d ((oChunk L 2560#32 (k0_off7_inb L 20)).view.emb y) := by
    intro y
    have e : k0_off44 L = k0_off7 L 2560#32 := (k0_off44_eq L).trans (k0_off7_eq L 20).symm
    have hr : (k0_off7 L 2560#32) 0 = 3072 * Conds.wid L + 128 * 20 := off7_row L 20
    unfold tile_body_hi.sl.dma0_43
    rw [View.read_write_univ]
    unfold tile_body_hi.sl.dma0_38
    exact val_buffer m d _ _ _ _ e (by omega) y
  have hp21 : ∀ y, tile_body_hi.sl.dma0_45 m d L k0_h2 k0_h8 k0_h14 k0_h20 k0_h26 k0_h32 k0_h38 k0_h44 f0 y
      = R m d ((oChunk L 2688#32 (k0_off7_inb L 21)).view.emb y) := by
    intro y
    have e : k0_off46 L = k0_off7 L 2688#32 := (k0_off46_eq L).trans (k0_off7_eq L 21).symm
    have hr : (k0_off7 L 2688#32) 0 = 3072 * Conds.wid L + 128 * 21 := off7_row L 21
    unfold tile_body_hi.sl.dma0_45
    rw [View.read_write_univ]
    unfold tile_body_hi.sl.dma0_40
    exact val_buffer m d _ _ _ _ e (by omega) y
  have hp22 : ∀ y, tile_body_hi.sl.dma0_46 m d L k0_h4 k0_h10 k0_h16 k0_h22 k0_h28 k0_h34 k0_h40 k0_h46 f1 y
      = R m d ((oChunk L 2816#32 (k0_off7_inb L 22)).view.emb y) := by
    intro y
    have e : k0_off48 L = k0_off7 L 2816#32 := (k0_off48_eq L).trans (k0_off7_eq L 22).symm
    have hr : (k0_off7 L 2816#32) 0 = 3072 * Conds.wid L + 128 * 22 := off7_row L 22
    unfold tile_body_hi.sl.dma0_46
    rw [View.read_write_univ]
    unfold tile_body_hi.sl.dma0_42
    exact val_buffer m d _ _ _ _ e (by omega) y
  have hp23 : ∀ y, tile_body_hi.sl.dma0_47 m d L k0_h6 k0_h12 k0_h18 k0_h24 k0_h30 k0_h36 k0_h42 k0_h48 f2 y
      = R m d ((oChunk L 2944#32 (k0_off7_inb L 23)).view.emb y) := by
    intro y
    have e : k0_off50 L = k0_off7 L 2944#32 := (k0_off50_eq L).trans (k0_off7_eq L 23).symm
    have hr : (k0_off7 L 2944#32) 0 = 3072 * Conds.wid L + 128 * 23 := off7_row L 23
    unfold tile_body_hi.sl.dma0_47
    rw [View.read_write_univ]
    unfold tile_body_hi.sl.dma0_44
    exact val_buffer m d _ _ _ _ e (by omega) y
  isplitl [Hc0 Hc1 Hc2 Hc3 Hc4 Hc5 Hc6 Hc7 Hc8 Hc9 Hc10 Hc11 Hc12 Hc13 Hc14 Hc15 Hc16 Hc17 Hc18 Hc19 Hc20 Hc21 Hc22 Hc23]
  · unfold tdPts
    iapply (chunks_pack (F := F) d L (R m d))
    isplitl [Hc0]; · iapply (chunk_done m d L 0 0#32 (k0_off7_inb L 0) (set_oChunk L 0) _ _ hp0); iexact Hc0
    isplitl [Hc1]; · iapply (chunk_done m d L 1 128#32 (k0_off7_inb L 1) (set_oChunk L 1) _ _ hp1); iexact Hc1
    isplitl [Hc2]; · iapply (chunk_done m d L 2 256#32 (k0_off7_inb L 2) (set_oChunk L 2) _ _ hp2); iexact Hc2
    isplitl [Hc3]; · iapply (chunk_done m d L 3 384#32 (k0_off7_inb L 3) (set_oChunk L 3) _ _ hp3); iexact Hc3
    isplitl [Hc4]; · iapply (chunk_done m d L 4 512#32 (k0_off7_inb L 4) (set_oChunk L 4) _ _ hp4); iexact Hc4
    isplitl [Hc5]; · iapply (chunk_done m d L 5 640#32 (k0_off7_inb L 5) (set_oChunk L 5) _ _ hp5); iexact Hc5
    isplitl [Hc6]; · iapply (chunk_done m d L 6 768#32 (k0_off7_inb L 6) (set_oChunk L 6) _ _ hp6); iexact Hc6
    isplitl [Hc7]; · iapply (chunk_done m d L 7 896#32 (k0_off7_inb L 7) (set_oChunk L 7) _ _ hp7); iexact Hc7
    isplitl [Hc8]; · iapply (chunk_done m d L 8 1024#32 (k0_off7_inb L 8) (set_oChunk L 8) _ _ hp8); iexact Hc8
    isplitl [Hc9]; · iapply (chunk_done m d L 9 1152#32 (k0_off7_inb L 9) (set_oChunk L 9) _ _ hp9); iexact Hc9
    isplitl [Hc10]; · iapply (chunk_done m d L 10 1280#32 (k0_off7_inb L 10) (set_oChunk L 10) _ _ hp10); iexact Hc10
    isplitl [Hc11]; · iapply (chunk_done m d L 11 1408#32 (k0_off7_inb L 11) (set_oChunk L 11) _ _ hp11); iexact Hc11
    isplitl [Hc12]; · iapply (chunk_done m d L 12 1536#32 (k0_off7_inb L 12) (set_oChunk L 12) _ _ hp12); iexact Hc12
    isplitl [Hc13]; · iapply (chunk_done m d L 13 1664#32 (k0_off7_inb L 13) (set_oChunk L 13) _ _ hp13); iexact Hc13
    isplitl [Hc14]; · iapply (chunk_done m d L 14 1792#32 (k0_off7_inb L 14) (set_oChunk L 14) _ _ hp14); iexact Hc14
    isplitl [Hc15]; · iapply (chunk_done m d L 15 1920#32 (k0_off7_inb L 15) (set_oChunk L 15) _ _ hp15); iexact Hc15
    isplitl [Hc16]; · iapply (chunk_done m d L 16 2048#32 (k0_off7_inb L 16) (set_oChunk L 16) _ _ hp16); iexact Hc16
    isplitl [Hc17]; · iapply (chunk_done m d L 17 2176#32 (k0_off7_inb L 17) (set_oChunk L 17) _ _ hp17); iexact Hc17
    isplitl [Hc18]; · iapply (chunk_done m d L 18 2304#32 (k0_off7_inb L 18) (set_oChunk L 18) _ _ hp18); iexact Hc18
    isplitl [Hc19]; · iapply (chunk_done m d L 19 2432#32 (k0_off7_inb L 19) (set_oChunk L 19) _ _ hp19); iexact Hc19
    isplitl [Hc20]; · iapply (chunk_done m d L 20 2560#32 (k0_off7_inb L 20) (set_oChunk L 20) _ _ hp20); iexact Hc20
    isplitl [Hc21]; · iapply (chunk_done m d L 21 2688#32 (k0_off7_inb L 21) (set_oChunk L 21) _ _ hp21); iexact Hc21
    isplitl [Hc22]; · iapply (chunk_done m d L 22 2816#32 (k0_off7_inb L 22) (set_oChunk L 22) _ _ hp22); iexact Hc22
    iapply (chunk_done m d L 23 2944#32 (k0_off7_inb L 23) (set_oChunk L 23) _ _ hp23); iexact Hc23
  isplitl [Hs0 Hs1 Hs2 Hbrest]
  · isplitl [Hs0 Hs1 Hs2]
    · isplitl [Hs0]; · iexists _; iapply (Entails.of_eq (pts_s0 (F := F) d L _)); iexact Hs0
      isplitl [Hs1]; · iexists _; iapply (Entails.of_eq (pts_s1 (F := F) d L _)); iexact Hs1
      iexists _; iapply (Entails.of_eq (pts_s2 (F := F) d L _)); iexact Hs2
    iexact Hbrest
  isplitl [Hg0 Hg1 Hg2 Hq0 Hq1 Hq2 Hsrest]
  · isplitl [Hg0 Hg1 Hg2 Hq0 Hq1 Hq2]
    · isplitl [Hg0]; · iexact Hg0
      isplitl [Hg1]; · iexact Hg1
      isplitl [Hg2]; · iexact Hg2
      isplitl [Hq0]; · iexact Hq0
      isplitl [Hq1]; · iexact Hq1
      iexact Hq2
    iexact Hsrest
  iexists _; isplitr
  on_goal 2 => iexact HO
  ipureintro
  repeat (refine waits_insert rfl ?_)
  exact fun p hp => .inl hp

end Cert.Proof.KernelIdeal.Run

end
-- ==== Proof.KernelIdeal.Part.lean ====
/-
  The result array as its 768 chunks, numbered by core, tile and the tile's chunk.

  Chunk `(c, i, k)` is chunk `384·c + 24·i + k` of the 768 equal parts of the rows: the numbering is
  one-to-one and onto, so the chunks are pairwise disjoint and cover the array, and holding the array
  whole is holding every chunk.
-/
import proofs.«216569_g74620761801077_fold_wed_m_520_16_alg».proof.Proof.KernelIdeal.Pay

noncomputable section

namespace Cert.Proof.KernelIdeal.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

theorem chunkSet_eq (j : Fin 768) : chunkSet j = (crow j).set := by
  show ((View.whole (main_v0_scv : Ref sig .scVector)).slice (crow j)).set = _
  rw [View.set_slice]; exact Finset.map_refl

/-- Core, tile, chunk of the tile. -/
abbrev T3 : Type := Fin (grid0.bound 0) × Fin (grid0.bound 1) × Fin 24

def jOf3 (t : T3) : Fin 768 := jOf (coordsV t.1 t.2.1) t.2.2

theorem jOf3_val (t : T3) : (jOf3 t).val = 384 * t.1.val + 24 * t.2.1.val + t.2.2.val := rfl

theorem jOf3_inj : Function.Injective jOf3 := by
  intro t t' h
  have hv := congrArg Fin.val h
  rw [jOf3_val, jOf3_val] at hv
  obtain ⟨c, i, k⟩ := t
  obtain ⟨c', i', k'⟩ := t'
  have h1 : c.val < 2 := c.isLt
  have h2 : c'.val < 2 := c'.isLt
  have h3 : i.val < 16 := i.isLt
  have h4 : i'.val < 16 := i'.isLt
  have h5 := k.isLt
  have h6 := k'.isLt
  simp only at hv
  have e1 : c = c' := Fin.ext (by omega)
  have e2 : i = i' := Fin.ext (by omega)
  have e3 : k = k' := Fin.ext (by omega)
  rw [e1, e2, e3]

theorem chunks_disjoint : ∀ t ∈ (Finset.univ : Finset T3), ∀ t' ∈ (Finset.univ : Finset T3), t ≠ t' →
    Disjoint (chunkSet (jOf3 t)) (chunkSet (jOf3 t')) :=
  fun t _ t' _ h => by rw [chunkSet_eq, chunkSet_eq]; exact Rect.part_disjoint hdiv (fun e => h (jOf3_inj e))

theorem chunks_cover : (Finset.univ : Finset T3).biUnion (fun t => chunkSet (jOf3 t)) = Finset.univ := by
  refine Finset.eq_univ_iff_forall.mpr fun x => ?_
  have hx : x ∈ (Finset.univ : Finset (Fin 768)).biUnion (fun j => (crow j).set) := by
    rw [Rect.biUnion_part hdiv]; exact Finset.mem_univ x
  obtain ⟨j, -, hj⟩ := Finset.mem_biUnion.mp hx
  have hj768 := j.isLt
  refine Finset.mem_biUnion.mpr ⟨((⟨j.val / 384, by show j.val / 384 < 2; omega⟩ : Fin (grid0.bound 0)),
    (⟨(j.val % 384) / 24, by show (j.val % 384) / 24 < 16; omega⟩ : Fin (grid0.bound 1)), (⟨j.val % 24, by omega⟩ : Fin 24)), Finset.mem_univ _, ?_⟩
  rw [chunkSet_eq]
  have e : jOf3 ((⟨j.val / 384, by show j.val / 384 < 2; omega⟩ : Fin (grid0.bound 0)),
      (⟨(j.val % 384) / 24, by show (j.val % 384) / 24 < 16; omega⟩ : Fin (grid0.bound 1)), (⟨j.val % 24, by omega⟩ : Fin 24)) = j := by
    apply Fin.ext
    rw [jOf3_val]
    show 384 * (j.val / 384) + 24 * ((j.val % 384) / 24) + j.val % 24 = j.val
    omega
  rw [e]; exact hj

/-- The result array whole is its chunks, core by core, tile by tile. -/
theorem oPts_chunks (d : Dev nD) (f : Buf (Elt F) (oLoc d)) :
    (oLoc d ↦{fullShare} f : sProp 𝕄)
      = bigSep Finset.univ fun c : Fin (grid0.bound 0) => bigSep Finset.univ fun i : Fin (grid0.bound 1) =>
          bigSep Finset.univ fun k : Fin 24 => chunkPts d (coordsV c i) k f := by
  have h1 : (oLoc d ↦{fullShare} f : sProp 𝕄) = bigSep (Finset.univ : Finset T3) fun t => oLoc d ↦[chunkSet (jOf3 t)]{fullShare} f := by
    rw [← pointsTo_biUnion Finset.univ (ℓ := oLoc d) (fun t : T3 => chunkSet (jOf3 t)) chunks_disjoint, chunks_cover]; try rfl
  rw [h1, bigSep_univ_prod]
  refine bigSep_congr fun c _ => ?_
  rw [bigSep_univ_prod]
  rfl

end Cert.Proof.KernelIdeal.Run

end
-- ==== Proof.KernelIdeal.Launch.lean ====
/-
  The launch theorem's obligations for the routed copy: what each handshake carries, one tile's task
  as the launch states it, how a core's call splits into its sixteen tasks, and the launch element of
  the ghost state.
-/
import proofs.«216569_g74620761801077_fold_wed_m_520_16_alg».proof.Proof.KernelIdeal.Body
import proofs.«216569_g74620761801077_fold_wed_m_520_16_alg».proof.Proof.KernelIdeal.Part

noncomputable section

namespace Cert.Proof.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## What the handshakes carry -/

/-- A core's call: a read share of both sources and the core's 16 × 24 chunks at the launch contents. -/
def stPts (d : Dev nD) (c : Fin (grid0.bound 0)) : sProp 𝕄 :=
  iprop((aLoc d ↦{qc c.val} m (aLoc d)) ∗ (bLoc d ↦{qc c.val} m (bLoc d))
    ∗ bigSep Finset.univ fun i : Fin (grid0.bound 1) => bigSep Finset.univ fun k : Fin 24 => chunkPts d (coordsV c i) k (m (oLoc d)))

/-- What comes back: the core's chunks at the routed rows. -/
def dnPts (d : Dev nD) (c : Fin (grid0.bound 0)) : sProp 𝕄 :=
  bigSep Finset.univ fun i : Fin (grid0.bound 1) => bigSep Finset.univ fun k : Fin 24 => chunkPts d (coordsV c i) k (R m d)

def P : (K (F := F)).Pay (nD := nD) (Val := Elt F) (Name := ℕ) (U := UU) where
  st := fun q d c => match q with | 0 => stPts m d c
  dn := fun q d c => match q with | 0 => dnPts m d c
  go := fun q d c i => match q with | 0 => goPts m d (coordsV c i)
  td := fun q d c i => match q with | 0 => tdPts m d (coordsV c i)
  x := fun _ _ => iprop(emp)

instance P_storable : (P (F := F) m).IsStorable where
  st q d c := match q with | 0 => by unfold P stPts; infer_instance
  dn q d c := match q with | 0 => by unfold P dnPts; infer_instance
  go q d c i := match q with | 0 => by unfold P goPts; infer_instance
  td q d c i := match q with | 0 => by unfold P tdPts; infer_instance

variable [FloatOps F]

/-! ## One tile's task -/

/-- Any tile's task: its worker number is at most 4, is 5, or is at least 6. -/
theorem tile_body (hF : (K (F := F)).Facts) (d : Dev nD) (L : grid0.Coords)
    (O : CellTallies nD τ sig (HIx 1)) (W : Waits sig (HIx 1)) (hO : ∀ g, O g none = 0) :
    iprop(levAts (K (F := F)).L (K (F := F)).lev ∗ emp ∗ goPts m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_routed_copy L aW (Memref.isWhole_whole _) bW (Memref.isWhole_whole _) oW (Memref.isWhole_whole _)
            s0 (Memref.isWhole_whole _) s1 (Memref.isWhole_whole _) s2 (Memref.isWhole_whole _)
            cc0_scratch3 cc0_scratch4 cc0_scratch5 cc0_scratch6 cc0_scratch7 cc0_scratch8)
          fun _ => iprop(tdPts m d L ∗ scopedBufs (V d (cV L) (jV L)) ∗ scopedSems0 (V d (cV L) (jV L))
            ∗ ∃ W', ⌜∀ p ∈ W', p ∈ W ∨ p.2 = none⌝ ∗ owes (V d (cV L) (jV L)) O W') := by
  rcases Nat.lt_or_ge (Conds.wid L) 5 with h | h
  · exact tile_body_lo m hF d L (by omega) O W hO
  · rcases Nat.eq_or_lt_of_le h with h' | h'
    · exact tile_body_mid m hF d L h'.symm O W hO
    · exact tile_body_hi m hF d L (by omega) O W hO

theorem defs₀_vector (c : Fin τ.nSC) (s : Fin τ.nSub) :
    defs₀ (F := F) (.scVector c s) 0 ()
      = SparseCore.onTile hcore0 hsub0 (fun c s => cc0__sc_routed_copy (coordsV c s)
          aW (Memref.isWhole_whole _) bW (Memref.isWhole_whole _) oW (Memref.isWhole_whole _)
          s0 (Memref.isWhole_whole _) s1 (Memref.isWhole_whole _) s2 (Memref.isWhole_whole _)
          cc0_scratch3 cc0_scratch4 cc0_scratch5 cc0_scratch6 cc0_scratch7 cc0_scratch8) ⟨⟩ c s := rfl

omit m [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m hF d (coordsV ⟨_, hc.1⟩ ⟨_, hc.2⟩) O W hO).trans (wp_mono frame _ _ fun _ => obl_post)

/-! ## A core's call splits into its sixteen tasks -/

omit [FloatOps F] in
theorem vecSplit : (K (F := F)).VecSplit' (P m) 0 := by
  intro d c
  show stPts m d c ⊢ |={Set.univ}=> iprop(
      (bigSep Finset.univ fun i : Fin (grid0.bound 1) => goPts m d (coordsV c i))
      ∗ ((bigSep Finset.univ fun i : Fin (grid0.bound 1) => tdPts m d (coordsV c i)) -∗ dnPts m d c))
  unfold stPts goPts tdPts dnPts
  rw [bigSep_sep', bigSep_sep']
  iintro ⟨Ha, Hb, Hc⟩
  ihave Ha' := (Transfers.pointsTo_toks_split (qc c.val) 16) $$ Ha
  icases Ha' with ⟨-, Ha'⟩
  ihave Hb' := (Transfers.pointsTo_toks_split (qc c.val) 16) $$ Hb
  icases Hb' with ⟨-, Hb'⟩
  imodintro
  isplitl [Ha' Hb' Hc]
  · isplitl [Ha']; · iexact Ha'
    isplitl [Hb']; · iexact Hb'
    iexact Hc
  iintro H; iexact H

/-! ## The launch element: the handshakes' rounds; nothing of the kernel's own -/

def u₀ : UU := (initOf (K (F := F)).hsCells (K (F := F)).hsToks, 1)

omit m [FloatOps F] in
theorem bigSep_emp' {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KernelIdeal.Run

end
-- ==== Proof.KernelIdeal.Main.lean ====
/-
  @main on the TensorCore, and the program's run.

  @main starts the routed copy on both SparseCores and waits for it, then computes the next write
  pointer from `ptr` alone by nineteen host operations. The call takes a read share of the batch and
  of the buffer and the result array in chunks, and brings the chunks back at the routed rows; the
  host operations never touch the three arrays. At the end the TensorCore holds the result at the
  routed rows, the next pointer, and its inputs at the launch contents.
-/
import proofs.«216569_g74620761801077_fold_wed_m_520_16_alg».proof.Proof.KernelIdeal.Launch

noncomputable section

namespace Cert.Proof.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The host operations after the call -/

variable [FloatOps F]

/-- `ptr + 16384`, then its remainder by 98304 as jnp computes it (the outlined function's operations at the call). -/
abbrev tail : List (HloOp τ sig (Elt F)) :=
  [ nullary main_c (constantI S_ 32 16384#32),
    binary main_arg2 main_c main_v1 (addi : (⟨S_, .i32⟩ : BufTy).Contents (Elt F) → (⟨S_, .i32⟩ : BufTy).Contents (Elt F) → (⟨S_, .i32⟩ : BufTy).Contents (Elt F)),
    nullary main_c_0 (constantI S_ 32 98304#32),
    TRef.unary (.of main_c_0) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.binary (.of main_v1) main_call0.call0.v0 main_call0.v3 Host.remsi,
    TRef.nullary main_call0.c_1 (constantI S_ 32 0#32),
    TRef.binary main_call0.v3 main_call0.c_1 main_call0.v4 (cmpi .ne),
    TRef.nullary main_call0.c_2 (constantI S_ 32 0#32),
    TRef.binary main_call0.v3 main_call0.c_2 main_call0.v5 (cmpi .slt),
    TRef.nullary main_call0.c_3 (constantI S_ 32 0#32),
    TRef.binary main_call0.call0.v0 main_call0.c_3 main_call0.v6 (cmpi .slt),
    TRef.binary main_call0.v5 main_call0.v6 main_call0.v7 (cmpi .ne),
    TRef.binary main_call0.v7 main_call0.v4 main_call0.v8 andi,
    TRef.binary main_call0.v3 main_call0.call0.v0 main_call0.v9 addi,
    TRef.ternary main_call0.v8 main_call0.v9 main_call0.v3 main_call0.v10 select ]

set_option maxRecDepth 1024 in
theorem main_eq (d : Dev nD) :
    main (F := F) d = ((sc (F := F)).run d 0 >>= fun _ => (seq (tail (F := F)) >>= fun _ => pure ⟨⟩)) := by
  simp only [main, fn_remainder.body, fn_where.body, seq, bind_assoc, pure_bind]

/-! ## The TensorCore's arrays -/

abbrev a' : DevRef τ sig := Proc.devRef .tc (main_arg0 : Ref sig .tc)
abbrev b' : DevRef τ sig := Proc.devRef .tc (main_arg1 : Ref sig .tc)
abbrev p' : DevRef τ sig := Proc.devRef .tc (main_arg2 : Ref sig .tc)
abbrev o' : DevRef τ sig := Proc.devRef .tc (main_v0 : Ref sig .tc)
abbrev n' : DevRef τ sig := Proc.devRef .tc (main_v2 : Ref sig .tc)
abbrev nLoc (d : Dev nD) : Loc nD τ sig := (SparseCore.T d).loc main_v2

def tcEmb : Ref sig .tc ↪ DevRef τ sig := ⟨(Proc.tc : Proc τ).devRef, Proc.devRef_injective _⟩

/-- Every array of @main. -/
abbrev Sall : Finset (DevRef τ sig) := (Finset.univ.filter fun b : Ref sig .tc => ¬ b.isScoped).map tcEmb
/-- The three the kernel works on, -/
abbrev S3 : Finset (DevRef τ sig) := {a', b', o'}
/-- and the host operations' own. -/
abbrev Stail : Finset (DevRef τ sig) := Sall \ S3
abbrev S2 : Finset (DevRef τ sig) := {p', n'}

abbrev V0 (d : Dev nD) : Valuation τ sig (Elt F) := fun b => m (d, b)

omit [FloatOps F] in
theorem unscoped_held (d : Dev nD) : (unscopedBufs d (fun b => m ((SparseCore.T d).loc b)) : sProp 𝕄) = held (T d) Sall (V0 m d) := by
  unfold unscopedBufs held Sall
  rw [bigSep_map]; rfl

omit [FloatOps F] in
theorem held_S3 (d : Dev nD) (W : Valuation τ sig (Elt F)) :
    (held (T d) S3 W : sProp 𝕄) = iprop((aLoc d ↦{fullShare} W a') ∗ (bLoc d ↦{fullShare} W b') ∗ oLoc d ↦{fullShare} W o') := by
  unfold held S3
  rw [SparseCore.bigSep_insert' (by decide), SparseCore.bigSep_insert' (by decide), bigSep_singleton]

omit [FloatOps F] in
theorem held_S2 (d : Dev nD) (W : Valuation τ sig (Elt F)) :
    (held (T d) S2 W : sProp 𝕄) = iprop((pLoc d ↦{fullShare} W p') ∗ nLoc d ↦{fullShare} W n') := by
  unfold held S2
  rw [SparseCore.bigSep_insert' (by decide), bigSep_singleton]

set_option maxRecDepth 8192 in
theorem tail_sub : ∀ op ∈ (tail (F := F)), op.bufs ⊆ Stail := by
  intro op hop
  simp only [tail, List.mem_cons, List.not_mem_nil, or_false] at hop
  rcases hop with rfl | rfl | rfl | rfl | rfl | rfl | rfl | rfl | rfl | rfl | rfl | rfl | rfl | rfl | rfl | rfl | rfl | rfl | rfl <;> exact of_decide_eq_true rfl

theorem tail_fresh : ∀ op ∈ (tail (F := F)), op.fresh = ∅ := by
  intro op hop
  simp only [tail, List.mem_cons, List.not_mem_nil, or_false] at hop
  rcases hop with rfl | rfl | rfl | rfl | rfl | rfl | rfl | rfl | rfl | rfl | rfl | rfl | rfl | rfl | rfl | rfl | rfl | rfl | rfl <;> rfl

set_option maxRecDepth 8192 in
set_option maxHeartbeats 400000 in
/-- The next pointer is read off the operations' fold: the chain is `Spec.nextPtr` of `ptr`. -/
theorem next_eq (W : Valuation τ sig (Elt F)) : after (tail (F := F)) W n' = Cert.Spec.nextPtr (W p') := by
  after_results_simp
  simp only [TRef.toBuf, TRef.ofBuf, cast_eq, id]
  rfl

set_option maxRecDepth 8192 in
theorem ptr_eq (W : Valuation τ sig (Elt F)) : after (tail (F := F)) W p' = W p' := by
  simp only [after_cons, after_nil]
  rfl

/-- After the host operations: `ptr` as launched, and the next pointer. -/
theorem tail_done (d : Dev nD) :
    (held (T d) Stail (after (tail (F := F)) (V0 m d)) : sProp 𝕄)
      ⊢ iprop((pLoc d ↦{fullShare} m (pLoc d)) ∗ nLoc d ↦{fullShare} Cert.Spec.nextPtr (m (pLoc d))) := by
  rw [held_sub_split (T d) (show S2 ⊆ Stail by decide) (after (tail (F := F)) (V0 m d)), held_S2, next_eq, ptr_eq]
  exact sep_elim_left

/-! ## What the call takes and hands back -/

omit [FloatOps F] in
theorem st0_eq (d : Dev nD) :
    (bigSep Finset.univ fun c : Fin ((K (F := F)).nCore 0) => (P m).st 0 d c)
      = iprop((bigSep Finset.univ fun c : Fin 2 => aLoc d ↦{Transfers.shareTok fullShare 2 c} m (aLoc d))
          ∗ (bigSep Finset.univ fun c : Fin 2 => bLoc d ↦{Transfers.shareTok fullShare 2 c} m (bLoc d))
          ∗ oLoc d ↦{fullShare} m (oLoc d)) := by
  show (bigSep Finset.univ fun c : Fin (grid0.bound 0) => stPts m d c) = _
  unfold stPts
  rw [bigSep_sep', bigSep_sep', oPts_chunks]
  rfl

omit [FloatOps F] in
theorem dn0_eq (d : Dev nD) :
    (bigSep Finset.univ fun c : Fin ((K (F := F)).nCore 0) => (P m).dn 0 d c) = (oLoc d ↦{fullShare} R m d : sProp 𝕄) := by
  show (bigSep Finset.univ fun c : Fin (grid0.bound 0) => dnPts m d c) = _
  unfold dnPts
  rw [oPts_chunks]

/-- What @main leaves the claim. -/
def FIN (d : Dev nD) : sProp 𝕄 :=
  iprop((aLoc d ↦{Transfers.shareDrop fullShare 2} m (aLoc d)) ∗ (bLoc d ↦{Transfers.shareDrop fullShare 2} m (bLoc d))
    ∗ (pLoc d ↦{fullShare} m (pLoc d)) ∗ (oLoc d ↦{fullShare} R m d) ∗ nLoc d ↦{fullShare} Cert.Spec.nextPtr (m (pLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq, wp_bind]
  rw [held_sub_split (T d) (show S3 ⊆ Sall by decide) (V0 m d), held_S3]
  iintro ⟨#Hctx, Hst, ⟨Hb, ⟨⟨Ha, Hbf, Ho⟩, Htl⟩, -, -⟩, -⟩
  ihave Ha' := (Transfers.pointsTo_toks_split fullShare 2) $$ Ha
  icases Ha' with ⟨Ha0, Ha'⟩
  ihave Hb' := (Transfers.pointsTo_toks_split fullShare 2) $$ Hbf
  icases Hb' with ⟨Hb0, Hb'⟩
  iapply ((K (F := F)).wp_run (D (F := F)) 𝒱 (EH := EH) (P := P m) κ d 0) $$ [Hst Ha' Hb' Ho Hb Htl Ha0 Hb0]
  isplitr; · iexact Hctx
  isplitl [Hst]; · iexact Hst
  isplitl [Ha' Hb' Ho]
  · rw [st0_eq]
    isplitl [Ha']; · iexact Ha'
    isplitl [Hb']; · iexact Hb'
    iexact Ho
  iintro ⟨Hst, Hdn⟩
  ihave Ho := (Entails.of_eq (dn0_eq m d)) $$ Hdn
  iapply (wp_seq 𝒱 none Set.univ d Stail (fun _ => pure ⟨⟩) (tail (F := F)) tail_sub tail_fresh (V0 m d)) $$ [Hb Htl]
  · isplitl [Hb]; · iexact Hb
    iexact Htl
  iintro ⟨Hb, Htl⟩
  ihave Htl := (tail_done m d) $$ Htl
  icases Htl with ⟨Hp, Hn⟩
  rw [wp_pure]; imodintro
  isplitl [Hst]; · iexact Hst
  unfold FIN
  isplitl [Ha0]; · iexact Ha0
  isplitl [Hb0]; · iexact Hb0
  isplitl [Hp]; · iexact Hp
  isplitl [Ho]; · iexact Ho
  iexact Hn

/-! ## The final memory -/

def fq (d : Dev nD) (s' : Phys nD τ sig (Elt F)) : Prop :=
  s'.mem.mem (oLoc d) = R m d ∧ s'.mem.mem (nLoc d) = Cert.Spec.nextPtr (m (pLoc d))
    ∧ s'.mem.mem (aLoc d) = m (aLoc d) ∧ s'.mem.mem (bLoc d) = m (bLoc d) ∧ s'.mem.mem (pLoc d) = m (pLoc d)

omit [FloatOps F] in
theorem hfin (d : Dev nD) (s' : Phys nD τ sig (Elt F)) : iprop(FIN m d ∗ SI s') ⊢ (⌜fq m d s'⌝ : sProp 𝕄) := by
  unfold FIN
  iintro ⟨⟨Ha, Hb, Hp, Ho, Hn⟩, HSI⟩
  ihave H := (persistent_entails_right (SI_pointsTo_agree (st := s') (ℓ := aLoc d) (I := Finset.univ) (q := Transfers.shareDrop fullShare 2) (f := m (aLoc d)))) $$ [HSI Ha]
  · isplitl [HSI] <;> iassumption
  icases H with ⟨%h1, HSI, -⟩
  ihave H := (persistent_entails_right (SI_pointsTo_agree (st := s') (ℓ := bLoc d) (I := Finset.univ) (q := Transfers.shareDrop fullShare 2) (f := m (bLoc d)))) $$ [HSI Hb]
  · isplitl [HSI] <;> iassumption
  icases H with ⟨%h2, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h3, HSI, -⟩
  ihave H := (persistent_entails_right (SI_pointsTo_agree (st := s') (ℓ := oLoc d) (I := Finset.univ) (q := fullShare) (f := R m d))) $$ [HSI Ho]
  · isplitl [HSI] <;> iassumption
  icases H with ⟨%h4, HSI, -⟩
  ihave H := (SI_pointsTo_agree (st := s') (ℓ := nLoc d) (I := Finset.univ) (q := fullShare) (f := Cert.Spec.nextPtr (m (pLoc d)))) $$ [HSI Hn]
  · isplitl [HSI] <;> iassumption
  icases H with %h5
  ipureintro
  exact ⟨funext fun i => h4 i (Finset.mem_univ i), funext fun i => h5 i (Finset.mem_univ i), funext fun i => h1 i (Finset.mem_univ i),
    funext fun i => h2 i (Finset.mem_univ i), funext fun i => h3 i (Finset.mem_univ i)⟩

/-! ## The program's run -/

/-- Every device ends with the result at the routed rows, the next pointer, and its inputs as launched. -/
def QC : PUnit × MemSt nD τ sig (Elt F) → Prop := fun r => ∀ c : Dev nD,
  r.2.mem (oLoc c) = R m c ∧ r.2.mem (nLoc c) = Cert.Spec.nextPtr (m (pLoc c))
    ∧ r.2.mem (aLoc c) = m (aLoc c) ∧ r.2.mem (bLoc c) = m (bLoc c) ∧ r.2.mem (pLoc c) = m (pLoc c)

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KernelIdeal.Run

end
-- ==== Proof.RefOps.lean ====
/-
  The reference program as one straight line of host operations, and its run.

  The printed @main calls two outlined functions (the remainder of a vector by a scalar, and of a
  scalar by a scalar), each of which calls a third (a select). Unfolding the three bodies at their
  call sites leaves fifty-three operations in a row; every weakly fair execution of them terminates
  with each buffer at the fold of the operations' results over the launch contents.
-/
import proofs.«216569_g74620761801077_fold_wed_m_520_16_alg».proof.Defs
import proofs.«216569_g74620761801077_fold_wed_m_520_16_alg».proof.Proof.Gen.ReferenceIdeal
import Idealize.ShloMosaic.Lib.StableHlo.Run

noncomputable section

namespace Cert.Proof.RefOps

open Cert.ReferenceIdeal Cert.ReferenceIdeal.Gen Idealize.ShloMosaic Idealize.ShloMosaic.TcCoe Idealize.SL.Sem
  Idealize.ShloMosaic.StableHlo

variable {F : FTy → Type} [FloatOps F]

/-- @main's operations in order, the calls unfolded: four of its own, the twenty-one of the
    vector remainder (its select among them), nine of its own up to the scatter, three more, and the
    sixteen of the scalar remainder. -/
abbrev ops : List (HloOp τ sig (Elt F)) :=
  [ nullary main_v0 (iotaInDim S16384 32 0),
    unary main_arg2 main_v1 (broadcastInDim S16384 ![] bcast_S_S16384 : (⟨S_, .i32⟩ : BufTy).Contents (Elt F) → (⟨S16384, .i32⟩ : BufTy).Contents (Elt F)),
    binary main_v1 main_v0 main_v2 (addi : (⟨S16384, .i32⟩ : BufTy).Contents (Elt F) → (⟨S16384, .i32⟩ : BufTy).Contents (Elt F) → (⟨S16384, .i32⟩ : BufTy).Contents (Elt F)),
    nullary main_c (constantI S_ 32 98304#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S16384 ![] bcast_S_S16384),
    TRef.binary (.of main_v2) main_call0.v3 main_call0.v4 Host.remsi,
    TRef.nullary main_call0.c_1 (constantI S_ 32 0#32),
    TRef.unary main_call0.c_1 main_call0.v5 (broadcastInDim S16384 ![] bcast_S_S16384),
    TRef.binary main_call0.v4 main_call0.v5 main_call0.v6 (cmpi .ne),
    TRef.nullary main_call0.c_2 (constantI S_ 32 0#32),
    TRef.unary main_call0.c_2 main_call0.v7 (broadcastInDim S16384 ![] bcast_S_S16384),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S16384 ![] bcast_S_S16384),
    TRef.binary main_call0.v8 main_call0.v10 main_call0.v11 (cmpi .ne),
    TRef.binary main_call0.v11 main_call0.v6 main_call0.v12 andi,
    TRef.unary main_call0.call0.v0 main_call0.v13 (broadcastInDim S16384 ![] bcast_S_S16384),
    TRef.binary main_call0.v4 main_call0.v13 main_call0.v14 addi,
    TRef.ternary main_call0.v12 main_call0.v14 main_call0.v4 main_call0.v15 select,
    nullary main_c_0 (constantI S_ 32 0#32),
    unary main_c_0 main_v4 (broadcastInDim S16384 ![] bcast_S_S16384 : (⟨S_, .i32⟩ : BufTy).Contents (Elt F) → (⟨S16384, .i32⟩ : BufTy).Contents (Elt F)),
    binary main_v3 main_v4 main_v5 (cmpi .slt : (⟨S16384, .i32⟩ : BufTy).Contents (Elt F) → (⟨S16384, .i32⟩ : BufTy).Contents (Elt F) → (⟨S16384, .i1⟩ : BufTy).Contents (Elt F)),
    nullary main_c_1 (constantI S_ 32 98304#32),
    unary main_c_1 main_v6 (broadcastInDim S16384 ![] bcast_S_S16384 : (⟨S_, .i32⟩ : BufTy).Contents (Elt F) → (⟨S16384, .i32⟩ : BufTy).Contents (Elt F)),
    binary main_v3 main_v6 main_v7 (addi : (⟨S16384, .i32⟩ : BufTy).Contents (Elt F) → (⟨S16384, .i32⟩ : BufTy).Contents (Elt F) → (⟨S16384, .i32⟩ : BufTy).Contents (Elt F)),
    ternary main_v5 main_v7 main_v3 main_v8 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v8 main_v9 (broadcastInDim S16384x1 ![0] bcast_S16384_S16384x1_0 : (⟨S16384, .i32⟩ : BufTy).Contents (Elt F) → (⟨S16384x1, .i32⟩ : BufTy).Contents (Elt F)),
    ternary main_arg1 main_v9 main_arg0 main_v10 ((fun x i u => Host.scatter scatter_S98304x256_S16384x1_S16384x256_1_0_0_1 (fun _ b => b) x i u) : (⟨S98304x256, .f32⟩ : BufTy).Contents (Elt F) → (⟨S16384x1, .i32⟩ : BufTy).Contents (Elt F) → (⟨S16384x256, .f32⟩ : BufTy).Contents (Elt F) → (⟨S98304x256, .f32⟩ : BufTy).Contents (Elt F)),
    nullary main_c_2 (constantI S_ 32 16384#32),
    binary main_arg2 main_c_2 main_v11 (addi : (⟨S_, .i32⟩ : BufTy).Contents (Elt F) → (⟨S_, .i32⟩ : BufTy).Contents (Elt F) → (⟨S_, .i32⟩ : BufTy).Contents (Elt F)),
    nullary main_c_3 (constantI S_ 32 98304#32),
    TRef.unary (.of main_c_3) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.binary (.of main_v11) main_call1.call0.v0 main_call1.v3 Host.remsi,
    TRef.nullary main_call1.c_1 (constantI S_ 32 0#32),
    TRef.binary main_call1.v3 main_call1.c_1 main_call1.v4 (cmpi .ne),
    TRef.nullary main_call1.c_2 (constantI S_ 32 0#32),
    TRef.binary main_call1.v3 main_call1.c_2 main_call1.v5 (cmpi .slt),
    TRef.nullary main_call1.c_3 (constantI S_ 32 0#32),
    TRef.binary main_call1.call0.v0 main_call1.c_3 main_call1.v6 (cmpi .slt),
    TRef.binary main_call1.v5 main_call1.v6 main_call1.v7 (cmpi .ne),
    TRef.binary main_call1.v7 main_call1.v4 main_call1.v8 andi,
    TRef.binary main_call1.v3 main_call1.call0.v0 main_call1.v9 addi,
    TRef.ternary main_call1.v8 main_call1.v9 main_call1.v3 main_call1.v10 select ]

-- fifty-three binds re-associated: the rewrite under the chain recurses once per statement
set_option maxRecDepth 2048 in
/-- @main is that straight line: the three functions' definitions unfolded at their calls, both
    sides are one chain of steps once sequencing is re-associated. -/
theorem main_eq (c : Dev nD) : main (F := F) c = seq ops := by
  simp only [main, fn_remainder.body, fn_remainder_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub ..,
    unary_bufs_sub .., nullary_bufs_sub .., binary_bufs_sub .., nullary_bufs_sub .., ternary_bufs_sub ..,
    unary_bufs_sub .., binary_bufs_sub .., nullary_bufs_sub .., unary_bufs_sub .., binary_bufs_sub ..,
    nullary_bufs_sub .., unary_bufs_sub .., binary_bufs_sub .., nullary_bufs_sub .., binary_bufs_sub ..,
    unary_bufs_sub .., binary_bufs_sub .., binary_bufs_sub .., unary_bufs_sub .., binary_bufs_sub ..,
    ternary_bufs_sub ..,
    nullary_bufs_sub .., unary_bufs_sub .., binary_bufs_sub .., nullary_bufs_sub .., unary_bufs_sub ..,
    binary_bufs_sub .., ternary_bufs_sub .., unary_bufs_sub .., ternary_bufs_sub ..,
    nullary_bufs_sub .., binary_bufs_sub .., nullary_bufs_sub ..,
    unary_bufs_sub .., nullary_bufs_sub .., binary_bufs_sub .., nullary_bufs_sub .., ternary_bufs_sub ..,
    binary_bufs_sub .., nullary_bufs_sub .., binary_bufs_sub .., nullary_bufs_sub .., binary_bufs_sub ..,
    nullary_bufs_sub .., binary_bufs_sub .., binary_bufs_sub .., binary_bufs_sub .., binary_bufs_sub ..,
    ternary_bufs_sub ..⟩

/-- From any memory with zero counters: every weakly fair execution of @main terminates, and every
    final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.RefOps

end
-- ==== Proof.RefTerms.lean ====
/-
  What the straight line leaves in the two result buffers, as terms of the three arguments.

  The scatter's row indices are one chain of word operations applied to `ptr + u` for
  `u = 0 … 16383`: the truncated remainder by 98304 (1 in place of a zero divisor), moved by one
  divisor when it is non-zero and of the other sign, and moved once more when still negative. The
  new buffer is the scatter of the batch's rows at those indices; the new pointer is the same
  remainder chain applied to `ptr + 16384`. Both are read off the fold by unfolding it.
-/
import proofs.«216569_g74620761801077_fold_wed_m_520_16_alg».proof.Proof.RefOps
import proofs.«216569_g74620761801077_fold_wed_m_520_16_alg».proof.Proof.Spec

noncomputable section

namespace Cert.Proof.RefTerms

open Cert.ReferenceIdeal Cert.ReferenceIdeal.Gen Idealize.ShloMosaic Idealize.ShloMosaic.TcCoe Idealize.SL.Sem
  Idealize.ShloMosaic.StableHlo Cert.Proof.RefOps

variable {F : FTy → Type} [FloatOps F]

/-- The row each of the 16384 updates is written at, from the pointer word. -/
def rows (ptr : IVec S_ 32) : IVec S16384 32 :=
  let v2 : IVec S16384 32 := addi (broadcastInDim S16384 ![] bcast_S_S16384 ptr) (iotaInDim S16384 32 0)
  let n : IVec S_ 32 := constantI S_ 32 98304#32
  let z : IVec S_ 32 := constantI S_ 32 0#32
  let d : IVec S_ 32 := select (cmpi .eq n z) (constantI S_ 32 1#32) n
  let dv : IVec S16384 32 := broadcastInDim S16384 ![] bcast_S_S16384 d
  let zv : IVec S16384 32 := broadcastInDim S16384 ![] bcast_S_S16384 z
  let r : IVec S16384 32 := Host.remsi v2 dv
  let fix : IVec S16384 1 :=
    andi (cmpi .ne (cmpi .slt r zv) (broadcastInDim S16384 ![] bcast_S_S16384 (cmpi .slt d z))) (cmpi .ne r zv)
  let v3 : IVec S16384 32 := select fix (addi r dv) r
  select (cmpi .slt v3 zv) (addi v3 (broadcastInDim S16384 ![] bcast_S_S16384 n)) v3

/-- The new buffer: the batch's rows written into the buffer at `rows ptr`. -/
def newBuffer (batch : FVec F S16384x256 .f32) (buffer : FVec F S98304x256 .f32) (ptr : IVec S_ 32) :
    FVec F S98304x256 .f32 :=
  Host.scatter scatter_S98304x256_S16384x1_S16384x256_1_0_0_1 (fun _ b => b) buffer
    (broadcastInDim S16384x1 ![0] bcast_S16384_S16384x1_0 (rows ptr)) batch

attribute [local irreducible] Host.scatter in
set_option maxRecDepth 8192 in
set_option maxHeartbeats 400000 in
/-- The fold at the new buffer's reference is `newBuffer` of the arguments' contents. -/
theorem v10_eq (V : Valuation τ sig (Elt F)) :
    after ops V (main_v10 : DevRef τ sig)
      = newBuffer (V (main_arg0 : DevRef τ sig)) (V (main_arg1 : DevRef τ sig)) (V (main_arg2 : DevRef τ sig)) := by
  after_results_simp
  rfl

set_option maxRecDepth 8192 in
set_option maxHeartbeats 400000 in
/-- The fold at the new pointer's reference is the specification's next pointer. -/
theorem v12_eq (V : Valuation τ sig (Elt F)) :
    after ops V (main_v12 : DevRef τ sig) = Cert.Spec.nextPtr (V (main_arg2 : DevRef τ sig)) := by
  after_results_simp
  simp only [TRef.toBuf, TRef.ofBuf, cast_eq, id]
  rfl

set_option maxRecDepth 8192 in
theorem arg0_eq (V : Valuation τ sig (Elt F)) :
    after ops V (main_arg0 : DevRef τ sig) = V (main_arg0 : DevRef τ sig) := by
  simp only [after_cons, after_nil]
  rfl

set_option maxRecDepth 8192 in
theorem arg1_eq (V : Valuation τ sig (Elt F)) :
    after ops V (main_arg1 : DevRef τ sig) = V (main_arg1 : DevRef τ sig) := by
  simp only [after_cons, after_nil]
  rfl

set_option maxRecDepth 8192 in
theorem arg2_eq (V : Valuation τ sig (Elt F)) :
    after ops V (main_arg2 : DevRef τ sig) = V (main_arg2 : DevRef τ sig) := by
  simp only [after_cons, after_nil]
  rfl

end Cert.Proof.RefTerms

end
-- ==== Proof.RefWords.lean ====
/-
  The remainder chain on one 32-bit word, at a word below 16384.

  jnp's remainder of `x` by 98304 is the truncated remainder (1 in place of a zero divisor), moved by
  one divisor when it is non-zero and its sign differs from the divisor's; the reference then adds
  98304 once more when the result is still negative. For `0 ≤ x < 16384` none of the corrections
  fires and the truncated remainder is `x` itself, so the chain returns `x`.
-/
import Idealize.ShloMosaic.PureOps
import Idealize.ShloMosaic.Lib.Affine
import Idealize.ShloMosaic.Lib.ValueIdx

namespace Cert.Proof.RefWords

open Idealize.ShloMosaic

/-- The chain at one element. -/
def wrap (x : BitVec 32) : BitVec 32 :=
  let d : BitVec 32 := Scalar.select (IntOp.cmpi .eq 98304#32 0#32) 1#32 98304#32
  let r : BitVec 32 := IntOp.remsi .host x d
  let fix : BitVec 1 :=
    IntOp.andi (IntOp.cmpi .ne (IntOp.cmpi .slt r 0#32) (IntOp.cmpi .slt d 0#32)) (IntOp.cmpi .ne r 0#32)
  let v : BitVec 32 := Scalar.select fix (IntOp.addi r d) r
  Scalar.select (IntOp.cmpi .slt v 0#32) (IntOp.addi v 98304#32) v

/-- The divisor is 98304: it is not zero. -/
theorem divisor_eq : Scalar.select (IntOp.cmpi .eq 98304#32 0#32) 1#32 98304#32 = 98304#32 := by decide

/-- The truncated remainder of a word below 98304 by 98304 is the word. -/
theorem remsi_small (x : BitVec 32) (h : x.toNat < 98304) : IntOp.remsi .host x 98304#32 = x := by
  show (if IntOp.SDivCorner x 98304#32 then IntOp.cornerWord .host .remsi x 98304#32 else x.srem 98304#32) = x
  have hc : ¬ IntOp.SDivCorner x 98304#32 := by
    rintro (h0 | ⟨_, h1⟩)
    · exact absurd h0 (by decide)
    · exact absurd h1 (by decide)
  rw [if_neg hc, BitVec.srem_eq]
  have hx : x.msb = false := BitVec.msb_eq_false_iff_two_mul_lt.2 (by omega)
  have hy : (98304#32 : BitVec 32).msb = false := by decide
  rw [hx, hy]
  exact BitVec.umod_eq_of_lt (by rw [BitVec.lt_def]; exact h)

/-- A word below 2³¹ is not negative. -/
theorem slt_zero_small (x : BitVec 32) (h : x.toNat < 98304) : IntOp.cmpi .slt x 0#32 = 0#1 := by
  refine ValueIdx.eq_zero_of_ne_one fun e => ?_
  have := IntOp.cmpi_slt.1 e
  rw [BitVec.toInt_eq_toNat_of_lt (by omega)] at this
  have h0 : (0#32 : BitVec 32).toInt = 0 := by decide
  omega

theorem andi_zero_left (b : BitVec 1) : IntOp.andi 0#1 b = 0#1 := by revert b; decide

/-- Below 16384 the chain is the identity. -/
theorem wrap_small (x : BitVec 32) (h : x.toNat < 16384) : wrap x = x := by
  unfold wrap
  simp only [divisor_eq, remsi_small x (by omega), slt_zero_small x (by omega)]
  have h1 : IntOp.cmpi .slt 98304#32 0#32 = 0#1 := by decide
  have h2 : IntOp.cmpi .ne 0#1 0#1 = 0#1 := by decide
  simp only [h1, h2, andi_zero_left, ValueIdx.select_zero, slt_zero_small x (by omega)]

/-- The word of a natural below 16384 is below 16384. -/
theorem toNat_ofNat_small (u : Nat) (h : u < 16384) : (BitVec.ofNat 32 u).toNat = u := by
  rw [BitVec.toNat_ofNat]; exact Nat.mod_eq_of_lt (by omega)

/-- Read signed, it is the natural itself. -/
theorem toInt_ofNat_small (u : Nat) (h : u < 16384) : (BitVec.ofNat 32 u).toInt = (u : Int) := by
  rw [BitVec.toInt_eq_toNat_of_lt (by rw [toNat_ofNat_small u h]; omega), toNat_ofNat_small u h]

end Cert.Proof.RefWords
-- ==== Proof.LibScatterSet.lean ====
/-
  A scatter whose body returns the update (`x.at[idx].set(v)`), read at one element of the result.

  `Host.scatter d f x idx upd` is the left fold, over the update indices in row-major order, of
  "replace the element at the update's result index by `f old new`, or drop the update when that index is outside".
  Two facts about one element `i` of the result:
    * no update lands on `i`             → the element is the operand's (for any body `f`);
    * exactly one update `j₀` lands on `i` → with the body "return the update", the element is `upd j₀`.
  Both are inductions over the list of update positions; the second uses that the list has no repetition.
-/
import Idealize.ShloMosaic.PureOps

namespace Cert.ScatterSet

open Idealize.ShloMosaic

section Fold

variable {ι α β : Type} [DecidableEq ι]

/-- One step of the fold: update `n` replaces the element at `g n`, or is dropped. -/
def step (g : β → Option ι) (f : α → α → α) (v : β → α) (r : ι → α) (n : β) : ι → α :=
  match g n with
  | some k => fun i' => if i' = k then f (r k) (v n) else r i'
  | none => r

theorem step_of_ne (g : β → Option ι) (f : α → α → α) (v : β → α) (r : ι → α) (n : β) (i : ι)
    (h : g n ≠ some i) : step g f v r n i = r i := by
  unfold step
  cases hg : g n with
  | none => rfl
  | some k =>
    have hk : i ≠ k := fun e => h (by rw [hg, e])
    simp only [if_neg hk]

theorem step_set_of_eq (g : β → Option ι) (v : β → α) (r : ι → α) (n : β) (i : ι)
    (h : g n = some i) : step g (fun _ b => b) v r n i = v n := by
  unfold step
  rw [h]
  simp only [if_true]

/-- No update of the list lands on `i`: the element is the starting one. -/
theorem foldl_of_miss (g : β → Option ι) (f : α → α → α) (v : β → α) (l : List β) (x : ι → α) (i : ι)
    (h : ∀ n ∈ l, g n ≠ some i) : l.foldl (step g f v) x i = x i := by
  induction l generalizing x with
  | nil => rfl
  | cons a t ih =>
    rw [List.foldl_cons, ih _ (fun n hn => h n (List.mem_cons_of_mem _ hn)),
      step_of_ne g f v x a i (h a List.mem_cons_self)]

/-- Exactly one update `n₀` of a repetition-free list lands on `i`: the element is that update. -/
theorem foldl_set_of_unique (g : β → Option ι) (v : β → α) (l : List β) (hl : l.Nodup) (x : ι → α) (i : ι) (n₀ : β)
    (hn₀ : n₀ ∈ l) (hg : g n₀ = some i) (huniq : ∀ n ∈ l, g n = some i → n = n₀) :
    l.foldl (step g (fun _ b => b) v) x i = v n₀ := by
  induction l generalizing x with
  | nil => exact absurd hn₀ List.not_mem_nil
  | cons a t ih =>
    rw [List.foldl_cons]
    have hnd := List.nodup_cons.1 hl
    by_cases ha : a = n₀
    · subst ha
      rw [foldl_of_miss g _ v t _ i (fun n hn e => hnd.1 (by
        have := huniq n (List.mem_cons_of_mem _ hn) e; rw [← this]; exact hn))]
      exact step_set_of_eq g v x a i hg
    · have hmem : n₀ ∈ t := by
        rcases List.mem_cons.1 hn₀ with e | e
        · exact absurd e.symm ha
        · exact e
      exact ih hnd.2 _ hmem (fun n hn e => huniq n (List.mem_cons_of_mem _ hn) e)

end Fold

section Scatter

variable {α : Type} {s si u : Shape} {w : Nat}

/-- The scatter is the fold of `step` over the update positions. -/
theorem scatter_eq_foldl (d : ScatterDims s si u) (f : α → α → α) (x : s.Idx → α) (idx : IVec si w) (upd : u.Idx → α) :
    Host.scatter d f x idx upd
      = (List.finRange u.numel).foldl
          (step (fun n => d.resultIdx? (u.rowMajor.symm n) idx) f (fun n => upd (u.rowMajor.symm n))) x := by
  unfold Host.scatter
  refine congrArg (fun F => List.foldl F x (List.finRange u.numel)) ?_
  funext r n
  unfold step
  dsimp only
  cases d.resultIdx? (u.rowMajor.symm n) idx <;> rfl

/-- An element no update lands on keeps the operand's value. -/
theorem scatter_of_miss (d : ScatterDims s si u) (f : α → α → α) (x : s.Idx → α) (idx : IVec si w) (upd : u.Idx → α)
    (i : s.Idx) (h : ∀ j : u.Idx, d.resultIdx? j idx ≠ some i) : Host.scatter d f x idx upd i = x i := by
  rw [scatter_eq_foldl]
  exact foldl_of_miss _ f _ _ x i (fun n _ => h _)

/-- An element exactly one update `j₀` lands on holds that update, when the body returns the update. -/
theorem scatter_set_of_unique (d : ScatterDims s si u) (x : s.Idx → α) (idx : IVec si w) (upd : u.Idx → α)
    (i : s.Idx) (j₀ : u.Idx) (hj₀ : d.resultIdx? j₀ idx = some i)
    (huniq : ∀ j : u.Idx, d.resultIdx? j idx = some i → j = j₀) :
    Host.scatter d (fun _ b => b) x idx upd i = upd j₀ := by
  rw [scatter_eq_foldl]
  have := foldl_set_of_unique (fun n => d.resultIdx? (u.rowMajor.symm n) idx) (fun n => upd (u.rowMajor.symm n))
    (List.finRange u.numel) (List.nodup_finRange _) x i (u.rowMajor j₀) (List.mem_finRange _)
    (by simp only [Equiv.symm_apply_apply]; exact hj₀)
    (fun n _ e => by
      have := huniq _ e
      rw [← this, Equiv.apply_symm_apply])
  rw [this, Equiv.symm_apply_apply]

/-- An update lands on `i` exactly when, on every axis, its start plus its window coordinate is `i`'s coordinate
    (the in-bounds test is then `i`'s own bound). -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro e a
      have e' := Option.some.inj e
      have hv := congrArg Fin.val (congrFun e' a)
      have h0 := (h a).1
      simp only at hv
      omega
    · intro e
      refine congrArg some (funext fun a => Fin.ext ?_)
      show (d.start j idx a + (d.window j a : Int)).toNat = (i a).val
      have := e a
      omega
  · rename_i h
    constructor
    · intro e
      exact absurd e (by simp)
    · intro e
      exfalso
      apply h
      intro a
      have := e a
      have := (i a).isLt
      omega

end Scatter

end Cert.ScatterSet
-- ==== Proof.RefScatter.lean ====
/-
  The scatter of the reference, read at one entry of the new buffer.

  The scatter indices are a column of 16384 words, one per row of the batch; update `(u, x)` starts
  at row `idx u` of the buffer and its window coordinate is `x` on the second axis. When the
  column holds the row numbers themselves (`idx u = u`), update `(u, x)` lands on entry `(u, x)`
  of the buffer and on no other: an entry in a row below 16384 receives exactly one update, the
  batch's entry of the same coordinates, and an entry in a later row receives none.
-/
import proofs.«216569_g74620761801077_fold_wed_m_520_16_alg».proof.Proof.Gen.ReferenceIdeal
import proofs.«216569_g74620761801077_fold_wed_m_520_16_alg».proof.Proof.LibScatterSet
import proofs.«216569_g74620761801077_fold_wed_m_520_16_alg».proof.Proof.RefWords
import proofs.«216569_g74620761801077_fold_wed_m_520_16_alg».proof.Proof.Spec
import Idealize.ShloMosaic.Lib.ValueIdx

noncomputable section

namespace Cert.Proof.RefScatter

open Cert.ReferenceIdeal Cert.ReferenceIdeal.Gen Idealize.ShloMosaic Idealize.ShloMosaic.ValueIdx

/-- The scatter's dimension numbers: the update's second axis is the window, the buffer's first
    axis is the scattered one, the index column's second axis holds the (one-component) index. -/
abbrev dims : ScatterDims S98304x256 S16384x1 S16384x256 := scatter_S98304x256_S16384x1_S16384x256_1_0_0_1

/-- The start row of update `j`: the index column's word at the update's row, read signed. -/
theorem start0 (j : S16384x256.Idx) (idx : IVec S16384x1 32) :
    dims.start j idx 0 = (idx (ix2 (j 0) (0 : Fin 1))).toInt := by
  show (idx (dims.siIdx j ⟨0, by decide⟩)).toInt = _
  refine congrArg (fun k => (idx k).toInt) (funext fun b => ?_)
  match b with
  | ⟨0, _⟩ => rfl
  | ⟨1, _⟩ => rfl

/-- The start on the second axis is 0, the window coordinate is 0 on the first axis and the
    update's column on the second. -/
theorem start1 (j : S16384x256.Idx) (idx : IVec S16384x1 32) : dims.start j idx 1 = 0 := rfl
theorem window0 (j : S16384x256.Idx) : dims.window j 0 = 0 := rfl
theorem window1 (j : S16384x256.Idx) : dims.window j 1 = (j 1).val := rfl

/-- With the row numbers in the index column, update `j` lands on entry `i` exactly when the two
    have the same coordinates. -/
theorem lands_iff (idx : IVec S16384x1 32)
    (hidx : ∀ u : Fin 16384, idx (ix2 u (0 : Fin 1)) = BitVec.ofNat 32 u.val)
    (j : S16384x256.Idx) (i : S98304x256.Idx) :
    dims.resultIdx? j idx = some i ↔ (j 0).val = (i 0).val ∧ (j 1).val = (i 1).val := by
  rw [Cert.ScatterSet.resultIdx?_eq_some_iff]
  have h0 : dims.start j idx 0 = ((j 0).val : Int) :=
    (start0 j idx).trans ((congrArg BitVec.toInt (hidx (j 0))).trans (RefWords.toInt_ofNat_small _ (idx2_lt0 j)))
  constructor
  · intro h
    have e0 := h 0
    have e1 := h 1
    rw [h0, window0] at e0
    rw [start1, window1] at e1
    constructor <;> omega
  · rintro ⟨a, b⟩ k
    match k with
    | ⟨0, _⟩ =>
      show dims.start j idx 0 + (dims.window j 0 : Int) = ((i 0).val : Int)
      rw [h0, window0]; omega
    | ⟨1, _⟩ =>
      show dims.start j idx 1 + (dims.window j 1 : Int) = ((i 1).val : Int)
      rw [start1, window1]; omega

variable {α : Type}

/-- An entry in a row below 16384 holds the batch's entry of the same coordinates. -/
theorem scatter_lt (buffer : S98304x256.Idx → α) (batch : S16384x256.Idx → α) (idx : IVec S16384x1 32)
    (hidx : ∀ u : Fin 16384, idx (ix2 u (0 : Fin 1)) = BitVec.ofNat 32 u.val)
    (j : S98304x256.Idx) (h : (j 0).val < 16384) :
    Host.scatter dims (fun _ b => b) buffer idx batch j = batch (Cert.Spec.batchIdx j h) := by
  refine Cert.ScatterSet.scatter_set_of_unique dims buffer idx batch j (Cert.Spec.batchIdx j h) ?_ ?_
  · rw [lands_iff idx hidx]; exact ⟨rfl, rfl⟩
  · intro j' hj'
    rw [lands_iff idx hidx] at hj'
    funext a
    match a with
    | ⟨0, _⟩ => exact Fin.ext hj'.1
    | ⟨1, _⟩ => exact Fin.ext hj'.2

/-- An entry in a row from 16384 on keeps the buffer's value: every update's row is below 16384. -/
theorem scatter_ge (buffer : S98304x256.Idx → α) (batch : S16384x256.Idx → α) (idx : IVec S16384x1 32)
    (hidx : ∀ u : Fin 16384, idx (ix2 u (0 : Fin 1)) = BitVec.ofNat 32 u.val)
    (j : S98304x256.Idx) (h : ¬ (j 0).val < 16384) :
    Host.scatter dims (fun _ b => b) buffer idx batch j = buffer j := by
  refine Cert.ScatterSet.scatter_of_miss dims _ buffer idx batch j fun j' e => ?_
  have h1 := ((lands_iff idx hidx j' j).1 e).1
  have h2 := idx2_lt0 j'
  omega

/-- So the scatter is the specification's routing of the batch into the buffer. -/
theorem scatter_eq_routed (buffer : S98304x256.Idx → α) (batch : S16384x256.Idx → α) (idx : IVec S16384x1 32)
    (hidx : ∀ u : Fin 16384, idx (ix2 u (0 : Fin 1)) = BitVec.ofNat 32 u.val) :
    Host.scatter dims (fun _ b => b) buffer idx batch = Cert.Spec.routed batch buffer := by
  funext j
  by_cases h : (j 0).val < 16384
  · rw [Cert.Spec.routed_lt batch buffer j h]; exact scatter_lt buffer batch idx hidx j h
  · rw [Cert.Spec.routed_ge batch buffer j h]; exact scatter_ge buffer batch idx hidx j h

/-- A column broadcast from a vector reads the vector at the row. -/
theorem column_apply (v : IVec S16384 32) (u : Fin 16384) :
    broadcastInDim S16384x1 ![0] bcast_S16384_S16384x1_0 v (ix2 u (0 : Fin 1)) = v (ix1 u) := by
  refine congrArg v (funext fun a => ?_)
  match a with
  | ⟨0, _⟩ => rfl

end Cert.Proof.RefScatter

end
-- ==== Proof.RefRun.lean ====
/-
  The reference's run under the precondition.

  The precondition pins the pointer word to 0 (it is both ≥ 0 and ≤ 0 read signed). The row the
  reference writes update `u` at is then the remainder chain applied to the word `u`, which is `u`
  itself for `u < 16384`; so the scatter overwrites rows 0 … 16383 of the buffer by the batch and
  leaves the others: the specification's `routed`. The new pointer is the specification's chain by
  unfolding, and the three arguments are written by no operation.
-/
import proofs.«216569_g74620761801077_fold_wed_m_520_16_alg».proof.Defs
import proofs.«216569_g74620761801077_fold_wed_m_520_16_alg».proof.Proof.Gen.ReferenceIdeal
import proofs.«216569_g74620761801077_fold_wed_m_520_16_alg».proof.Proof.Gen.Pre_input_domain
import proofs.«216569_g74620761801077_fold_wed_m_520_16_alg».proof.Proof.Spec
import proofs.«216569_g74620761801077_fold_wed_m_520_16_alg».proof.Proof.RefOps
import proofs.«216569_g74620761801077_fold_wed_m_520_16_alg».proof.Proof.RefTerms
import proofs.«216569_g74620761801077_fold_wed_m_520_16_alg».proof.Proof.RefWords
import proofs.«216569_g74620761801077_fold_wed_m_520_16_alg».proof.Proof.RefScatter
import Idealize.ShloMosaic.Lib.ReduceAll
import Idealize.ShloMosaic.Lib.ValueIdx

noncomputable section

namespace Cert.Proof.RefRun

open Cert.ReferenceIdeal Cert.ReferenceIdeal.Gen Idealize.ShloMosaic Idealize.ShloMosaic.TcCoe Idealize.SL.Sem
  Idealize.ShloMosaic.StableHlo Idealize.ShloMosaic.ValueIdx

/-- The precondition's last conjunct: the pointer word is 0. The predicate is a conjunction of three
    `all`s; the third is over the one-element array "0 ≤ ptr and ptr ≤ 0", both compared signed. -/
theorem ptr_zero {F : FTy → Type} [FloatOps F] (a0 : FVec F Cert.Pre_input_domain.S16384x256 .f32)
    (a1 : FVec F Cert.Pre_input_domain.S98304x256 .f32) (p : IVec Cert.Pre_input_domain.S_ 32)
    (h : Cert.Pre_input_domain.fn (F := F) a0 a1 p = fun _ => 1#1) : p ix0 = 0#32 := by
  haveI : Subsingleton Cert.Pre_input_domain.S_.Idx := ⟨fun a b => funext fun d => d.elim0⟩
  have h0 : IntOp.andi _ _ = 1#1 := congrFun h ix0
  have h12 := (IntOp.andi_eq_one.1 h0).2
  have h11 := Host.reduce_andi_all _ _ _ _ _ h12 ix0
  obtain ⟨hge, hle⟩ := IntOp.andi_eq_one.1 h11
  have hge' := IntOp.cmpi_sge.1 hge
  have hle' := IntOp.cmpi_sle.1 hle
  apply BitVec.eq_of_toInt_eq
  have hz : (0#32 : BitVec 32).toInt = 0 := by decide
  have hc : (constantI Cert.Pre_input_domain.S_ 32 0#32 ix0) = 0#32 := rfl
  rw [hc, hz] at hge' hle'
  rw [hz]
  omega

/-- Row `u` of the index vector is the one-word chain applied to `ptr + u` (every operation of the
    vector chain acts entry by entry, the scalars broadcast). -/
theorem rows_eq_wrap (ptr : IVec S_ 32) (u : Fin 16384) :
    ∃ k : S_.Idx, RefTerms.rows ptr (ix1 u) = RefWords.wrap (IntOp.addi (ptr k) (BitVec.ofNat 32 u.val)) :=
  ⟨_, rfl⟩

/-- At pointer 0, row `u` of the index vector is the word `u`. -/
theorem rows_apply (ptr : IVec S_ 32) (hp : ptr ix0 = 0#32) (u : Fin 16384) :
    RefTerms.rows ptr (ix1 u) = BitVec.ofNat 32 u.val := by
  obtain ⟨k, e⟩ := rows_eq_wrap ptr u
  rw [e, eq_ix0 k, hp]
  show RefWords.wrap (0#32 + BitVec.ofNat 32 u.val) = _
  rw [BitVec.zero_add]
  exact RefWords.wrap_small _ (by rw [RefWords.toNat_ofNat_small _ u.isLt]; exact u.isLt)

/-- At pointer 0 the new buffer is the batch routed into the buffer. -/
theorem newBuffer_eq_routed {F : FTy → Type} [FloatOps F] (batch : FVec F S16384x256 .f32)
    (buffer : FVec F S98304x256 .f32) (ptr : IVec S_ 32) (hp : ptr ix0 = 0#32) :
    RefTerms.newBuffer batch buffer ptr = Cert.Spec.routed batch buffer := by
  unfold RefTerms.newBuffer
  exact RefScatter.scatter_eq_routed buffer batch _
    (fun u => (RefScatter.column_apply _ u).trans (rows_apply ptr hp u))

/-- Under the precondition every weakly fair execution of the reference terminates; the new buffer
    is the batch routed into the buffer, the new pointer the specification's, and the arguments are
    unchanged. -/
theorem run (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
          r.2.mem ((c.tc : Thread Cert.ReferenceIdeal.nD Cert.ReferenceIdeal.τ).loc Cert.ReferenceIdeal.main_v10)
            = Cert.Spec.routed (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_v12)
            = Cert.Spec.nextPtr (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run defs _ _).mono (fun _ h c =>
      ⟨(h c main_v10).trans ((RefTerms.v10_eq (F := Ideal) (launchContents m c)).trans
          (newBuffer_eq_routed (F := Ideal) _ _ _ (ptr_zero (F := Ideal) _ _ _ (hpre c)))),
        (h c main_v12).trans (RefTerms.v12_eq (F := Ideal) (launchContents m c)),
        (h c main_arg0).trans (RefTerms.arg0_eq (F := Ideal) (launchContents m c)),
        (h c main_arg1).trans (RefTerms.arg1_eq (F := Ideal) (launchContents m c)),
        (h c main_arg2).trans (RefTerms.arg2_eq (F := Ideal) (launchContents m c))⟩)
    (RefOps.run_main (F := Ideal) m g)

end Cert.Proof.RefRun

end
-- ==== Proof.lean ====
/-
  The routed copy equals the reference's scatter at write pointer 0.

  The kernel copies rows: 32 workers, each moving its 3072 rows of the result in 24 chunks of 128
  through a ring of three scratch buffers — from the batch for rows below 16384, from the buffer for
  the rows from 16384 on —, and the next write pointer is computed from `ptr` alone. So the kernel's
  result array is `Spec.routed batch buffer` whatever `ptr` is. The reference scatters the batch's
  rows to rows `(ptr + u) mod 98304`; the precondition pins `ptr = 0`, where those are rows
  `0 … 16383` and the scatter is `Spec.routed batch buffer` too. Both programs compute the next
  pointer by the same chain of operations on the same word, `Spec.nextPtr ptr`. Floats are only
  moved, never computed with, so nothing depends on the float instance: the word-level kernel and its
  idealization are one proof read at two instances, and the idealization rewrote nothing.
-/
import proofs.«216569_g74620761801077_fold_wed_m_520_16_alg».proof.Defs
import proofs.«216569_g74620761801077_fold_wed_m_520_16_alg».proof.Proof.Gen.Kernel
import proofs.«216569_g74620761801077_fold_wed_m_520_16_alg».proof.Proof.Gen.Kernel.Skeleton
import proofs.«216569_g74620761801077_fold_wed_m_520_16_alg».proof.Proof.Gen.KernelIdeal
import proofs.«216569_g74620761801077_fold_wed_m_520_16_alg».proof.Proof.Gen.KernelIdeal.Skeleton
import proofs.«216569_g74620761801077_fold_wed_m_520_16_alg».proof.Proof.Gen.ReferenceIdeal
import proofs.«216569_g74620761801077_fold_wed_m_520_16_alg».proof.Proof.Gen.Pre_input_domain
import proofs.«216569_g74620761801077_fold_wed_m_520_16_alg».proof.Proof.Kernel.Main
import proofs.«216569_g74620761801077_fold_wed_m_520_16_alg».proof.Proof.KernelIdeal.Main
import proofs.«216569_g74620761801077_fold_wed_m_520_16_alg».proof.Proof.RefRun
import Idealize.ShloMosaic.Adequacy
import Idealize.ShloMosaic.Init

noncomputable section

namespace Cert.Proof

open Idealize.ShloMosaic Idealize.SL.Sem

/-- The word-level kernel runs to its end and leaves its three inputs as they were. -/
theorem frame_kernel : Cert.frame_Kernel := fun m g _ =>
  (θ_run (Cert.Kernel.defs (F := Bits)) _ _).mono (fun _ h c => ⟨(h c).2.2.1, (h c).2.2.2.1, (h c).2.2.2.2⟩)
    (Cert.Proof.Kernel.Run.run_main (F := Bits) m g)

/-- So does its idealization. -/
theorem frame_kernelIdeal : Cert.frame_KernelIdeal := fun m g _ =>
  (θ_run (Cert.KernelIdeal.defs (F := Ideal)) _ _).mono (fun _ h c => ⟨(h c).2.2.1, (h c).2.2.2.1, (h c).2.2.2.2⟩)
    (Cert.Proof.KernelIdeal.Run.run_main (F := Ideal) m g)

/-- And the reference, whose run needs the precondition only for its value. -/
theorem frame_reference : Cert.frame_ReferenceIdeal := fun m g hpre =>
  (θ_run (Cert.ReferenceIdeal.defs (F := Ideal)) _ _).mono (fun _ h c => ⟨(h c).2.2.1, (h c).2.2.2.1, (h c).2.2.2.2⟩)
    (Cert.Proof.RefRun.run m g hpre)

/-- From memories agreeing on the inputs both programs end with the routed rows and the next pointer. -/
theorem algebraic : Cert.algebraic_KernelIdeal_ReferenceIdeal := by
  intro m g m' g' hpre hagree
  refine ⟨fun c => Cert.Proof.KernelIdeal.Run.R m c,
    fun c => Cert.Spec.nextPtr (m ((c.tc : Thread Cert.KernelIdeal.nD Cert.KernelIdeal.τ).loc Cert.KernelIdeal.main_arg2)), ?_, ?_⟩
  · exact (θ_run (Cert.KernelIdeal.defs (F := Ideal)) _ _).mono (fun _ h c => h c) (Cert.Proof.KernelIdeal.Run.run_main (F := Ideal) m g)
  · have hpre' : Cert.Pre_ReferenceIdeal m' := by
      intro c
      show Cert.Pre_input_domain.fn (F := Ideal) _ _ _ = _
      rw [(hagree c).1, (hagree c).2.1, (hagree c).2.2]
      exact hpre c
    refine (θ_run (Cert.ReferenceIdeal.defs (F := Ideal)) _ _).mono (fun _ h c => ?_) (Cert.Proof.RefRun.run m' g' hpre')
    obtain ⟨h1, h2, h3, h4, h5⟩ := h c
    refine ⟨?_, ?_, h3, h4, h5⟩
    · rw [h1, (hagree c).1, (hagree c).2.1]; rfl
    · rw [h2, (hagree c).2.2]

theorem claim : Cert.Claim :=
  ⟨Cert.Kernel.Gen.facts, Cert.KernelIdeal.Gen.facts, Cert.ReferenceIdeal.Gen.facts, Cert.Pre_input_domain.Gen.facts,
    frame_kernel, frame_kernelIdeal, frame_reference, trivial, algebraic⟩

end Cert.Proof

end
